-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x3 : Shape := ⟨2, ![25000, 3]⟩
abbrev S25000x6 : Shape := ⟨2, ![25000, 6]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S128x1 : Shape := ⟨2, ![128, 1]⟩
abbrev S1 : Shape := ⟨1, ![1]⟩
abbrev S_ : Shape := ⟨0, ![]⟩

class Facts : Prop where
  bcast_S_S25000x3 : S_.BroadcastsInDim S25000x3 (![] : Fin 0 → Fin S25000x3.rank)
  reducesTo_S25000x3_S_d0_1 : S25000x3.ReducesTo [0, 1] S_
  h_S_ : 0 < S_.numel
  bcast_S_S25000x6 : S_.BroadcastsInDim S25000x6 (![] : Fin 0 → Fin S25000x6.rank)
  reducesTo_S25000x6_S_d0_1 : S25000x6.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S6x128 : S_.BroadcastsInDim S6x128 (![] : Fin 0 → Fin S6x128.rank)
  reducesTo_S6x128_S_d0_1 : S6x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S128x1 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S128x1 .f32 := Host.absf main_arg27
  let main_cst_48 : FVec F S_ .f32 := constant S_ .f32 0x7F800000#32
  let main_v125 : FVec F S128x1 .f32 := broadcastInDim S128x1 ![] bcast_S_S128x1 main_cst_48
  let main_v126 : IVec S128x1 1 := cmpf .olt main_v124 main_v125
  let main_c_49 : IVec S_ 1 := constantI S_ 1 1#1
  let main_v127 : IVec S_ 1 := (fun x v => Host.reduce IntOp.andi x v reducesTo_S128x1_S_d0_1 h_S_) main_v126 main_c_49
  let main_v128 : IVec S_ 1 := andi main_v123 main_v127
  main_v128

def fn_part6 {F : FTy → Type} [FloatOps F] (main_arg23 : FVec F S3x128 .f32) (main_arg24 : FVec F S3x128x128 .f32) (main_arg25 : FVec F S128x1 .f32) (main_arg26 : FVec F S1 .f32) (main_arg27 : FVec F S128x1 .f32) (main_v98 : IVec S_ 1) (main_v101 : IVec S3x128x128 1) (main_c_39 : IVec S_ 1) : IVec S_ 1 :=
  let main_v102 : IVec S_ 1 := (fun x v => Host.reduce IntOp.andi x v reducesTo_S3x128x128_S_d0_1_2 h_S_) main_v101 main_c_39
  let main_v103 : IVec S_ 1 := andi main_v98 main_v102
  let main_v104 : FVec F S3x128 .f32 := Host.absf main_arg23
  let main_cst_40 : FVec F S_ .f32 := constant S_ .f32 0x7F800000#32
  let main_v105 : FVec F S3x128 .f32 := broadcastInDim S3x128 ![] bcast_S_S3x128 main_cst_40
  let main_v106 : IVec S3x128 1 := cmpf .olt main_v104 main_v105
  let main_c_41 : IVec S_ 1 := constantI S_ 1 1#1
  let main_v107 : IVec S_ 1 := (fun x v => Host.reduce IntOp.andi x v reducesTo_S3x128_S_d0_1 h_S_) main_v106 main_c_41
  let main_v108 : IVec S_ 1 := andi main_v103 main_v107
  let main_v109 : FVec F S3x128x128 .f32 := Host.absf main_arg24
  let main_cst_42 : FVec F S_ .f32 := constant S_ .f32 0x7F800000#32
  let main_v110 : FVec F S3x128x128 .f32 := broadcastInDim S3x128x128 ![] bcast_S_S3x128x128 main_cst_42
  let main_v111 : IVec S3x128x128 1 := cmpf .olt main_v109 main_v110
  let main_c_43 : IVec S_ 1 := constantI S_ 1 1#1
  let main_v112 : IVec S_ 1 := (fun x v => Host.reduce IntOp.andi x v reducesTo_S3x128x128_S_d0_1_2 h_S_) main_v111 main_c_43
  let main_v113 : IVec S_ 1 := andi main_v108 main_v112
  let main_v114 : FVec F S128x1 .f32 := Host.absf main_arg25
  let main_cst_44 : FVec F S_ .f32 := constant S_ .f32 0x7F800000#32
  let main_v115 : FVec F S128x1 .f32 := broadcastInDim S128x1 ![] bcast_S_S128x1 main_cst_44
  let main_v116 : IVec S128x1 1 := cmpf .olt main_v114 main_v115
  let main_c_45 : IVec S_ 1 := constantI S_ 1 1#1
  let main_v117 : IVec S_ 1 := (fun x v => Host.reduce IntOp.andi x v reducesTo_S128x1_S_d0_1 h_S_) main_v116 main_c_45
  let main_v118 : IVec S_ 1 := andi main_v113 main_v117
  let main_v119 : FVec F S1 .f32 := Host.absf main_arg26
  fn_part7 (F := F) main_arg27 main_v118 main_v119

def fn_part5 {F : FTy → Type} [FloatOps F] (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S3x128x128 .f32 := Host.absf main_arg22
  let main_cst_38 : FVec F S_ .f32 := constant S_ .f32 0x7F800000#32
  let main_v100 : FVec F S3x128x128 .f32 := broadcastInDim S3x128x128 ![] bcast_S_S3x128x128 main_cst_38
  let main_v101 : IVec S3x128x128 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S128x128 .f32) (main_arg17 : FVec F S128 .f32) (main_arg18 : FVec F S6x128 .f32) (main_arg19 : FVec F S128 .f32) (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S6x128 .f32 := Host.absf main_arg18
  let main_cst_30 : FVec F S_ .f32 := constant S_ .f32 0x7F800000#32
  let main_v80 : FVec F S6x128 .f32 := broadcastInDim S6x128 ![] bcast_S_S6x128 main_cst_30
  let main_v81 : IVec S6x128 1 := cmpf .olt main_v79 main_v80
  let main_c_31 : IVec S_ 1 := constantI S_ 1 1#1
  let main_v82 : IVec S_ 1 := (fun x v => Host.reduce IntOp.andi x v reducesTo_S6x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S128 .f32) (main_arg14 : FVec F S6x128 .f32) (main_arg15 : FVec F S128 .f32) (main_arg16 : FVec F S128x128 .f32) (main_arg17 : FVec F S128 .f32) (main_arg18 : FVec F S6x128 .f32) (main_arg19 : FVec F S128 .f32) (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S6x128 .f32 := Host.absf main_arg14
  let main_cst_22 : FVec F S_ .f32 := constant S_ .f32 0x7F800000#32
  let main_v60 : FVec F S6x128 .f32 := broadcastInDim S6x128 ![] bcast_S_S6x128 main_cst_22
  let main_v61 : IVec S6x128 1 := cmpf .olt main_v59 main_v60
  let main_c_23 : IVec S_ 1 := constantI S_ 1 1#1
  let main_v62 : IVec S_ 1 := (fun x v => Host.reduce IntOp.andi x v reducesTo_S6x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S128 .f32) (main_arg10 : FVec F S3x128 .f32) (main_arg11 : FVec F S128 .f32) (main_arg12 : FVec F S128x128 .f32) (main_arg13 : FVec F S128 .f32) (main_arg14 : FVec F S6x128 .f32) (main_arg15 : FVec F S128 .f32) (main_arg16 : FVec F S128x128 .f32) (main_arg17 : FVec F S128 .f32) (main_arg18 : FVec F S6x128 .f32) (main_arg19 : FVec F S128 .f32) (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S3x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S6x128 .f32) (main_arg15 : FVec F S128 .f32) (main_arg16 : FVec F S128x128 .f32) (main_arg17 : FVec F S128 .f32) (main_arg18 : FVec F S6x128 .f32) (main_arg19 : FVec F S128 .f32) (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) (main_v13 : IVec S_ 1) (main_v16 : IVec S25000x6 1) : IVec S_ 1 :=
  let main_c_5 : IVec S_ 1 := constantI S_ 1 1#1
  let main_v17 : IVec S_ 1 := (fun x v => Host.reduce IntOp.andi x v reducesTo_S25000x6_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S25000x3 .f32) (main_arg1 : FVec F S25000x3 .f32) (main_arg2 : FVec F S25000x6 .f32) (main_arg3 : FVec F S25000x6 .f32) (main_arg4 : IVec S2x1600000 32) (main_arg5 : IVec S100000 32) (main_arg6 : FVec F S3x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S6x128 .f32) (main_arg15 : FVec F S128 .f32) (main_arg16 : FVec F S128x128 .f32) (main_arg17 : FVec F S128 .f32) (main_arg18 : FVec F S6x128 .f32) (main_arg19 : FVec F S128 .f32) (main_arg20 : FVec F S128x128 .f32) (main_arg21 : FVec F S128 .f32) (main_arg22 : FVec F S3x128x128 .f32) (main_arg23 : FVec F S3x128 .f32) (main_arg24 : FVec F S3x128x128 .f32) (main_arg25 : FVec F S128x1 .f32) (main_arg26 : FVec F S1 .f32) (main_arg27 : FVec F S128x1 .f32) : IVec S_ 1 :=
  let main_v0 : FVec F S25000x3 .f32 := Host.absf main_arg0
  let main_cst : FVec F S_ .f32 := constant S_ .f32 0x7F800000#32
  let main_v1 : FVec F S25000x3 .f32 := broadcastInDim S25000x3 ![] bcast_S_S25000x3 main_cst
  let main_v2 : IVec S25000x3 1 := cmpf .olt main_v0 main_v1
  let main_c : IVec S_ 1 := constantI S_ 1 1#1
  let main_v3 : IVec S_ 1 := (fun x v => Host.reduce IntOp.andi x v reducesTo_S25000x3_S_d0_1 h_S_) main_v2 main_c
  let main_v4 : FVec F S25000x3 .f32 := Host.absf main_arg1
  let main_cst_0 : FVec F S_ .f32 := constant S_ .f32 0x7F800000#32
  let main_v5 : FVec F S25000x3 .f32 := broadcastInDim S25000x3 ![] bcast_S_S25000x3 main_cst_0
  let main_v6 : IVec S25000x3 1 := cmpf .olt main_v4 main_v5
  let main_c_1 : IVec S_ 1 := constantI S_ 1 1#1
  let main_v7 : IVec S_ 1 := (fun x v => Host.reduce IntOp.andi x v reducesTo_S25000x3_S_d0_1 h_S_) main_v6 main_c_1
  let main_v8 : IVec S_ 1 := andi main_v3 main_v7
  let main_v9 : FVec F S25000x6 .f32 := Host.absf main_arg2
  let main_cst_2 : FVec F S_ .f32 := constant S_ .f32 0x7F800000#32
  let main_v10 : FVec F S25000x6 .f32 := broadcastInDim S25000x6 ![] bcast_S_S25000x6 main_cst_2
  let main_v11 : IVec S25000x6 1 := cmpf .olt main_v9 main_v10
  let main_c_3 : IVec S_ 1 := constantI S_ 1 1#1
  let main_v12 : IVec S_ 1 := (fun x v => Host.reduce IntOp.andi x v reducesTo_S25000x6_S_d0_1 h_S_) main_v11 main_c_3
  let main_v13 : IVec S_ 1 := andi main_v8 main_v12
  let main_v14 : FVec F S25000x6 .f32 := Host.absf main_arg3
  let main_cst_4 : FVec F S_ .f32 := constant S_ .f32 0x7F800000#32
  let main_v15 : FVec F S25000x6 .f32 := broadcastInDim S25000x6 ![] bcast_S_S25000x6 main_cst_4
  let main_v16 : IVec S25000x6 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S25000x3 : Shape := ⟨2, ![25000, 3]⟩
abbrev S25000x6 : Shape := ⟨2, ![25000, 6]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S128x1 : Shape := ⟨2, ![128, 1]⟩
abbrev S1 : Shape := ⟨1, ![1]⟩
abbrev S1x128 : Shape := ⟨2, ![1, 128]⟩
abbrev S25000x128 : Shape := ⟨2, ![25000, 128]⟩
abbrev S5000x3 : Shape := ⟨2, ![5000, 3]⟩
abbrev S5000x128 : Shape := ⟨2, ![5000, 128]⟩
abbrev S5000x6 : Shape := ⟨2, ![5000, 6]⟩
abbrev S100000x128 : Shape := ⟨2, ![100000, 128]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩
abbrev S1x1 : Shape := ⟨2, ![1, 1]⟩
abbrev S5000x1 : Shape := ⟨2, ![5000, 1]⟩

abbrev nBuf : Space → Nat
  | .hbm => 153
  | .vmem => 68
  | .smem => 0
  | _ => 0

abbrev hbmTy0_0 (i : Nat) : BufTy := match i % 128 with
  | 0 => ⟨S25000x3, .f32⟩
  | 1 => ⟨S25000x3, .f32⟩
  | 2 => ⟨S25000x6, .f32⟩
  | 3 => ⟨S25000x6, .f32⟩
  | 4 => ⟨S2x1600000, .i32⟩
  | 5 => ⟨S100000, .i32⟩
  | 6 => ⟨S3x128, .f32⟩
  | 7 => ⟨S128, .f32⟩
  | 8 => ⟨S128x128, .f32⟩
  | 9 => ⟨S128, .f32⟩
  | 10 => ⟨S3x128, .f32⟩
  | 11 => ⟨S128, .f32⟩
  | 12 => ⟨S128x128, .f32⟩
  | 13 => ⟨S128, .f32⟩
  | 14 => ⟨S6x128, .f32⟩
  | 15 => ⟨S128, .f32⟩
  | 16 => ⟨S128x128, .f32⟩
  | 17 => ⟨S128, .f32⟩
  | 18 => ⟨S6x128, .f32⟩
  | 19 => ⟨S128, .f32⟩
  | 20 => ⟨S128x128, .f32⟩
  | 21 => ⟨S128, .f32⟩
  | 22 => ⟨S3x128x128, .f32⟩
  | 23 => ⟨S3x128, .f32⟩
  | 24 => ⟨S3x128x128, .f32⟩
  | 25 => ⟨S128x1, .f32⟩
  | 26 => ⟨S1, .f32⟩
  | 27 => ⟨S128x1, .f32⟩
  | 28 => ⟨S1x128, .f32⟩
  | 29 => ⟨S1x128, .f32⟩
  | 30 => ⟨S25000x128, .f32⟩
  | 31 => ⟨S1x128, .f32⟩
  | 32 => ⟨S1x128, .f32⟩
  | 33 => ⟨S25000x128, .f32⟩
  | 34 => ⟨S1x128, .f32⟩
  | 35 => ⟨S1x128, .f32⟩
  | 36 => ⟨S25000x128, .f32⟩
  | 37 => ⟨S1x128, .f32⟩
  | 38 => ⟨S1x128, .f32⟩
  | 39 => ⟨S25000x128, .f32⟩
  | 40 => ⟨S100000x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S1x1600000, .i32⟩
  | 51 => ⟨S1600000, .i32⟩
  | 52 => ⟨S1x1600000, .i32⟩
  | 53 => ⟨S1600000, .i32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S_, .f32⟩
  | 64 => ⟨S100000, .f32⟩
  | 65 => ⟨S100000, .f32⟩
  | 66 => ⟨S100000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S100000x128, .f32⟩
  | 82 => ⟨S1x128x128, .f32⟩
  | 83 => ⟨S128x128, .f32⟩
  | 84 => ⟨S1x128, .f32⟩
  | 85 => ⟨S128, .f32⟩
  | 86 => ⟨S1x128x128, .f32⟩
  | 87 => ⟨S128x128, .f32⟩
  | 88 => ⟨S1x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S25000x3, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S100000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S100000x128, .f32⟩
  | 22 => ⟨S100000x128, .f32⟩
  | 23 => ⟨S1x1, .f32⟩
  | 24 => ⟨S100000x1, .f32⟩
  | _ => ⟨S25000x3, .f32⟩

abbrev hbmTy (i : Nat) : BufTy := match i / 128 with
  | 0 => hbmTy0_0 i
  | 1 => hbmTy0_1 i
  | _ => ⟨S25000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x3, .f32⟩
  | .local _ .vmem, ⟨9, _⟩ => ⟨S5000x3, .f32⟩
  | .local _ .vmem, ⟨10, _⟩ => ⟨S3x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x6, .f32⟩
  | .local _ .vmem, ⟨17, _⟩ => ⟨S5000x6, .f32⟩
  | .local _ .vmem, ⟨18, _⟩ => ⟨S6x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x6, .f32⟩
  | .local _ .vmem, ⟨25, _⟩ => ⟨S5000x6, .f32⟩
  | .local _ .vmem, ⟨26, _⟩ => ⟨S6x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S128x1, .f32⟩
  | .local _ .vmem, ⟨64, _⟩ => ⟨S1x1, .f32⟩
  | .local _ .vmem, ⟨65, _⟩ => ⟨S128x1, .f32⟩
  | .local _ .vmem, ⟨66, _⟩ => ⟨S5000x1, .f32⟩
  | .local _ .vmem, ⟨67, _⟩ => ⟨S5000x1, .f32⟩
  | _, _ => ⟨S25000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst : Ref sig .tc := ⟨.hbm, 54, rfl⟩
abbrev main_v24 : Ref sig .tc := ⟨.hbm, 55, rfl⟩
abbrev main_cst_1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_2 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_4 : Ref sig .tc := ⟨.hbm, 67, rfl⟩
abbrev main_v33 : Ref sig .tc := ⟨.hbm, 68, rfl⟩
abbrev main_v34 : Ref sig .tc := ⟨.hbm, 69, rfl⟩
abbrev main_c_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_7 : Ref sig .tc := ⟨.hbm, 90, rfl⟩
abbrev main_v53 : Ref sig .tc := ⟨.hbm, 91, rfl⟩
abbrev main_v54 : Ref sig .tc := ⟨.hbm, 92, rfl⟩
abbrev main_c_8 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_10 : Ref sig .tc := ⟨.hbm, 113, rfl⟩
abbrev main_v73 : Ref sig .tc := ⟨.hbm, 114, rfl⟩
abbrev main_v74 : Ref sig .tc := ⟨.hbm, 115, rfl⟩
abbrev main_c_11 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_13 : Ref sig .tc := ⟨.hbm, 136, rfl⟩
abbrev main_v93 : Ref sig .tc := ⟨.hbm, 137, rfl⟩
abbrev main_v94 : Ref sig .tc := ⟨.hbm, 138, rfl⟩
abbrev main_c_14 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_15 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S6x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  inb_S5000x6_S5000x6_0_0 : ∀ a, (![0, 0] : Fin 2 → Nat) a + S5000x6.size a ≤ S5000x6.size a
  h_S5000x6 : 0 < S5000x6.numel
  inb_S6x128_S6x128_0_0 : ∀ a, (![0, 0] : Fin 2 → Nat) a + S6x128.size a ≤ S6x128.size a
  h_S6x128 : 0 < S6x128.numel
  concatenates_S25000x128_S25000x128_S25000x128_S25000x128_S100000x128_d0 : Shape.Concatenates [S25000x128, S25000x128, S25000x128, S25000x128] S100000x128 0
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  dot_S5000x6_S6x128_S5000x128_1_0_0_1_n_n_wf : DotDims.WF S5000x6 S6x128 S5000x128 [1] [0] [0] [1] [] []
  gather_S100000x128_S100000x1_S100000x128_1_0_n_n_0_1_1128_wf : GatherDims.WF S100000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S25000x3.size a
  hwx0_0 : ∀ i : grid0.Coords, EltTy.bits .f32 = 32 ∨ (Rect.block (s := S25000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S25000x3.size a
  hwx1_0 : ∀ i : grid1.Coords, EltTy.bits .f32 = 32 ∨ (Rect.block (s := S25000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x6.size a ≤ S25000x6.size a
  hwx2_0 : ∀ i : grid2.Coords, EltTy.bits .f32 = 32 ∨ (Rect.block (s := S25000x6) S5000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x128.size a ≤ S6x128.size a
  hwx2_1 : ∀ i : grid2.Coords, EltTy.bits .f32 = 32 ∨ (Rect.block (s := S6x128) S6x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S25000x128.size a
  hwx2_5 : ∀ i : grid2.Coords, EltTy.bits .f32 = 32 ∨ (Rect.block (s := S25000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x6.size a ≤ S25000x6.size a
  hwx3_0 : ∀ i : grid3.Coords, EltTy.bits .f32 = 32 ∨ (Rect.block (s := S25000x6) S5000x6.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6x128.size a ≤ S6x128.size a
  hwx3_1 : ∀ i : grid3.Coords, EltTy.bits .f32 = 32 ∨ (Rect.block (s := S6x128) S6x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S25000x128.size a
  hwx3_5 : ∀ i : grid3.Coords, EltTy.bits .f32 = 32 ∨ (Rect.block (s := S25000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x1.size a ≤ S128x1.size a
  hwx7_2 : ∀ i : grid7.Coords, EltTy.bits .f32 = 32 ∨ (Rect.block (s := S128x1) S128x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x1.size a ≤ S128x1.size a
  hwx7_4 : ∀ i : grid7.Coords, EltTy.bits .f32 = 32 ∨ (Rect.block (s := S128x1) S128x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S100000x1.size a
  hwx7_5 : ∀ i : grid7.Coords, EltTy.bits .f32 = 32 ∨ (Rect.block (s := S100000x1) S5000x1.size (cc7_transform_5 i) (hinb7_5 i)).WholeWords (EltTy.packing .f32)

variable [Facts₀]

def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S5000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S6x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg3) S5000x6.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg18) S6x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg20) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v86) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v104) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg25) S128x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v105) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg27) S128x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v106) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S25000x3 : Shape := ⟨2, ![25000, 3]⟩
abbrev S25000x6 : Shape := ⟨2, ![25000, 6]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S128x1 : Shape := ⟨2, ![128, 1]⟩
abbrev S1 : Shape := ⟨1, ![1]⟩
abbrev S25000x128 : Shape := ⟨2, ![25000, 128]⟩
abbrev S1x128 : Shape := ⟨2, ![1, 128]⟩
abbrev S_ : Shape := ⟨0, ![]⟩
abbrev S100000x128 : Shape := ⟨2, ![100000, 128]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1x128x128 : Shape := ⟨3, ![1, 128, 128]⟩
abbrev S1600000x128 : Shape := ⟨2, ![1600000, 128]⟩
abbrev S1x1 : Shape := ⟨2, ![1, 1]⟩

abbrev nBuf : Space → Nat
  | .hbm => 285
  | .vmem => 0
  | .smem => 0
  | _ => 0

abbrev hbmTy0_0 (i : Nat) : BufTy := match i % 128 with
  | 0 => ⟨S25000x3, .f32⟩
  | 1 => ⟨S25000x3, .f32⟩
  | 2 => ⟨S25000x6, .f32⟩
  | 3 => ⟨S25000x6, .f32⟩
  | 4 => ⟨S2x1600000, .i32⟩
  | 5 => ⟨S100000, .i32⟩
  | 6 => ⟨S3x128, .f32⟩
  | 7 => ⟨S128, .f32⟩
  | 8 => ⟨S128x128, .f32⟩
  | 9 => ⟨S128, .f32⟩
  | 10 => ⟨S3x128, .f32⟩
  | 11 => ⟨S128, .f32⟩
  | 12 => ⟨S128x128, .f32⟩
  | 13 => ⟨S128, .f32⟩
  | 14 => ⟨S6x128, .f32⟩
  | 15 => ⟨S128, .f32⟩
  | 16 => ⟨S128x128, .f32⟩
  | 17 => ⟨S128, .f32⟩
  | 18 => ⟨S6x128, .f32⟩
  | 19 => ⟨S128, .f32⟩
  | 20 => ⟨S128x128, .f32⟩
  | 21 => ⟨S128, .f32⟩
  | 22 => ⟨S3x128x128, .f32⟩
  | 23 => ⟨S3x128, .f32⟩
  | 24 => ⟨S3x128x128, .f32⟩
  | 25 => ⟨S128x1, .f32⟩
  | 26 => ⟨S1, .f32⟩
  | 27 => ⟨S128x1, .f32⟩
  | 28 => ⟨S25000x128, .f32⟩
  | 29 => ⟨S1x128, .f32⟩
  | 30 => ⟨S25000x128, .f32⟩
  | 31 => ⟨S25000x128, .f32⟩
  | 32 => ⟨S_, .f32⟩
  | 33 => ⟨S_, .f32⟩
  | 34 => ⟨S25000x128, .f32⟩
  | 35 => ⟨S25000x128, .i1⟩
  | 36 => ⟨S_, .f32⟩
  | 37 => ⟨S25000x128, .f32⟩
  | 38 => ⟨S25000x128, .f32⟩
  | 39 => ⟨S25000x128, .f32⟩
  | 40 => ⟨S25000x128, .f32⟩
  | 41 => ⟨S1x128, .f32⟩
  | 42 => ⟨S25000x128, .f32⟩
  | 43 => ⟨S25000x128, .f32⟩
  | 44 => ⟨S_, .f32⟩
  | 45 => ⟨S_, .f32⟩
  | 46 => ⟨S25000x128, .f32⟩
  | 47 => ⟨S25000x128, .i1⟩
  | 48 => ⟨S_, .f32⟩
  | 49 => ⟨S25000x128, .f32⟩
  | 50 => ⟨S25000x128, .f32⟩
  | 51 => ⟨S25000x128, .f32⟩
  | 52 => ⟨S25000x128, .f32⟩
  | 53 => ⟨S1x128, .f32⟩
  | 54 => ⟨S25000x128, .f32⟩
  | 55 => ⟨S25000x128, .f32⟩
  | 56 => ⟨S_, .f32⟩
  | 57 => ⟨S_, .f32⟩
  | 58 => ⟨S25000x128, .f32⟩
  | 59 => ⟨S25000x128, .i1⟩
  | 60 => ⟨S_, .f32⟩
  | 61 => ⟨S25000x128, .f32⟩
  | 62 => ⟨S25000x128, .f32⟩
  | 63 => ⟨S25000x128, .f32⟩
  | 64 => ⟨S25000x128, .f32⟩
  | 65 => ⟨S1x128, .f32⟩
  | 66 => ⟨S25000x128, .f32⟩
  | 67 => ⟨S25000x128, .f32⟩
  | 68 => ⟨S_, .f32⟩
  | 69 => ⟨S_, .f32⟩
  | 70 => ⟨S25000x128, .f32⟩
  | 71 => ⟨S25000x128, .i1⟩
  | 72 => ⟨S_, .f32⟩
  | 73 => ⟨S25000x128, .f32⟩
  | 74 => ⟨S25000x128, .f32⟩
  | 75 => ⟨S25000x128, .f32⟩
  | 76 => ⟨S25000x128, .f32⟩
  | 77 => ⟨S1x128, .f32⟩
  | 78 => ⟨S25000x128, .f32⟩
  | 79 => ⟨S25000x128, .f32⟩
  | 80 => ⟨S_, .f32⟩
  | 81 => ⟨S_, .f32⟩
  | 82 => ⟨S25000x128, .f32⟩
  | 83 => ⟨S25000x128, .i1⟩
  | 84 => ⟨S_, .f32⟩
  | 85 => ⟨S25000x128, .f32⟩
  | 86 => ⟨S25000x128, .f32⟩
  | 87 => ⟨S25000x128, .f32⟩
  | 88 => ⟨S25000x128, .f32⟩
  | 89 => ⟨S1x128, .f32⟩
  | 90 => ⟨S25000x128, .f32⟩
  | 91 => ⟨S25000x128, .f32⟩
  | 92 => ⟨S_, .f32⟩
  | 93 => ⟨S_, .f32⟩
  | 94 => ⟨S25000x128, .f32⟩
  | 95 => ⟨S25000x128, .i1⟩
  | 96 => ⟨S_, .f32⟩
  | 97 => ⟨S25000x128, .f32⟩
  | 98 => ⟨S25000x128, .f32⟩
  | 99 => ⟨S25000x128, .f32⟩
  | 100 => ⟨S25000x128, .f32⟩
  | 101 => ⟨S1x128, .f32⟩
  | 102 => ⟨S25000x128, .f32⟩
  | 103 => ⟨S25000x128, .f32⟩
  | 104 => ⟨S_, .f32⟩
  | 105 => ⟨S_, .f32⟩
  | 106 => ⟨S25000x128, .f32⟩
  | 107 => ⟨S25000x128, .i1⟩
  | 108 => ⟨S_, .f32⟩
  | 109 => ⟨S25000x128, .f32⟩
  | 110 => ⟨S25000x128, .f32⟩
  | 111 => ⟨S25000x128, .f32⟩
  | 112 => ⟨S25000x128, .f32⟩
  | 113 => ⟨S1x128, .f32⟩
  | 114 => ⟨S25000x128, .f32⟩
  | 115 => ⟨S25000x128, .f32⟩
  | 116 => ⟨S_, .f32⟩
  | 117 => ⟨S_, .f32⟩
  | 118 => ⟨S25000x128, .f32⟩
  | 119 => ⟨S25000x128, .i1⟩
  | 120 => ⟨S_, .f32⟩
  | 121 => ⟨S25000x128, .f32⟩
  | 122 => ⟨S25000x128, .f32⟩
  | 123 => ⟨S25000x128, .f32⟩
  | 124 => ⟨S100000x128, .f32⟩
  | 125 => ⟨S_, .i32⟩
  | 126 => ⟨S100000, .i32⟩
  | 127 => ⟨S100000, .i1⟩
  | _ => ⟨S25000x3, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x128, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S_, .f32⟩
  | 52 => ⟨S100000x128, .f32⟩
  | 53 => ⟨S100000x128, .i1⟩
  | 54 => ⟨S_, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S100000x128, .f32⟩
  | 123 => ⟨S100000x128, .i1⟩
  | 124 => ⟨S_, .f32⟩
  | 125 => ⟨S100000x128, .f32⟩
  | 126 => ⟨S100000x128, .f32⟩
  | 127 => ⟨S100000x128, .f32⟩
  | _ => ⟨S25000x3, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S100000x128, .f32⟩
  | 15 => ⟨S100000x1, .f32⟩
  | 16 => ⟨S1x1, .f32⟩
  | 17 => ⟨S100000x1, .f32⟩
  | 18 => ⟨S100000x1, .f32⟩
  | 19 => ⟨S100000x1, .f32⟩
  | 20 => ⟨S100000x1, .f32⟩
  | 21 => ⟨S100000x1, .f32⟩
  | 22 => ⟨S100000x1, .f32⟩
  | 23 => ⟨S_, .f32⟩
  | 24 => ⟨S100000x1, .f32⟩
  | 25 => ⟨S100000x1, .f32⟩
  | 26 => ⟨S_, .f32⟩
  | 27 => ⟨S100000x1, .f32⟩
  | 28 => ⟨S100000x1, .f32⟩
  | _ => ⟨S25000x3, .f32⟩

abbrev hbmTy (i : Nat) : BufTy := match i / 128 with
  | 0 => hbmTy0_0 i
  | 1 => hbmTy0_1 i
  | 2 => hbmTy0_2 i
  | _ => ⟨S25000x3, .f32⟩

abbrev bufTy : (tb : Table) → Fin (tcTables nBuf tb) → BufTy
  | .hbm, ⟨i, _⟩ => hbmTy i
  | _, _ => ⟨S25000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_0 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_2 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_call4_cst : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call5_cst : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_cst_5 : Ref sig .tc := ⟨.hbm, 104, rfl⟩
abbrev main_call6_cst : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_6 : Ref sig .tc := ⟨.hbm, 116, rfl⟩
abbrev main_call7_cst : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_v39 : Ref sig .tc := ⟨.hbm, 123, rfl⟩
abbrev main_v40 : Ref sig .tc := ⟨.hbm, 124, rfl⟩
abbrev main_c : Ref sig .tc := ⟨.hbm, 125, rfl⟩
abbrev main_v41 : Ref sig .tc := ⟨.hbm, 126, rfl⟩
abbrev main_v42 : Ref sig .tc := ⟨.hbm, 127, rfl⟩
abbrev main_c_7 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_8 : Ref sig .tc := ⟨.hbm, 138, rfl⟩
abbrev main_v52 : Ref sig .tc := ⟨.hbm, 139, rfl⟩
abbrev main_cst_9 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_cst_10 : Ref sig .tc := ⟨.hbm, 144, rfl⟩
abbrev main_v56 : Ref sig .tc := ⟨.hbm, 145, rfl⟩
abbrev main_v57 : Ref sig .tc := ⟨.hbm, 146, rfl⟩
abbrev main_cst_11 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_c_12 : Ref sig .tc := ⟨.hbm, 157, rfl⟩
abbrev main_v67 : Ref sig .tc := ⟨.hbm, 158, rfl⟩
abbrev main_v68 : Ref sig .tc := ⟨.hbm, 159, rfl⟩
abbrev main_c_13 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_cst_14 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_cst_15 : Ref sig .tc := ⟨.hbm, 178, rfl⟩
abbrev main_call8_cst : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_c_16 : Ref sig .tc := ⟨.hbm, 192, rfl⟩
abbrev main_v92 : Ref sig .tc := ⟨.hbm, 193, rfl⟩
abbrev main_v93 : Ref sig .tc := ⟨.hbm, 194, rfl⟩
abbrev main_c_17 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_cst_18 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_cst_19 : Ref sig .tc := ⟨.hbm, 213, rfl⟩
abbrev main_call9_cst : Ref sig .tc := ⟨.hbm, 214, rfl⟩
abbrev main_call9_v0 : Ref sig .tc := ⟨.hbm, 215, rfl⟩
abbrev main_call9_v1 : Ref sig .tc := ⟨.hbm, 216, rfl⟩
abbrev main_call9_v2 : Ref sig .tc := ⟨.hbm, 217, rfl⟩
abbrev main_call9_v3 : Ref sig .tc := ⟨.hbm, 218, rfl⟩
abbrev main_call9_v4 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_c_20 : Ref sig .tc := ⟨.hbm, 227, rfl⟩
abbrev main_v117 : Ref sig .tc := ⟨.hbm, 228, rfl⟩
abbrev main_v118 : Ref sig .tc := ⟨.hbm, 229, rfl⟩
abbrev main_c_21 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_cst_22 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_cst_23 : Ref sig .tc := ⟨.hbm, 248, rfl⟩
abbrev main_call10_cst : Ref sig .tc := ⟨.hbm, 249, rfl⟩
abbrev main_call10_v0 : Ref sig .tc := ⟨.hbm, 250, rfl⟩
abbrev main_call10_v1 : Ref sig .tc := ⟨.hbm, 251, rfl⟩
abbrev main_call10_v2 : Ref sig .tc := ⟨.hbm, 252, rfl⟩
abbrev main_call10_v3 : Ref sig .tc := ⟨.hbm, 253, rfl⟩
abbrev main_call10_v4 : Ref sig .tc := ⟨.hbm, 254, rfl⟩
abbrev main_v135 : Ref sig .tc := ⟨.hbm, 255, rfl⟩
abbrev main_c_24 : Ref sig .tc := ⟨.hbm, 256, rfl⟩
abbrev main_v136 : Ref sig .tc := ⟨.hbm, 257, rfl⟩
abbrev main_v137 : Ref sig .tc := ⟨.hbm, 258, rfl⟩
abbrev main_c_25 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_cst_26 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_cst_27 : Ref sig .tc := ⟨.hbm, 279, rfl⟩
abbrev main_v156 : Ref sig .tc := ⟨.hbm, 280, rfl⟩
abbrev main_v157 : Ref sig .tc := ⟨.hbm, 281, rfl⟩
abbrev main_cst_28 : Ref sig .tc := ⟨.hbm, 282, rfl⟩
abbrev main_v158 : Ref sig .tc := ⟨.hbm, 283, rfl⟩
abbrev main_v159 : Ref sig .tc := ⟨.hbm, 284, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  concatenates_S25000x128_S25000x128_S25000x128_S25000x128_S100000x128_d0 : Shape.Concatenates [S25000x128, S25000x128, S25000x128, S25000x128] S100000x128 0
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S25000x3_S3x128_S25000x128_1_0_0_1_n_n_wf : DotDims.WF S25000x3 S3x128 S25000x128 [1] [0] [0] [1] [] []
  dot_S25000x128_S128x128_S25000x128_1_0_0_1_n_n_wf : DotDims.WF S25000x128 S128x128 S25000x128 [1] [0] [0] [1] [] []
  dot_S25000x6_S6x128_S25000x128_1_0_0_1_n_n_wf : DotDims.WF S25000x6 S6x128 S25000x128 [1] [0] [0] [1] [] []
  gather_S100000x128_S100000x1_S100000x128_1_0_n_n_0_1_1128_wf : GatherDims.WF S100000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S25000x3_S3x128_S25000x128_1_0_0_1_n_n : DotDims S25000x3 S3x128 S25000x128 where
  lhsContracting := [1]
  rhsContracting := [0]
  lhsNonContracting := [0]
  rhsNonContracting := [1]
  lhsBatch := []
  rhsBatch := []
  wf := dot_S25000x3_S3x128_S25000x128_1_0_0_1_n_n_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S25000x6_S6x128_S25000x128_1_0_0_1_n_n : DotDims S25000x6 S6x128 S25000x128 where
  lhsContracting := [1]
  rhsContracting := [0]
  lhsNonContracting := [0]
  rhsNonContracting := [1]
  lhsBatch := []
  rhsBatch := []
  wf := dot_S25000x6_S6x128_S25000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KBRegion0.lean ====
/- Region 0 of the kernel program, the first embedding (rows of width 3): the body's run on one row block, and the pipeline's bookkeeping for it.

   The region walks a grid of row blocks of 5000 rows. At every grid point the body reads its five input blocks whole,
   computes one pure function of them (the generated payload `k0_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg0 c)
    (hA : dat.A 3 = V c (Pipeline.arrRef spec0 3)) (hafter : ∀ t, dat.after 3 t = blk V c 3 t) (t : Fin cfg0.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg0 c)
    (hA : dat.A 4 = V c (Pipeline.arrRef spec0 4)) (hafter : ∀ t, dat.after 4 t = blk V c 4 t) (t : Fin cfg0.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x3 .f32) (x1 : Vec F S3x128 .f32) (x2 : Vec F S1x128 .f32) (x3 : Vec F S128x128 .f32) (x4 : Vec F S1x128 .f32) : Vec F S5000x128 .f32 :=
  View.canon [⟨whole_S5000x128, k0_pay1 (View.ld x0 whole_S5000x3) (View.ld x1 whole_S3x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid0.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x3 .f32) (x1 : Vec F S3x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc0__embed_kernel i arg1 harg1 arg2 harg2 arg3 harg3 arg4 harg4 arg5 harg5 arg6 harg6) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = out (blk V c 0 t) (blk V c 1 t) (blk V c 2 t) (blk V c 3 t) (blk V c 4 t) := by dsimp only [dat]

theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d
theorem before_4 (c : Dev nD) (t : Fin cfg0.N) (d) : (dat V c).before 4 t d = blk V c 4 t :=
  before_of_4 V (dat V c) (A_eq V c 4) (after_4 V c) t d

/-- What the body is handed at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any grid point: the input buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.KBRegion1.lean ====
/- Region 1 of the kernel program, the second embedding (rows of width 3): the body's run on one row block, and the pipeline's bookkeeping for it.

   The region walks a grid of row blocks of 5000 rows. At every grid point the body reads its five input blocks whole,
   computes one pure function of them (the generated payload `k1_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg1 c)
    (hA : dat.A 3 = V c (Pipeline.arrRef spec1 3)) (hafter : ∀ t, dat.after 3 t = blk V c 3 t) (t : Fin cfg1.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg1 c)
    (hA : dat.A 4 = V c (Pipeline.arrRef spec1 4)) (hafter : ∀ t, dat.after 4 t = blk V c 4 t) (t : Fin cfg1.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x3 .f32) (x1 : Vec F S3x128 .f32) (x2 : Vec F S1x128 .f32) (x3 : Vec F S128x128 .f32) (x4 : Vec F S1x128 .f32) : Vec F S5000x128 .f32 :=
  View.canon [⟨whole_S5000x128, k1_pay1 (View.ld x0 whole_S5000x3) (View.ld x1 whole_S3x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid1.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x3 .f32) (x1 : Vec F S3x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc1__embed_kernel i arg1 harg1 arg2 harg2 arg3 harg3 arg4 harg4 arg5 harg5 arg6 harg6) K := by
  simp only [cc1__embed_kernel_eq_skeleton]; unfold cc1__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  before_of_0 V (dat V c) (A_eq V c 0) (after_0 V c) t d
theorem before_1 (c : Dev nD) (t : Fin cfg1.N) (d) : (dat V c).before 1 t d = blk V c 1 t :=
  before_of_1 V (dat V c) (A_eq V c 1) (after_1 V c) t d
theorem before_2 (c : Dev nD) (t : Fin cfg1.N) (d) : (dat V c).before 2 t d = blk V c 2 t :=
  before_of_2 V (dat V c) (A_eq V c 2) (after_2 V c) t d
theorem before_3 (c : Dev nD) (t : Fin cfg1.N) (d) : (dat V c).before 3 t d = blk V c 3 t :=
  before_of_3 V (dat V c) (A_eq V c 3) (after_3 V c) t d
theorem before_4 (c : Dev nD) (t : Fin cfg1.N) (d) : (dat V c).before 4 t d = blk V c 4 t :=
  before_of_4 V (dat V c) (A_eq V c 4) (after_4 V c) t d

/-- What the body is handed at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any grid point: the input buffers hold their blocks, so `sound_kernel` applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.KBRegion2.lean ====
/- Region 2 of the kernel program, the third embedding (rows of width 6): the body's run on one row block, and the pipeline's bookkeeping for it.

   The region walks a grid of row blocks of 5000 rows. At every grid point the body reads its five input blocks whole,
   computes one pure function of them (the generated payload `k2_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg2 c)
    (hA : dat.A 3 = V c (Pipeline.arrRef spec2 3)) (hafter : ∀ t, dat.after 3 t = blk V c 3 t) (t : Fin cfg2.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg2 c)
    (hA : dat.A 4 = V c (Pipeline.arrRef spec2 4)) (hafter : ∀ t, dat.after 4 t = blk V c 4 t) (t : Fin cfg2.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x6 : Rect S5000x6 := Rect.unit (s := S5000x6) ![0, 0] S5000x6.size inb_S5000x6_S5000x6_0_0
abbrev whole_S6x128 : Rect S6x128 := Rect.unit (s := S6x128) ![0, 0] S6x128.size inb_S6x128_S6x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x6 .f32) (x1 : Vec F S6x128 .f32) (x2 : Vec F S1x128 .f32) (x3 : Vec F S128x128 .f32) (x4 : Vec F S1x128 .f32) : Vec F S5000x128 .f32 :=
  View.canon [⟨whole_S5000x128, k2_pay1 (View.ld x0 whole_S5000x6) (View.ld x1 whole_S6x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid2.Coords) (arg1 : Memref sig .tc .vmem S5000x6 .f32) (harg1 : arg1.IsWhole) (arg2 : Memref sig .tc .vmem S6x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x6 .f32) (x1 : Vec F S6x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc2__embed_kernel i arg1 harg1 arg2 harg2 arg3 harg3 arg4 harg4 arg5 harg5 arg6 harg6) K := by
  simp only [cc2__embed_kernel_eq_skeleton]; unfold cc2__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  before_of_0 V (dat V c) (A_eq V c 0) (after_0 V c) t d
theorem before_1 (c : Dev nD) (t : Fin cfg2.N) (d) : (dat V c).before 1 t d = blk V c 1 t :=
  before_of_1 V (dat V c) (A_eq V c 1) (after_1 V c) t d
theorem before_2 (c : Dev nD) (t : Fin cfg2.N) (d) : (dat V c).before 2 t d = blk V c 2 t :=
  before_of_2 V (dat V c) (A_eq V c 2) (after_2 V c) t d
theorem before_3 (c : Dev nD) (t : Fin cfg2.N) (d) : (dat V c).before 3 t d = blk V c 3 t :=
  before_of_3 V (dat V c) (A_eq V c 3) (after_3 V c) t d
theorem before_4 (c : Dev nD) (t : Fin cfg2.N) (d) : (dat V c).before 4 t d = blk V c 4 t :=
  before_of_4 V (dat V c) (A_eq V c 4) (after_4 V c) t d

/-- What the body is handed at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any grid point: the input buffers hold their blocks, so `sound_kernel` applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W2, bigSep_W2]
  exact sound_body V c t

end Cert.Kernel.Region2

end
-- ==== Proof.KBRegion3.lean ====
/- Region 3 of the kernel program, the fourth embedding (rows of width 6): the body's run on one row block, and the pipeline's bookkeeping for it.

   The region walks a grid of row blocks of 5000 rows. At every grid point the body reads its five input blocks whole,
   computes one pure function of them (the generated payload `k3_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg3 c)
    (hA : dat.A 0 = V c (Pipeline.arrRef spec3 0)) (hafter : ∀ t, dat.after 0 t = blk V c 0 t) (t : Fin cfg3.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg3 c)
    (hA : dat.A 1 = V c (Pipeline.arrRef spec3 1)) (hafter : ∀ t, dat.after 1 t = blk V c 1 t) (t : Fin cfg3.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg3 c)
    (hA : dat.A 2 = V c (Pipeline.arrRef spec3 2)) (hafter : ∀ t, dat.after 2 t = blk V c 2 t) (t : Fin cfg3.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg3 c)
    (hA : dat.A 3 = V c (Pipeline.arrRef spec3 3)) (hafter : ∀ t, dat.after 3 t = blk V c 3 t) (t : Fin cfg3.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg3 c)
    (hA : dat.A 4 = V c (Pipeline.arrRef spec3 4)) (hafter : ∀ t, dat.after 4 t = blk V c 4 t) (t : Fin cfg3.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x6 : Rect S5000x6 := Rect.unit (s := S5000x6) ![0, 0] S5000x6.size inb_S5000x6_S5000x6_0_0
abbrev whole_S6x128 : Rect S6x128 := Rect.unit (s := S6x128) ![0, 0] S6x128.size inb_S6x128_S6x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x6 .f32) (x1 : Vec F S6x128 .f32) (x2 : Vec F S1x128 .f32) (x3 : Vec F S128x128 .f32) (x4 : Vec F S1x128 .f32) : Vec F S5000x128 .f32 :=
  View.canon [⟨whole_S5000x128, k3_pay1 (View.ld x0 whole_S5000x6) (View.ld x1 whole_S6x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid3.Coords) (arg1 : Memref sig .tc .vmem S5000x6 .f32) (harg1 : arg1.IsWhole) (arg2 : Memref sig .tc .vmem S6x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x6 .f32) (x1 : Vec F S6x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc3__embed_kernel i arg1 harg1 arg2 harg2 arg3 harg3 arg4 harg4 arg5 harg5 arg6 harg6) K := by
  simp only [cc3__embed_kernel_eq_skeleton]; unfold cc3__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) :
    (dat V c).after 5 t = out (blk V c 0 t) (blk V c 1 t) (blk V c 2 t) (blk V c 3 t) (blk V c 4 t) := by dsimp only [dat]

theorem before_0 (c : Dev nD) (t : Fin cfg3.N) (d) : (dat V c).before 0 t d = blk V c 0 t :=
  before_of_0 V (dat V c) (A_eq V c 0) (after_0 V c) t d
theorem before_1 (c : Dev nD) (t : Fin cfg3.N) (d) : (dat V c).before 1 t d = blk V c 1 t :=
  before_of_1 V (dat V c) (A_eq V c 1) (after_1 V c) t d
theorem before_2 (c : Dev nD) (t : Fin cfg3.N) (d) : (dat V c).before 2 t d = blk V c 2 t :=
  before_of_2 V (dat V c) (A_eq V c 2) (after_2 V c) t d
theorem before_3 (c : Dev nD) (t : Fin cfg3.N) (d) : (dat V c).before 3 t d = blk V c 3 t :=
  before_of_3 V (dat V c) (A_eq V c 3) (after_3 V c) t d
theorem before_4 (c : Dev nD) (t : Fin cfg3.N) (d) : (dat V c).before 4 t d = blk V c 4 t :=
  before_of_4 V (dat V c) (A_eq V c 4) (after_4 V c) t d

/-- What the body is handed at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it hands back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any grid point: the input buffers hold their blocks, so `sound_kernel` applies; the invariant and what
    the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid3.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W3, bigSep_W3]
  exact sound_body V c t

end Cert.Kernel.Region3

end
-- ==== Proof.KBRegion4.lean ====
/- Region 4 of the kernel program, the first hidden layer: the body's run on one row block, and the pipeline's bookkeeping for it.

   The region walks a grid of row blocks of 5000 rows. At every grid point the body reads its five input blocks whole,
   computes one pure function of them (the generated payload `k4_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg4 c)
    (hA : dat.A 0 = V c (Pipeline.arrRef spec4 0)) (hafter : ∀ t, dat.after 0 t = blk V c 0 t) (t : Fin cfg4.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg4 c)
    (hA : dat.A 1 = V c (Pipeline.arrRef spec4 1)) (hafter : ∀ t, dat.after 1 t = blk V c 1 t) (t : Fin cfg4.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg4 c)
    (hA : dat.A 2 = V c (Pipeline.arrRef spec4 2)) (hafter : ∀ t, dat.after 2 t = blk V c 2 t) (t : Fin cfg4.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg4 c)
    (hA : dat.A 3 = V c (Pipeline.arrRef spec4 3)) (hafter : ∀ t, dat.after 3 t = blk V c 3 t) (t : Fin cfg4.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg4 c)
    (hA : dat.A 4 = V c (Pipeline.arrRef spec4 4)) (hafter : ∀ t, dat.after 4 t = blk V c 4 t) (t : Fin cfg4.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k4_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec4 c
  q _ := fullShare
  owed _ := 0

theorem A_eq (c : Dev nD) (w : Fin cfg4.W) : (dat V c).A w = V c (Pipeline.arrRef spec4 w) := by
  dsimp only [dat]

theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) :
    (dat V c).after 5 t = out (blk V c 0 t) (blk V c 1 t) (blk V c 2 t) (blk V c 3 t) (blk V c 4 t) := by dsimp only [dat]

theorem before_0 (c : Dev nD) (t : Fin cfg4.N) (d) : (dat V c).before 0 t d = blk V c 0 t :=
  before_of_0 V (dat V c) (A_eq V c 0) (after_0 V c) t d
theorem before_1 (c : Dev nD) (t : Fin cfg4.N) (d) : (dat V c).before 1 t d = blk V c 1 t :=
  before_of_1 V (dat V c) (A_eq V c 1) (after_1 V c) t d
theorem before_2 (c : Dev nD) (t : Fin cfg4.N) (d) : (dat V c).before 2 t d = blk V c 2 t :=
  before_of_2 V (dat V c) (A_eq V c 2) (after_2 V c) t d
theorem before_3 (c : Dev nD) (t : Fin cfg4.N) (d) : (dat V c).before 3 t d = blk V c 3 t :=
  before_of_3 V (dat V c) (A_eq V c 3) (after_3 V c) t d
theorem before_4 (c : Dev nD) (t : Fin cfg4.N) (d) : (dat V c).before 4 t d = blk V c 4 t :=
  before_of_4 V (dat V c) (A_eq V c 4) (after_4 V c) t d

/-- What the body is handed at point `t`, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d)))

/-- and what it hands back. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t))

/-- The body at any grid point: the input buffers hold their blocks, so `sound_kernel` applies; the invariant and what
    the core owes pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid4.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W4, bigSep_W4]
  exact sound_body V c t

end Cert.Kernel.Region4

end
-- ==== Proof.KBRegion5.lean ====
/- Region 5 of the kernel program, the second hidden layer: the body's run on one row block, and the pipeline's bookkeeping for it.

   The region walks a grid of row blocks of 5000 rows. At every grid point the body reads its five input blocks whole,
   computes one pure function of them (the generated payload `k5_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg5 c)
    (hA : dat.A 0 = V c (Pipeline.arrRef spec5 0)) (hafter : ∀ t, dat.after 0 t = blk V c 0 t) (t : Fin cfg5.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg5 c)
    (hA : dat.A 1 = V c (Pipeline.arrRef spec5 1)) (hafter : ∀ t, dat.after 1 t = blk V c 1 t) (t : Fin cfg5.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg5 c)
    (hA : dat.A 2 = V c (Pipeline.arrRef spec5 2)) (hafter : ∀ t, dat.after 2 t = blk V c 2 t) (t : Fin cfg5.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg5 c)
    (hA : dat.A 3 = V c (Pipeline.arrRef spec5 3)) (hafter : ∀ t, dat.after 3 t = blk V c 3 t) (t : Fin cfg5.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg5 c)
    (hA : dat.A 4 = V c (Pipeline.arrRef spec5 4)) (hafter : ∀ t, dat.after 4 t = blk V c 4 t) (t : Fin cfg5.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k5_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec5 c
  q _ := fullShare
  owed _ := 0

theorem A_eq (c : Dev nD) (w : Fin cfg5.W) : (dat V c).A w = V c (Pipeline.arrRef spec5 w) := by
  dsimp only [dat]

theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
theorem after_4 (c : Dev nD) (t : Fin cfg5.N) : (dat V c).after 4 t = blk V c 4 t := by dsimp only [dat]
theorem after_5 (c : Dev nD) (t : Fin cfg5.N) :
    (dat V c).after 5 t = out (blk V c 0 t) (blk V c 1 t) (blk V c 2 t) (blk V c 3 t) (blk V c 4 t) := by dsimp only [dat]

theorem before_0 (c : Dev nD) (t : Fin cfg5.N) (d) : (dat V c).before 0 t d = blk V c 0 t :=
  before_of_0 V (dat V c) (A_eq V c 0) (after_0 V c) t d
theorem before_1 (c : Dev nD) (t : Fin cfg5.N) (d) : (dat V c).before 1 t d = blk V c 1 t :=
  before_of_1 V (dat V c) (A_eq V c 1) (after_1 V c) t d
theorem before_2 (c : Dev nD) (t : Fin cfg5.N) (d) : (dat V c).before 2 t d = blk V c 2 t :=
  before_of_2 V (dat V c) (A_eq V c 2) (after_2 V c) t d
theorem before_3 (c : Dev nD) (t : Fin cfg5.N) (d) : (dat V c).before 3 t d = blk V c 3 t :=
  before_of_3 V (dat V c) (A_eq V c 3) (after_3 V c) t d
theorem before_4 (c : Dev nD) (t : Fin cfg5.N) (d) : (dat V c).before 4 t d = blk V c 4 t :=
  before_of_4 V (dat V c) (A_eq V c 4) (after_4 V c) t d

/-- What the body is handed at point `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it hands back. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

/-- The body at any grid point: the input buffers hold their blocks, so `sound_kernel` applies; the invariant and what
    the core owes pass through unread. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid5.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W5, bigSep_W5]
  exact sound_body V c t

end Cert.Kernel.Region5

end
-- ==== Proof.KBRegion6.lean ====
/- Region 6 of the kernel program, the third hidden layer: the body's run on one row block, and the pipeline's bookkeeping for it.

   The region walks a grid of row blocks of 5000 rows. At every grid point the body reads its five input blocks whole,
   computes one pure function of them (the generated payload `k6_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg6 c)
    (hA : dat.A 0 = V c (Pipeline.arrRef spec6 0)) (hafter : ∀ t, dat.after 0 t = blk V c 0 t) (t : Fin cfg6.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg6 c)
    (hA : dat.A 1 = V c (Pipeline.arrRef spec6 1)) (hafter : ∀ t, dat.after 1 t = blk V c 1 t) (t : Fin cfg6.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg6 c)
    (hA : dat.A 2 = V c (Pipeline.arrRef spec6 2)) (hafter : ∀ t, dat.after 2 t = blk V c 2 t) (t : Fin cfg6.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg6 c)
    (hA : dat.A 3 = V c (Pipeline.arrRef spec6 3)) (hafter : ∀ t, dat.after 3 t = blk V c 3 t) (t : Fin cfg6.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg6 c)
    (hA : dat.A 4 = V c (Pipeline.arrRef spec6 4)) (hafter : ∀ t, dat.after 4 t = blk V c 4 t) (t : Fin cfg6.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k6_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec6 c
  q _ := fullShare
  owed _ := 0

theorem A_eq (c : Dev nD) (w : Fin cfg6.W) : (dat V c).A w = V c (Pipeline.arrRef spec6 w) := by
  dsimp only [dat]

theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = blk V c 2 t := by dsimp only [dat]
theorem after_3 (c : Dev nD) (t : Fin cfg6.N) : (dat V c).after 3 t = blk V c 3 t := by dsimp only [dat]
theorem after_4 (c : Dev nD) (t : Fin cfg6.N) : (dat V c).after 4 t = blk V c 4 t := by dsimp only [dat]
theorem after_5 (c : Dev nD) (t : Fin cfg6.N) :
    (dat V c).after 5 t = out (blk V c 0 t) (blk V c 1 t) (blk V c 2 t) (blk V c 3 t) (blk V c 4 t) := by dsimp only [dat]

theorem before_0 (c : Dev nD) (t : Fin cfg6.N) (d) : (dat V c).before 0 t d = blk V c 0 t :=
  before_of_0 V (dat V c) (A_eq V c 0) (after_0 V c) t d
theorem before_1 (c : Dev nD) (t : Fin cfg6.N) (d) : (dat V c).before 1 t d = blk V c 1 t :=
  before_of_1 V (dat V c) (A_eq V c 1) (after_1 V c) t d
theorem before_2 (c : Dev nD) (t : Fin cfg6.N) (d) : (dat V c).before 2 t d = blk V c 2 t :=
  before_of_2 V (dat V c) (A_eq V c 2) (after_2 V c) t d
theorem before_3 (c : Dev nD) (t : Fin cfg6.N) (d) : (dat V c).before 3 t d = blk V c 3 t :=
  before_of_3 V (dat V c) (A_eq V c 3) (after_3 V c) t d
theorem before_4 (c : Dev nD) (t : Fin cfg6.N) (d) : (dat V c).before 4 t d = blk V c 4 t :=
  before_of_4 V (dat V c) (A_eq V c 4) (after_4 V c) t d

/-- What the body is handed at point `t`, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d)))

/-- and what it hands back. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t))

/-- The body at any grid point: the input buffers hold their blocks, so `sound_kernel` applies; the invariant and what
    the core owes pass through unread. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid6.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W6, bigSep_W6]
  exact sound_body V c t

end Cert.Kernel.Region6

end
-- ==== Proof.KBRegion7.lean ====
/- Region 7 of the kernel program, the output layer: the body's run on one row block, and the pipeline's bookkeeping for it.

   The region walks a grid of row blocks of 5000 rows. At every grid point the body reads its five input blocks whole,
   computes one pure function of them (the generated payload `k7_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.Kernel.Launch
import proofs.«136217_j57939108823477_1_alg».proof.Proof.Gen.Kernel.Skeleton
import proofs.«136217_j57939108823477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Region7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg7 c)
    (hA : dat.A 0 = V c (Pipeline.arrRef spec7 0)) (hafter : ∀ t, dat.after 0 t = blk V c 0 t) (t : Fin cfg7.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg7 c)
    (hA : dat.A 1 = V c (Pipeline.arrRef spec7 1)) (hafter : ∀ t, dat.after 1 t = blk V c 1 t) (t : Fin cfg7.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg7 c)
    (hA : dat.A 2 = V c (Pipeline.arrRef spec7 2)) (hafter : ∀ t, dat.after 2 t = blk V c 2 t) (t : Fin cfg7.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg7 c)
    (hA : dat.A 3 = V c (Pipeline.arrRef spec7 3)) (hafter : ∀ t, dat.after 3 t = blk V c 3 t) (t : Fin cfg7.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg7 c)
    (hA : dat.A 4 = V c (Pipeline.arrRef spec7 4)) (hafter : ∀ t, dat.after 4 t = blk V c 4 t) (t : Fin cfg7.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x1 : Rect S128x1 := Rect.unit (s := S128x1) ![0, 0] S128x1.size inb_S128x1_S128x1_0_0
abbrev whole_S1x1 : Rect S1x1 := Rect.unit (s := S1x1) ![0, 0] S1x1.size inb_S1x1_S1x1_0_0
abbrev whole_S5000x1 : Rect S5000x1 := Rect.unit (s := S5000x1) ![0, 0] S5000x1.size inb_S5000x1_S5000x1_0_0

/-- The output block after the body, as a function of the five input blocks: the one store, of the payload, over the
    whole block. -/
def out (x0 : Vec F S5000x128 .f32) (x1 : Vec F S5000x128 .f32) (x2 : Vec F S128x1 .f32) (x3 : Vec F S1x1 .f32) (x4 : Vec F S128x1 .f32) : Vec F S5000x1 .f32 :=
  View.canon [⟨whole_S5000x1, k7_pay1 (View.ld x0 whole_S5000x128) (View.ld x2 whole_S128x1) (View.ld x3 whole_S1x1) (View.ld x1 whole_S5000x128) (View.ld x4 whole_S128x1)⟩]

/-- The one store covers the output block. -/
theorem cover (p0 : Vec F S5000x1 .f32) (y : S5000x1.Idx) :
    ∃ pc ∈ ([⟨whole_S5000x1, p0⟩] : List (View.Piece (Elt F) S5000x1 .f32)), y ∈ pc.1.set :=
  View.cover_of_tiled [⟨whole_S5000x1, p0⟩] S5000x1.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S5000x1 .f32) (harg6 : arg6.IsWhole)
    (x0 : Vec F S5000x128 .f32) (x1 : Vec F S5000x128 .f32) (x2 : Vec F S128x1 .f32) (x3 : Vec F S1x1 .f32) (x4 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec7 c
  q _ := fullShare
  owed _ := 0

theorem A_eq (c : Dev nD) (w : Fin cfg7.W) : (dat V c).A w = V c (Pipeline.arrRef spec7 w) := by
  dsimp only [dat]

theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = blk V c 3 t := by dsimp only [dat]
theorem after_4 (c : Dev nD) (t : Fin cfg7.N) : (dat V c).after 4 t = blk V c 4 t := by dsimp only [dat]
theorem after_5 (c : Dev nD) (t : Fin cfg7.N) :
    (dat V c).after 5 t = out (blk V c 0 t) (blk V c 1 t) (blk V c 2 t) (blk V c 3 t) (blk V c 4 t) := by dsimp only [dat]

theorem before_0 (c : Dev nD) (t : Fin cfg7.N) (d) : (dat V c).before 0 t d = blk V c 0 t :=
  before_of_0 V (dat V c) (A_eq V c 0) (after_0 V c) t d
theorem before_1 (c : Dev nD) (t : Fin cfg7.N) (d) : (dat V c).before 1 t d = blk V c 1 t :=
  before_of_1 V (dat V c) (A_eq V c 1) (after_1 V c) t d
theorem before_2 (c : Dev nD) (t : Fin cfg7.N) (d) : (dat V c).before 2 t d = blk V c 2 t :=
  before_of_2 V (dat V c) (A_eq V c 2) (after_2 V c) t d
theorem before_3 (c : Dev nD) (t : Fin cfg7.N) (d) : (dat V c).before 3 t d = blk V c 3 t :=
  before_of_3 V (dat V c) (A_eq V c 3) (after_3 V c) t d
theorem before_4 (c : Dev nD) (t : Fin cfg7.N) (d) : (dat V c).before 4 t d = blk V c 4 t :=
  before_of_4 V (dat V c) (A_eq V c 4) (after_4 V c) t d

/-- What the body is handed at point `t`, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

/-- and what it hands back. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

/-- The body at any grid point: the input buffers hold their blocks, so `sound_kernel` applies; the invariant and what
    the core owes pass through unread. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid7.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W7, bigSep_W7]
  exact sound_body V c t

end Cert.Kernel.Region7

end
-- ==== Proof.KBFold.lean ====
/- The buffers' contents between the items of the program's entry function, as one fold from the launch memory:
   a stretch of host operations applies them; a region leaves its output window's array at what its write-backs fold to
   and every other buffer alone. An argument array is written by no host operation and is the output of no region, so it
   walks back through the fold to its launch contents. -/
import proofs.«136217_j57939108823477_1_alg».proof.Proof.KBRegion0
import proofs.«136217_j57939108823477_1_alg».proof.Proof.KBRegion1
import proofs.«136217_j57939108823477_1_alg».proof.Proof.KBRegion2
import proofs.«136217_j57939108823477_1_alg».proof.Proof.KBRegion3
import proofs.«136217_j57939108823477_1_alg».proof.Proof.KBRegion4
import proofs.«136217_j57939108823477_1_alg».proof.Proof.KBRegion5
import proofs.«136217_j57939108823477_1_alg».proof.Proof.KBRegion6
import proofs.«136217_j57939108823477_1_alg».proof.Proof.KBRegion7
import proofs.«136217_j57939108823477_1_alg».proof.Proof.Gen.Kernel.Regions

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-! ### Region 0 -/

/-- The buffers when region 0 is entered: the host operations before it have run. -/
abbrev E0 : Dev nD → Valuation τ sig (Elt F) := fun c => StableHlo.after hostOps0 (W0 m ρ c)
abbrev VE0 : (c : Dev nD) → (b : Ref sig .tc) → Buf (Elt F) ((c : Thread nD τ).loc b) := fun c b => E0 m ρ c b
/-- The buffers when region 0 is left: its windows' arrays at what the write-backs leave, every other buffer as entered. -/
def X0 (c : Dev nD) : Valuation τ sig (Elt F) :=
  Pipeline.withArrays spec0 c (E0 m ρ c) fun w => (Region0.dat (VE0 m ρ) c).arrAt w cfg0.N
theorem X0_arr (c : Dev nD) (w : Fin cfg0.W) :
    X0 m ρ c (Proc.devRef .tc (Pipeline.arrRef spec0 w)) = (Region0.dat (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = E0 m ρ c (Proc.devRef .tc b) := by
  unfold X0; exact Pipeline.withArrays_of_ne spec0 c _ _ b hb
abbrev VX0 : (c : Dev nD) → (b : Ref sig .tc) → Buf (Elt F) ((c : Thread nD τ).loc b) := fun c b => X0 m ρ c b
theorem hF0 (c : Dev nD) (w : Fin cfg0.W) :
    (Region0.dat (VE0 m ρ) c).arrAt w cfg0.N = VX0 m ρ c (Pipeline.arrRef spec0 w) := (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)
/-- A buffer the host operations before region 0 do not write is, at the region's entry, what it was. -/
theorem E0_keep (c : Dev nD) (b : Ref sig .tc) (h : b ∉ hostOps0_W) : E0 m ρ c (Proc.devRef .tc b) = W0 m ρ c (Proc.devRef .tc b) :=
  StableHlo.after_of_writes_sub hostOps0 _ hostOps0_writes h
/-- Region 0 changes only its output window's array: an input window's array ends as it was (the pipeline only reads
    it), and a buffer that is no window's array is not touched. -/
theorem X0_keep (c : Dev nD) (b : Ref sig .tc) (hb : b ≠ Pipeline.arrRef spec0 5) :
    X0 m ρ c (Proc.devRef .tc b) = E0 m ρ c (Proc.devRef .tc b) := by
  by_cases h : ∃ w, Pipeline.arrRef spec0 w = b
  · obtain ⟨w, rfl⟩ := h
    rw [X0_arr]
    match w, hb with
    | ⟨0, _⟩, _ => exact ((Region0.dat (VE0 m ρ) c).arrAt_in 0 rfl _).trans (Region0.A_eq (VE0 m ρ) c 0)
    | ⟨1, _⟩, _ => exact ((Region0.dat (VE0 m ρ) c).arrAt_in 1 rfl _).trans (Region0.A_eq (VE0 m ρ) c 1)
    | ⟨2, _⟩, _ => exact ((Region0.dat (VE0 m ρ) c).arrAt_in 2 rfl _).trans (Region0.A_eq (VE0 m ρ) c 2)
    | ⟨3, _⟩, _ => exact ((Region0.dat (VE0 m ρ) c).arrAt_in 3 rfl _).trans (Region0.A_eq (VE0 m ρ) c 3)
    | ⟨4, _⟩, _ => exact ((Region0.dat (VE0 m ρ) c).arrAt_in 4 rfl _).trans (Region0.A_eq (VE0 m ρ) c 4)
    | ⟨5, _⟩, hb => exact absurd rfl hb
  · exact X0_of_ne m ρ c b fun w e => h ⟨w, e⟩

/-! ### Region 1 -/

/-- The buffers when region 1 is entered: the host operations before it have run. -/
abbrev E1 : Dev nD → Valuation τ sig (Elt F) := fun c => StableHlo.after hostOps1 (X0 m ρ c)
abbrev VE1 : (c : Dev nD) → (b : Ref sig .tc) → Buf (Elt F) ((c : Thread nD τ).loc b) := fun c b => E1 m ρ c b
/-- The buffers when region 1 is left: its windows' arrays at what the write-backs leave, every other buffer as entered. -/
def X1 (c : Dev nD) : Valuation τ sig (Elt F) :=
  Pipeline.withArrays spec1 c (E1 m ρ c) fun w => (Region1.dat (VE1 m ρ) c).arrAt w cfg1.N
theorem X1_arr (c : Dev nD) (w : Fin cfg1.W) :
    X1 m ρ c (Proc.devRef .tc (Pipeline.arrRef spec1 w)) = (Region1.dat (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = E1 m ρ c (Proc.devRef .tc b) := by
  unfold X1; exact Pipeline.withArrays_of_ne spec1 c _ _ b hb
abbrev VX1 : (c : Dev nD) → (b : Ref sig .tc) → Buf (Elt F) ((c : Thread nD τ).loc b) := fun c b => X1 m ρ c b
theorem hF1 (c : Dev nD) (w : Fin cfg1.W) :
    (Region1.dat (VE1 m ρ) c).arrAt w cfg1.N = VX1 m ρ c (Pipeline.arrRef spec1 w) := (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)
/-- A buffer the host operations before region 1 do not write is, at the region's entry, what it was. -/
theorem E1_keep (c : Dev nD) (b : Ref sig .tc) (h : b ∉ hostOps1_W) : E1 m ρ c (Proc.devRef .tc b) = X0 m ρ c (Proc.devRef .tc b) :=
  StableHlo.after_of_writes_sub hostOps1 _ hostOps1_writes h
/-- Region 1 changes only its output window's array: an input window's array ends as it was (the pipeline only reads
    it), and a buffer that is no window's array is not touched. -/
theorem X1_keep (c : Dev nD) (b : Ref sig .tc) (hb : b ≠ Pipeline.arrRef spec1 5) :
    X1 m ρ c (Proc.devRef .tc b) = E1 m ρ c (Proc.devRef .tc b) := by
  by_cases h : ∃ w, Pipeline.arrRef spec1 w = b
  · obtain ⟨w, rfl⟩ := h
    rw [X1_arr]
    match w, hb with
    | ⟨0, _⟩, _ => exact ((Region1.dat (VE1 m ρ) c).arrAt_in 0 rfl _).trans (Region1.A_eq (VE1 m ρ) c 0)
    | ⟨1, _⟩, _ => exact ((Region1.dat (VE1 m ρ) c).arrAt_in 1 rfl _).trans (Region1.A_eq (VE1 m ρ) c 1)
    | ⟨2, _⟩, _ => exact ((Region1.dat (VE1 m ρ) c).arrAt_in 2 rfl _).trans (Region1.A_eq (VE1 m ρ) c 2)
    | ⟨3, _⟩, _ => exact ((Region1.dat (VE1 m ρ) c).arrAt_in 3 rfl _).trans (Region1.A_eq (VE1 m ρ) c 3)
    | ⟨4, _⟩, _ => exact ((Region1.dat (VE1 m ρ) c).arrAt_in 4 rfl _).trans (Region1.A_eq (VE1 m ρ) c 4)
    | ⟨5, _⟩, hb => exact absurd rfl hb
  · exact X1_of_ne m ρ c b fun w e => h ⟨w, e⟩

/-! ### Region 2 -/

/-- The buffers when region 2 is entered: the host operations before it have run. -/
abbrev E2 : Dev nD → Valuation τ sig (Elt F) := fun c => StableHlo.after hostOps2 (X1 m ρ c)
abbrev VE2 : (c : Dev nD) → (b : Ref sig .tc) → Buf (Elt F) ((c : Thread nD τ).loc b) := fun c b => E2 m ρ c b
/-- The buffers when region 2 is left: its windows' arrays at what the write-backs leave, every other buffer as entered. -/
def X2 (c : Dev nD) : Valuation τ sig (Elt F) :=
  Pipeline.withArrays spec2 c (E2 m ρ c) fun w => (Region2.dat (VE2 m ρ) c).arrAt w cfg2.N
theorem X2_arr (c : Dev nD) (w : Fin cfg2.W) :
    X2 m ρ c (Proc.devRef .tc (Pipeline.arrRef spec2 w)) = (Region2.dat (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = E2 m ρ c (Proc.devRef .tc b) := by
  unfold X2; exact Pipeline.withArrays_of_ne spec2 c _ _ b hb
abbrev VX2 : (c : Dev nD) → (b : Ref sig .tc) → Buf (Elt F) ((c : Thread nD τ).loc b) := fun c b => X2 m ρ c b
theorem hF2 (c : Dev nD) (w : Fin cfg2.W) :
    (Region2.dat (VE2 m ρ) c).arrAt w cfg2.N = VX2 m ρ c (Pipeline.arrRef spec2 w) := (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)
/-- A buffer the host operations before region 2 do not write is, at the region's entry, what it was. -/
theorem E2_keep (c : Dev nD) (b : Ref sig .tc) (h : b ∉ hostOps2_W) : E2 m ρ c (Proc.devRef .tc b) = X1 m ρ c (Proc.devRef .tc b) :=
  StableHlo.after_of_writes_sub hostOps2 _ hostOps2_writes h
/-- Region 2 changes only its output window's array: an input window's array ends as it was (the pipeline only reads
    it), and a buffer that is no window's array is not touched. -/
theorem X2_keep (c : Dev nD) (b : Ref sig .tc) (hb : b ≠ Pipeline.arrRef spec2 5) :
    X2 m ρ c (Proc.devRef .tc b) = E2 m ρ c (Proc.devRef .tc b) := by
  by_cases h : ∃ w, Pipeline.arrRef spec2 w = b
  · obtain ⟨w, rfl⟩ := h
    rw [X2_arr]
    match w, hb with
    | ⟨0, _⟩, _ => exact ((Region2.dat (VE2 m ρ) c).arrAt_in 0 rfl _).trans (Region2.A_eq (VE2 m ρ) c 0)
    | ⟨1, _⟩, _ => exact ((Region2.dat (VE2 m ρ) c).arrAt_in 1 rfl _).trans (Region2.A_eq (VE2 m ρ) c 1)
    | ⟨2, _⟩, _ => exact ((Region2.dat (VE2 m ρ) c).arrAt_in 2 rfl _).trans (Region2.A_eq (VE2 m ρ) c 2)
    | ⟨3, _⟩, _ => exact ((Region2.dat (VE2 m ρ) c).arrAt_in 3 rfl _).trans (Region2.A_eq (VE2 m ρ) c 3)
    | ⟨4, _⟩, _ => exact ((Region2.dat (VE2 m ρ) c).arrAt_in 4 rfl _).trans (Region2.A_eq (VE2 m ρ) c 4)
    | ⟨5, _⟩, hb => exact absurd rfl hb
  · exact X2_of_ne m ρ c b fun w e => h ⟨w, e⟩

/-! ### Region 3 -/

/-- The buffers when region 3 is entered: the host operations before it have run. -/
abbrev E3 : Dev nD → Valuation τ sig (Elt F) := fun c => StableHlo.after hostOps3 (X2 m ρ c)
abbrev VE3 : (c : Dev nD) → (b : Ref sig .tc) → Buf (Elt F) ((c : Thread nD τ).loc b) := fun c b => E3 m ρ c b
/-- The buffers when region 3 is left: its windows' arrays at what the write-backs leave, every other buffer as entered. -/
def X3 (c : Dev nD) : Valuation τ sig (Elt F) :=
  Pipeline.withArrays spec3 c (E3 m ρ c) fun w => (Region3.dat (VE3 m ρ) c).arrAt w cfg3.N
theorem X3_arr (c : Dev nD) (w : Fin cfg3.W) :
    X3 m ρ c (Proc.devRef .tc (Pipeline.arrRef spec3 w)) = (Region3.dat (VE3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = E3 m ρ c (Proc.devRef .tc b) := by
  unfold X3; exact Pipeline.withArrays_of_ne spec3 c _ _ b hb
abbrev VX3 : (c : Dev nD) → (b : Ref sig .tc) → Buf (Elt F) ((c : Thread nD τ).loc b) := fun c b => X3 m ρ c b
theorem hF3 (c : Dev nD) (w : Fin cfg3.W) :
    (Region3.dat (VE3 m ρ) c).arrAt w cfg3.N = VX3 m ρ c (Pipeline.arrRef spec3 w) := (X3_arr m ρ c w).symm
theorem hrest3 (c : Dev nD) : ∀ b, b ∉ Finset.univ.image (Pipeline.arrRef spec3) → VX3 m ρ c b = VE3 m ρ c b :=
  fun b hb => X3_of_ne m ρ c b fun w e => hb (Finset.mem_image.mpr ⟨w, Finset.mem_univ _, e⟩)
/-- A buffer the host operations before region 3 do not write is, at the region's entry, what it was. -/
theorem E3_keep (c : Dev nD) (b : Ref sig .tc) (h : b ∉ hostOps3_W) : E3 m ρ c (Proc.devRef .tc b) = X2 m ρ c (Proc.devRef .tc b) :=
  StableHlo.after_of_writes_sub hostOps3 _ hostOps3_writes h
/-- Region 3 changes only its output window's array: an input window's array ends as it was (the pipeline only reads
    it), and a buffer that is no window's array is not touched. -/
theorem X3_keep (c : Dev nD) (b : Ref sig .tc) (hb : b ≠ Pipeline.arrRef spec3 5) :
    X3 m ρ c (Proc.devRef .tc b) = E3 m ρ c (Proc.devRef .tc b) := by
  by_cases h : ∃ w, Pipeline.arrRef spec3 w = b
  · obtain ⟨w, rfl⟩ := h
    rw [X3_arr]
    match w, hb with
    | ⟨0, _⟩, _ => exact ((Region3.dat (VE3 m ρ) c).arrAt_in 0 rfl _).trans (Region3.A_eq (VE3 m ρ) c 0)
    | ⟨1, _⟩, _ => exact ((Region3.dat (VE3 m ρ) c).arrAt_in 1 rfl _).trans (Region3.A_eq (VE3 m ρ) c 1)
    | ⟨2, _⟩, _ => exact ((Region3.dat (VE3 m ρ) c).arrAt_in 2 rfl _).trans (Region3.A_eq (VE3 m ρ) c 2)
    | ⟨3, _⟩, _ => exact ((Region3.dat (VE3 m ρ) c).arrAt_in 3 rfl _).trans (Region3.A_eq (VE3 m ρ) c 3)
    | ⟨4, _⟩, _ => exact ((Region3.dat (VE3 m ρ) c).arrAt_in 4 rfl _).trans (Region3.A_eq (VE3 m ρ) c 4)
    | ⟨5, _⟩, hb => exact absurd rfl hb
  · exact X3_of_ne m ρ c b fun w e => h ⟨w, e⟩

/-! ### Region 4 -/

/-- The buffers when region 4 is entered: the host operations before it have run. -/
abbrev E4 : Dev nD → Valuation τ sig (Elt F) := fun c => StableHlo.after hostOps4 (X3 m ρ c)
abbrev VE4 : (c : Dev nD) → (b : Ref sig .tc) → Buf (Elt F) ((c : Thread nD τ).loc b) := fun c b => E4 m ρ c b
/-- The buffers when region 4 is left: its windows' arrays at what the write-backs leave, every other buffer as entered. -/
def X4 (c : Dev nD) : Valuation τ sig (Elt F) :=
  Pipeline.withArrays spec4 c (E4 m ρ c) fun w => (Region4.dat (VE4 m ρ) c).arrAt w cfg4.N
theorem X4_arr (c : Dev nD) (w : Fin cfg4.W) :
    X4 m ρ c (Proc.devRef .tc (Pipeline.arrRef spec4 w)) = (Region4.dat (VE4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = E4 m ρ c (Proc.devRef .tc b) := by
  unfold X4; exact Pipeline.withArrays_of_ne spec4 c _ _ b hb
abbrev VX4 : (c : Dev nD) → (b : Ref sig .tc) → Buf (Elt F) ((c : Thread nD τ).loc b) := fun c b => X4 m ρ c b
theorem hF4 (c : Dev nD) (w : Fin cfg4.W) :
    (Region4.dat (VE4 m ρ) c).arrAt w cfg4.N = VX4 m ρ c (Pipeline.arrRef spec4 w) := (X4_arr m ρ c w).symm
theorem hrest4 (c : Dev nD) : ∀ b, b ∉ Finset.univ.image (Pipeline.arrRef spec4) → VX4 m ρ c b = VE4 m ρ c b :=
  fun b hb => X4_of_ne m ρ c b fun w e => hb (Finset.mem_image.mpr ⟨w, Finset.mem_univ _, e⟩)
/-- A buffer the host operations before region 4 do not write is, at the region's entry, what it was. -/
theorem E4_keep (c : Dev nD) (b : Ref sig .tc) (h : b ∉ hostOps4_W) : E4 m ρ c (Proc.devRef .tc b) = X3 m ρ c (Proc.devRef .tc b) :=
  StableHlo.after_of_writes_sub hostOps4 _ hostOps4_writes h
/-- Region 4 changes only its output window's array: an input window's array ends as it was (the pipeline only reads
    it), and a buffer that is no window's array is not touched. -/
theorem X4_keep (c : Dev nD) (b : Ref sig .tc) (hb : b ≠ Pipeline.arrRef spec4 5) :
    X4 m ρ c (Proc.devRef .tc b) = E4 m ρ c (Proc.devRef .tc b) := by
  by_cases h : ∃ w, Pipeline.arrRef spec4 w = b
  · obtain ⟨w, rfl⟩ := h
    rw [X4_arr]
    match w, hb with
    | ⟨0, _⟩, _ => exact ((Region4.dat (VE4 m ρ) c).arrAt_in 0 rfl _).trans (Region4.A_eq (VE4 m ρ) c 0)
    | ⟨1, _⟩, _ => exact ((Region4.dat (VE4 m ρ) c).arrAt_in 1 rfl _).trans (Region4.A_eq (VE4 m ρ) c 1)
    | ⟨2, _⟩, _ => exact ((Region4.dat (VE4 m ρ) c).arrAt_in 2 rfl _).trans (Region4.A_eq (VE4 m ρ) c 2)
    | ⟨3, _⟩, _ => exact ((Region4.dat (VE4 m ρ) c).arrAt_in 3 rfl _).trans (Region4.A_eq (VE4 m ρ) c 3)
    | ⟨4, _⟩, _ => exact ((Region4.dat (VE4 m ρ) c).arrAt_in 4 rfl _).trans (Region4.A_eq (VE4 m ρ) c 4)
    | ⟨5, _⟩, hb => exact absurd rfl hb
  · exact X4_of_ne m ρ c b fun w e => h ⟨w, e⟩

/-! ### Region 5 -/

/-- The buffers when region 5 is entered: the host operations before it have run. -/
abbrev E5 : Dev nD → Valuation τ sig (Elt F) := fun c => StableHlo.after hostOps5 (X4 m ρ c)
abbrev VE5 : (c : Dev nD) → (b : Ref sig .tc) → Buf (Elt F) ((c : Thread nD τ).loc b) := fun c b => E5 m ρ c b
/-- The buffers when region 5 is left: its windows' arrays at what the write-backs leave, every other buffer as entered. -/
def X5 (c : Dev nD) : Valuation τ sig (Elt F) :=
  Pipeline.withArrays spec5 c (E5 m ρ c) fun w => (Region5.dat (VE5 m ρ) c).arrAt w cfg5.N
theorem X5_arr (c : Dev nD) (w : Fin cfg5.W) :
    X5 m ρ c (Proc.devRef .tc (Pipeline.arrRef spec5 w)) = (Region5.dat (VE5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = E5 m ρ c (Proc.devRef .tc b) := by
  unfold X5; exact Pipeline.withArrays_of_ne spec5 c _ _ b hb
abbrev VX5 : (c : Dev nD) → (b : Ref sig .tc) → Buf (Elt F) ((c : Thread nD τ).loc b) := fun c b => X5 m ρ c b
theorem hF5 (c : Dev nD) (w : Fin cfg5.W) :
    (Region5.dat (VE5 m ρ) c).arrAt w cfg5.N = VX5 m ρ c (Pipeline.arrRef spec5 w) := (X5_arr m ρ c w).symm
theorem hrest5 (c : Dev nD) : ∀ b, b ∉ Finset.univ.image (Pipeline.arrRef spec5) → VX5 m ρ c b = VE5 m ρ c b :=
  fun b hb => X5_of_ne m ρ c b fun w e => hb (Finset.mem_image.mpr ⟨w, Finset.mem_univ _, e⟩)
/-- A buffer the host operations before region 5 do not write is, at the region's entry, what it was. -/
theorem E5_keep (c : Dev nD) (b : Ref sig .tc) (h : b ∉ hostOps5_W) : E5 m ρ c (Proc.devRef .tc b) = X4 m ρ c (Proc.devRef .tc b) :=
  StableHlo.after_of_writes_sub hostOps5 _ hostOps5_writes h
/-- Region 5 changes only its output window's array: an input window's array ends as it was (the pipeline only reads
    it), and a buffer that is no window's array is not touched. -/
theorem X5_keep (c : Dev nD) (b : Ref sig .tc) (hb : b ≠ Pipeline.arrRef spec5 5) :
    X5 m ρ c (Proc.devRef .tc b) = E5 m ρ c (Proc.devRef .tc b) := by
  by_cases h : ∃ w, Pipeline.arrRef spec5 w = b
  · obtain ⟨w, rfl⟩ := h
    rw [X5_arr]
    match w, hb with
    | ⟨0, _⟩, _ => exact ((Region5.dat (VE5 m ρ) c).arrAt_in 0 rfl _).trans (Region5.A_eq (VE5 m ρ) c 0)
    | ⟨1, _⟩, _ => exact ((Region5.dat (VE5 m ρ) c).arrAt_in 1 rfl _).trans (Region5.A_eq (VE5 m ρ) c 1)
    | ⟨2, _⟩, _ => exact ((Region5.dat (VE5 m ρ) c).arrAt_in 2 rfl _).trans (Region5.A_eq (VE5 m ρ) c 2)
    | ⟨3, _⟩, _ => exact ((Region5.dat (VE5 m ρ) c).arrAt_in 3 rfl _).trans (Region5.A_eq (VE5 m ρ) c 3)
    | ⟨4, _⟩, _ => exact ((Region5.dat (VE5 m ρ) c).arrAt_in 4 rfl _).trans (Region5.A_eq (VE5 m ρ) c 4)
    | ⟨5, _⟩, hb => exact absurd rfl hb
  · exact X5_of_ne m ρ c b fun w e => h ⟨w, e⟩

/-! ### Region 6 -/

/-- The buffers when region 6 is entered: the host operations before it have run. -/
abbrev E6 : Dev nD → Valuation τ sig (Elt F) := fun c => StableHlo.after hostOps6 (X5 m ρ c)
abbrev VE6 : (c : Dev nD) → (b : Ref sig .tc) → Buf (Elt F) ((c : Thread nD τ).loc b) := fun c b => E6 m ρ c b
/-- The buffers when region 6 is left: its windows' arrays at what the write-backs leave, every other buffer as entered. -/
def X6 (c : Dev nD) : Valuation τ sig (Elt F) :=
  Pipeline.withArrays spec6 c (E6 m ρ c) fun w => (Region6.dat (VE6 m ρ) c).arrAt w cfg6.N
theorem X6_arr (c : Dev nD) (w : Fin cfg6.W) :
    X6 m ρ c (Proc.devRef .tc (Pipeline.arrRef spec6 w)) = (Region6.dat (VE6 m ρ) c).arrAt w cfg6.N := by
  unfold X6; exact Pipeline.withArrays_arr spec6 launch6.win.arr_inj c _ _ w
theorem X6_of_ne (c : Dev nD) (b : Ref sig .tc) (hb : ∀ w, Pipeline.arrRef spec6 w ≠ b) :
    X6 m ρ c (Proc.devRef .tc b) = E6 m ρ c (Proc.devRef .tc b) := by
  unfold X6; exact Pipeline.withArrays_of_ne spec6 c _ _ b hb
abbrev VX6 : (c : Dev nD) → (b : Ref sig .tc) → Buf (Elt F) ((c : Thread nD τ).loc b) := fun c b => X6 m ρ c b
theorem hF6 (c : Dev nD) (w : Fin cfg6.W) :
    (Region6.dat (VE6 m ρ) c).arrAt w cfg6.N = VX6 m ρ c (Pipeline.arrRef spec6 w) := (X6_arr m ρ c w).symm
theorem hrest6 (c : Dev nD) : ∀ b, b ∉ Finset.univ.image (Pipeline.arrRef spec6) → VX6 m ρ c b = VE6 m ρ c b :=
  fun b hb => X6_of_ne m ρ c b fun w e => hb (Finset.mem_image.mpr ⟨w, Finset.mem_univ _, e⟩)
/-- A buffer the host operations before region 6 do not write is, at the region's entry, what it was. -/
theorem E6_keep (c : Dev nD) (b : Ref sig .tc) (h : b ∉ hostOps6_W) : E6 m ρ c (Proc.devRef .tc b) = X5 m ρ c (Proc.devRef .tc b) :=
  StableHlo.after_of_writes_sub hostOps6 _ hostOps6_writes h
/-- Region 6 changes only its output window's array: an input window's array ends as it was (the pipeline only reads
    it), and a buffer that is no window's array is not touched. -/
theorem X6_keep (c : Dev nD) (b : Ref sig .tc) (hb : b ≠ Pipeline.arrRef spec6 5) :
    X6 m ρ c (Proc.devRef .tc b) = E6 m ρ c (Proc.devRef .tc b) := by
  by_cases h : ∃ w, Pipeline.arrRef spec6 w = b
  · obtain ⟨w, rfl⟩ := h
    rw [X6_arr]
    match w, hb with
    | ⟨0, _⟩, _ => exact ((Region6.dat (VE6 m ρ) c).arrAt_in 0 rfl _).trans (Region6.A_eq (VE6 m ρ) c 0)
    | ⟨1, _⟩, _ => exact ((Region6.dat (VE6 m ρ) c).arrAt_in 1 rfl _).trans (Region6.A_eq (VE6 m ρ) c 1)
    | ⟨2, _⟩, _ => exact ((Region6.dat (VE6 m ρ) c).arrAt_in 2 rfl _).trans (Region6.A_eq (VE6 m ρ) c 2)
    | ⟨3, _⟩, _ => exact ((Region6.dat (VE6 m ρ) c).arrAt_in 3 rfl _).trans (Region6.A_eq (VE6 m ρ) c 3)
    | ⟨4, _⟩, _ => exact ((Region6.dat (VE6 m ρ) c).arrAt_in 4 rfl _).trans (Region6.A_eq (VE6 m ρ) c 4)
    | ⟨5, _⟩, hb => exact absurd rfl hb
  · exact X6_of_ne m ρ c b fun w e => h ⟨w, e⟩

/-! ### Region 7 -/

/-- The buffers when region 7 is entered: the host operations before it have run. -/
abbrev E7 : Dev nD → Valuation τ sig (Elt F) := fun c => StableHlo.after hostOps7 (X6 m ρ c)
abbrev VE7 : (c : Dev nD) → (b : Ref sig .tc) → Buf (Elt F) ((c : Thread nD τ).loc b) := fun c b => E7 m ρ c b
/-- The buffers when region 7 is left: its windows' arrays at what the write-backs leave, every other buffer as entered. -/
def X7 (c : Dev nD) : Valuation τ sig (Elt F) :=
  Pipeline.withArrays spec7 c (E7 m ρ c) fun w => (Region7.dat (VE7 m ρ) c).arrAt w cfg7.N
theorem X7_arr (c : Dev nD) (w : Fin cfg7.W) :
    X7 m ρ c (Proc.devRef .tc (Pipeline.arrRef spec7 w)) = (Region7.dat (VE7 m ρ) c).arrAt w cfg7.N := by
  unfold X7; exact Pipeline.withArrays_arr spec7 launch7.win.arr_inj c _ _ w
theorem X7_of_ne (c : Dev nD) (b : Ref sig .tc) (hb : ∀ w, Pipeline.arrRef spec7 w ≠ b) :
    X7 m ρ c (Proc.devRef .tc b) = E7 m ρ c (Proc.devRef .tc b) := by
  unfold X7; exact Pipeline.withArrays_of_ne spec7 c _ _ b hb
abbrev VX7 : (c : Dev nD) → (b : Ref sig .tc) → Buf (Elt F) ((c : Thread nD τ).loc b) := fun c b => X7 m ρ c b
theorem hF7 (c : Dev nD) (w : Fin cfg7.W) :
    (Region7.dat (VE7 m ρ) c).arrAt w cfg7.N = VX7 m ρ c (Pipeline.arrRef spec7 w) := (X7_arr m ρ c w).symm
theorem hrest7 (c : Dev nD) : ∀ b, b ∉ Finset.univ.image (Pipeline.arrRef spec7) → VX7 m ρ c b = VE7 m ρ c b :=
  fun b hb => X7_of_ne m ρ c b fun w e => hb (Finset.mem_image.mpr ⟨w, Finset.mem_univ _, e⟩)
/-- A buffer the host operations before region 7 do not write is, at the region's entry, what it was. -/
theorem E7_keep (c : Dev nD) (b : Ref sig .tc) (h : b ∉ hostOps7_W) : E7 m ρ c (Proc.devRef .tc b) = X6 m ρ c (Proc.devRef .tc b) :=
  StableHlo.after_of_writes_sub hostOps7 _ hostOps7_writes h
/-- Region 7 changes only its output window's array: an input window's array ends as it was (the pipeline only reads
    it), and a buffer that is no window's array is not touched. -/
theorem X7_keep (c : Dev nD) (b : Ref sig .tc) (hb : b ≠ Pipeline.arrRef spec7 5) :
    X7 m ρ c (Proc.devRef .tc b) = E7 m ρ c (Proc.devRef .tc b) := by
  by_cases h : ∃ w, Pipeline.arrRef spec7 w = b
  · obtain ⟨w, rfl⟩ := h
    rw [X7_arr]
    match w, hb with
    | ⟨0, _⟩, _ => exact ((Region7.dat (VE7 m ρ) c).arrAt_in 0 rfl _).trans (Region7.A_eq (VE7 m ρ) c 0)
    | ⟨1, _⟩, _ => exact ((Region7.dat (VE7 m ρ) c).arrAt_in 1 rfl _).trans (Region7.A_eq (VE7 m ρ) c 1)
    | ⟨2, _⟩, _ => exact ((Region7.dat (VE7 m ρ) c).arrAt_in 2 rfl _).trans (Region7.A_eq (VE7 m ρ) c 2)
    | ⟨3, _⟩, _ => exact ((Region7.dat (VE7 m ρ) c).arrAt_in 3 rfl _).trans (Region7.A_eq (VE7 m ρ) c 3)
    | ⟨4, _⟩, _ => exact ((Region7.dat (VE7 m ρ) c).arrAt_in 4 rfl _).trans (Region7.A_eq (VE7 m ρ) c 4)
    | ⟨5, _⟩, hb => exact absurd rfl hb
  · exact X7_of_ne m ρ c b fun w e => h ⟨w, e⟩

/-! ### A buffer no item writes ends as launched -/

theorem keep_all (c : Dev nD) (b : Ref sig .tc) (h0 : b ∉ hostOps0_W) (o0 : b ≠ Pipeline.arrRef spec0 5) (h1 : b ∉ hostOps1_W) (o1 : b ≠ Pipeline.arrRef spec1 5) (h2 : b ∉ hostOps2_W) (o2 : b ≠ Pipeline.arrRef spec2 5) (h3 : b ∉ hostOps3_W) (o3 : b ≠ Pipeline.arrRef spec3 5) (h4 : b ∉ hostOps4_W) (o4 : b ≠ Pipeline.arrRef spec4 5) (h5 : b ∉ hostOps5_W) (o5 : b ≠ Pipeline.arrRef spec5 5) (h6 : b ∉ hostOps6_W) (o6 : b ≠ Pipeline.arrRef spec6 5) (h7 : b ∉ hostOps7_W) (o7 : b ≠ Pipeline.arrRef spec7 5) :
    X7 m ρ c (Proc.devRef .tc b) = m ((c : Thread nD τ).loc b) :=
    (X7_keep m ρ c b o7).trans <| (E7_keep m ρ c b h7).trans <|
    (X6_keep m ρ c b o6).trans <| (E6_keep m ρ c b h6).trans <|
    (X5_keep m ρ c b o5).trans <| (E5_keep m ρ c b h5).trans <|
    (X4_keep m ρ c b o4).trans <| (E4_keep m ρ c b h4).trans <|
    (X3_keep m ρ c b o3).trans <| (E3_keep m ρ c b h3).trans <|
    (X2_keep m ρ c b o2).trans <| (E2_keep m ρ c b h2).trans <|
    (X1_keep m ρ c b o1).trans <| (E1_keep m ρ c b h1).trans <|
    (X0_keep m ρ c b o0).trans <| (E0_keep m ρ c b h0).trans <|
    rfl

/-! ### The proof data family and what rides beside the buffers -/

abbrev adm : (p : Fin 8) → (pcfgs (F := F) p).Adm := fun p => (cfgs p).toPCfg_adm
/-- Every region's proof data, each at its region's entry contents. -/
def pdats : (p : Fin 8) → (c : Dev nD) → Dat τ (Elt F) Unit ℕ (Pipeline.UD sig nD τ) ℕ (Pipeline.pin (pcfgs (F := F)) adm p) c
  | ⟨0, _⟩ => fun c => Region0.dat (VE0 m ρ) c
  | ⟨1, _⟩ => fun c => Region1.dat (VE1 m ρ) c
  | ⟨2, _⟩ => fun c => Region2.dat (VE2 m ρ) c
  | ⟨3, _⟩ => fun c => Region3.dat (VE3 m ρ) c
  | ⟨4, _⟩ => fun c => Region4.dat (VE4 m ρ) c
  | ⟨5, _⟩ => fun c => Region5.dat (VE5 m ρ) c
  | ⟨6, _⟩ => fun c => Region6.dat (VE6 m ρ) c
  | ⟨7, _⟩ => fun c => Region7.dat (VE7 m ρ) c
abbrev 𝒱₀ : Variants := Variants.none
abbrev L : GSem nD τ sig → Finset Unit := fun _ => ∅
abbrev lv : GSem nD τ sig → Unit → ℕ := fun _ _ => 0
/-- Beside the buffers every item carries the core's generator register at some state and the fact that it owes nothing. -/
abbrev R (c : Dev nD) : sProp 𝕄 := iprop((∃ r, prngReg c r) ∗ ∃ W, owes (c : Thread nD τ) (0 : CellTallies nD τ sig Unit) W)
/-- A stretch of host operations as an item: from the unscoped buffers at `W` to them at the operations' result. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (X7 m ρ c) ∗ ∃ r, prngReg c r)

end Cert.Kernel.Fold

end
-- ==== Proof.KBSeg0.lean ====
/- Region 0 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (VE0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg1.lean ====
/- Region 1 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (VE1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg2.lean ====
/- Region 2 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (VE2 m ρ) c).loose
  hwaits := Pipeline.hwaits_of_owed_zero _ _ _ _ L lv 2 fun _ _ => rfl
  pre c := iprop(StableHlo.held (c : Thread nD τ) (Pipeline.ucRefs τ sig) (E2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg3.lean ====
/- Region 3 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (VE3 m ρ) c).loose
  hwaits := Pipeline.hwaits_of_owed_zero _ _ _ _ L lv 3 fun _ _ => rfl
  pre c := iprop(StableHlo.held (c : Thread nD τ) (Pipeline.ucRefs τ sig) (E3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg4.lean ====
/- Region 4 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Region4.body_obligation (VE4 m ρ) c).loose
  hwaits := Pipeline.hwaits_of_owed_zero _ _ _ _ L lv 4 fun _ _ => rfl
  pre c := iprop(StableHlo.held (c : Thread nD τ) (Pipeline.ucRefs τ sig) (E4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (VE4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (VE4 m ρ c) (VX4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg5.lean ====
/- Region 5 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (Region5.body_obligation (VE5 m ρ) c).loose
  hwaits := Pipeline.hwaits_of_owed_zero _ _ _ _ L lv 5 fun _ _ => rfl
  pre c := iprop(StableHlo.held (c : Thread nD τ) (Pipeline.ucRefs τ sig) (E5 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (VE5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (VE5 m ρ c) (VX5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg6.lean ====
/- Region 6 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Region6.body_obligation (VE6 m ρ) c).loose
  hwaits := Pipeline.hwaits_of_owed_zero _ _ _ _ L lv 6 fun _ _ => rfl
  pre c := iprop(StableHlo.held (c : Thread nD τ) (Pipeline.ucRefs τ sig) (E6 m ρ c) ∗ R c)
  post c := iprop(StableHlo.held (c : Thread nD τ) (Pipeline.ucRefs τ sig) (X6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (VE6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (VE6 m ρ c) (VX6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBSeg7.lean ====
/- Region 7 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KBFold

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (Region7.body_obligation (VE7 m ρ) c).loose
  hwaits := Pipeline.hwaits_of_owed_zero _ _ _ _ L lv 7 fun _ _ => rfl
  pre c := iprop(StableHlo.held (c : Thread nD τ) (Pipeline.ucRefs τ sig) (E7 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (VE7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (VE7 m ρ c) (VX7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.KBRun.lean ====
/- The whole run of the entry function: its sixteen items — a stretch of host operations before each of the eight
   regions — chained from the launch to the return. Every weakly fair execution terminates without a fault; at the end
   the result array holds what the last region leaves in it (the fold's last contents, `X7`) and every argument array
   holds what it held at launch. -/
import proofs.«136217_j57939108823477_1_alg».proof.Proof.KBSeg0
import proofs.«136217_j57939108823477_1_alg».proof.Proof.KBSeg1
import proofs.«136217_j57939108823477_1_alg».proof.Proof.KBSeg2
import proofs.«136217_j57939108823477_1_alg».proof.Proof.KBSeg3
import proofs.«136217_j57939108823477_1_alg».proof.Proof.KBSeg4
import proofs.«136217_j57939108823477_1_alg».proof.Proof.KBSeg5
import proofs.«136217_j57939108823477_1_alg».proof.Proof.KBSeg6
import proofs.«136217_j57939108823477_1_alg».proof.Proof.KBSeg7

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The sixteen items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ),
    .host (hseg hostOps6 hostOps6_sub hostOps6_fresh (X5 m ρ)),
    .region (reg6 m ρ),
    .host (hseg hostOps7 hostOps7_sub hostOps7_fresh (X6 m ρ)),
    .region (reg7 m ρ) ]

/-- The entry function is the run of the items. -/
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v106) = X7 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m ρ c b)
    (hfin := fun c s' => by
      iintro ⟨⟨Hh, -⟩, HSI⟩
      unfold StableHlo.held
      imodintro
      iapply (pointsTo_read_all (Pipeline.ucRefs τ sig) (fun b => (((c : Thread nD τ)).1, b)) (X7 m ρ c) s')
      isplitl [Hh] <;> iassumption)
    (hQ := fun s h c =>
      ⟨h c _ (mem_uc main_v106 (by decide)),
       (h c _ (mem_uc main_arg0 (by decide))).trans (keep_all m ρ c main_arg0 (by decide) (by decide) (by decide) (by decide) (by decide) (by decide) (by decide) (by decide) (by decide) (by decide) (by decide) (by decide) (by decide) (by decide) (by decide) (by decide)),
       (h c _ (mem_uc main_arg1 (by decide))).trans (keep_all m ρ c main_arg1 (by decide) (by decide) (by decide) (by decide) (by decide) (by decide) (by decide) (by decide) (by decide) (by decide) (by decide) (by decide) (by decide) (by decide) (by decide) (by decide)),
       (h c _ (mem_uc main_arg2 (by decide))).trans (keep_all m ρ c main_arg2 (by decide) (by decide) (by decide) (by decide) (by decide) (by decide) (by decide) (by decide) (by decide) (by decide) (by decide) (by decide) (by decide) (by decide) (by decide) (by decide)),
       (h c _ (mem_uc main_arg3 (by decide))).trans (keep_all m ρ c main_arg3 (by decide) (by decide) (by decide) (by decide) (by decide) (by decide) (by decide) (by decide) (by decide) (by decide) (by decide) (by decide) (by decide) (by decide) (by decide) (by decide)),
       (h c _ (mem_uc main_arg4 (by decide))).trans (keep_all m ρ c main_arg4 (by decide) (by decide) (by decide) (by decide) (by decide) (by decide) (by decide) (by decide) (by decide) (by decide) (by decide) (by decide) (by decide) (by decide) (by decide) (by decide)),
       (h c _ (mem_uc main_arg5 (by decide))).trans (keep_all m ρ c main_arg5 (by decide) (by decide) (by decide) (by decide) (by decide) (by decide) (by decide) (by decide) (by decide) (by decide) (by decide) (by decide) (by decide) (by decide) (by decide) (by decide)),
       (h c _ (mem_uc main_arg6 (by decide))).trans (keep_all m ρ c main_arg6 (by decide) (by decide) (by decide) (by decide) (by decide) (by decide) (by decide) (by decide) (by decide) (by decide) (by decide) (by decide) (by decide) (by decide) (by decide) (by decide)),
       (h c _ (mem_uc main_arg7 (by decide))).trans (keep_all m ρ c main_arg7 (by decide) (by decide) (by decide) (by decide) (by decide) (by decide) (by decide) (by decide) (by decide) (by decide) (by decide) (by decide) (by decide) (by decide) (by decide) (by decide)),
       (h c _ (mem_uc main_arg8 (by decide))).trans (keep_all m ρ c main_arg8 (by decide) (by decide) (by decide) (by decide) (by decide) (by decide) (by decide) (by decide) (by decide) (by decide) (by decide) (by decide) (by decide) (by decide) (by decide) (by decide)),
       (h c _ (mem_uc main_arg9 (by decide))).trans (keep_all m ρ c main_arg9 (by decide) (by decide) (by decide) (by decide) (by decide) (by decide) (by decide) (by decide) (by decide) (by decide) (by decide) (by decide) (by decide) (by decide) (by decide) (by decide)),
       (h c _ (mem_uc main_arg10 (by decide))).trans (keep_all m ρ c main_arg10 (by decide) (by decide) (by decide) (by decide) (by decide) (by decide) (by decide) (by decide) (by decide) (by decide) (by decide) (by decide) (by decide) (by decide) (by decide) (by decide)),
       (h c _ (mem_uc main_arg11 (by decide))).trans (keep_all m ρ c main_arg11 (by decide) (by decide) (by decide) (by decide) (by decide) (by decide) (by decide) (by decide) (by decide) (by decide) (by decide) (by decide) (by decide) (by decide) (by decide) (by decide)),
       (h c _ (mem_uc main_arg12 (by decide))).trans (keep_all m ρ c main_arg12 (by decide) (by decide) (by decide) (by decide) (by decide) (by decide) (by decide) (by decide) (by decide) (by decide) (by decide) (by decide) (by decide) (by decide) (by decide) (by decide)),
       (h c _ (mem_uc main_arg13 (by decide))).trans (keep_all m ρ c main_arg13 (by decide) (by decide) (by decide) (by decide) (by decide) (by decide) (by decide) (by decide) (by decide) (by decide) (by decide) (by decide) (by decide) (by decide) (by decide) (by decide)),
       (h c _ (mem_uc main_arg14 (by decide))).trans (keep_all m ρ c main_arg14 (by decide) (by decide) (by decide) (by decide) (by decide) (by decide) (by decide) (by decide) (by decide) (by decide) (by decide) (by decide) (by decide) (by decide) (by decide) (by decide)),
       (h c _ (mem_uc main_arg15 (by decide))).trans (keep_all m ρ c main_arg15 (by decide) (by decide) (by decide) (by decide) (by decide) (by decide) (by decide) (by decide) (by decide) (by decide) (by decide) (by decide) (by decide) (by decide) (by decide) (by decide)),
       (h c _ (mem_uc main_arg16 (by decide))).trans (keep_all m ρ c main_arg16 (by decide) (by decide) (by decide) (by decide) (by decide) (by decide) (by decide) (by decide) (by decide) (by decide) (by decide) (by decide) (by decide) (by decide) (by decide) (by decide)),
       (h c _ (mem_uc main_arg17 (by decide))).trans (keep_all m ρ c main_arg17 (by decide) (by decide) (by decide) (by decide) (by decide) (by decide) (by decide) (by decide) (by decide) (by decide) (by decide) (by decide) (by decide) (by decide) (by decide) (by decide)),
       (h c _ (mem_uc main_arg18 (by decide))).trans (keep_all m ρ c main_arg18 (by decide) (by decide) (by decide) (by decide) (by decide) (by decide) (by decide) (by decide) (by decide) (by decide) (by decide) (by decide) (by decide) (by decide) (by decide) (by decide)),
       (h c _ (mem_uc main_arg19 (by decide))).trans (keep_all m ρ c main_arg19 (by decide) (by decide) (by decide) (by decide) (by decide) (by decide) (by decide) (by decide) (by decide) (by decide) (by decide) (by decide) (by decide) (by decide) (by decide) (by decide)),
       (h c _ (mem_uc main_arg20 (by decide))).trans (keep_all m ρ c main_arg20 (by decide) (by decide) (by decide) (by decide) (by decide) (by decide) (by decide) (by decide) (by decide) (by decide) (by decide) (by decide) (by decide) (by decide) (by decide) (by decide)),
       (h c _ (mem_uc main_arg21 (by decide))).trans (keep_all m ρ c main_arg21 (by decide) (by decide) (by decide) (by decide) (by decide) (by decide) (by decide) (by decide) (by decide) (by decide) (by decide) (by decide) (by decide) (by decide) (by decide) (by decide)),
       (h c _ (mem_uc main_arg22 (by decide))).trans (keep_all m ρ c main_arg22 (by decide) (by decide) (by decide) (by decide) (by decide) (by decide) (by decide) (by decide) (by decide) (by decide) (by decide) (by decide) (by decide) (by decide) (by decide) (by decide)),
       (h c _ (mem_uc main_arg23 (by decide))).trans (keep_all m ρ c main_arg23 (by decide) (by decide) (by decide) (by decide) (by decide) (by decide) (by decide) (by decide) (by decide) (by decide) (by decide) (by decide) (by decide) (by decide) (by decide) (by decide)),
       (h c _ (mem_uc main_arg24 (by decide))).trans (keep_all m ρ c main_arg24 (by decide) (by decide) (by decide) (by decide) (by decide) (by decide) (by decide) (by decide) (by decide) (by decide) (by decide) (by decide) (by decide) (by decide) (by decide) (by decide)),
       (h c _ (mem_uc main_arg25 (by decide))).trans (keep_all m ρ c main_arg25 (by decide) (by decide) (by decide) (by decide) (by decide) (by decide) (by decide) (by decide) (by decide) (by decide) (by decide) (by decide) (by decide) (by decide) (by decide) (by decide)),
       (h c _ (mem_uc main_arg26 (by decide))).trans (keep_all m ρ c main_arg26 (by decide) (by decide) (by decide) (by decide) (by decide) (by decide) (by decide) (by decide) (by decide) (by decide) (by decide) (by decide) (by decide) (by decide) (by decide) (by decide)),
       (h c _ (mem_uc main_arg27 (by decide))).trans (keep_all m ρ c main_arg27 (by decide) (by decide) (by decide) (by decide) (by decide) (by decide) (by decide) (by decide) (by decide) (by decide) (by decide) (by decide) (by decide) (by decide) (by decide) (by decide))⟩)

end Cert.Kernel.Fold

end
-- ==== Proof.KIRegion0.lean ====
/- Region 0 of the kernel program, the first embedding (rows of width 3): the body's run on one row block, and the pipeline's bookkeeping for it.

   The region walks a grid of row blocks of 5000 rows. At every grid point the body reads its five input blocks whole,
   computes one pure function of them (the generated payload `k0_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg0 c)
    (hA : dat.A 3 = V c (Pipeline.arrRef spec0 3)) (hafter : ∀ t, dat.after 3 t = blk V c 3 t) (t : Fin cfg0.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg0 c)
    (hA : dat.A 4 = V c (Pipeline.arrRef spec0 4)) (hafter : ∀ t, dat.after 4 t = blk V c 4 t) (t : Fin cfg0.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x3 .f32) (x1 : Vec F S3x128 .f32) (x2 : Vec F S1x128 .f32) (x3 : Vec F S128x128 .f32) (x4 : Vec F S1x128 .f32) : Vec F S5000x128 .f32 :=
  View.canon [⟨whole_S5000x128, k0_pay1 (View.ld x0 whole_S5000x3) (View.ld x1 whole_S3x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid0.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x3 .f32) (x1 : Vec F S3x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc0__embed_kernel i arg1 harg1 arg2 harg2 arg3 harg3 arg4 harg4 arg5 harg5 arg6 harg6) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = out (blk V c 0 t) (blk V c 1 t) (blk V c 2 t) (blk V c 3 t) (blk V c 4 t) := by dsimp only [dat]

theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d
theorem before_4 (c : Dev nD) (t : Fin cfg0.N) (d) : (dat V c).before 4 t d = blk V c 4 t :=
  before_of_4 V (dat V c) (A_eq V c 4) (after_4 V c) t d

/-- What the body is handed at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any grid point: the input buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.KIRegion1.lean ====
/- Region 1 of the kernel program, the second embedding (rows of width 3): the body's run on one row block, and the pipeline's bookkeeping for it.

   The region walks a grid of row blocks of 5000 rows. At every grid point the body reads its five input blocks whole,
   computes one pure function of them (the generated payload `k1_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg1 c)
    (hA : dat.A 3 = V c (Pipeline.arrRef spec1 3)) (hafter : ∀ t, dat.after 3 t = blk V c 3 t) (t : Fin cfg1.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg1 c)
    (hA : dat.A 4 = V c (Pipeline.arrRef spec1 4)) (hafter : ∀ t, dat.after 4 t = blk V c 4 t) (t : Fin cfg1.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x3 .f32) (x1 : Vec F S3x128 .f32) (x2 : Vec F S1x128 .f32) (x3 : Vec F S128x128 .f32) (x4 : Vec F S1x128 .f32) : Vec F S5000x128 .f32 :=
  View.canon [⟨whole_S5000x128, k1_pay1 (View.ld x0 whole_S5000x3) (View.ld x1 whole_S3x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid1.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x3 .f32) (x1 : Vec F S3x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc1__embed_kernel i arg1 harg1 arg2 harg2 arg3 harg3 arg4 harg4 arg5 harg5 arg6 harg6) K := by
  simp only [cc1__embed_kernel_eq_skeleton]; unfold cc1__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  before_of_0 V (dat V c) (A_eq V c 0) (after_0 V c) t d
theorem before_1 (c : Dev nD) (t : Fin cfg1.N) (d) : (dat V c).before 1 t d = blk V c 1 t :=
  before_of_1 V (dat V c) (A_eq V c 1) (after_1 V c) t d
theorem before_2 (c : Dev nD) (t : Fin cfg1.N) (d) : (dat V c).before 2 t d = blk V c 2 t :=
  before_of_2 V (dat V c) (A_eq V c 2) (after_2 V c) t d
theorem before_3 (c : Dev nD) (t : Fin cfg1.N) (d) : (dat V c).before 3 t d = blk V c 3 t :=
  before_of_3 V (dat V c) (A_eq V c 3) (after_3 V c) t d
theorem before_4 (c : Dev nD) (t : Fin cfg1.N) (d) : (dat V c).before 4 t d = blk V c 4 t :=
  before_of_4 V (dat V c) (A_eq V c 4) (after_4 V c) t d

/-- What the body is handed at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any grid point: the input buffers hold their blocks, so `sound_kernel` applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.KIRegion2.lean ====
/- Region 2 of the kernel program, the third embedding (rows of width 6): the body's run on one row block, and the pipeline's bookkeeping for it.

   The region walks a grid of row blocks of 5000 rows. At every grid point the body reads its five input blocks whole,
   computes one pure function of them (the generated payload `k2_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg2 c)
    (hA : dat.A 3 = V c (Pipeline.arrRef spec2 3)) (hafter : ∀ t, dat.after 3 t = blk V c 3 t) (t : Fin cfg2.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg2 c)
    (hA : dat.A 4 = V c (Pipeline.arrRef spec2 4)) (hafter : ∀ t, dat.after 4 t = blk V c 4 t) (t : Fin cfg2.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x6 : Rect S5000x6 := Rect.unit (s := S5000x6) ![0, 0] S5000x6.size inb_S5000x6_S5000x6_0_0
abbrev whole_S6x128 : Rect S6x128 := Rect.unit (s := S6x128) ![0, 0] S6x128.size inb_S6x128_S6x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x6 .f32) (x1 : Vec F S6x128 .f32) (x2 : Vec F S1x128 .f32) (x3 : Vec F S128x128 .f32) (x4 : Vec F S1x128 .f32) : Vec F S5000x128 .f32 :=
  View.canon [⟨whole_S5000x128, k2_pay1 (View.ld x0 whole_S5000x6) (View.ld x1 whole_S6x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid2.Coords) (arg1 : Memref sig .tc .vmem S5000x6 .f32) (harg1 : arg1.IsWhole) (arg2 : Memref sig .tc .vmem S6x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x6 .f32) (x1 : Vec F S6x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc2__embed_kernel i arg1 harg1 arg2 harg2 arg3 harg3 arg4 harg4 arg5 harg5 arg6 harg6) K := by
  simp only [cc2__embed_kernel_eq_skeleton]; unfold cc2__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  before_of_0 V (dat V c) (A_eq V c 0) (after_0 V c) t d
theorem before_1 (c : Dev nD) (t : Fin cfg2.N) (d) : (dat V c).before 1 t d = blk V c 1 t :=
  before_of_1 V (dat V c) (A_eq V c 1) (after_1 V c) t d
theorem before_2 (c : Dev nD) (t : Fin cfg2.N) (d) : (dat V c).before 2 t d = blk V c 2 t :=
  before_of_2 V (dat V c) (A_eq V c 2) (after_2 V c) t d
theorem before_3 (c : Dev nD) (t : Fin cfg2.N) (d) : (dat V c).before 3 t d = blk V c 3 t :=
  before_of_3 V (dat V c) (A_eq V c 3) (after_3 V c) t d
theorem before_4 (c : Dev nD) (t : Fin cfg2.N) (d) : (dat V c).before 4 t d = blk V c 4 t :=
  before_of_4 V (dat V c) (A_eq V c 4) (after_4 V c) t d

/-- What the body is handed at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any grid point: the input buffers hold their blocks, so `sound_kernel` applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.KIRegion3.lean ====
/- Region 3 of the kernel program, the fourth embedding (rows of width 6): the body's run on one row block, and the pipeline's bookkeeping for it.

   The region walks a grid of row blocks of 5000 rows. At every grid point the body reads its five input blocks whole,
   computes one pure function of them (the generated payload `k3_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg3 c)
    (hA : dat.A 0 = V c (Pipeline.arrRef spec3 0)) (hafter : ∀ t, dat.after 0 t = blk V c 0 t) (t : Fin cfg3.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg3 c)
    (hA : dat.A 1 = V c (Pipeline.arrRef spec3 1)) (hafter : ∀ t, dat.after 1 t = blk V c 1 t) (t : Fin cfg3.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg3 c)
    (hA : dat.A 2 = V c (Pipeline.arrRef spec3 2)) (hafter : ∀ t, dat.after 2 t = blk V c 2 t) (t : Fin cfg3.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg3 c)
    (hA : dat.A 3 = V c (Pipeline.arrRef spec3 3)) (hafter : ∀ t, dat.after 3 t = blk V c 3 t) (t : Fin cfg3.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg3 c)
    (hA : dat.A 4 = V c (Pipeline.arrRef spec3 4)) (hafter : ∀ t, dat.after 4 t = blk V c 4 t) (t : Fin cfg3.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x6 : Rect S5000x6 := Rect.unit (s := S5000x6) ![0, 0] S5000x6.size inb_S5000x6_S5000x6_0_0
abbrev whole_S6x128 : Rect S6x128 := Rect.unit (s := S6x128) ![0, 0] S6x128.size inb_S6x128_S6x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0

/-- The output block after the body, as a function of the five input blocks: the one store, of the payload, over the
    whole block. -/
def out (x0 : Vec F S5000x6 .f32) (x1 : Vec F S6x128 .f32) (x2 : Vec F S1x128 .f32) (x3 : Vec F S128x128 .f32) (x4 : Vec F S1x128 .f32) : Vec F S5000x128 .f32 :=
  View.canon [⟨whole_S5000x128, k3_pay1 (View.ld x0 whole_S5000x6) (View.ld x1 whole_S6x128) (View.ld x2 whole_S1x128) (View.ld x3 whole_S128x128) (View.ld x4 whole_S1x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid3.Coords) (arg1 : Memref sig .tc .vmem S5000x6 .f32) (harg1 : arg1.IsWhole) (arg2 : Memref sig .tc .vmem S6x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x6 .f32) (x1 : Vec F S6x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc3__embed_kernel i arg1 harg1 arg2 harg2 arg3 harg3 arg4 harg4 arg5 harg5 arg6 harg6) K := by
  simp only [cc3__embed_kernel_eq_skeleton]; unfold cc3__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) :
    (dat V c).after 5 t = out (blk V c 0 t) (blk V c 1 t) (blk V c 2 t) (blk V c 3 t) (blk V c 4 t) := by dsimp only [dat]

theorem before_0 (c : Dev nD) (t : Fin cfg3.N) (d) : (dat V c).before 0 t d = blk V c 0 t :=
  before_of_0 V (dat V c) (A_eq V c 0) (after_0 V c) t d
theorem before_1 (c : Dev nD) (t : Fin cfg3.N) (d) : (dat V c).before 1 t d = blk V c 1 t :=
  before_of_1 V (dat V c) (A_eq V c 1) (after_1 V c) t d
theorem before_2 (c : Dev nD) (t : Fin cfg3.N) (d) : (dat V c).before 2 t d = blk V c 2 t :=
  before_of_2 V (dat V c) (A_eq V c 2) (after_2 V c) t d
theorem before_3 (c : Dev nD) (t : Fin cfg3.N) (d) : (dat V c).before 3 t d = blk V c 3 t :=
  before_of_3 V (dat V c) (A_eq V c 3) (after_3 V c) t d
theorem before_4 (c : Dev nD) (t : Fin cfg3.N) (d) : (dat V c).before 4 t d = blk V c 4 t :=
  before_of_4 V (dat V c) (A_eq V c 4) (after_4 V c) t d

/-- What the body is handed at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it hands back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any grid point: the input buffers hold their blocks, so `sound_kernel` applies; the invariant and what
    the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid3.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W3, bigSep_W3]
  exact sound_body V c t

end Cert.KernelIdeal.Region3

end
-- ==== Proof.KIRegion4.lean ====
/- Region 4 of the kernel program, the first hidden layer: the body's run on one row block, and the pipeline's bookkeeping for it.

   The region walks a grid of row blocks of 5000 rows. At every grid point the body reads its five input blocks whole,
   computes one pure function of them (the generated payload `k4_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg4 c)
    (hA : dat.A 0 = V c (Pipeline.arrRef spec4 0)) (hafter : ∀ t, dat.after 0 t = blk V c 0 t) (t : Fin cfg4.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg4 c)
    (hA : dat.A 1 = V c (Pipeline.arrRef spec4 1)) (hafter : ∀ t, dat.after 1 t = blk V c 1 t) (t : Fin cfg4.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg4 c)
    (hA : dat.A 2 = V c (Pipeline.arrRef spec4 2)) (hafter : ∀ t, dat.after 2 t = blk V c 2 t) (t : Fin cfg4.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg4 c)
    (hA : dat.A 3 = V c (Pipeline.arrRef spec4 3)) (hafter : ∀ t, dat.after 3 t = blk V c 3 t) (t : Fin cfg4.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg4 c)
    (hA : dat.A 4 = V c (Pipeline.arrRef spec4 4)) (hafter : ∀ t, dat.after 4 t = blk V c 4 t) (t : Fin cfg4.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k4_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec4 c
  q _ := fullShare
  owed _ := 0

theorem A_eq (c : Dev nD) (w : Fin cfg4.W) : (dat V c).A w = V c (Pipeline.arrRef spec4 w) := by
  dsimp only [dat]

theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) :
    (dat V c).after 5 t = out (blk V c 0 t) (blk V c 1 t) (blk V c 2 t) (blk V c 3 t) (blk V c 4 t) := by dsimp only [dat]

theorem before_0 (c : Dev nD) (t : Fin cfg4.N) (d) : (dat V c).before 0 t d = blk V c 0 t :=
  before_of_0 V (dat V c) (A_eq V c 0) (after_0 V c) t d
theorem before_1 (c : Dev nD) (t : Fin cfg4.N) (d) : (dat V c).before 1 t d = blk V c 1 t :=
  before_of_1 V (dat V c) (A_eq V c 1) (after_1 V c) t d
theorem before_2 (c : Dev nD) (t : Fin cfg4.N) (d) : (dat V c).before 2 t d = blk V c 2 t :=
  before_of_2 V (dat V c) (A_eq V c 2) (after_2 V c) t d
theorem before_3 (c : Dev nD) (t : Fin cfg4.N) (d) : (dat V c).before 3 t d = blk V c 3 t :=
  before_of_3 V (dat V c) (A_eq V c 3) (after_3 V c) t d
theorem before_4 (c : Dev nD) (t : Fin cfg4.N) (d) : (dat V c).before 4 t d = blk V c 4 t :=
  before_of_4 V (dat V c) (A_eq V c 4) (after_4 V c) t d

/-- What the body is handed at point `t`, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d)))

/-- and what it hands back. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t))

/-- The body at any grid point: the input buffers hold their blocks, so `sound_kernel` applies; the invariant and what
    the core owes pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid4.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W4, bigSep_W4]
  exact sound_body V c t

end Cert.KernelIdeal.Region4

end
-- ==== Proof.KIRegion5.lean ====
/- Region 5 of the kernel program, the second hidden layer: the body's run on one row block, and the pipeline's bookkeeping for it.

   The region walks a grid of row blocks of 5000 rows. At every grid point the body reads its five input blocks whole,
   computes one pure function of them (the generated payload `k5_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg5 c)
    (hA : dat.A 0 = V c (Pipeline.arrRef spec5 0)) (hafter : ∀ t, dat.after 0 t = blk V c 0 t) (t : Fin cfg5.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg5 c)
    (hA : dat.A 1 = V c (Pipeline.arrRef spec5 1)) (hafter : ∀ t, dat.after 1 t = blk V c 1 t) (t : Fin cfg5.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg5 c)
    (hA : dat.A 2 = V c (Pipeline.arrRef spec5 2)) (hafter : ∀ t, dat.after 2 t = blk V c 2 t) (t : Fin cfg5.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg5 c)
    (hA : dat.A 3 = V c (Pipeline.arrRef spec5 3)) (hafter : ∀ t, dat.after 3 t = blk V c 3 t) (t : Fin cfg5.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg5 c)
    (hA : dat.A 4 = V c (Pipeline.arrRef spec5 4)) (hafter : ∀ t, dat.after 4 t = blk V c 4 t) (t : Fin cfg5.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k5_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec5 c
  q _ := fullShare
  owed _ := 0

theorem A_eq (c : Dev nD) (w : Fin cfg5.W) : (dat V c).A w = V c (Pipeline.arrRef spec5 w) := by
  dsimp only [dat]

theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
theorem after_4 (c : Dev nD) (t : Fin cfg5.N) : (dat V c).after 4 t = blk V c 4 t := by dsimp only [dat]
theorem after_5 (c : Dev nD) (t : Fin cfg5.N) :
    (dat V c).after 5 t = out (blk V c 0 t) (blk V c 1 t) (blk V c 2 t) (blk V c 3 t) (blk V c 4 t) := by dsimp only [dat]

theorem before_0 (c : Dev nD) (t : Fin cfg5.N) (d) : (dat V c).before 0 t d = blk V c 0 t :=
  before_of_0 V (dat V c) (A_eq V c 0) (after_0 V c) t d
theorem before_1 (c : Dev nD) (t : Fin cfg5.N) (d) : (dat V c).before 1 t d = blk V c 1 t :=
  before_of_1 V (dat V c) (A_eq V c 1) (after_1 V c) t d
theorem before_2 (c : Dev nD) (t : Fin cfg5.N) (d) : (dat V c).before 2 t d = blk V c 2 t :=
  before_of_2 V (dat V c) (A_eq V c 2) (after_2 V c) t d
theorem before_3 (c : Dev nD) (t : Fin cfg5.N) (d) : (dat V c).before 3 t d = blk V c 3 t :=
  before_of_3 V (dat V c) (A_eq V c 3) (after_3 V c) t d
theorem before_4 (c : Dev nD) (t : Fin cfg5.N) (d) : (dat V c).before 4 t d = blk V c 4 t :=
  before_of_4 V (dat V c) (A_eq V c 4) (after_4 V c) t d

/-- What the body is handed at point `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it hands back. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

/-- The body at any grid point: the input buffers hold their blocks, so `sound_kernel` applies; the invariant and what
    the core owes pass through unread. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid5.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W5, bigSep_W5]
  exact sound_body V c t

end Cert.KernelIdeal.Region5

end
-- ==== Proof.KIRegion6.lean ====
/- Region 6 of the kernel program, the third hidden layer: the body's run on one row block, and the pipeline's bookkeeping for it.

   The region walks a grid of row blocks of 5000 rows. At every grid point the body reads its five input blocks whole,
   computes one pure function of them (the generated payload `k6_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg6 c)
    (hA : dat.A 0 = V c (Pipeline.arrRef spec6 0)) (hafter : ∀ t, dat.after 0 t = blk V c 0 t) (t : Fin cfg6.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg6 c)
    (hA : dat.A 1 = V c (Pipeline.arrRef spec6 1)) (hafter : ∀ t, dat.after 1 t = blk V c 1 t) (t : Fin cfg6.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg6 c)
    (hA : dat.A 2 = V c (Pipeline.arrRef spec6 2)) (hafter : ∀ t, dat.after 2 t = blk V c 2 t) (t : Fin cfg6.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg6 c)
    (hA : dat.A 3 = V c (Pipeline.arrRef spec6 3)) (hafter : ∀ t, dat.after 3 t = blk V c 3 t) (t : Fin cfg6.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg6 c)
    (hA : dat.A 4 = V c (Pipeline.arrRef spec6 4)) (hafter : ∀ t, dat.after 4 t = blk V c 4 t) (t : Fin cfg6.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0

/-- The output block after the body, as a function of the five input blocks: the one store, of the payload, over the
    whole block. -/
def out (x0 : Vec F S5000x128 .f32) (x1 : Vec F S5000x128 .f32) (x2 : Vec F S128x128 .f32) (x3 : Vec F S1x128 .f32) (x4 : Vec F S128x128 .f32) : Vec F S5000x128 .f32 :=
  View.canon [⟨whole_S5000x128, k6_pay1 (View.ld x0 whole_S5000x128) (View.ld x2 whole_S128x128) (View.ld x3 whole_S1x128) (View.ld x1 whole_S5000x128) (View.ld x4 whole_S128x128)⟩]

/-- The one store covers the output block. -/
theorem cover (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec6 c
  q _ := fullShare
  owed _ := 0

theorem A_eq (c : Dev nD) (w : Fin cfg6.W) : (dat V c).A w = V c (Pipeline.arrRef spec6 w) := by
  dsimp only [dat]

theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = blk V c 2 t := by dsimp only [dat]
theorem after_3 (c : Dev nD) (t : Fin cfg6.N) : (dat V c).after 3 t = blk V c 3 t := by dsimp only [dat]
theorem after_4 (c : Dev nD) (t : Fin cfg6.N) : (dat V c).after 4 t = blk V c 4 t := by dsimp only [dat]
theorem after_5 (c : Dev nD) (t : Fin cfg6.N) :
    (dat V c).after 5 t = out (blk V c 0 t) (blk V c 1 t) (blk V c 2 t) (blk V c 3 t) (blk V c 4 t) := by dsimp only [dat]

theorem before_0 (c : Dev nD) (t : Fin cfg6.N) (d) : (dat V c).before 0 t d = blk V c 0 t :=
  before_of_0 V (dat V c) (A_eq V c 0) (after_0 V c) t d
theorem before_1 (c : Dev nD) (t : Fin cfg6.N) (d) : (dat V c).before 1 t d = blk V c 1 t :=
  before_of_1 V (dat V c) (A_eq V c 1) (after_1 V c) t d
theorem before_2 (c : Dev nD) (t : Fin cfg6.N) (d) : (dat V c).before 2 t d = blk V c 2 t :=
  before_of_2 V (dat V c) (A_eq V c 2) (after_2 V c) t d
theorem before_3 (c : Dev nD) (t : Fin cfg6.N) (d) : (dat V c).before 3 t d = blk V c 3 t :=
  before_of_3 V (dat V c) (A_eq V c 3) (after_3 V c) t d
theorem before_4 (c : Dev nD) (t : Fin cfg6.N) (d) : (dat V c).before 4 t d = blk V c 4 t :=
  before_of_4 V (dat V c) (A_eq V c 4) (after_4 V c) t d

/-- What the body is handed at point `t`, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d)))

/-- and what it hands back. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t))

/-- The body at any grid point: the input buffers hold their blocks, so `sound_kernel` applies; the invariant and what
    the core owes pass through unread. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid6.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W6, bigSep_W6]
  exact sound_body V c t

end Cert.KernelIdeal.Region6

end
-- ==== Proof.KIRegion7.lean ====
/- Region 7 of the kernel program, the output layer: the body's run on one row block, and the pipeline's bookkeeping for it.

   The region walks a grid of row blocks of 5000 rows. At every grid point the body reads its five input blocks whole,
   computes one pure function of them (the generated payload `k7_pay1`), and overwrites the output block whole with it.
   So after the body the output window's buffer holds `out` of the five input blocks, each input buffer is as it was, and
   nothing else is touched. Everything is stated at a parameter `V`: the contents of the TensorCore's buffers when the
   region is entered. -/
import proofs.«136217_j57939108823477_1_alg».proof.Proof.Gen.KernelIdeal.Launch
import proofs.«136217_j57939108823477_1_alg».proof.Proof.Gen.KernelIdeal.Skeleton
import proofs.«136217_j57939108823477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Region7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- Input window 0: whenever the body runs, its current staging buffer holds the window's block of the array at that
    grid point, whether the block was fetched at this point or is still there from an earlier one (the block index has
    not moved since). -/
theorem before_of_0 {c : Dev nD} (dat : Dat τ (Elt F) Unit ℕ (Pipeline.UD sig nD τ) ℕ cfg7 c)
    (hA : dat.A 0 = V c (Pipeline.arrRef spec7 0)) (hafter : ∀ t, dat.after 0 t = blk V c 0 t) (t : Fin cfg7.N) (d) :
    dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- Input window 1: whenever the body runs, its current staging buffer holds the window's block of the array at that
    grid point, whether the block was fetched at this point or is still there from an earlier one (the block index has
    not moved since). -/
theorem before_of_1 {c : Dev nD} (dat : Dat τ (Elt F) Unit ℕ (Pipeline.UD sig nD τ) ℕ cfg7 c)
    (hA : dat.A 1 = V c (Pipeline.arrRef spec7 1)) (hafter : ∀ t, dat.after 1 t = blk V c 1 t) (t : Fin cfg7.N) (d) :
    dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- Input window 2: whenever the body runs, its current staging buffer holds the window's block of the array at that
    grid point, whether the block was fetched at this point or is still there from an earlier one (the block index has
    not moved since). -/
theorem before_of_2 {c : Dev nD} (dat : Dat τ (Elt F) Unit ℕ (Pipeline.UD sig nD τ) ℕ cfg7 c)
    (hA : dat.A 2 = V c (Pipeline.arrRef spec7 2)) (hafter : ∀ t, dat.after 2 t = blk V c 2 t) (t : Fin cfg7.N) (d) :
    dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- Input window 3: whenever the body runs, its current staging buffer holds the window's block of the array at that
    grid point, whether the block was fetched at this point or is still there from an earlier one (the block index has
    not moved since). -/
theorem before_of_3 {c : Dev nD} (dat : Dat τ (Elt F) Unit ℕ (Pipeline.UD sig nD τ) ℕ cfg7 c)
    (hA : dat.A 3 = V c (Pipeline.arrRef spec7 3)) (hafter : ∀ t, dat.after 3 t = blk V c 3 t) (t : Fin cfg7.N) (d) :
    dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

/-- Input window 4: whenever the body runs, its current staging buffer holds the window's block of the array at that
    grid point, whether the block was fetched at this point or is still there from an earlier one (the block index has
    not moved since). -/
theorem before_of_4 {c : Dev nD} (dat : Dat τ (Elt F) Unit ℕ (Pipeline.UD sig nD τ) ℕ cfg7 c)
    (hA : dat.A 4 = V c (Pipeline.arrRef spec7 4)) (hafter : ∀ t, dat.after 4 t = blk V c 4 t) (t : Fin cfg7.N) (d) :
    dat.before 4 t d = blk V c 4 t :=
  (dat.before_in_eq_fetched 4 rfl (fun _ => rfl) (fun _ _ _ => rfl)
      (fun t => by rw [hafter]; unfold Dat.blockOf blk; rw [hA]; try rfl) t d).trans
    (by unfold Dat.fetched Dat.blockOf blk; rw [hA]; try rfl)

/-! ## What the body leaves in the output block -/

abbrev whole_S5000x128 : Rect S5000x128 := Rect.unit (s := S5000x128) ![0, 0] S5000x128.size inb_S5000x128_S5000x128_0_0
abbrev whole_S128x1 : Rect S128x1 := Rect.unit (s := S128x1) ![0, 0] S128x1.size inb_S128x1_S128x1_0_0
abbrev whole_S1x1 : Rect S1x1 := Rect.unit (s := S1x1) ![0, 0] S1x1.size inb_S1x1_S1x1_0_0
abbrev whole_S5000x1 : Rect S5000x1 := Rect.unit (s := S5000x1) ![0, 0] S5000x1.size inb_S5000x1_S5000x1_0_0

/-- The output block after the body, as a function of the five input blocks: the one store, of the payload, over the
    whole block. -/
def out (x0 : Vec F S5000x128 .f32) (x1 : Vec F S5000x128 .f32) (x2 : Vec F S128x1 .f32) (x3 : Vec F S1x1 .f32) (x4 : Vec F S128x1 .f32) : Vec F S5000x1 .f32 :=
  View.canon [⟨whole_S5000x1, k7_pay1 (View.ld x0 whole_S5000x128) (View.ld x2 whole_S128x1) (View.ld x3 whole_S1x1) (View.ld x1 whole_S5000x128) (View.ld x4 whole_S128x1)⟩]

/-- The one store covers the output block. -/
theorem cover (p0 : Vec F S5000x1 .f32) (y : S5000x1.Idx) :
    ∃ pc ∈ ([⟨whole_S5000x1, p0⟩] : List (View.Piece (Elt F) S5000x1 .f32)), y ∈ pc.1.set :=
  View.cover_of_tiled [⟨whole_S5000x1, p0⟩] S5000x1.size (by rfl) y

/-! ## The body's run -/

set_option maxHeartbeats 1000000 in
/-- The body on whole staging buffers — the inputs' holding `x0 … x4`, the output's holding anything — runs to the end
    without a fault, leaves every input buffer as it was and the output buffer at `out x0 … x4`. -/
theorem sound_kernel (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S5000x1 .f32) (harg6 : arg6.IsWhole)
    (x0 : Vec F S5000x128 .f32) (x1 : Vec F S5000x128 .f32) (x2 : Vec F S128x1 .f32) (x3 : Vec F S1x1 .f32) (x4 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's bookkeeping for this region -/

/-- The region's proof data on core `c`: the windows' arrays as the region finds them; after the body at point `t` every
    input buffer at its block and the output buffer at `out` of the five input blocks; the invariant between points is
    the untouched rest of the core; nothing is owed; full shares. -/
def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec7 c
  q _ := fullShare
  owed _ := 0

theorem A_eq (c : Dev nD) (w : Fin cfg7.W) : (dat V c).A w = V c (Pipeline.arrRef spec7 w) := by
  dsimp only [dat]

theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = blk V c 3 t := by dsimp only [dat]
theorem after_4 (c : Dev nD) (t : Fin cfg7.N) : (dat V c).after 4 t = blk V c 4 t := by dsimp only [dat]
theorem after_5 (c : Dev nD) (t : Fin cfg7.N) :
    (dat V c).after 5 t = out (blk V c 0 t) (blk V c 1 t) (blk V c 2 t) (blk V c 3 t) (blk V c 4 t) := by dsimp only [dat]

theorem before_0 (c : Dev nD) (t : Fin cfg7.N) (d) : (dat V c).before 0 t d = blk V c 0 t :=
  before_of_0 V (dat V c) (A_eq V c 0) (after_0 V c) t d
theorem before_1 (c : Dev nD) (t : Fin cfg7.N) (d) : (dat V c).before 1 t d = blk V c 1 t :=
  before_of_1 V (dat V c) (A_eq V c 1) (after_1 V c) t d
theorem before_2 (c : Dev nD) (t : Fin cfg7.N) (d) : (dat V c).before 2 t d = blk V c 2 t :=
  before_of_2 V (dat V c) (A_eq V c 2) (after_2 V c) t d
theorem before_3 (c : Dev nD) (t : Fin cfg7.N) (d) : (dat V c).before 3 t d = blk V c 3 t :=
  before_of_3 V (dat V c) (A_eq V c 3) (after_3 V c) t d
theorem before_4 (c : Dev nD) (t : Fin cfg7.N) (d) : (dat V c).before 4 t d = blk V c 4 t :=
  before_of_4 V (dat V c) (A_eq V c 4) (after_4 V c) t d

/-- What the body is handed at point `t`, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

/-- and what it hands back. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

/-- The body at any grid point: the input buffers hold their blocks, so `sound_kernel` applies; the invariant and what
    the core owes pass through unread. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid7.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every grid point. -/
theorem body_obligation (c : Dev nD) : BodyObligation (dat (F := F) V c) (defs₀ (F := F)) Variants.none () Set.univ := fun t => by
  rw [bigSep_W7, bigSep_W7]
  exact sound_body V c t

end Cert.KernelIdeal.Region7

end
-- ==== Proof.KIFold.lean ====
/- The buffers' contents between the items of the program's entry function, as one fold from the launch memory:
   a stretch of host operations applies them; a region leaves its output window's array at what its write-backs fold to
   and every other buffer alone. An argument array is written by no host operation and is the output of no region, so it
   walks back through the fold to its launch contents. -/
import proofs.«136217_j57939108823477_1_alg».proof.Proof.KIRegion0
import proofs.«136217_j57939108823477_1_alg».proof.Proof.KIRegion1
import proofs.«136217_j57939108823477_1_alg».proof.Proof.KIRegion2
import proofs.«136217_j57939108823477_1_alg».proof.Proof.KIRegion3
import proofs.«136217_j57939108823477_1_alg».proof.Proof.KIRegion4
import proofs.«136217_j57939108823477_1_alg».proof.Proof.KIRegion5
import proofs.«136217_j57939108823477_1_alg».proof.Proof.KIRegion6
import proofs.«136217_j57939108823477_1_alg».proof.Proof.KIRegion7
import proofs.«136217_j57939108823477_1_alg».proof.Proof.Gen.KernelIdeal.Regions

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-! ### Region 0 -/

/-- The buffers when region 0 is entered: the host operations before it have run. -/
abbrev E0 : Dev nD → Valuation τ sig (Elt F) := fun c => StableHlo.after hostOps0 (W0 m ρ c)
abbrev VE0 : (c : Dev nD) → (b : Ref sig .tc) → Buf (Elt F) ((c : Thread nD τ).loc b) := fun c b => E0 m ρ c b
/-- The buffers when region 0 is left: its windows' arrays at what the write-backs leave, every other buffer as entered. -/
def X0 (c : Dev nD) : Valuation τ sig (Elt F) :=
  Pipeline.withArrays spec0 c (E0 m ρ c) fun w => (Region0.dat (VE0 m ρ) c).arrAt w cfg0.N
theorem X0_arr (c : Dev nD) (w : Fin cfg0.W) :
    X0 m ρ c (Proc.devRef .tc (Pipeline.arrRef spec0 w)) = (Region0.dat (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = E0 m ρ c (Proc.devRef .tc b) := by
  unfold X0; exact Pipeline.withArrays_of_ne spec0 c _ _ b hb
abbrev VX0 : (c : Dev nD) → (b : Ref sig .tc) → Buf (Elt F) ((c : Thread nD τ).loc b) := fun c b => X0 m ρ c b
theorem hF0 (c : Dev nD) (w : Fin cfg0.W) :
    (Region0.dat (VE0 m ρ) c).arrAt w cfg0.N = VX0 m ρ c (Pipeline.arrRef spec0 w) := (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)
/-- A buffer the host operations before region 0 do not write is, at the region's entry, what it was. -/
theorem E0_keep (c : Dev nD) (b : Ref sig .tc) (h : b ∉ hostOps0_W) : E0 m ρ c (Proc.devRef .tc b) = W0 m ρ c (Proc.devRef .tc b) :=
  StableHlo.after_of_writes_sub hostOps0 _ hostOps0_writes h
/-- Region 0 changes only its output window's array: an input window's array ends as it was (the pipeline only reads
    it), and a buffer that is no window's array is not touched. -/
theorem X0_keep (c : Dev nD) (b : Ref sig .tc) (hb : b ≠ Pipeline.arrRef spec0 5) :
    X0 m ρ c (Proc.devRef .tc b) = E0 m ρ c (Proc.devRef .tc b) := by
  by_cases h : ∃ w, Pipeline.arrRef spec0 w = b
  · obtain ⟨w, rfl⟩ := h
    rw [X0_arr]
    match w, hb with
    | ⟨0, _⟩, _ => exact ((Region0.dat (VE0 m ρ) c).arrAt_in 0 rfl _).trans (Region0.A_eq (VE0 m ρ) c 0)
    | ⟨1, _⟩, _ => exact ((Region0.dat (VE0 m ρ) c).arrAt_in 1 rfl _).trans (Region0.A_eq (VE0 m ρ) c 1)
    | ⟨2, _⟩, _ => exact ((Region0.dat (VE0 m ρ) c).arrAt_in 2 rfl _).trans (Region0.A_eq (VE0 m ρ) c 2)
    | ⟨3, _⟩, _ => exact ((Region0.dat (VE0 m ρ) c).arrAt_in 3 rfl _).trans (Region0.A_eq (VE0 m ρ) c 3)
    | ⟨4, _⟩, _ => exact ((Region0.dat (VE0 m ρ) c).arrAt_in 4 rfl _).trans (Region0.A_eq (VE0 m ρ) c 4)
    | ⟨5, _⟩, hb => exact absurd rfl hb
  · exact X0_of_ne m ρ c b fun w e => h ⟨w, e⟩

/-! ### Region 1 -/

/-- The buffers when region 1 is entered: the host operations before it have run. -/
abbrev E1 : Dev nD → Valuation τ sig (Elt F) := fun c => StableHlo.after hostOps1 (X0 m ρ c)
abbrev VE1 : (c : Dev nD) → (b : Ref sig .tc) → Buf (Elt F) ((c : Thread nD τ).loc b) := fun c b => E1 m ρ c b
/-- The buffers when region 1 is left: its windows' arrays at what the write-backs leave, every other buffer as entered. -/
def X1 (c : Dev nD) : Valuation τ sig (Elt F) :=
  Pipeline.withArrays spec1 c (E1 m ρ c) fun w => (Region1.dat (VE1 m ρ) c).arrAt w cfg1.N
theorem X1_arr (c : Dev nD) (w : Fin cfg1.W) :
    X1 m ρ c (Proc.devRef .tc (Pipeline.arrRef spec1 w)) = (Region1.dat (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = E1 m ρ c (Proc.devRef .tc b) := by
  unfold X1; exact Pipeline.withArrays_of_ne spec1 c _ _ b hb
abbrev VX1 : (c : Dev nD) → (b : Ref sig .tc) → Buf (Elt F) ((c : Thread nD τ).loc b) := fun c b => X1 m ρ c b
theorem hF1 (c : Dev nD) (w : Fin cfg1.W) :
    (Region1.dat (VE1 m ρ) c).arrAt w cfg1.N = VX1 m ρ c (Pipeline.arrRef spec1 w) := (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)
/-- A buffer the host operations before region 1 do not write is, at the region's entry, what it was. -/
theorem E1_keep (c : Dev nD) (b : Ref sig .tc) (h : b ∉ hostOps1_W) : E1 m ρ c (Proc.devRef .tc b) = X0 m ρ c (Proc.devRef .tc b) :=
  StableHlo.after_of_writes_sub hostOps1 _ hostOps1_writes h
/-- Region 1 changes only its output window's array: an input window's array ends as it was (the pipeline only reads
    it), and a buffer that is no window's array is not touched. -/
theorem X1_keep (c : Dev nD) (b : Ref sig .tc) (hb : b ≠ Pipeline.arrRef spec1 5) :
    X1 m ρ c (Proc.devRef .tc b) = E1 m ρ c (Proc.devRef .tc b) := by
  by_cases h : ∃ w, Pipeline.arrRef spec1 w = b
  · obtain ⟨w, rfl⟩ := h
    rw [X1_arr]
    match w, hb with
    | ⟨0, _⟩, _ => exact ((Region1.dat (VE1 m ρ) c).arrAt_in 0 rfl _).trans (Region1.A_eq (VE1 m ρ) c 0)
    | ⟨1, _⟩, _ => exact ((Region1.dat (VE1 m ρ) c).arrAt_in 1 rfl _).trans (Region1.A_eq (VE1 m ρ) c 1)
    | ⟨2, _⟩, _ => exact ((Region1.dat (VE1 m ρ) c).arrAt_in 2 rfl _).trans (Region1.A_eq (VE1 m ρ) c 2)
    | ⟨3, _⟩, _ => exact ((Region1.dat (VE1 m ρ) c).arrAt_in 3 rfl _).trans (Region1.A_eq (VE1 m ρ) c 3)
    | ⟨4, _⟩, _ => exact ((Region1.dat (VE1 m ρ) c).arrAt_in 4 rfl _).trans (Region1.A_eq (VE1 m ρ) c 4)
    | ⟨5, _⟩, hb => exact absurd rfl hb
  · exact X1_of_ne m ρ c b fun w e => h ⟨w, e⟩

/-! ### Region 2 -/

/-- The buffers when region 2 is entered: the host operations before it have run. -/
abbrev E2 : Dev nD → Valuation τ sig (Elt F) := fun c => StableHlo.after hostOps2 (X1 m ρ c)
abbrev VE2 : (c : Dev nD) → (b : Ref sig .tc) → Buf (Elt F) ((c : Thread nD τ).loc b) := fun c b => E2 m ρ c b
/-- The buffers when region 2 is left: its windows' arrays at what the write-backs leave, every other buffer as entered. -/
def X2 (c : Dev nD) : Valuation τ sig (Elt F) :=
  Pipeline.withArrays spec2 c (E2 m ρ c) fun w => (Region2.dat (VE2 m ρ) c).arrAt w cfg2.N
theorem X2_arr (c : Dev nD) (w : Fin cfg2.W) :
    X2 m ρ c (Proc.devRef .tc (Pipeline.arrRef spec2 w)) = (Region2.dat (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = E2 m ρ c (Proc.devRef .tc b) := by
  unfold X2; exact Pipeline.withArrays_of_ne spec2 c _ _ b hb
abbrev VX2 : (c : Dev nD) → (b : Ref sig .tc) → Buf (Elt F) ((c : Thread nD τ).loc b) := fun c b => X2 m ρ c b
theorem hF2 (c : Dev nD) (w : Fin cfg2.W) :
    (Region2.dat (VE2 m ρ) c).arrAt w cfg2.N = VX2 m ρ c (Pipeline.arrRef spec2 w) := (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)
/-- A buffer the host operations before region 2 do not write is, at the region's entry, what it was. -/
theorem E2_keep (c : Dev nD) (b : Ref sig .tc) (h : b ∉ hostOps2_W) : E2 m ρ c (Proc.devRef .tc b) = X1 m ρ c (Proc.devRef .tc b) :=
  StableHlo.after_of_writes_sub hostOps2 _ hostOps2_writes h
/-- Region 2 changes only its output window's array: an input window's array ends as it was (the pipeline only reads
    it), and a buffer that is no window's array is not touched. -/
theorem X2_keep (c : Dev nD) (b : Ref sig .tc) (hb : b ≠ Pipeline.arrRef spec2 5) :
    X2 m ρ c (Proc.devRef .tc b) = E2 m ρ c (Proc.devRef .tc b) := by
  by_cases h : ∃ w, Pipeline.arrRef spec2 w = b
  · obtain ⟨w, rfl⟩ := h
    rw [X2_arr]
    match w, hb with
    | ⟨0, _⟩, _ => exact ((Region2.dat (VE2 m ρ) c).arrAt_in 0 rfl _).trans (Region2.A_eq (VE2 m ρ) c 0)
    | ⟨1, _⟩, _ => exact ((Region2.dat (VE2 m ρ) c).arrAt_in 1 rfl _).trans (Region2.A_eq (VE2 m ρ) c 1)
    | ⟨2, _⟩, _ => exact ((Region2.dat (VE2 m ρ) c).arrAt_in 2 rfl _).trans (Region2.A_eq (VE2 m ρ) c 2)
    | ⟨3, _⟩, _ => exact ((Region2.dat (VE2 m ρ) c).arrAt_in 3 rfl _).trans (Region2.A_eq (VE2 m ρ) c 3)
    | ⟨4, _⟩, _ => exact ((Region2.dat (VE2 m ρ) c).arrAt_in 4 rfl _).trans (Region2.A_eq (VE2 m ρ) c 4)
    | ⟨5, _⟩, hb => exact absurd rfl hb
  · exact X2_of_ne m ρ c b fun w e => h ⟨w, e⟩

/-! ### Region 3 -/

/-- The buffers when region 3 is entered: the host operations before it have run. -/
abbrev E3 : Dev nD → Valuation τ sig (Elt F) := fun c => StableHlo.after hostOps3 (X2 m ρ c)
abbrev VE3 : (c : Dev nD) → (b : Ref sig .tc) → Buf (Elt F) ((c : Thread nD τ).loc b) := fun c b => E3 m ρ c b
/-- The buffers when region 3 is left: its windows' arrays at what the write-backs leave, every other buffer as entered. -/
def X3 (c : Dev nD) : Valuation τ sig (Elt F) :=
  Pipeline.withArrays spec3 c (E3 m ρ c) fun w => (Region3.dat (VE3 m ρ) c).arrAt w cfg3.N
theorem X3_arr (c : Dev nD) (w : Fin cfg3.W) :
    X3 m ρ c (Proc.devRef .tc (Pipeline.arrRef spec3 w)) = (Region3.dat (VE3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = E3 m ρ c (Proc.devRef .tc b) := by
  unfold X3; exact Pipeline.withArrays_of_ne spec3 c _ _ b hb
abbrev VX3 : (c : Dev nD) → (b : Ref sig .tc) → Buf (Elt F) ((c : Thread nD τ).loc b) := fun c b => X3 m ρ c b
theorem hF3 (c : Dev nD) (w : Fin cfg3.W) :
    (Region3.dat (VE3 m ρ) c).arrAt w cfg3.N = VX3 m ρ c (Pipeline.arrRef spec3 w) := (X3_arr m ρ c w).symm
theorem hrest3 (c : Dev nD) : ∀ b, b ∉ Finset.univ.image (Pipeline.arrRef spec3) → VX3 m ρ c b = VE3 m ρ c b :=
  fun b hb => X3_of_ne m ρ c b fun w e => hb (Finset.mem_image.mpr ⟨w, Finset.mem_univ _, e⟩)
/-- A buffer the host operations before region 3 do not write is, at the region's entry, what it was. -/
theorem E3_keep (c : Dev nD) (b : Ref sig .tc) (h : b ∉ hostOps3_W) : E3 m ρ c (Proc.devRef .tc b) = X2 m ρ c (Proc.devRef .tc b) :=
  StableHlo.after_of_writes_sub hostOps3 _ hostOps3_writes h
/-- Region 3 changes only its output window's array: an input window's array ends as it was (the pipeline only reads
    it), and a buffer that is no window's array is not touched. -/
theorem X3_keep (c : Dev nD) (b : Ref sig .tc) (hb : b ≠ Pipeline.arrRef spec3 5) :
    X3 m ρ c (Proc.devRef .tc b) = E3 m ρ c (Proc.devRef .tc b) := by
  by_cases h : ∃ w, Pipeline.arrRef spec3 w = b
  · obtain ⟨w, rfl⟩ := h
    rw [X3_arr]
    match w, hb with
    | ⟨0, _⟩, _ => exact ((Region3.dat (VE3 m ρ) c).arrAt_in 0 rfl _).trans (Region3.A_eq (VE3 m ρ) c 0)
    | ⟨1, _⟩, _ => exact ((Region3.dat (VE3 m ρ) c).arrAt_in 1 rfl _).trans (Region3.A_eq (VE3 m ρ) c 1)
    | ⟨2, _⟩, _ => exact ((Region3.dat (VE3 m ρ) c).arrAt_in 2 rfl _).trans (Region3.A_eq (VE3 m ρ) c 2)
    | ⟨3, _⟩, _ => exact ((Region3.dat (VE3 m ρ) c).arrAt_in 3 rfl _).trans (Region3.A_eq (VE3 m ρ) c 3)
    | ⟨4, _⟩, _ => exact ((Region3.dat (VE3 m ρ) c).arrAt_in 4 rfl _).trans (Region3.A_eq (VE3 m ρ) c 4)
    | ⟨5, _⟩, hb => exact absurd rfl hb
  · exact X3_of_ne m ρ c b fun w e => h ⟨w, e⟩

/-! ### Region 4 -/

/-- The buffers when region 4 is entered: the host operations before it have run. -/
abbrev E4 : Dev nD → Valuation τ sig (Elt F) := fun c => StableHlo.after hostOps4 (X3 m ρ c)
abbrev VE4 : (c : Dev nD) → (b : Ref sig .tc) → Buf (Elt F) ((c : Thread nD τ).loc b) := fun c b => E4 m ρ c b
/-- The buffers when region 4 is left: its windows' arrays at what the write-backs leave, every other buffer as entered. -/
def X4 (c : Dev nD) : Valuation τ sig (Elt F) :=
  Pipeline.withArrays spec4 c (E4 m ρ c) fun w => (Region4.dat (VE4 m ρ) c).arrAt w cfg4.N
theorem X4_arr (c : Dev nD) (w : Fin cfg4.W) :
    X4 m ρ c (Proc.devRef .tc (Pipeline.arrRef spec4 w)) = (Region4.dat (VE4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = E4 m ρ c (Proc.devRef .tc b) := by
  unfold X4; exact Pipeline.withArrays_of_ne spec4 c _ _ b hb
abbrev VX4 : (c : Dev nD) → (b : Ref sig .tc) → Buf (Elt F) ((c : Thread nD τ).loc b) := fun c b => X4 m ρ c b
theorem hF4 (c : Dev nD) (w : Fin cfg4.W) :
    (Region4.dat (VE4 m ρ) c).arrAt w cfg4.N = VX4 m ρ c (Pipeline.arrRef spec4 w) := (X4_arr m ρ c w).symm
theorem hrest4 (c : Dev nD) : ∀ b, b ∉ Finset.univ.image (Pipeline.arrRef spec4) → VX4 m ρ c b = VE4 m ρ c b :=
  fun b hb => X4_of_ne m ρ c b fun w e => hb (Finset.mem_image.mpr ⟨w, Finset.mem_univ _, e⟩)
/-- A buffer the host operations before region 4 do not write is, at the region's entry, what it was. -/
theorem E4_keep (c : Dev nD) (b : Ref sig .tc) (h : b ∉ hostOps4_W) : E4 m ρ c (Proc.devRef .tc b) = X3 m ρ c (Proc.devRef .tc b) :=
  StableHlo.after_of_writes_sub hostOps4 _ hostOps4_writes h
/-- Region 4 changes only its output window's array: an input window's array ends as it was (the pipeline only reads
    it), and a buffer that is no window's array is not touched. -/
theorem X4_keep (c : Dev nD) (b : Ref sig .tc) (hb : b ≠ Pipeline.arrRef spec4 5) :
    X4 m ρ c (Proc.devRef .tc b) = E4 m ρ c (Proc.devRef .tc b) := by
  by_cases h : ∃ w, Pipeline.arrRef spec4 w = b
  · obtain ⟨w, rfl⟩ := h
    rw [X4_arr]
    match w, hb with
    | ⟨0, _⟩, _ => exact ((Region4.dat (VE4 m ρ) c).arrAt_in 0 rfl _).trans (Region4.A_eq (VE4 m ρ) c 0)
    | ⟨1, _⟩, _ => exact ((Region4.dat (VE4 m ρ) c).arrAt_in 1 rfl _).trans (Region4.A_eq (VE4 m ρ) c 1)
    | ⟨2, _⟩, _ => exact ((Region4.dat (VE4 m ρ) c).arrAt_in 2 rfl _).trans (Region4.A_eq (VE4 m ρ) c 2)
    | ⟨3, _⟩, _ => exact ((Region4.dat (VE4 m ρ) c).arrAt_in 3 rfl _).trans (Region4.A_eq (VE4 m ρ) c 3)
    | ⟨4, _⟩, _ => exact ((Region4.dat (VE4 m ρ) c).arrAt_in 4 rfl _).trans (Region4.A_eq (VE4 m ρ) c 4)
    | ⟨5, _⟩, hb => exact absurd rfl hb
  · exact X4_of_ne m ρ c b fun w e => h ⟨w, e⟩

/-! ### Region 5 -/

/-- The buffers when region 5 is entered: the host operations before it have run. -/
abbrev E5 : Dev nD → Valuation τ sig (Elt F) := fun c => StableHlo.after hostOps5 (X4 m ρ c)
abbrev VE5 : (c : Dev nD) → (b : Ref sig .tc) → Buf (Elt F) ((c : Thread nD τ).loc b) := fun c b => E5 m ρ c b
/-- The buffers when region 5 is left: its windows' arrays at what the write-backs leave, every other buffer as entered. -/
def X5 (c : Dev nD) : Valuation τ sig (Elt F) :=
  Pipeline.withArrays spec5 c (E5 m ρ c) fun w => (Region5.dat (VE5 m ρ) c).arrAt w cfg5.N
theorem X5_arr (c : Dev nD) (w : Fin cfg5.W) :
    X5 m ρ c (Proc.devRef .tc (Pipeline.arrRef spec5 w)) = (Region5.dat (VE5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = E5 m ρ c (Proc.devRef .tc b) := by
  unfold X5; exact Pipeline.withArrays_of_ne spec5 c _ _ b hb
abbrev VX5 : (c : Dev nD) → (b : Ref sig .tc) → Buf (Elt F) ((c : Thread nD τ).loc b) := fun c b => X5 m ρ c b
theorem hF5 (c : Dev nD) (w : Fin cfg5.W) :
    (Region5.dat (VE5 m ρ) c).arrAt w cfg5.N = VX5 m ρ c (Pipeline.arrRef spec5 w) := (X5_arr m ρ c w).symm
theorem hrest5 (c : Dev nD) : ∀ b, b ∉ Finset.univ.image (Pipeline.arrRef spec5) → VX5 m ρ c b = VE5 m ρ c b :=
  fun b hb => X5_of_ne m ρ c b fun w e => hb (Finset.mem_image.mpr ⟨w, Finset.mem_univ _, e⟩)
/-- A buffer the host operations before region 5 do not write is, at the region's entry, what it was. -/
theorem E5_keep (c : Dev nD) (b : Ref sig .tc) (h : b ∉ hostOps5_W) : E5 m ρ c (Proc.devRef .tc b) = X4 m ρ c (Proc.devRef .tc b) :=
  StableHlo.after_of_writes_sub hostOps5 _ hostOps5_writes h
/-- Region 5 changes only its output window's array: an input window's array ends as it was (the pipeline only reads
    it), and a buffer that is no window's array is not touched. -/
theorem X5_keep (c : Dev nD) (b : Ref sig .tc) (hb : b ≠ Pipeline.arrRef spec5 5) :
    X5 m ρ c (Proc.devRef .tc b) = E5 m ρ c (Proc.devRef .tc b) := by
  by_cases h : ∃ w, Pipeline.arrRef spec5 w = b
  · obtain ⟨w, rfl⟩ := h
    rw [X5_arr]
    match w, hb with
    | ⟨0, _⟩, _ => exact ((Region5.dat (VE5 m ρ) c).arrAt_in 0 rfl _).trans (Region5.A_eq (VE5 m ρ) c 0)
    | ⟨1, _⟩, _ => exact ((Region5.dat (VE5 m ρ) c).arrAt_in 1 rfl _).trans (Region5.A_eq (VE5 m ρ) c 1)
    | ⟨2, _⟩, _ => exact ((Region5.dat (VE5 m ρ) c).arrAt_in 2 rfl _).trans (Region5.A_eq (VE5 m ρ) c 2)
    | ⟨3, _⟩, _ => exact ((Region5.dat (VE5 m ρ) c).arrAt_in 3 rfl _).trans (Region5.A_eq (VE5 m ρ) c 3)
    | ⟨4, _⟩, _ => exact ((Region5.dat (VE5 m ρ) c).arrAt_in 4 rfl _).trans (Region5.A_eq (VE5 m ρ) c 4)
    | ⟨5, _⟩, hb => exact absurd rfl hb
  · exact X5_of_ne m ρ c b fun w e => h ⟨w, e⟩

/-! ### Region 6 -/

/-- The buffers when region 6 is entered: the host operations before it have run. -/
abbrev E6 : Dev nD → Valuation τ sig (Elt F) := fun c => StableHlo.after hostOps6 (X5 m ρ c)
abbrev VE6 : (c : Dev nD) → (b : Ref sig .tc) → Buf (Elt F) ((c : Thread nD τ).loc b) := fun c b => E6 m ρ c b
/-- The buffers when region 6 is left: its windows' arrays at what the write-backs leave, every other buffer as entered. -/
def X6 (c : Dev nD) : Valuation τ sig (Elt F) :=
  Pipeline.withArrays spec6 c (E6 m ρ c) fun w => (Region6.dat (VE6 m ρ) c).arrAt w cfg6.N
theorem X6_arr (c : Dev nD) (w : Fin cfg6.W) :
    X6 m ρ c (Proc.devRef .tc (Pipeline.arrRef spec6 w)) = (Region6.dat (VE6 m ρ) c).arrAt w cfg6.N := by
  unfold X6; exact Pipeline.withArrays_arr spec6 launch6.win.arr_inj c _ _ w
theorem X6_of_ne (c : Dev nD) (b : Ref sig .tc) (hb : ∀ w, Pipeline.arrRef spec6 w ≠ b) :
    X6 m ρ c (Proc.devRef .tc b) = E6 m ρ c (Proc.devRef .tc b) := by
  unfold X6; exact Pipeline.withArrays_of_ne spec6 c _ _ b hb
abbrev VX6 : (c : Dev nD) → (b : Ref sig .tc) → Buf (Elt F) ((c : Thread nD τ).loc b) := fun c b => X6 m ρ c b
theorem hF6 (c : Dev nD) (w : Fin cfg6.W) :
    (Region6.dat (VE6 m ρ) c).arrAt w cfg6.N = VX6 m ρ c (Pipeline.arrRef spec6 w) := (X6_arr m ρ c w).symm
theorem hrest6 (c : Dev nD) : ∀ b, b ∉ Finset.univ.image (Pipeline.arrRef spec6) → VX6 m ρ c b = VE6 m ρ c b :=
  fun b hb => X6_of_ne m ρ c b fun w e => hb (Finset.mem_image.mpr ⟨w, Finset.mem_univ _, e⟩)
/-- A buffer the host operations before region 6 do not write is, at the region's entry, what it was. -/
theorem E6_keep (c : Dev nD) (b : Ref sig .tc) (h : b ∉ hostOps6_W) : E6 m ρ c (Proc.devRef .tc b) = X5 m ρ c (Proc.devRef .tc b) :=
  StableHlo.after_of_writes_sub hostOps6 _ hostOps6_writes h
/-- Region 6 changes only its output window's array: an input window's array ends as it was (the pipeline only reads
    it), and a buffer that is no window's array is not touched. -/
theorem X6_keep (c : Dev nD) (b : Ref sig .tc) (hb : b ≠ Pipeline.arrRef spec6 5) :
    X6 m ρ c (Proc.devRef .tc b) = E6 m ρ c (Proc.devRef .tc b) := by
  by_cases h : ∃ w, Pipeline.arrRef spec6 w = b
  · obtain ⟨w, rfl⟩ := h
    rw [X6_arr]
    match w, hb with
    | ⟨0, _⟩, _ => exact ((Region6.dat (VE6 m ρ) c).arrAt_in 0 rfl _).trans (Region6.A_eq (VE6 m ρ) c 0)
    | ⟨1, _⟩, _ => exact ((Region6.dat (VE6 m ρ) c).arrAt_in 1 rfl _).trans (Region6.A_eq (VE6 m ρ) c 1)
    | ⟨2, _⟩, _ => exact ((Region6.dat (VE6 m ρ) c).arrAt_in 2 rfl _).trans (Region6.A_eq (VE6 m ρ) c 2)
    | ⟨3, _⟩, _ => exact ((Region6.dat (VE6 m ρ) c).arrAt_in 3 rfl _).trans (Region6.A_eq (VE6 m ρ) c 3)
    | ⟨4, _⟩, _ => exact ((Region6.dat (VE6 m ρ) c).arrAt_in 4 rfl _).trans (Region6.A_eq (VE6 m ρ) c 4)
    | ⟨5, _⟩, hb => exact absurd rfl hb
  · exact X6_of_ne m ρ c b fun w e => h ⟨w, e⟩

/-! ### Region 7 -/

/-- The buffers when region 7 is entered: the host operations before it have run. -/
abbrev E7 : Dev nD → Valuation τ sig (Elt F) := fun c => StableHlo.after hostOps7 (X6 m ρ c)
abbrev VE7 : (c : Dev nD) → (b : Ref sig .tc) → Buf (Elt F) ((c : Thread nD τ).loc b) := fun c b => E7 m ρ c b
/-- The buffers when region 7 is left: its windows' arrays at what the write-backs leave, every other buffer as entered. -/
def X7 (c : Dev nD) : Valuation τ sig (Elt F) :=
  Pipeline.withArrays spec7 c (E7 m ρ c) fun w => (Region7.dat (VE7 m ρ) c).arrAt w cfg7.N
theorem X7_arr (c : Dev nD) (w : Fin cfg7.W) :
    X7 m ρ c (Proc.devRef .tc (Pipeline.arrRef spec7 w)) = (Region7.dat (VE7 m ρ) c).arrAt w cfg7.N := by
  unfold X7; exact Pipeline.withArrays_arr spec7 launch7.win.arr_inj c _ _ w
theorem X7_of_ne (c : Dev nD) (b : Ref sig .tc) (hb : ∀ w, Pipeline.arrRef spec7 w ≠ b) :
    X7 m ρ c (Proc.devRef .tc b) = E7 m ρ c (Proc.devRef .tc b) := by
  unfold X7; exact Pipeline.withArrays_of_ne spec7 c _ _ b hb
abbrev VX7 : (c : Dev nD) → (b : Ref sig .tc) → Buf (Elt F) ((c : Thread nD τ).loc b) := fun c b => X7 m ρ c b
theorem hF7 (c : Dev nD) (w : Fin cfg7.W) :
    (Region7.dat (VE7 m ρ) c).arrAt w cfg7.N = VX7 m ρ c (Pipeline.arrRef spec7 w) := (X7_arr m ρ c w).symm
theorem hrest7 (c : Dev nD) : ∀ b, b ∉ Finset.univ.image (Pipeline.arrRef spec7) → VX7 m ρ c b = VE7 m ρ c b :=
  fun b hb => X7_of_ne m ρ c b fun w e => hb (Finset.mem_image.mpr ⟨w, Finset.mem_univ _, e⟩)
/-- A buffer the host operations before region 7 do not write is, at the region's entry, what it was. -/
theorem E7_keep (c : Dev nD) (b : Ref sig .tc) (h : b ∉ hostOps7_W) : E7 m ρ c (Proc.devRef .tc b) = X6 m ρ c (Proc.devRef .tc b) :=
  StableHlo.after_of_writes_sub hostOps7 _ hostOps7_writes h
/-- Region 7 changes only its output window's array: an input window's array ends as it was (the pipeline only reads
    it), and a buffer that is no window's array is not touched. -/
theorem X7_keep (c : Dev nD) (b : Ref sig .tc) (hb : b ≠ Pipeline.arrRef spec7 5) :
    X7 m ρ c (Proc.devRef .tc b) = E7 m ρ c (Proc.devRef .tc b) := by
  by_cases h : ∃ w, Pipeline.arrRef spec7 w = b
  · obtain ⟨w, rfl⟩ := h
    rw [X7_arr]
    match w, hb with
    | ⟨0, _⟩, _ => exact ((Region7.dat (VE7 m ρ) c).arrAt_in 0 rfl _).trans (Region7.A_eq (VE7 m ρ) c 0)
    | ⟨1, _⟩, _ => exact ((Region7.dat (VE7 m ρ) c).arrAt_in 1 rfl _).trans (Region7.A_eq (VE7 m ρ) c 1)
    | ⟨2, _⟩, _ => exact ((Region7.dat (VE7 m ρ) c).arrAt_in 2 rfl _).trans (Region7.A_eq (VE7 m ρ) c 2)
    | ⟨3, _⟩, _ => exact ((Region7.dat (VE7 m ρ) c).arrAt_in 3 rfl _).trans (Region7.A_eq (VE7 m ρ) c 3)
    | ⟨4, _⟩, _ => exact ((Region7.dat (VE7 m ρ) c).arrAt_in 4 rfl _).trans (Region7.A_eq (VE7 m ρ) c 4)
    | ⟨5, _⟩, hb => exact absurd rfl hb
  · exact X7_of_ne m ρ c b fun w e => h ⟨w, e⟩

/-! ### A buffer no item writes ends as launched -/

theorem keep_all (c : Dev nD) (b : Ref sig .tc) (h0 : b ∉ hostOps0_W) (o0 : b ≠ Pipeline.arrRef spec0 5) (h1 : b ∉ hostOps1_W) (o1 : b ≠ Pipeline.arrRef spec1 5) (h2 : b ∉ hostOps2_W) (o2 : b ≠ Pipeline.arrRef spec2 5) (h3 : b ∉ hostOps3_W) (o3 : b ≠ Pipeline.arrRef spec3 5) (h4 : b ∉ hostOps4_W) (o4 : b ≠ Pipeline.arrRef spec4 5) (h5 : b ∉ hostOps5_W) (o5 : b ≠ Pipeline.arrRef spec5 5) (h6 : b ∉ hostOps6_W) (o6 : b ≠ Pipeline.arrRef spec6 5) (h7 : b ∉ hostOps7_W) (o7 : b ≠ Pipeline.arrRef spec7 5) :
    X7 m ρ c (Proc.devRef .tc b) = m ((c : Thread nD τ).loc b) :=
    (X7_keep m ρ c b o7).trans <| (E7_keep m ρ c b h7).trans <|
    (X6_keep m ρ c b o6).trans <| (E6_keep m ρ c b h6).trans <|
    (X5_keep m ρ c b o5).trans <| (E5_keep m ρ c b h5).trans <|
    (X4_keep m ρ c b o4).trans <| (E4_keep m ρ c b h4).trans <|
    (X3_keep m ρ c b o3).trans <| (E3_keep m ρ c b h3).trans <|
    (X2_keep m ρ c b o2).trans <| (E2_keep m ρ c b h2).trans <|
    (X1_keep m ρ c b o1).trans <| (E1_keep m ρ c b h1).trans <|
    (X0_keep m ρ c b o0).trans <| (E0_keep m ρ c b h0).trans <|
    rfl

/-! ### The proof data family and what rides beside the buffers -/

abbrev adm : (p : Fin 8) → (pcfgs (F := F) p).Adm := fun p => (cfgs p).toPCfg_adm
/-- Every region's proof data, each at its region's entry contents. -/
def pdats : (p : Fin 8) → (c : Dev nD) → Dat τ (Elt F) Unit ℕ (Pipeline.UD sig nD τ) ℕ (Pipeline.pin (pcfgs (F := F)) adm p) c
  | ⟨0, _⟩ => fun c => Region0.dat (VE0 m ρ) c
  | ⟨1, _⟩ => fun c => Region1.dat (VE1 m ρ) c
  | ⟨2, _⟩ => fun c => Region2.dat (VE2 m ρ) c
  | ⟨3, _⟩ => fun c => Region3.dat (VE3 m ρ) c
  | ⟨4, _⟩ => fun c => Region4.dat (VE4 m ρ) c
  | ⟨5, _⟩ => fun c => Region5.dat (VE5 m ρ) c
  | ⟨6, _⟩ => fun c => Region6.dat (VE6 m ρ) c
  | ⟨7, _⟩ => fun c => Region7.dat (VE7 m ρ) c
abbrev 𝒱₀ : Variants := Variants.none
abbrev L : GSem nD τ sig → Finset Unit := fun _ => ∅
abbrev lv : GSem nD τ sig → Unit → ℕ := fun _ _ => 0
/-- Beside the buffers every item carries the core's generator register at some state and the fact that it owes nothing. -/
abbrev R (c : Dev nD) : sProp 𝕄 := iprop((∃ r, prngReg c r) ∗ ∃ W, owes (c : Thread nD τ) (0 : CellTallies nD τ sig Unit) W)
/-- A stretch of host operations as an item: from the unscoped buffers at `W` to them at the operations' result. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (X7 m ρ c) ∗ ∃ r, prngReg c r)

end Cert.KernelIdeal.Fold

end
-- ==== Proof.KISeg0.lean ====
/- Region 0 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (VE0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg1.lean ====
/- Region 1 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (VE1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg2.lean ====
/- Region 2 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (VE2 m ρ) c).loose
  hwaits := Pipeline.hwaits_of_owed_zero _ _ _ _ L lv 2 fun _ _ => rfl
  pre c := iprop(StableHlo.held (c : Thread nD τ) (Pipeline.ucRefs τ sig) (E2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg3.lean ====
/- Region 3 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (VE3 m ρ) c).loose
  hwaits := Pipeline.hwaits_of_owed_zero _ _ _ _ L lv 3 fun _ _ => rfl
  pre c := iprop(StableHlo.held (c : Thread nD τ) (Pipeline.ucRefs τ sig) (E3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg4.lean ====
/- Region 4 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Region4.body_obligation (VE4 m ρ) c).loose
  hwaits := Pipeline.hwaits_of_owed_zero _ _ _ _ L lv 4 fun _ _ => rfl
  pre c := iprop(StableHlo.held (c : Thread nD τ) (Pipeline.ucRefs τ sig) (E4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (VE4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (VE4 m ρ c) (VX4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg5.lean ====
/- Region 5 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (Region5.body_obligation (VE5 m ρ) c).loose
  hwaits := Pipeline.hwaits_of_owed_zero _ _ _ _ L lv 5 fun _ _ => rfl
  pre c := iprop(StableHlo.held (c : Thread nD τ) (Pipeline.ucRefs τ sig) (E5 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (VE5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (VE5 m ρ c) (VX5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg6.lean ====
/- Region 6 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Region6.body_obligation (VE6 m ρ) c).loose
  hwaits := Pipeline.hwaits_of_owed_zero _ _ _ _ L lv 6 fun _ _ => rfl
  pre c := iprop(StableHlo.held (c : Thread nD τ) (Pipeline.ucRefs τ sig) (E6 m ρ c) ∗ R c)
  post c := iprop(StableHlo.held (c : Thread nD τ) (Pipeline.ucRefs τ sig) (X6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (VE6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (VE6 m ρ c) (VX6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KISeg7.lean ====
/- Region 7 as one item of the entry function: entered with every unscoped buffer at the region's entry contents,
   left with them at its exit contents. Its windows' arrays are split out of the buffers at entry and put back, at what
   the write-backs leave, at exit; the generator register goes into the region's invariant and comes back; nothing is owed. -/
import proofs.«136217_j57939108823477_1_alg».proof.Proof.KIFold

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (Region7.body_obligation (VE7 m ρ) c).loose
  hwaits := Pipeline.hwaits_of_owed_zero _ _ _ _ L lv 7 fun _ _ => rfl
  pre c := iprop(StableHlo.held (c : Thread nD τ) (Pipeline.ucRefs τ sig) (E7 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (VE7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (VE7 m ρ c) (VX7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KIRun.lean ====
/- The whole run of the entry function: its sixteen items — a stretch of host operations before each of the eight
   regions — chained from the launch to the return. Every weakly fair execution terminates without a fault; at the end
   the result array holds what the last region leaves in it (the fold's last contents, `X7`) and every argument array
   holds what it held at launch. -/
import proofs.«136217_j57939108823477_1_alg».proof.Proof.KISeg0
import proofs.«136217_j57939108823477_1_alg».proof.Proof.KISeg1
import proofs.«136217_j57939108823477_1_alg».proof.Proof.KISeg2
import proofs.«136217_j57939108823477_1_alg».proof.Proof.KISeg3
import proofs.«136217_j57939108823477_1_alg».proof.Proof.KISeg4
import proofs.«136217_j57939108823477_1_alg».proof.Proof.KISeg5
import proofs.«136217_j57939108823477_1_alg».proof.Proof.KISeg6
import proofs.«136217_j57939108823477_1_alg».proof.Proof.KISeg7

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The sixteen items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ),
    .host (hseg hostOps6 hostOps6_sub hostOps6_fresh (X5 m ρ)),
    .region (reg6 m ρ),
    .host (hseg hostOps7 hostOps7_sub hostOps7_fresh (X6 m ρ)),
    .region (reg7 m ρ) ]

/-- The entry function is the run of the items. -/
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v106) = X7 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m ρ c b)
    (hfin := fun c s' => by
      iintro ⟨⟨Hh, -⟩, HSI⟩
      unfold StableHlo.held
      imodintro
      iapply (pointsTo_read_all (Pipeline.ucRefs τ sig) (fun b => (((c : Thread nD τ)).1, b)) (X7 m ρ c) s')
      isplitl [Hh] <;> iassumption)
    (hQ := fun s h c =>
      ⟨h c _ (mem_uc main_v106 (by decide)),
       (h c _ (mem_uc main_arg0 (by decide))).trans (keep_all m ρ c main_arg0 (by decide) (by decide) (by decide) (by decide) (by decide) (by decide) (by decide) (by decide) (by decide) (by decide) (by decide) (by decide) (by decide) (by decide) (by decide) (by decide)),
       (h c _ (mem_uc main_arg1 (by decide))).trans (keep_all m ρ c main_arg1 (by decide) (by decide) (by decide) (by decide) (by decide) (by decide) (by decide) (by decide) (by decide) (by decide) (by decide) (by decide) (by decide) (by decide) (by decide) (by decide)),
       (h c _ (mem_uc main_arg2 (by decide))).trans (keep_all m ρ c main_arg2 (by decide) (by decide) (by decide) (by decide) (by decide) (by decide) (by decide) (by decide) (by decide) (by decide) (by decide) (by decide) (by decide) (by decide) (by decide) (by decide)),
       (h c _ (mem_uc main_arg3 (by decide))).trans (keep_all m ρ c main_arg3 (by decide) (by decide) (by decide) (by decide) (by decide) (by decide) (by decide) (by decide) (by decide) (by decide) (by decide) (by decide) (by decide) (by decide) (by decide) (by decide)),
       (h c _ (mem_uc main_arg4 (by decide))).trans (keep_all m ρ c main_arg4 (by decide) (by decide) (by decide) (by decide) (by decide) (by decide) (by decide) (by decide) (by decide) (by decide) (by decide) (by decide) (by decide) (by decide) (by decide) (by decide)),
       (h c _ (mem_uc main_arg5 (by decide))).trans (keep_all m ρ c main_arg5 (by decide) (by decide) (by decide) (by decide) (by decide) (by decide) (by decide) (by decide) (by decide) (by decide) (by decide) (by decide) (by decide) (by decide) (by decide) (by decide)),
       (h c _ (mem_uc main_arg6 (by decide))).trans (keep_all m ρ c main_arg6 (by decide) (by decide) (by decide) (by decide) (by decide) (by decide) (by decide) (by decide) (by decide) (by decide) (by decide) (by decide) (by decide) (by decide) (by decide) (by decide)),
       (h c _ (mem_uc main_arg7 (by decide))).trans (keep_all m ρ c main_arg7 (by decide) (by decide) (by decide) (by decide) (by decide) (by decide) (by decide) (by decide) (by decide) (by decide) (by decide) (by decide) (by decide) (by decide) (by decide) (by decide)),
       (h c _ (mem_uc main_arg8 (by decide))).trans (keep_all m ρ c main_arg8 (by decide) (by decide) (by decide) (by decide) (by decide) (by decide) (by decide) (by decide) (by decide) (by decide) (by decide) (by decide) (by decide) (by decide) (by decide) (by decide)),
       (h c _ (mem_uc main_arg9 (by decide))).trans (keep_all m ρ c main_arg9 (by decide) (by decide) (by decide) (by decide) (by decide) (by decide) (by decide) (by decide) (by decide) (by decide) (by decide) (by decide) (by decide) (by decide) (by decide) (by decide)),
       (h c _ (mem_uc main_arg10 (by decide))).trans (keep_all m ρ c main_arg10 (by decide) (by decide) (by decide) (by decide) (by decide) (by decide) (by decide) (by decide) (by decide) (by decide) (by decide) (by decide) (by decide) (by decide) (by decide) (by decide)),
       (h c _ (mem_uc main_arg11 (by decide))).trans (keep_all m ρ c main_arg11 (by decide) (by decide) (by decide) (by decide) (by decide) (by decide) (by decide) (by decide) (by decide) (by decide) (by decide) (by decide) (by decide) (by decide) (by decide) (by decide)),
       (h c _ (mem_uc main_arg12 (by decide))).trans (keep_all m ρ c main_arg12 (by decide) (by decide) (by decide) (by decide) (by decide) (by decide) (by decide) (by decide) (by decide) (by decide) (by decide) (by decide) (by decide) (by decide) (by decide) (by decide)),
       (h c _ (mem_uc main_arg13 (by decide))).trans (keep_all m ρ c main_arg13 (by decide) (by decide) (by decide) (by decide) (by decide) (by decide) (by decide) (by decide) (by decide) (by decide) (by decide) (by decide) (by decide) (by decide) (by decide) (by decide)),
       (h c _ (mem_uc main_arg14 (by decide))).trans (keep_all m ρ c main_arg14 (by decide) (by decide) (by decide) (by decide) (by decide) (by decide) (by decide) (by decide) (by decide) (by decide) (by decide) (by decide) (by decide) (by decide) (by decide) (by decide)),
       (h c _ (mem_uc main_arg15 (by decide))).trans (keep_all m ρ c main_arg15 (by decide) (by decide) (by decide) (by decide) (by decide) (by decide) (by decide) (by decide) (by decide) (by decide) (by decide) (by decide) (by decide) (by decide) (by decide) (by decide)),
       (h c _ (mem_uc main_arg16 (by decide))).trans (keep_all m ρ c main_arg16 (by decide) (by decide) (by decide) (by decide) (by decide) (by decide) (by decide) (by decide) (by decide) (by decide) (by decide) (by decide) (by decide) (by decide) (by decide) (by decide)),
       (h c _ (mem_uc main_arg17 (by decide))).trans (keep_all m ρ c main_arg17 (by decide) (by decide) (by decide) (by decide) (by decide) (by decide) (by decide) (by decide) (by decide) (by decide) (by decide) (by decide) (by decide) (by decide) (by decide) (by decide)),
       (h c _ (mem_uc main_arg18 (by decide))).trans (keep_all m ρ c main_arg18 (by decide) (by decide) (by decide) (by decide) (by decide) (by decide) (by decide) (by decide) (by decide) (by decide) (by decide) (by decide) (by decide) (by decide) (by decide) (by decide)),
       (h c _ (mem_uc main_arg19 (by decide))).trans (keep_all m ρ c main_arg19 (by decide) (by decide) (by decide) (by decide) (by decide) (by decide) (by decide) (by decide) (by decide) (by decide) (by decide) (by decide) (by decide) (by decide) (by decide) (by decide)),
       (h c _ (mem_uc main_arg20 (by decide))).trans (keep_all m ρ c main_arg20 (by decide) (by decide) (by decide) (by decide) (by decide) (by decide) (by decide) (by decide) (by decide) (by decide) (by decide) (by decide) (by decide) (by decide) (by decide) (by decide)),
       (h c _ (mem_uc main_arg21 (by decide))).trans (keep_all m ρ c main_arg21 (by decide) (by decide) (by decide) (by decide) (by decide) (by decide) (by decide) (by decide) (by decide) (by decide) (by decide) (by decide) (by decide) (by decide) (by decide) (by decide)),
       (h c _ (mem_uc main_arg22 (by decide))).trans (keep_all m ρ c main_arg22 (by decide) (by decide) (by decide) (by decide) (by decide) (by decide) (by decide) (by decide) (by decide) (by decide) (by decide) (by decide) (by decide) (by decide) (by decide) (by decide)),
       (h c _ (mem_uc main_arg23 (by decide))).trans (keep_all m ρ c main_arg23 (by decide) (by decide) (by decide) (by decide) (by decide) (by decide) (by decide) (by decide) (by decide) (by decide) (by decide) (by decide) (by decide) (by decide) (by decide) (by decide)),
       (h c _ (mem_uc main_arg24 (by decide))).trans (keep_all m ρ c main_arg24 (by decide) (by decide) (by decide) (by decide) (by decide) (by decide) (by decide) (by decide) (by decide) (by decide) (by decide) (by decide) (by decide) (by decide) (by decide) (by decide)),
       (h c _ (mem_uc main_arg25 (by decide))).trans (keep_all m ρ c main_arg25 (by decide) (by decide) (by decide) (by decide) (by decide) (by decide) (by decide) (by decide) (by decide) (by decide) (by decide) (by decide) (by decide) (by decide) (by decide) (by decide)),
       (h c _ (mem_uc main_arg26 (by decide))).trans (keep_all m ρ c main_arg26 (by decide) (by decide) (by decide) (by decide) (by decide) (by decide) (by decide) (by decide) (by decide) (by decide) (by decide) (by decide) (by decide) (by decide) (by decide) (by decide)),
       (h c _ (mem_uc main_arg27 (by decide))).trans (keep_all m ρ c main_arg27 (by decide) (by decide) (by decide) (by decide) (by decide) (by decide) (by decide) (by decide) (by decide) (by decide) (by decide) (by decide) (by decide) (by decide) (by decide) (by decide))⟩)

end Cert.KernelIdeal.Fold

end
-- ==== Proof.RefRunOps.lean ====
/- The reference program as explicit lists of array operations.

   The program is one straight line of 257 whole-array operations (the eleven calls of the leaky
   rectifier written out as their seven operations each: the zero, its broadcast, the comparison
   `x ≥ 0`, the slope, its broadcast, the product `slope · x`, the selection). The line is cut into
   twelve stretches along the network's stages: four embedding networks, the stacking and gathering
   of node rows, the degree normalisation, three hidden layers (the second cut in two) and the
   output layer (cut in two). For each stretch: every buffer it touches is a TensorCore buffer,
   no operation leaves its result undetermined, and the list of buffers it writes — a buffer
   outside that list keeps its contents through the stretch. -/
import proofs.«136217_j57939108823477_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation's written set is the singleton of its result buffer; that buffer is in the list. -/
local macro "writes_mem" : tactic =>
  `(tactic| (simp only [nullary_writes, unary_writes, binary_writes, ternary_writes, reshape_writes, nary_writes,
      Finset.singleton_subset_iff, List.mem_toFinset]; exact List.mem_map_of_mem (by decide)))

/-- The first embedding network (on argument 0): two affine maps, each followed by the leaky rectifier; result in `main_v9`. -/
abbrev segE0 : List (HloOp τ sig (Elt F)) :=
  [ StableHlo.binary main_arg0 main_arg6 main_v0 ((fun l r => Host.dotGeneral dot_S25000x3_S3x128_S25000x128_1_0_0_1_n_n none l r) : (⟨S25000x3, .f32⟩ : BufTy).Contents (Elt F) → (⟨S3x128, .f32⟩ : BufTy).Contents (Elt F) → (⟨S25000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S25000x128 ![0, 1] bcast_S1x128_S25000x128_0_1 : (⟨S1x128, .f32⟩ : BufTy).Contents (Elt F) → (⟨S25000x128, .f32⟩ : BufTy).Contents (Elt F)),
    StableHlo.binary main_v0 main_v2 main_v3 (addf : (⟨S25000x128, .f32⟩ : BufTy).Contents (Elt F) → (⟨S25000x128, .f32⟩ : BufTy).Contents (Elt F) → (⟨S25000x128, .f32⟩ : BufTy).Contents (Elt F)),
    StableHlo.nullary main_cst (constant S_ .f32 0x3DCCCCCD#32),
    StableHlo.nullary main_call0_cst (constant S_ .f32 0x00000000#32),
    StableHlo.unary main_call0_cst main_call0_v0 (broadcastInDim S25000x128 ![] bcast_S_S25000x128 : (⟨S_, .f32⟩ : BufTy).Contents (Elt F) → (⟨S25000x128, .f32⟩ : BufTy).Contents (Elt F)),
    StableHlo.binary main_v3 main_call0_v0 main_call0_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst main_call0_v2 (id : (⟨S_, .f32⟩ : BufTy).Contents (Elt F) → (⟨S_, .f32⟩ : BufTy).Contents (Elt F)),
    StableHlo.unary main_call0_v2 main_call0_v3 (broadcastInDim S25000x128 ![] bcast_S_S25000x128 : (⟨S_, .f32⟩ : BufTy).Contents (Elt F) → (⟨S25000x128, .f32⟩ : BufTy).Contents (Elt F)),
    StableHlo.binary main_call0_v3 main_v3 main_call0_v4 (mulf : (⟨S25000x128, .f32⟩ : BufTy).Contents (Elt F) → (⟨S25000x128, .f32⟩ : BufTy).Contents (Elt F) → (⟨S25000x128, .f32⟩ : BufTy).Contents (Elt F)),
    StableHlo.ternary main_call0_v1 main_v3 main_call0_v4 main_v4 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)),
    StableHlo.binary main_v4 main_arg8 main_v5 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    StableHlo.unary main_arg9 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S25000x128 ![0, 1] bcast_S1x128_S25000x128_0_1 : (⟨S1x128, .f32⟩ : BufTy).Contents (Elt F) → (⟨S25000x128, .f32⟩ : BufTy).Contents (Elt F)),
    StableHlo.binary main_v5 main_v7 main_v8 (addf : (⟨S25000x128, .f32⟩ : BufTy).Contents (Elt F) → (⟨S25000x128, .f32⟩ : BufTy).Contents (Elt F) → (⟨S25000x128, .f32⟩ : BufTy).Contents (Elt F)),
    StableHlo.nullary main_cst_0 (constant S_ .f32 0x3DCCCCCD#32),
    StableHlo.nullary main_call1_cst (constant S_ .f32 0x00000000#32),
    StableHlo.unary main_call1_cst main_call1_v0 (broadcastInDim S25000x128 ![] bcast_S_S25000x128 : (⟨S_, .f32⟩ : BufTy).Contents (Elt F) → (⟨S25000x128, .f32⟩ : BufTy).Contents (Elt F)),
    StableHlo.binary main_v8 main_call1_v0 main_call1_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_0 main_call1_v2 (id : (⟨S_, .f32⟩ : BufTy).Contents (Elt F) → (⟨S_, .f32⟩ : BufTy).Contents (Elt F)),
    StableHlo.unary main_call1_v2 main_call1_v3 (broadcastInDim S25000x128 ![] bcast_S_S25000x128 : (⟨S_, .f32⟩ : BufTy).Contents (Elt F) → (⟨S25000x128, .f32⟩ : BufTy).Contents (Elt F)),
    StableHlo.binary main_call1_v3 main_v8 main_call1_v4 (mulf : (⟨S25000x128, .f32⟩ : BufTy).Contents (Elt F) → (⟨S25000x128, .f32⟩ : BufTy).Contents (Elt F) → (⟨S25000x128, .f32⟩ : BufTy).Contents (Elt F)),
    StableHlo.ternary main_call1_v1 main_v8 main_call1_v4 main_v9 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)) ]

set_option maxRecDepth 8192 in
theorem segE0_sub : ∀ op ∈ (segE0 : List (HloOp τ sig (Elt F))), op.bufs ⊆ tcRefs τ sig :=
  List.forall_iff_forall_mem.mp
    ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segE0_fresh : ∀ op ∈ (segE0 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl⟩

/-- The buffers this stretch writes, in order. -/
abbrev segE0_W : List (Ref sig .tc) := [main_v0, main_v1, main_v2, main_v3, main_cst, main_call0_cst, main_call0_v0, main_call0_v1, main_call0_v2, main_call0_v3, main_call0_v4, main_v4, main_v5, main_v6, main_v7, main_v8, main_cst_0, main_call1_cst, main_call1_v0, main_call1_v1, main_call1_v2, main_call1_v3, main_call1_v4, main_v9]

set_option maxRecDepth 8192 in
theorem segE0_writes : (segE0 : List (HloOp τ sig (Elt F))).Forall fun op => op.writes ⊆ (segE0_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segE0_keep (V : Valuation τ sig (Elt F)) (r : Ref sig .tc) (h : r ∉ segE0_W) :
    after segE0 V (Proc.devRef .tc r) = V (Proc.devRef .tc r) :=
  after_of_writes_sub segE0 V segE0_writes h

/-- The second embedding network (on argument 1); result in `main_v19`. -/
abbrev segE1 : List (HloOp τ sig (Elt F)) :=
  [ StableHlo.binary main_arg1 main_arg10 main_v10 ((fun l r => Host.dotGeneral dot_S25000x3_S3x128_S25000x128_1_0_0_1_n_n none l r) : (⟨S25000x3, .f32⟩ : BufTy).Contents (Elt F) → (⟨S3x128, .f32⟩ : BufTy).Contents (Elt F) → (⟨S25000x128, .f32⟩ : BufTy).Contents (Elt F)),
    StableHlo.unary main_arg11 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S25000x128 ![0, 1] bcast_S1x128_S25000x128_0_1 : (⟨S1x128, .f32⟩ : BufTy).Contents (Elt F) → (⟨S25000x128, .f32⟩ : BufTy).Contents (Elt F)),
    StableHlo.binary main_v10 main_v12 main_v13 (addf : (⟨S25000x128, .f32⟩ : BufTy).Contents (Elt F) → (⟨S25000x128, .f32⟩ : BufTy).Contents (Elt F) → (⟨S25000x128, .f32⟩ : BufTy).Contents (Elt F)),
    StableHlo.nullary main_cst_1 (constant S_ .f32 0x3DCCCCCD#32),
    StableHlo.nullary main_call2_cst (constant S_ .f32 0x00000000#32),
    StableHlo.unary main_call2_cst main_call2_v0 (broadcastInDim S25000x128 ![] bcast_S_S25000x128 : (⟨S_, .f32⟩ : BufTy).Contents (Elt F) → (⟨S25000x128, .f32⟩ : BufTy).Contents (Elt F)),
    StableHlo.binary main_v13 main_call2_v0 main_call2_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_1 main_call2_v2 (id : (⟨S_, .f32⟩ : BufTy).Contents (Elt F) → (⟨S_, .f32⟩ : BufTy).Contents (Elt F)),
    StableHlo.unary main_call2_v2 main_call2_v3 (broadcastInDim S25000x128 ![] bcast_S_S25000x128 : (⟨S_, .f32⟩ : BufTy).Contents (Elt F) → (⟨S25000x128, .f32⟩ : BufTy).Contents (Elt F)),
    StableHlo.binary main_call2_v3 main_v13 main_call2_v4 (mulf : (⟨S25000x128, .f32⟩ : BufTy).Contents (Elt F) → (⟨S25000x128, .f32⟩ : BufTy).Contents (Elt F) → (⟨S25000x128, .f32⟩ : BufTy).Contents (Elt F)),
    StableHlo.ternary main_call2_v1 main_v13 main_call2_v4 main_v14 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)),
    StableHlo.binary main_v14 main_arg12 main_v15 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    StableHlo.unary main_arg13 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S25000x128 ![0, 1] bcast_S1x128_S25000x128_0_1 : (⟨S1x128, .f32⟩ : BufTy).Contents (Elt F) → (⟨S25000x128, .f32⟩ : BufTy).Contents (Elt F)),
    StableHlo.binary main_v15 main_v17 main_v18 (addf : (⟨S25000x128, .f32⟩ : BufTy).Contents (Elt F) → (⟨S25000x128, .f32⟩ : BufTy).Contents (Elt F) → (⟨S25000x128, .f32⟩ : BufTy).Contents (Elt F)),
    StableHlo.nullary main_cst_2 (constant S_ .f32 0x3DCCCCCD#32),
    StableHlo.nullary main_call3_cst (constant S_ .f32 0x00000000#32),
    StableHlo.unary main_call3_cst main_call3_v0 (broadcastInDim S25000x128 ![] bcast_S_S25000x128 : (⟨S_, .f32⟩ : BufTy).Contents (Elt F) → (⟨S25000x128, .f32⟩ : BufTy).Contents (Elt F)),
    StableHlo.binary main_v18 main_call3_v0 main_call3_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_2 main_call3_v2 (id : (⟨S_, .f32⟩ : BufTy).Contents (Elt F) → (⟨S_, .f32⟩ : BufTy).Contents (Elt F)),
    StableHlo.unary main_call3_v2 main_call3_v3 (broadcastInDim S25000x128 ![] bcast_S_S25000x128 : (⟨S_, .f32⟩ : BufTy).Contents (Elt F) → (⟨S25000x128, .f32⟩ : BufTy).Contents (Elt F)),
    StableHlo.binary main_call3_v3 main_v18 main_call3_v4 (mulf : (⟨S25000x128, .f32⟩ : BufTy).Contents (Elt F) → (⟨S25000x128, .f32⟩ : BufTy).Contents (Elt F) → (⟨S25000x128, .f32⟩ : BufTy).Contents (Elt F)),
    StableHlo.ternary main_call3_v1 main_v18 main_call3_v4 main_v19 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)) ]

set_option maxRecDepth 8192 in
theorem segE1_sub : ∀ op ∈ (segE1 : List (HloOp τ sig (Elt F))), op.bufs ⊆ tcRefs τ sig :=
  List.forall_iff_forall_mem.mp
    ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segE1_fresh : ∀ op ∈ (segE1 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl⟩

/-- The buffers this stretch writes, in order. -/
abbrev segE1_W : List (Ref sig .tc) := [main_v10, main_v11, main_v12, main_v13, main_cst_1, main_call2_cst, main_call2_v0, main_call2_v1, main_call2_v2, main_call2_v3, main_call2_v4, main_v14, main_v15, main_v16, main_v17, main_v18, main_cst_2, main_call3_cst, main_call3_v0, main_call3_v1, main_call3_v2, main_call3_v3, main_call3_v4, main_v19]

set_option maxRecDepth 8192 in
theorem segE1_writes : (segE1 : List (HloOp τ sig (Elt F))).Forall fun op => op.writes ⊆ (segE1_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segE1_keep (V : Valuation τ sig (Elt F)) (r : Ref sig .tc) (h : r ∉ segE1_W) :
    after segE1 V (Proc.devRef .tc r) = V (Proc.devRef .tc r) :=
  after_of_writes_sub segE1 V segE1_writes h

/-- The third embedding network (on argument 2); result in `main_v29`. -/
abbrev segE2 : List (HloOp τ sig (Elt F)) :=
  [ StableHlo.binary main_arg2 main_arg14 main_v20 ((fun l r => Host.dotGeneral dot_S25000x6_S6x128_S25000x128_1_0_0_1_n_n none l r) : (⟨S25000x6, .f32⟩ : BufTy).Contents (Elt F) → (⟨S6x128, .f32⟩ : BufTy).Contents (Elt F) → (⟨S25000x128, .f32⟩ : BufTy).Contents (Elt F)),
    StableHlo.unary main_arg15 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S25000x128 ![0, 1] bcast_S1x128_S25000x128_0_1 : (⟨S1x128, .f32⟩ : BufTy).Contents (Elt F) → (⟨S25000x128, .f32⟩ : BufTy).Contents (Elt F)),
    StableHlo.binary main_v20 main_v22 main_v23 (addf : (⟨S25000x128, .f32⟩ : BufTy).Contents (Elt F) → (⟨S25000x128, .f32⟩ : BufTy).Contents (Elt F) → (⟨S25000x128, .f32⟩ : BufTy).Contents (Elt F)),
    StableHlo.nullary main_cst_3 (constant S_ .f32 0x3DCCCCCD#32),
    StableHlo.nullary main_call4_cst (constant S_ .f32 0x00000000#32),
    StableHlo.unary main_call4_cst main_call4_v0 (broadcastInDim S25000x128 ![] bcast_S_S25000x128 : (⟨S_, .f32⟩ : BufTy).Contents (Elt F) → (⟨S25000x128, .f32⟩ : BufTy).Contents (Elt F)),
    StableHlo.binary main_v23 main_call4_v0 main_call4_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_3 main_call4_v2 (id : (⟨S_, .f32⟩ : BufTy).Contents (Elt F) → (⟨S_, .f32⟩ : BufTy).Contents (Elt F)),
    StableHlo.unary main_call4_v2 main_call4_v3 (broadcastInDim S25000x128 ![] bcast_S_S25000x128 : (⟨S_, .f32⟩ : BufTy).Contents (Elt F) → (⟨S25000x128, .f32⟩ : BufTy).Contents (Elt F)),
    StableHlo.binary main_call4_v3 main_v23 main_call4_v4 (mulf : (⟨S25000x128, .f32⟩ : BufTy).Contents (Elt F) → (⟨S25000x128, .f32⟩ : BufTy).Contents (Elt F) → (⟨S25000x128, .f32⟩ : BufTy).Contents (Elt F)),
    StableHlo.ternary main_call4_v1 main_v23 main_call4_v4 main_v24 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)),
    StableHlo.binary main_v24 main_arg16 main_v25 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    StableHlo.unary main_arg17 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S25000x128 ![0, 1] bcast_S1x128_S25000x128_0_1 : (⟨S1x128, .f32⟩ : BufTy).Contents (Elt F) → (⟨S25000x128, .f32⟩ : BufTy).Contents (Elt F)),
    StableHlo.binary main_v25 main_v27 main_v28 (addf : (⟨S25000x128, .f32⟩ : BufTy).Contents (Elt F) → (⟨S25000x128, .f32⟩ : BufTy).Contents (Elt F) → (⟨S25000x128, .f32⟩ : BufTy).Contents (Elt F)),
    StableHlo.nullary main_cst_4 (constant S_ .f32 0x3DCCCCCD#32),
    StableHlo.nullary main_call5_cst (constant S_ .f32 0x00000000#32),
    StableHlo.unary main_call5_cst main_call5_v0 (broadcastInDim S25000x128 ![] bcast_S_S25000x128 : (⟨S_, .f32⟩ : BufTy).Contents (Elt F) → (⟨S25000x128, .f32⟩ : BufTy).Contents (Elt F)),
    StableHlo.binary main_v28 main_call5_v0 main_call5_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_4 main_call5_v2 (id : (⟨S_, .f32⟩ : BufTy).Contents (Elt F) → (⟨S_, .f32⟩ : BufTy).Contents (Elt F)),
    StableHlo.unary main_call5_v2 main_call5_v3 (broadcastInDim S25000x128 ![] bcast_S_S25000x128 : (⟨S_, .f32⟩ : BufTy).Contents (Elt F) → (⟨S25000x128, .f32⟩ : BufTy).Contents (Elt F)),
    StableHlo.binary main_call5_v3 main_v28 main_call5_v4 (mulf : (⟨S25000x128, .f32⟩ : BufTy).Contents (Elt F) → (⟨S25000x128, .f32⟩ : BufTy).Contents (Elt F) → (⟨S25000x128, .f32⟩ : BufTy).Contents (Elt F)),
    StableHlo.ternary main_call5_v1 main_v28 main_call5_v4 main_v29 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)) ]

set_option maxRecDepth 8192 in
theorem segE2_sub : ∀ op ∈ (segE2 : List (HloOp τ sig (Elt F))), op.bufs ⊆ tcRefs τ sig :=
  List.forall_iff_forall_mem.mp
    ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segE2_fresh : ∀ op ∈ (segE2 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl⟩

/-- The buffers this stretch writes, in order. -/
abbrev segE2_W : List (Ref sig .tc) := [main_v20, main_v21, main_v22, main_v23, main_cst_3, main_call4_cst, main_call4_v0, main_call4_v1, main_call4_v2, main_call4_v3, main_call4_v4, main_v24, main_v25, main_v26, main_v27, main_v28, main_cst_4, main_call5_cst, main_call5_v0, main_call5_v1, main_call5_v2, main_call5_v3, main_call5_v4, main_v29]

set_option maxRecDepth 8192 in
theorem segE2_writes : (segE2 : List (HloOp τ sig (Elt F))).Forall fun op => op.writes ⊆ (segE2_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segE2_keep (V : Valuation τ sig (Elt F)) (r : Ref sig .tc) (h : r ∉ segE2_W) :
    after segE2 V (Proc.devRef .tc r) = V (Proc.devRef .tc r) :=
  after_of_writes_sub segE2 V segE2_writes h

/-- The fourth embedding network (on argument 3); result in `main_v39`. -/
abbrev segE3 : List (HloOp τ sig (Elt F)) :=
  [ StableHlo.binary main_arg3 main_arg18 main_v30 ((fun l r => Host.dotGeneral dot_S25000x6_S6x128_S25000x128_1_0_0_1_n_n none l r) : (⟨S25000x6, .f32⟩ : BufTy).Contents (Elt F) → (⟨S6x128, .f32⟩ : BufTy).Contents (Elt F) → (⟨S25000x128, .f32⟩ : BufTy).Contents (Elt F)),
    StableHlo.unary main_arg19 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S25000x128 ![0, 1] bcast_S1x128_S25000x128_0_1 : (⟨S1x128, .f32⟩ : BufTy).Contents (Elt F) → (⟨S25000x128, .f32⟩ : BufTy).Contents (Elt F)),
    StableHlo.binary main_v30 main_v32 main_v33 (addf : (⟨S25000x128, .f32⟩ : BufTy).Contents (Elt F) → (⟨S25000x128, .f32⟩ : BufTy).Contents (Elt F) → (⟨S25000x128, .f32⟩ : BufTy).Contents (Elt F)),
    StableHlo.nullary main_cst_5 (constant S_ .f32 0x3DCCCCCD#32),
    StableHlo.nullary main_call6_cst (constant S_ .f32 0x00000000#32),
    StableHlo.unary main_call6_cst main_call6_v0 (broadcastInDim S25000x128 ![] bcast_S_S25000x128 : (⟨S_, .f32⟩ : BufTy).Contents (Elt F) → (⟨S25000x128, .f32⟩ : BufTy).Contents (Elt F)),
    StableHlo.binary main_v33 main_call6_v0 main_call6_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_5 main_call6_v2 (id : (⟨S_, .f32⟩ : BufTy).Contents (Elt F) → (⟨S_, .f32⟩ : BufTy).Contents (Elt F)),
    StableHlo.unary main_call6_v2 main_call6_v3 (broadcastInDim S25000x128 ![] bcast_S_S25000x128 : (⟨S_, .f32⟩ : BufTy).Contents (Elt F) → (⟨S25000x128, .f32⟩ : BufTy).Contents (Elt F)),
    StableHlo.binary main_call6_v3 main_v33 main_call6_v4 (mulf : (⟨S25000x128, .f32⟩ : BufTy).Contents (Elt F) → (⟨S25000x128, .f32⟩ : BufTy).Contents (Elt F) → (⟨S25000x128, .f32⟩ : BufTy).Contents (Elt F)),
    StableHlo.ternary main_call6_v1 main_v33 main_call6_v4 main_v34 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)),
    StableHlo.binary main_v34 main_arg20 main_v35 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    StableHlo.unary main_arg21 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S25000x128 ![0, 1] bcast_S1x128_S25000x128_0_1 : (⟨S1x128, .f32⟩ : BufTy).Contents (Elt F) → (⟨S25000x128, .f32⟩ : BufTy).Contents (Elt F)),
    StableHlo.binary main_v35 main_v37 main_v38 (addf : (⟨S25000x128, .f32⟩ : BufTy).Contents (Elt F) → (⟨S25000x128, .f32⟩ : BufTy).Contents (Elt F) → (⟨S25000x128, .f32⟩ : BufTy).Contents (Elt F)),
    StableHlo.nullary main_cst_6 (constant S_ .f32 0x3DCCCCCD#32),
    StableHlo.nullary main_call7_cst (constant S_ .f32 0x00000000#32),
    StableHlo.unary main_call7_cst main_call7_v0 (broadcastInDim S25000x128 ![] bcast_S_S25000x128 : (⟨S_, .f32⟩ : BufTy).Contents (Elt F) → (⟨S25000x128, .f32⟩ : BufTy).Contents (Elt F)),
    StableHlo.binary main_v38 main_call7_v0 main_call7_v1 (cmpf .oge : (⟨S25000x128, .f32⟩ : BufTy).Contents (Elt F) → (⟨S25000x128, .f32⟩ : BufTy).Contents (Elt F) → (⟨S25000x128, .i1⟩ : BufTy).Contents (Elt F)),
    StableHlo.unary main_cst_6 main_call7_v2 (id : (⟨S_, .f32⟩ : BufTy).Contents (Elt F) → (⟨S_, .f32⟩ : BufTy).Contents (Elt F)),
    StableHlo.unary main_call7_v2 main_call7_v3 (broadcastInDim S25000x128 ![] bcast_S_S25000x128 : (⟨S_, .f32⟩ : BufTy).Contents (Elt F) → (⟨S25000x128, .f32⟩ : BufTy).Contents (Elt F)),
    StableHlo.binary main_call7_v3 main_v38 main_call7_v4 (mulf : (⟨S25000x128, .f32⟩ : BufTy).Contents (Elt F) → (⟨S25000x128, .f32⟩ : BufTy).Contents (Elt F) → (⟨S25000x128, .f32⟩ : BufTy).Contents (Elt F)),
    StableHlo.ternary main_call7_v1 main_v38 main_call7_v4 main_v39 (select : (⟨S25000x128, .i1⟩ : BufTy).Contents (Elt F) → (⟨S25000x128, .f32⟩ : BufTy).Contents (Elt F) → (⟨S25000x128, .f32⟩ : BufTy).Contents (Elt F) → (⟨S25000x128, .f32⟩ : BufTy).Contents (Elt F)) ]

set_option maxRecDepth 8192 in
theorem segE3_sub : ∀ op ∈ (segE3 : List (HloOp τ sig (Elt F))), op.bufs ⊆ tcRefs τ sig :=
  List.forall_iff_forall_mem.mp
    ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segE3_fresh : ∀ op ∈ (segE3 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl⟩

/-- The buffers this stretch writes, in order. -/
abbrev segE3_W : List (Ref sig .tc) := [main_v30, main_v31, main_v32, main_v33, main_cst_5, main_call6_cst, main_call6_v0, main_call6_v1, main_call6_v2, main_call6_v3, main_call6_v4, main_v34, main_v35, main_v36, main_v37, main_v38, main_cst_6, main_call7_cst, main_call7_v0, main_call7_v1, main_call7_v2, main_call7_v3, main_call7_v4, main_v39]

set_option maxRecDepth 8192 in
theorem segE3_writes : (segE3 : List (HloOp τ sig (Elt F))).Forall fun op => op.writes ⊆ (segE3_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segE3_keep (V : Valuation τ sig (Elt F)) (r : Ref sig .tc) (h : r ∉ segE3_W) :
    after segE3 V (Proc.devRef .tc r) = V (Proc.devRef .tc r) :=
  after_of_writes_sub segE3 V segE3_writes h

/-- The four embeddings stacked, the rows gathered by the wrapped index vector (`main_v47`), and the source row of the edge table (`main_v49`). -/
abbrev segG : List (HloOp τ sig (Elt F)) :=
  [ StableHlo.nary ![main_v9, main_v19, main_v29, main_v39] main_v40 (fun u => concatenate S100000x128 0 [⟨S25000x128, u 0⟩, ⟨S25000x128, u 1⟩, ⟨S25000x128, u 2⟩, ⟨S25000x128, u 3⟩] concatenates_S25000x128_S25000x128_S25000x128_S25000x128_S100000x128_d0),
    StableHlo.nullary main_c (constantI S_ 32 0#32),
    StableHlo.unary main_c main_v41 (broadcastInDim S100000 ![] bcast_S_S100000 : (⟨S_, .i32⟩ : BufTy).Contents (Elt F) → (⟨S100000, .i32⟩ : BufTy).Contents (Elt F)),
    StableHlo.binary main_arg5 main_v41 main_v42 (cmpi .slt : (⟨S100000, .i32⟩ : BufTy).Contents (Elt F) → (⟨S100000, .i32⟩ : BufTy).Contents (Elt F) → (⟨S100000, .i1⟩ : BufTy).Contents (Elt F)),
    StableHlo.nullary main_c_7 (constantI S_ 32 100000#32),
    StableHlo.unary main_c_7 main_v43 (broadcastInDim S100000 ![] bcast_S_S100000 : (⟨S_, .i32⟩ : BufTy).Contents (Elt F) → (⟨S100000, .i32⟩ : BufTy).Contents (Elt F)),
    StableHlo.binary main_arg5 main_v43 main_v44 (addi : (⟨S100000, .i32⟩ : BufTy).Contents (Elt F) → (⟨S100000, .i32⟩ : BufTy).Contents (Elt F) → (⟨S100000, .i32⟩ : BufTy).Contents (Elt F)),
    StableHlo.ternary main_v42 main_v44 main_arg5 main_v45 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v45 main_v46 (broadcastInDim S100000x1 ![0] bcast_S100000_S100000x1_0 : (⟨S100000, .i32⟩ : BufTy).Contents (Elt F) → (⟨S100000x1, .i32⟩ : BufTy).Contents (Elt F)),
    StableHlo.binary main_v40 main_v46 main_v47 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    StableHlo.unary main_arg4 main_v48 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v48 main_v49 rfl shapeCasts_S1x1600000_S1600000 ]

set_option maxRecDepth 8192 in
theorem segG_sub : ∀ op ∈ (segG : List (HloOp τ sig (Elt F))), op.bufs ⊆ tcRefs τ sig :=
  List.forall_iff_forall_mem.mp
    ⟨nary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

set_option maxRecDepth 8192 in
theorem segG_fresh : ∀ op ∈ (segG : List (HloOp τ sig (Elt F))), op.fresh = ∅ :=
  List.forall_iff_forall_mem.mp
    ⟨rfl, rfl, rfl, rfl, rfl, rfl, rfl, rfl, rfl, rfl, rfl, rfl⟩

/-- The buffers this stretch writes, in order. -/
abbrev segG_W : List (Ref sig .tc) := [main_v40, main_c, main_v41, main_v42, main_c_7, main_v43, main_v44, main_v45, main_v46, main_v47, main_v48, main_v49]

set_option maxRecDepth 8192 in
theorem segG_writes : (segG : List (HloOp τ sig (Elt F))).Forall fun op => op.writes ⊆ (segG_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem⟩

/-- A buffer this stretch does not write keeps its contents through it. -/
theorem segG_keep (V : Valuation τ sig (Elt F)) (r : Ref sig .tc) (h : r ∉ segG_W) :
    after segG V (Proc.devRef .tc r) = V (Proc.devRef .tc r) :=
  after_of_writes_sub segG V segG_writes h

/-- The destination row of the edge table (`main_v51`) and the inverse of the in-degree clamped below by one, as a column (`main_v60`). -/
abbrev segD : List (HloOp τ sig (Elt F)) :=
  [ StableHlo.unary main_arg4 main_v50 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v50 main_v51 rfl shapeCasts_S1x1600000_S1600000,
    StableHlo.nullary main_cst_8 (constant S_ .f32 0x3F800000#32),
    StableHlo.unary main_cst_8 main_v52 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v53 (broadcastInDim S100000 ![] bcast_S_S100000 : (⟨S_, .f32⟩ : BufTy).Contents (Elt F) → (⟨S100000, .f32⟩ : BufTy).Contents (Elt F)),
    StableHlo.unary main_v51 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_10 (constant S_ .f32 0x3F800000#32),
    StableHlo.unary main_cst_10 main_v56 (broadcastInDim S100000 ![] bcast_S_S100000 : (⟨S_, .f32⟩ : BufTy).Contents (Elt F) → (⟨S100000, .f32⟩ : BufTy).Contents (Elt F)),
    StableHlo.binary main_v55 main_v56 main_v57 (maximumf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x3F800000#32),
    StableHlo.unary main_cst_11 main_v58 (broadcastInDim S100000 ![] bcast_S_S100000 : (⟨S_, .f32⟩ : BufTy).Contents (Elt F) → (⟨S100000, .f32⟩ : BufTy).Contents (Elt F)),
    StableHlo.binary main_v58 main_v57 main_v59 (Host.divf : (⟨S100000, .f32⟩ : BufTy).Contents (Elt F) → (⟨S100000, .f32⟩ : BufTy).Contents (Elt F) → (⟨S100000, .f32⟩ : BufTy).Contents (Elt F)),
    StableHlo.unary main_v59 main_v60 (broadcastInDim S100000x1 ![0] bcast_S100000_S100000x1_0 : (⟨S100000, .f32⟩ : BufTy).Contents (Elt F) → (⟨S100000x1, .f32⟩ : BufTy).Contents (Elt F)) ]

set_option maxRecDepth 8192 in
theorem segD_sub : ∀ op ∈ (segD : List (HloOp τ sig (Elt F))), op.bufs ⊆ tcRefs τ sig :=
  List.forall_iff_forall_mem.mp
    ⟨unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

set_option maxRecDepth 8192 in
theorem segD_fresh : ∀ op ∈ (segD : List (HloOp τ sig (Elt F))), op.fresh = ∅ :=
  List.forall_iff_forall_mem.mp
    ⟨rfl, rfl, rfl, rfl, rfl, rfl, rfl, rfl, rfl, rfl, rfl, rfl, rfl, rfl, rfl⟩

/-- The buffers this stretch writes, in order. -/
abbrev segD_W : List (Ref sig .tc) := [main_v50, main_v51, main_cst_8, main_v52, main_cst_9, main_v53, main_v54, main_v55, main_cst_10, main_v56, main_v57, main_cst_11, main_v58, main_v59, main_v60]

set_option maxRecDepth 8192 in
theorem segD_writes : (segD : List (HloOp τ sig (Elt F))).Forall fun op => op.writes ⊆ (segD_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segD_keep (V : Valuation τ sig (Elt F)) (r : Ref sig .tc) (h : r ∉ segD_W) :
    after segD V (Proc.devRef .tc r) = V (Proc.devRef .tc r) :=
  after_of_writes_sub segD V segD_writes h

/-- The first hidden layer: the slices of the stacked weights, the mean aggregation over incoming edges, the two affine maps and the leaky rectifier; result in `main_v85`. -/
abbrev segL1 : List (HloOp τ sig (Elt F)) :=
  [ StableHlo.unary main_arg22 main_v61 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.unary main_arg23 main_v63 ((extractStridedSlice S1x128 ![0, 0] · slices_S3x128_S1x128_0_0) : (⟨S3x128, .f32⟩ : BufTy).Contents (Elt F) → (⟨S1x128, .f32⟩ : BufTy).Contents (Elt F)),
    StableHlo.reshape main_v63 main_v64 rfl shapeCasts_S1x128_S128,
    StableHlo.unary main_arg24 main_v65 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v65 main_v66 rfl shapeCasts_S1x128x128_S128x128,
    StableHlo.nullary main_c_12 (constantI S_ 32 0#32),
    StableHlo.unary main_c_12 main_v67 (broadcastInDim S1600000 ![] bcast_S_S1600000 : (⟨S_, .i32⟩ : BufTy).Contents (Elt F) → (⟨S1600000, .i32⟩ : BufTy).Contents (Elt F)),
    StableHlo.binary main_v49 main_v67 main_v68 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v69 (broadcastInDim S1600000 ![] bcast_S_S1600000 : (⟨S_, .i32⟩ : BufTy).Contents (Elt F) → (⟨S1600000, .i32⟩ : BufTy).Contents (Elt F)),
    StableHlo.binary main_v49 main_v69 main_v70 (addi : (⟨S1600000, .i32⟩ : BufTy).Contents (Elt F) → (⟨S1600000, .i32⟩ : BufTy).Contents (Elt F) → (⟨S1600000, .i32⟩ : BufTy).Contents (Elt F)),
    StableHlo.ternary main_v68 main_v70 main_v49 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v71 main_v72 (broadcastInDim S1600000x1 ![0] bcast_S1600000_S1600000x1_0 : (⟨S1600000, .i32⟩ : BufTy).Contents (Elt F) → (⟨S1600000x1, .i32⟩ : BufTy).Contents (Elt F)),
    StableHlo.binary main_v47 main_v72 main_v73 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v74 (broadcastInDim S100000x128 ![] bcast_S_S100000x128 : (⟨S_, .f32⟩ : BufTy).Contents (Elt F) → (⟨S100000x128, .f32⟩ : BufTy).Contents (Elt F)),
    StableHlo.unary main_v51 main_v75 (broadcastInDim S1600000x1 ![0] bcast_S1600000_S1600000x1_0 : (⟨S1600000, .i32⟩ : BufTy).Contents (Elt F) → (⟨S1600000x1, .i32⟩ : BufTy).Contents (Elt F)),
    StableHlo.ternary main_v74 main_v75 main_v73 main_v76 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v60 main_v77 (broadcastInDim S100000x128 ![0, 1] bcast_S100000x1_S100000x128_0_1 : (⟨S100000x1, .f32⟩ : BufTy).Contents (Elt F) → (⟨S100000x128, .f32⟩ : BufTy).Contents (Elt F)),
    StableHlo.binary main_v76 main_v77 main_v78 (mulf : (⟨S100000x128, .f32⟩ : BufTy).Contents (Elt F) → (⟨S100000x128, .f32⟩ : BufTy).Contents (Elt F) → (⟨S100000x128, .f32⟩ : BufTy).Contents (Elt F)),
    StableHlo.binary main_v78 main_v62 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v64 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.binary main_v47 main_v66 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v82 main_v83 main_v84 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3DCCCCCD#32),
    StableHlo.nullary main_call8_cst (constant S_ .f32 0x00000000#32),
    StableHlo.unary main_call8_cst main_call8_v0 (broadcastInDim S100000x128 ![] bcast_S_S100000x128 : (⟨S_, .f32⟩ : BufTy).Contents (Elt F) → (⟨S100000x128, .f32⟩ : BufTy).Contents (Elt F)),
    StableHlo.binary main_v84 main_call8_v0 main_call8_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_15 main_call8_v2 (id : (⟨S_, .f32⟩ : BufTy).Contents (Elt F) → (⟨S_, .f32⟩ : BufTy).Contents (Elt F)),
    StableHlo.unary main_call8_v2 main_call8_v3 (broadcastInDim S100000x128 ![] bcast_S_S100000x128 : (⟨S_, .f32⟩ : BufTy).Contents (Elt F) → (⟨S100000x128, .f32⟩ : BufTy).Contents (Elt F)),
    StableHlo.binary main_call8_v3 main_v84 main_call8_v4 (mulf : (⟨S100000x128, .f32⟩ : BufTy).Contents (Elt F) → (⟨S100000x128, .f32⟩ : BufTy).Contents (Elt F) → (⟨S100000x128, .f32⟩ : BufTy).Contents (Elt F)),
    StableHlo.ternary main_call8_v1 main_v84 main_call8_v4 main_v85 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

set_option maxRecDepth 8192 in
theorem segL1_sub : ∀ op ∈ (segL1 : List (HloOp τ sig (Elt F))), op.bufs ⊆ tcRefs τ sig :=
  List.forall_iff_forall_mem.mp
    ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segL1_fresh : ∀ op ∈ (segL1 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers this stretch writes, in order. -/
abbrev segL1_W : List (Ref sig .tc) := [main_v61, main_v62, main_v63, main_v64, main_v65, main_v66, main_c_12, main_v67, main_v68, main_c_13, main_v69, main_v70, main_v71, main_v72, main_v73, main_cst_14, main_v74, main_v75, main_v76, main_v77, main_v78, main_v79, main_v80, main_v81, main_v82, main_v83, main_v84, main_cst_15, main_call8_cst, main_call8_v0, main_call8_v1, main_call8_v2, main_call8_v3, main_call8_v4, main_v85]

set_option maxRecDepth 8192 in
theorem segL1_writes : (segL1 : List (HloOp τ sig (Elt F))).Forall fun op => op.writes ⊆ (segL1_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segL1_keep (V : Valuation τ sig (Elt F)) (r : Ref sig .tc) (h : r ∉ segL1_W) :
    after segL1 V (Proc.devRef .tc r) = V (Proc.devRef .tc r) :=
  after_of_writes_sub segL1 V segL1_writes h

/-- The second hidden layer, first part: the slices of the stacked weights and the gather of the source rows. -/
abbrev segL2a : List (HloOp τ sig (Elt F)) :=
  [ StableHlo.unary main_arg22 main_v86 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v86 main_v87 rfl shapeCasts_S1x128x128_S128x128,
    StableHlo.unary main_arg23 main_v88 ((extractStridedSlice S1x128 ![1, 0] · slices_S3x128_S1x128_1_0) : (⟨S3x128, .f32⟩ : BufTy).Contents (Elt F) → (⟨S1x128, .f32⟩ : BufTy).Contents (Elt F)),
    StableHlo.reshape main_v88 main_v89 rfl shapeCasts_S1x128_S128,
    StableHlo.unary main_arg24 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v90 main_v91 rfl shapeCasts_S1x128x128_S128x128,
    StableHlo.nullary main_c_16 (constantI S_ 32 0#32),
    StableHlo.unary main_c_16 main_v92 (broadcastInDim S1600000 ![] bcast_S_S1600000 : (⟨S_, .i32⟩ : BufTy).Contents (Elt F) → (⟨S1600000, .i32⟩ : BufTy).Contents (Elt F)),
    StableHlo.binary main_v49 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v94 (broadcastInDim S1600000 ![] bcast_S_S1600000 : (⟨S_, .i32⟩ : BufTy).Contents (Elt F) → (⟨S1600000, .i32⟩ : BufTy).Contents (Elt F)),
    StableHlo.binary main_v49 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v49 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v85 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32) ]

set_option maxRecDepth 8192 in
theorem segL2a_sub : ∀ op ∈ (segL2a : List (HloOp τ sig (Elt F))), op.bufs ⊆ tcRefs τ sig :=
  List.forall_iff_forall_mem.mp
    ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxRecDepth 8192 in
theorem segL2a_fresh : ∀ op ∈ (segL2a : List (HloOp τ sig (Elt F))), op.fresh = ∅ :=
  List.forall_iff_forall_mem.mp
    ⟨rfl, rfl, rfl, rfl, rfl, rfl, rfl, rfl, rfl, rfl, rfl, rfl, rfl, rfl, rfl, rfl⟩

/-- The buffers this stretch writes, in order. -/
abbrev segL2a_W : List (Ref sig .tc) := [main_v86, main_v87, main_v88, main_v89, main_v90, main_v91, main_c_16, main_v92, main_v93, main_c_17, main_v94, main_v95, main_v96, main_v97, main_v98, main_cst_18]

set_option maxRecDepth 8192 in
theorem segL2a_writes : (segL2a : List (HloOp τ sig (Elt F))).Forall fun op => op.writes ⊆ (segL2a_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segL2a_keep (V : Valuation τ sig (Elt F)) (r : Ref sig .tc) (h : r ∉ segL2a_W) :
    after segL2a V (Proc.devRef .tc r) = V (Proc.devRef .tc r) :=
  after_of_writes_sub segL2a V segL2a_writes h

/-- The second hidden layer, second part: the scatter-add, the scaling, the affine maps and the leaky rectifier; result in `main_v110`. -/
abbrev segL2b : List (HloOp τ sig (Elt F)) :=
  [ StableHlo.unary main_cst_18 main_v99 (broadcastInDim S100000x128 ![] bcast_S_S100000x128 : (⟨S_, .f32⟩ : BufTy).Contents (Elt F) → (⟨S100000x128, .f32⟩ : BufTy).Contents (Elt F)),
    StableHlo.unary main_v51 main_v100 (broadcastInDim S1600000x1 ![0] bcast_S1600000_S1600000x1_0 : (⟨S1600000, .i32⟩ : BufTy).Contents (Elt F) → (⟨S1600000x1, .i32⟩ : BufTy).Contents (Elt F)),
    StableHlo.ternary main_v99 main_v100 main_v98 main_v101 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v60 main_v102 (broadcastInDim S100000x128 ![0, 1] bcast_S100000x1_S100000x128_0_1 : (⟨S100000x1, .f32⟩ : BufTy).Contents (Elt F) → (⟨S100000x128, .f32⟩ : BufTy).Contents (Elt F)),
    StableHlo.binary main_v101 main_v102 main_v103 (mulf : (⟨S100000x128, .f32⟩ : BufTy).Contents (Elt F) → (⟨S100000x128, .f32⟩ : BufTy).Contents (Elt F) → (⟨S100000x128, .f32⟩ : BufTy).Contents (Elt F)),
    StableHlo.binary main_v103 main_v87 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v89 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)),
    StableHlo.binary main_v85 main_v91 main_v108 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v107 main_v108 main_v109 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3DCCCCCD#32),
    StableHlo.nullary main_call9_cst (constant S_ .f32 0x00000000#32),
    StableHlo.unary main_call9_cst main_call9_v0 (broadcastInDim S100000x128 ![] bcast_S_S100000x128 : (⟨S_, .f32⟩ : BufTy).Contents (Elt F) → (⟨S100000x128, .f32⟩ : BufTy).Contents (Elt F)),
    StableHlo.binary main_v109 main_call9_v0 main_call9_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_19 main_call9_v2 (id : (⟨S_, .f32⟩ : BufTy).Contents (Elt F) → (⟨S_, .f32⟩ : BufTy).Contents (Elt F)),
    StableHlo.unary main_call9_v2 main_call9_v3 (broadcastInDim S100000x128 ![] bcast_S_S100000x128 : (⟨S_, .f32⟩ : BufTy).Contents (Elt F) → (⟨S100000x128, .f32⟩ : BufTy).Contents (Elt F)),
    StableHlo.binary main_call9_v3 main_v109 main_call9_v4 (mulf : (⟨S100000x128, .f32⟩ : BufTy).Contents (Elt F) → (⟨S100000x128, .f32⟩ : BufTy).Contents (Elt F) → (⟨S100000x128, .f32⟩ : BufTy).Contents (Elt F)),
    StableHlo.ternary main_call9_v1 main_v109 main_call9_v4 main_v110 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

set_option maxRecDepth 8192 in
theorem segL2b_sub : ∀ op ∈ (segL2b : List (HloOp τ sig (Elt F))), op.bufs ⊆ tcRefs τ sig :=
  List.forall_iff_forall_mem.mp
    ⟨unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segL2b_fresh : ∀ op ∈ (segL2b : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl⟩

/-- The buffers this stretch writes, in order. -/
abbrev segL2b_W : List (Ref sig .tc) := [main_v99, main_v100, main_v101, main_v102, main_v103, main_v104, main_v105, main_v106, main_v107, main_v108, main_v109, main_cst_19, main_call9_cst, main_call9_v0, main_call9_v1, main_call9_v2, main_call9_v3, main_call9_v4, main_v110]

set_option maxRecDepth 8192 in
theorem segL2b_writes : (segL2b : List (HloOp τ sig (Elt F))).Forall fun op => op.writes ⊆ (segL2b_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segL2b_keep (V : Valuation τ sig (Elt F)) (r : Ref sig .tc) (h : r ∉ segL2b_W) :
    after segL2b V (Proc.devRef .tc r) = V (Proc.devRef .tc r) :=
  after_of_writes_sub segL2b V segL2b_writes h

/-- The third hidden layer; result in `main_v135`. -/
abbrev segL3 : List (HloOp τ sig (Elt F)) :=
  [ StableHlo.unary main_arg22 main_v111 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v111 main_v112 rfl shapeCasts_S1x128x128_S128x128,
    StableHlo.unary main_arg23 main_v113 ((extractStridedSlice S1x128 ![2, 0] · slices_S3x128_S1x128_2_0) : (⟨S3x128, .f32⟩ : BufTy).Contents (Elt F) → (⟨S1x128, .f32⟩ : BufTy).Contents (Elt F)),
    StableHlo.reshape main_v113 main_v114 rfl shapeCasts_S1x128_S128,
    StableHlo.unary main_arg24 main_v115 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v115 main_v116 rfl shapeCasts_S1x128x128_S128x128,
    StableHlo.nullary main_c_20 (constantI S_ 32 0#32),
    StableHlo.unary main_c_20 main_v117 (broadcastInDim S1600000 ![] bcast_S_S1600000 : (⟨S_, .i32⟩ : BufTy).Contents (Elt F) → (⟨S1600000, .i32⟩ : BufTy).Contents (Elt F)),
    StableHlo.binary main_v49 main_v117 main_v118 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v119 (broadcastInDim S1600000 ![] bcast_S_S1600000 : (⟨S_, .i32⟩ : BufTy).Contents (Elt F) → (⟨S1600000, .i32⟩ : BufTy).Contents (Elt F)),
    StableHlo.binary main_v49 main_v119 main_v120 (addi : (⟨S1600000, .i32⟩ : BufTy).Contents (Elt F) → (⟨S1600000, .i32⟩ : BufTy).Contents (Elt F) → (⟨S1600000, .i32⟩ : BufTy).Contents (Elt F)),
    StableHlo.ternary main_v118 main_v120 main_v49 main_v121 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v121 main_v122 (broadcastInDim S1600000x1 ![0] bcast_S1600000_S1600000x1_0 : (⟨S1600000, .i32⟩ : BufTy).Contents (Elt F) → (⟨S1600000x1, .i32⟩ : BufTy).Contents (Elt F)),
    StableHlo.binary main_v110 main_v122 main_v123 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_22 (constant S_ .f32 0x00000000#32),
    StableHlo.unary main_cst_22 main_v124 (broadcastInDim S100000x128 ![] bcast_S_S100000x128 : (⟨S_, .f32⟩ : BufTy).Contents (Elt F) → (⟨S100000x128, .f32⟩ : BufTy).Contents (Elt F)),
    StableHlo.unary main_v51 main_v125 (broadcastInDim S1600000x1 ![0] bcast_S1600000_S1600000x1_0 : (⟨S1600000, .i32⟩ : BufTy).Contents (Elt F) → (⟨S1600000x1, .i32⟩ : BufTy).Contents (Elt F)),
    StableHlo.ternary main_v124 main_v125 main_v123 main_v126 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v60 main_v127 (broadcastInDim S100000x128 ![0, 1] bcast_S100000x1_S100000x128_0_1 : (⟨S100000x1, .f32⟩ : BufTy).Contents (Elt F) → (⟨S100000x128, .f32⟩ : BufTy).Contents (Elt F)),
    StableHlo.binary main_v126 main_v127 main_v128 (mulf : (⟨S100000x128, .f32⟩ : BufTy).Contents (Elt F) → (⟨S100000x128, .f32⟩ : BufTy).Contents (Elt F) → (⟨S100000x128, .f32⟩ : BufTy).Contents (Elt F)),
    StableHlo.binary main_v128 main_v112 main_v129 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v114 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S100000x128 ![0, 1] bcast_S1x128_S100000x128_0_1 : (⟨S1x128, .f32⟩ : BufTy).Contents (Elt F) → (⟨S100000x128, .f32⟩ : BufTy).Contents (Elt F)),
    StableHlo.binary main_v129 main_v131 main_v132 (addf : (⟨S100000x128, .f32⟩ : BufTy).Contents (Elt F) → (⟨S100000x128, .f32⟩ : BufTy).Contents (Elt F) → (⟨S100000x128, .f32⟩ : BufTy).Contents (Elt F)),
    StableHlo.binary main_v110 main_v116 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v132 main_v133 main_v134 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3DCCCCCD#32),
    StableHlo.nullary main_call10_cst (constant S_ .f32 0x00000000#32),
    StableHlo.unary main_call10_cst main_call10_v0 (broadcastInDim S100000x128 ![] bcast_S_S100000x128 : (⟨S_, .f32⟩ : BufTy).Contents (Elt F) → (⟨S100000x128, .f32⟩ : BufTy).Contents (Elt F)),
    StableHlo.binary main_v134 main_call10_v0 main_call10_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_23 main_call10_v2 (id : (⟨S_, .f32⟩ : BufTy).Contents (Elt F) → (⟨S_, .f32⟩ : BufTy).Contents (Elt F)),
    StableHlo.unary main_call10_v2 main_call10_v3 (broadcastInDim S100000x128 ![] bcast_S_S100000x128 : (⟨S_, .f32⟩ : BufTy).Contents (Elt F) → (⟨S100000x128, .f32⟩ : BufTy).Contents (Elt F)),
    StableHlo.binary main_call10_v3 main_v134 main_call10_v4 (mulf : (⟨S100000x128, .f32⟩ : BufTy).Contents (Elt F) → (⟨S100000x128, .f32⟩ : BufTy).Contents (Elt F) → (⟨S100000x128, .f32⟩ : BufTy).Contents (Elt F)),
    StableHlo.ternary main_call10_v1 main_v134 main_call10_v4 main_v135 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

set_option maxRecDepth 8192 in
theorem segL3_sub : ∀ op ∈ (segL3 : List (HloOp τ sig (Elt F))), op.bufs ⊆ tcRefs τ sig :=
  List.forall_iff_forall_mem.mp
    ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem segL3_fresh : ∀ op ∈ (segL3 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers this stretch writes, in order. -/
abbrev segL3_W : List (Ref sig .tc) := [main_v111, main_v112, main_v113, main_v114, main_v115, main_v116, main_c_20, main_v117, main_v118, main_c_21, main_v119, main_v120, main_v121, main_v122, main_v123, main_cst_22, main_v124, main_v125, main_v126, main_v127, main_v128, main_v129, main_v130, main_v131, main_v132, main_v133, main_v134, main_cst_23, main_call10_cst, main_call10_v0, main_call10_v1, main_call10_v2, main_call10_v3, main_call10_v4, main_v135]

set_option maxRecDepth 8192 in
theorem segL3_writes : (segL3 : List (HloOp τ sig (Elt F))).Forall fun op => op.writes ⊆ (segL3_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segL3_keep (V : Valuation τ sig (Elt F)) (r : Ref sig .tc) (h : r ∉ segL3_W) :
    after segL3 V (Proc.devRef .tc r) = V (Proc.devRef .tc r) :=
  after_of_writes_sub segL3 V segL3_writes h

/-- The output layer, first part: the mean aggregation and the aggregated branch's affine map. -/
abbrev segOa : List (HloOp τ sig (Elt F)) :=
  [ StableHlo.nullary main_c_24 (constantI S_ 32 0#32),
    StableHlo.unary main_c_24 main_v136 (broadcastInDim S1600000 ![] bcast_S_S1600000 : (⟨S_, .i32⟩ : BufTy).Contents (Elt F) → (⟨S1600000, .i32⟩ : BufTy).Contents (Elt F)),
    StableHlo.binary main_v49 main_v136 main_v137 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v138 (broadcastInDim S1600000 ![] bcast_S_S1600000 : (⟨S_, .i32⟩ : BufTy).Contents (Elt F) → (⟨S1600000, .i32⟩ : BufTy).Contents (Elt F)),
    StableHlo.binary main_v49 main_v138 main_v139 (addi : (⟨S1600000, .i32⟩ : BufTy).Contents (Elt F) → (⟨S1600000, .i32⟩ : BufTy).Contents (Elt F) → (⟨S1600000, .i32⟩ : BufTy).Contents (Elt F)),
    StableHlo.ternary main_v137 main_v139 main_v49 main_v140 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v140 main_v141 (broadcastInDim S1600000x1 ![0] bcast_S1600000_S1600000x1_0 : (⟨S1600000, .i32⟩ : BufTy).Contents (Elt F) → (⟨S1600000x1, .i32⟩ : BufTy).Contents (Elt F)),
    StableHlo.binary main_v135 main_v141 main_v142 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_26 (constant S_ .f32 0x00000000#32),
    StableHlo.unary main_cst_26 main_v143 (broadcastInDim S100000x128 ![] bcast_S_S100000x128 : (⟨S_, .f32⟩ : BufTy).Contents (Elt F) → (⟨S100000x128, .f32⟩ : BufTy).Contents (Elt F)),
    StableHlo.unary main_v51 main_v144 (broadcastInDim S1600000x1 ![0] bcast_S1600000_S1600000x1_0 : (⟨S1600000, .i32⟩ : BufTy).Contents (Elt F) → (⟨S1600000x1, .i32⟩ : BufTy).Contents (Elt F)),
    StableHlo.ternary main_v143 main_v144 main_v142 main_v145 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v60 main_v146 (broadcastInDim S100000x128 ![0, 1] bcast_S100000x1_S100000x128_0_1 : (⟨S100000x1, .f32⟩ : BufTy).Contents (Elt F) → (⟨S100000x128, .f32⟩ : BufTy).Contents (Elt F)),
    StableHlo.binary main_v145 main_v146 main_v147 (mulf : (⟨S100000x128, .f32⟩ : BufTy).Contents (Elt F) → (⟨S100000x128, .f32⟩ : BufTy).Contents (Elt F) → (⟨S100000x128, .f32⟩ : BufTy).Contents (Elt F)),
    StableHlo.binary main_v147 main_arg25 main_v148 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg26 main_v149 (broadcastInDim S1x1 ![1] bcast_S1_S1x1_1 : (⟨S1, .f32⟩ : BufTy).Contents (Elt F) → (⟨S1x1, .f32⟩ : BufTy).Contents (Elt F)),
    StableHlo.unary main_v149 main_v150 (broadcastInDim S100000x1 ![0, 1] bcast_S1x1_S100000x1_0_1 : (⟨S1x1, .f32⟩ : BufTy).Contents (Elt F) → (⟨S100000x1, .f32⟩ : BufTy).Contents (Elt F)) ]

set_option maxRecDepth 8192 in
theorem segOa_sub : ∀ op ∈ (segOa : List (HloOp τ sig (Elt F))), op.bufs ⊆ tcRefs τ sig :=
  List.forall_iff_forall_mem.mp
    ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub ..⟩

set_option maxRecDepth 8192 in
theorem segOa_fresh : ∀ op ∈ (segOa : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl⟩

/-- The buffers this stretch writes, in order. -/
abbrev segOa_W : List (Ref sig .tc) := [main_c_24, main_v136, main_v137, main_c_25, main_v138, main_v139, main_v140, main_v141, main_v142, main_cst_26, main_v143, main_v144, main_v145, main_v146, main_v147, main_v148, main_v149, main_v150]

set_option maxRecDepth 8192 in
theorem segOa_writes : (segOa : List (HloOp τ sig (Elt F))).Forall fun op => op.writes ⊆ (segOa_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer this stretch does not write keeps its contents through it. -/
theorem segOa_keep (V : Valuation τ sig (Elt F)) (r : Ref sig .tc) (h : r ∉ segOa_W) :
    after segOa V (Proc.devRef .tc r) = V (Proc.devRef .tc r) :=
  after_of_writes_sub segOa V segOa_writes h

/-- The output layer, second part: the self branch, the sum and the logistic function; result in `main_v159`. -/
abbrev segOb : List (HloOp τ sig (Elt F)) :=
  [ StableHlo.binary main_v148 main_v150 main_v151 (addf : (⟨S100000x1, .f32⟩ : BufTy).Contents (Elt F) → (⟨S100000x1, .f32⟩ : BufTy).Contents (Elt F) → (⟨S100000x1, .f32⟩ : BufTy).Contents (Elt F)),
    StableHlo.binary main_v135 main_arg27 main_v152 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.binary main_v151 main_v152 main_v153 (addf : (⟨S100000x1, .f32⟩ : BufTy).Contents (Elt F) → (⟨S100000x1, .f32⟩ : BufTy).Contents (Elt F) → (⟨S100000x1, .f32⟩ : BufTy).Contents (Elt F)),
    StableHlo.unary main_v153 main_v154 (Host.negf : (⟨S100000x1, .f32⟩ : BufTy).Contents (Elt F) → (⟨S100000x1, .f32⟩ : BufTy).Contents (Elt F)),
    StableHlo.unary main_v154 main_v155 (Host.exp : (⟨S100000x1, .f32⟩ : BufTy).Contents (Elt F) → (⟨S100000x1, .f32⟩ : BufTy).Contents (Elt F)),
    StableHlo.nullary main_cst_27 (constant S_ .f32 0x3F800000#32),
    StableHlo.unary main_cst_27 main_v156 (broadcastInDim S100000x1 ![] bcast_S_S100000x1 : (⟨S_, .f32⟩ : BufTy).Contents (Elt F) → (⟨S100000x1, .f32⟩ : BufTy).Contents (Elt F)),
    StableHlo.binary main_v156 main_v155 main_v157 (addf : (⟨S100000x1, .f32⟩ : BufTy).Contents (Elt F) → (⟨S100000x1, .f32⟩ : BufTy).Contents (Elt F) → (⟨S100000x1, .f32⟩ : BufTy).Contents (Elt F)),
    StableHlo.nullary main_cst_28 (constant S_ .f32 0x3F800000#32),
    StableHlo.unary main_cst_28 main_v158 (broadcastInDim S100000x1 ![] bcast_S_S100000x1 : (⟨S_, .f32⟩ : BufTy).Contents (Elt F) → (⟨S100000x1, .f32⟩ : BufTy).Contents (Elt F)),
    StableHlo.binary main_v158 main_v157 main_v159 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
theorem segOb_sub : ∀ op ∈ (segOb : List (HloOp τ sig (Elt F))), op.bufs ⊆ tcRefs τ sig :=
  List.forall_iff_forall_mem.mp
    ⟨binary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
theorem segOb_fresh : ∀ op ∈ (segOb : List (HloOp τ sig (Elt F))), op.fresh = ∅ :=
  List.forall_iff_forall_mem.mp
    ⟨rfl, rfl, rfl, rfl, rfl, rfl, rfl, rfl, rfl, rfl, rfl⟩

/-- The buffers this stretch writes, in order. -/
abbrev segOb_W : List (Ref sig .tc) := [main_v151, main_v152, main_v153, main_v154, main_v155, main_cst_27, main_v156, main_v157, main_cst_28, main_v158, main_v159]

set_option maxRecDepth 8192 in
theorem segOb_writes : (segOb : List (HloOp τ sig (Elt F))).Forall fun op => op.writes ⊆ (segOb_W.map (Proc.devRef (τ := τ) .tc)).toFinset :=
  by simp only [List.Forall]; exact ⟨by writes_mem, by writes_mem, by writes_mem, by writes_mem, by writes_mem, by writes_mem, by writes_mem, by writes_mem, by writes_mem, by writes_mem, by writes_mem⟩

/-- A buffer this stretch does not write keeps its contents through it. -/
theorem segOb_keep (V : Valuation τ sig (Elt F)) (r : Ref sig .tc) (h : r ∉ segOb_W) :
    after segOb V (Proc.devRef .tc r) = V (Proc.devRef .tc r) :=
  after_of_writes_sub segOb V segOb_writes h

/-! ## The four windows of the program and the whole line -/

/-- The first window: the four embedding networks and the gathering of node rows. -/
abbrev ops_part0 : List (HloOp τ sig (Elt F)) := segE0 ++ (segE1 ++ (segE2 ++ (segE3 ++ segG)))
/-- The second window. -/
abbrev ops_part1 : List (HloOp τ sig (Elt F)) := segD ++ (segL1 ++ segL2a)
/-- The third window. -/
abbrev ops_part2 : List (HloOp τ sig (Elt F)) := segL2b ++ (segL3 ++ segOa)
/-- The fourth window. -/
abbrev ops_part3 : List (HloOp τ sig (Elt F)) := segOb
/-- The whole line, in order. -/
abbrev ops : List (HloOp τ sig (Elt F)) := ops_part0 ++ (ops_part1 ++ (ops_part2 ++ ops_part3))

set_option maxRecDepth 8192 in
/-- The first window is that line: the rectifier's and the selection's definitions unfolded at their
    calls, both sides are one chain of steps once sequencing is reassociated. -/
theorem main_part0_eq (c : Dev nD) : main_part0 (F := F) c = seq ops_part0 := by
  simp only [main_part0, fn_leaky_relu.body, fn_where.body, seq, bind_assoc, pure_bind]
  rfl
set_option maxRecDepth 8192 in
theorem main_part1_eq (c : Dev nD) : main_part1 (F := F) c = seq ops_part1 := by
  simp only [main_part1, fn_leaky_relu_0.body, fn_where_1.body, seq, bind_assoc, pure_bind]
  rfl
set_option maxRecDepth 8192 in
theorem main_part2_eq (c : Dev nD) : main_part2 (F := F) c = seq ops_part2 := by
  simp only [main_part2, fn_leaky_relu_0.body, fn_where_1.body, seq, bind_assoc, pure_bind]
  rfl
set_option maxRecDepth 8192 in
theorem main_part3_eq (c : Dev nD) : main_part3 (F := F) c = seq ops_part3 := rfl

set_option maxRecDepth 8192 in
/-- The program is the whole line: its four windows in order are the concatenation run as one. -/
theorem main_eq (c : Dev nD) : main (F := F) c = seq ops := by
  simp only [ops, seq_append, ← main_part0_eq c, ← main_part1_eq c, ← main_part2_eq c, ← main_part3_eq c]
  rfl

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr
    (List.forall_mem_append.mpr ⟨List.forall_mem_append.mpr ⟨segE0_sub, List.forall_mem_append.mpr ⟨segE1_sub,
        List.forall_mem_append.mpr ⟨segE2_sub, List.forall_mem_append.mpr ⟨segE3_sub, segG_sub⟩⟩⟩⟩,
      List.forall_mem_append.mpr ⟨List.forall_mem_append.mpr ⟨segD_sub, List.forall_mem_append.mpr ⟨segL1_sub, segL2a_sub⟩⟩,
        List.forall_mem_append.mpr ⟨List.forall_mem_append.mpr ⟨segL2b_sub, List.forall_mem_append.mpr ⟨segL3_sub, segOa_sub⟩⟩,
          segOb_sub⟩⟩⟩)

theorem ops_fresh : ∀ op ∈ (ops : List (HloOp τ sig (Elt F))), op.fresh = ∅ :=
  List.forall_mem_append.mpr ⟨List.forall_mem_append.mpr ⟨segE0_fresh, List.forall_mem_append.mpr ⟨segE1_fresh,
      List.forall_mem_append.mpr ⟨segE2_fresh, List.forall_mem_append.mpr ⟨segE3_fresh, segG_fresh⟩⟩⟩⟩,
    List.forall_mem_append.mpr ⟨List.forall_mem_append.mpr ⟨segD_fresh, List.forall_mem_append.mpr ⟨segL1_fresh, segL2a_fresh⟩⟩,
      List.forall_mem_append.mpr ⟨List.forall_mem_append.mpr ⟨segL2b_fresh, List.forall_mem_append.mpr ⟨segL3_fresh, segOa_fresh⟩⟩,
        segOb_fresh⟩⟩⟩

/-- The contents after the whole line, stretch by stretch. -/
theorem after_ops (V : Valuation τ sig (Elt F)) :
    after ops V = after segOb (after segOa (after segL3 (after segL2b (after segL2a (after segL1 (after segD
      (after segG (after segE3 (after segE2 (after segE1 (after segE0 V))))))))))) := by
  simp only [ops, ops_part0, ops_part1, ops_part2, ops_part3, after_append]

/-- A buffer none of the twelve stretches writes — each argument of the program — keeps its
    contents through the whole line. -/
theorem ops_keep (V : Valuation τ sig (Elt F)) (r : Ref sig .tc)
    (h0 : r ∉ segE0_W := by decide) (h1 : r ∉ segE1_W := by decide) (h2 : r ∉ segE2_W := by decide)
    (h3 : r ∉ segE3_W := by decide) (h4 : r ∉ segG_W := by decide) (h5 : r ∉ segD_W := by decide)
    (h6 : r ∉ segL1_W := by decide) (h7 : r ∉ segL2a_W := by decide) (h8 : r ∉ segL2b_W := by decide)
    (h9 : r ∉ segL3_W := by decide) (h10 : r ∉ segOa_W := by decide) (h11 : r ∉ segOb_W := by decide) :
    after ops V (Proc.devRef .tc r) = V (Proc.devRef .tc r) := by
  rw [after_ops, segOb_keep _ r h11, segOa_keep _ r h10, segL3_keep _ r h9, segL2b_keep _ r h8, segL2a_keep _ r h7,
    segL1_keep _ r h6, segD_keep _ r h5, segG_keep _ r h4, segE3_keep _ r h3, segE2_keep _ r h2, segE1_keep _ r h1,
    segE0_keep _ r h0]

end Cert.ReferenceIdeal.RefRun

end
-- ==== Proof.RefRun.lean ====
/- The reference program's run, read back from its list of operations.

   From any memory with all counters at zero, every weakly fair execution of the reference program
   terminates; its result buffer then holds the value the 257 operations compute, in order, from
   the contents its buffers had at the start, and each of its 28 argument buffers holds what it
   held at the start (no operation of the line writes an argument). -/
import proofs.«136217_j57939108823477_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result on device `c`: the contents of the result buffer after the whole line of operations,
    run from the contents `m` gives that device's buffers. -/
def res (m : (ℓ : Loc nD τ sig) → Buf (Elt F) ℓ) (c : Dev nD) : Buf (Elt F) ((c.tc : Thread nD τ).loc main_v159) :=
  after ops (launchContents m c) (Proc.devRef .tc main_v159)

theorem res_def (m : (ℓ : Loc nD τ sig) → Buf (Elt F) ℓ) (c : Dev nD) :
    res m c = after ops (launchContents m c) (Proc.devRef .tc main_v159) := rfl

/-- On every device, for any float values, from any memory with zero counters: every weakly fair
    execution of the program terminates with the result buffer at `res` and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v159) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨h c main_v159,
      (h c main_arg0).trans (ops_keep (launchContents m c) main_arg0),
      (h c main_arg1).trans (ops_keep (launchContents m c) main_arg1),
      (h c main_arg2).trans (ops_keep (launchContents m c) main_arg2),
      (h c main_arg3).trans (ops_keep (launchContents m c) main_arg3),
      (h c main_arg4).trans (ops_keep (launchContents m c) main_arg4),
      (h c main_arg5).trans (ops_keep (launchContents m c) main_arg5),
      (h c main_arg6).trans (ops_keep (launchContents m c) main_arg6),
      (h c main_arg7).trans (ops_keep (launchContents m c) main_arg7),
      (h c main_arg8).trans (ops_keep (launchContents m c) main_arg8),
      (h c main_arg9).trans (ops_keep (launchContents m c) main_arg9),
      (h c main_arg10).trans (ops_keep (launchContents m c) main_arg10),
      (h c main_arg11).trans (ops_keep (launchContents m c) main_arg11),
      (h c main_arg12).trans (ops_keep (launchContents m c) main_arg12),
      (h c main_arg13).trans (ops_keep (launchContents m c) main_arg13),
      (h c main_arg14).trans (ops_keep (launchContents m c) main_arg14),
      (h c main_arg15).trans (ops_keep (launchContents m c) main_arg15),
      (h c main_arg16).trans (ops_keep (launchContents m c) main_arg16),
      (h c main_arg17).trans (ops_keep (launchContents m c) main_arg17),
      (h c main_arg18).trans (ops_keep (launchContents m c) main_arg18),
      (h c main_arg19).trans (ops_keep (launchContents m c) main_arg19),
      (h c main_arg20).trans (ops_keep (launchContents m c) main_arg20),
      (h c main_arg21).trans (ops_keep (launchContents m c) main_arg21),
      (h c main_arg22).trans (ops_keep (launchContents m c) main_arg22),
      (h c main_arg23).trans (ops_keep (launchContents m c) main_arg23),
      (h c main_arg24).trans (ops_keep (launchContents m c) main_arg24),
      (h c main_arg25).trans (ops_keep (launchContents m c) main_arg25),
      (h c main_arg26).trans (ops_keep (launchContents m c) main_arg26),
      (h c main_arg27).trans (ops_keep (launchContents m c) main_arg27)⟩)
    (run_seq scopedRefs_eq scopedSems_eq defs main (fun _ => ops) main_eq (fun _ => ops_sub) m ρ (fun _ => ops_fresh))

end Cert.ReferenceIdeal.RefRun

end
-- ==== Proof.StageEmbed.lean ====
import proofs.«136217_j57939108823477_1_alg».proof.ReferenceIdeal
import Idealize.ShloMosaic.Lib.ValueIdx

/-!
# The embedding stage of the reference, as pure terms

The reference computes each of its four embeddings as a two-layer perceptron over all 25000 rows at
once: a product with the first weight matrix, a bias row added to every row, a leaky rectifier, a
product with the second weight matrix, a second bias row, a second leaky rectifier.  The definitions
below are those values written with exactly the operations (and the shape records) the reference's
statements use, so that a statement's value is one of these terms by unfolding.
-/

noncomputable section

namespace Cert.ReferenceIdeal.Stage

open Idealize.ShloMosaic Idealize.SL.Sem
open Cert.ReferenceIdeal Cert.ReferenceIdeal.Facts₀

variable {F : FTy → Type} [FloatOps F] [Facts₀]

/-- The leaky rectifier on a 25000 × 128 array: where `x ≥ 0` the value `x`, elsewhere `slope · x`,
    the zero and the slope each a scalar constant broadcast to the array's shape. -/
def lrelu25 (x : FVec F S25000x128 .f32) : FVec F S25000x128 .f32 :=
  select
    (cmpf .oge x (broadcastInDim S25000x128 ![] bcast_S_S25000x128 (constant (F := F) S_ .f32 0x00000000#32)))
    x
    (mulf (broadcastInDim S25000x128 ![] bcast_S_S25000x128 (id (constant (F := F) S_ .f32 0x3DCCCCCD#32))) x)

/-- A bias vector of length 128 laid out as one row and repeated down the 25000 rows. -/
def biasRows (b : FVec F S128 .f32) : FVec F S25000x128 .f32 :=
  broadcastInDim S25000x128 ![0, 1] bcast_S1x128_S25000x128_0_1 (broadcastInDim S1x128 ![1] bcast_S128_S1x128_1 b)

/-- The embedding of a 25000 × 3 input: `lrelu (lrelu (x · W1 + b1) · W2 + b2)`. -/
def embed3 (x : FVec F S25000x3 .f32) (W1 : FVec F S3x128 .f32) (b1 : FVec F S128 .f32)
    (W2 : FVec F S128x128 .f32) (b2 : FVec F S128 .f32) : FVec F S25000x128 .f32 :=
  lrelu25 (addf
    (Host.dotGeneral dot_S25000x128_S128x128_S25000x128_1_0_0_1_n_n none
      (lrelu25 (addf
        (Host.dotGeneral dot_S25000x3_S3x128_S25000x128_1_0_0_1_n_n none x W1)
        (broadcastInDim S25000x128 ![0, 1] bcast_S1x128_S25000x128_0_1 (broadcastInDim S1x128 ![1] bcast_S128_S1x128_1 b1))))
      W2)
    (broadcastInDim S25000x128 ![0, 1] bcast_S1x128_S25000x128_0_1 (broadcastInDim S1x128 ![1] bcast_S128_S1x128_1 b2)))

/-- The embedding of a 25000 × 6 input: `lrelu (lrelu (x · W1 + b1) · W2 + b2)`. -/
def embed6 (x : FVec F S25000x6 .f32) (W1 : FVec F S6x128 .f32) (b1 : FVec F S128 .f32)
    (W2 : FVec F S128x128 .f32) (b2 : FVec F S128 .f32) : FVec F S25000x128 .f32 :=
  lrelu25 (addf
    (Host.dotGeneral dot_S25000x128_S128x128_S25000x128_1_0_0_1_n_n none
      (lrelu25 (addf
        (Host.dotGeneral dot_S25000x6_S6x128_S25000x128_1_0_0_1_n_n none x W1)
        (broadcastInDim S25000x128 ![0, 1] bcast_S1x128_S25000x128_0_1 (broadcastInDim S1x128 ![1] bcast_S128_S1x128_1 b1))))
      W2)
    (broadcastInDim S25000x128 ![0, 1] bcast_S1x128_S25000x128_0_1 (broadcastInDim S1x128 ![1] bcast_S128_S1x128_1 b2)))

end Cert.ReferenceIdeal.Stage
-- ==== Proof.StageLayer.lean ====
import proofs.«136217_j57939108823477_1_alg».proof.ReferenceIdeal
import Idealize.ShloMosaic.Lib.ValueIdx

/-!
# The layer stages of the reference, as pure terms

One hidden layer of the reference network is
`h ↦ lrelu ((agg · Wl + bl) + h · Wr)` and its output layer is
`h ↦ 1 / (1 + exp (-((agg · Wl + bl) + h · Wr)))`, with `agg` the mean of the
neighbours' rows.  The definitions below are these two maps (and the leaky
ReLU they share) written with exactly the operations, dimension records and
broadcast records of the reference program, as functions of the tensors they
read.
-/

noncomputable section

namespace Cert.ReferenceIdeal.Stage

open Idealize.ShloMosaic Idealize.SL.Sem
open Cert.ReferenceIdeal Cert.ReferenceIdeal.Facts₀

variable {F : FTy → Type} [FloatOps F] [Facts₀]

/-- The leaky ReLU on `100000 × 128` values: `x` where `x ≥ 0`, `slope · x`
    elsewhere, the slope the constant of bit pattern `0x3DCCCCCD`. -/
def lrelu100 (x : FVec F S100000x128 .f32) : FVec F S100000x128 .f32 :=
  select
    (cmpf .oge x (broadcastInDim S100000x128 ![] bcast_S_S100000x128 (constant S_ .f32 0x00000000#32)))
    x
    (mulf (broadcastInDim S100000x128 ![] bcast_S_S100000x128 (constant S_ .f32 0x3DCCCCCD#32)) x)

/-- The pre-activation of a hidden layer: `(agg · Wl + bl) + h · Wr`. -/
def hiddenPre (agg h : FVec F S100000x128 .f32) (Wl : FVec F S128x128 .f32) (bl : FVec F S128 .f32)
    (Wr : FVec F S128x128 .f32) : FVec F S100000x128 .f32 :=
  addf
    (addf (Host.dotGeneral dot_S100000x128_S128x128_S100000x128_1_0_0_1_n_n none agg Wl)
      (broadcastInDim S100000x128 ![0, 1] bcast_S1x128_S100000x128_0_1
        (broadcastInDim S1x128 ![1] bcast_S128_S1x128_1 bl)))
    (Host.dotGeneral dot_S100000x128_S128x128_S100000x128_1_0_0_1_n_n none h Wr)

/-- A hidden layer: the leaky ReLU of `(agg · Wl + bl) + h · Wr`. -/
def hidden (agg h : FVec F S100000x128 .f32) (Wl : FVec F S128x128 .f32) (bl : FVec F S128 .f32)
    (Wr : FVec F S128x128 .f32) : FVec F S100000x128 .f32 :=
  lrelu100 (hiddenPre agg h Wl bl Wr)

/-- The pre-activation of the output layer: `(agg · Wl + bl) + h · Wr`, of width one. -/
def outPre (agg h : FVec F S100000x128 .f32) (Wl : FVec F S128x1 .f32) (bl : FVec F S1 .f32)
    (Wr : FVec F S128x1 .f32) : FVec F S100000x1 .f32 :=
  addf
    (addf (Host.dotGeneral dot_S100000x128_S128x1_S100000x1_1_0_0_1_n_n none agg Wl)
      (broadcastInDim S100000x1 ![0, 1] bcast_S1x1_S100000x1_0_1
        (broadcastInDim S1x1 ![1] bcast_S1_S1x1_1 bl)))
    (Host.dotGeneral dot_S100000x128_S128x1_S100000x1_1_0_0_1_n_n none h Wr)

/-- The output layer: `1 / (1 + exp (-z))` at `z = (agg · Wl + bl) + h · Wr`. -/
def outLayer (agg h : FVec F S100000x128 .f32) (Wl : FVec F S128x1 .f32) (bl : FVec F S1 .f32)
    (Wr : FVec F S128x1 .f32) : FVec F S100000x1 .f32 :=
  Host.divf
    (broadcastInDim S100000x1 ![] bcast_S_S100000x1 (constant S_ .f32 0x3F800000#32))
    (addf (broadcastInDim S100000x1 ![] bcast_S_S100000x1 (constant S_ .f32 0x3F800000#32))
      (Host.exp (Host.negf (outPre agg h Wl bl Wr))))

end Cert.ReferenceIdeal.Stage

end
-- ==== Proof.RefStages.lean ====
import proofs.«136217_j57939108823477_1_alg».proof.Proof.StageEmbed
import proofs.«136217_j57939108823477_1_alg».proof.Proof.StageLayer

/-!
# The reference network as a composition of whole-array stages

Between its dense stages (the four embedding networks, the three hidden layers, the output layer)
the reference moves data: it stacks the four embeddings and gathers node rows by an index vector
whose negative entries are first moved up by the number of rows; it reads the two rows of the edge
table (sources, destinations); it counts incoming edges per node by a scatter-add of ones, clamps
the count below by one and inverts it; for each layer it gathers the source rows of the current
features, scatter-adds them at the destinations into zeros and scales each row by the inverse
count — the mean over incoming edges; and it cuts one slice from each stacked weight array.  The
definitions below are these maps, written with exactly the operations and shape records of the
reference, and `out`, the whole network as their composition with the dense stages.
-/

noncomputable section

namespace Cert.ReferenceIdeal.Stage

open Idealize.ShloMosaic Idealize.SL.Sem
open Cert.ReferenceIdeal Cert.ReferenceIdeal.Facts₀

variable {F : FTy → Type} [FloatOps F] [Facts₀]

/-- A vector of 100000 row indices with each negative entry `i` replaced by `i + 100000`. -/
def wrapNode (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

/-- A vector of 1600000 row indices with each negative entry `i` replaced by `i + 100000`. -/
def wrapEdge (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The four embeddings stacked into 100000 rows, and row `idx k` (wrapped) taken for each `k`. -/
def gatherNodes (e0 e1 e2 e3 : FVec F S25000x128 .f32) (idx : IVec S100000 32) : FVec F S100000x128 .f32 :=
  Host.gather gather_S100000x128_S100000x1_S100000x128_1_0_n_n_0_1_1128
    (concatenate S100000x128 0 [⟨S25000x128, e0⟩, ⟨S25000x128, e1⟩, ⟨S25000x128, e2⟩, ⟨S25000x128, e3⟩]
      concatenates_S25000x128_S25000x128_S25000x128_S25000x128_S100000x128_d0)
    (broadcastInDim S100000x1 ![0] bcast_S100000_S100000x1_0 (wrapNode idx))

/-- Row 0 of the edge table: the source node of each edge. -/
def edgeRow0 (e : IVec S2x1600000 32) : IVec S1600000 32 :=
  shapeCast S1600000 (extractStridedSlice S1x1600000 ![0, 0] e slices_S2x1600000_S1x1600000_0_0) shapeCasts_S1x1600000_S1600000

/-- Row 1 of the edge table: the destination node of each edge. -/
def edgeRow1 (e : IVec S2x1600000 32) : IVec S1600000 32 :=
  shapeCast S1600000 (extractStridedSlice S1x1600000 ![1, 0] e slices_S2x1600000_S1x1600000_1_0) shapeCasts_S1x1600000_S1600000

/-- The inverse in-degree as a column: `1 / max (deg, 1)`, `deg` the scatter-add of a one per edge at
    its destination into zeros. -/
def invDeg (dst : IVec S1600000 32) : FVec F S100000x1 .f32 :=
  broadcastInDim S100000x1 ![0] bcast_S100000_S100000x1_0
    (Host.divf (broadcastInDim S100000 ![] bcast_S_S100000 (constant (F := F) S_ .f32 0x3F800000#32))
      (maximumf
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 dst)
          (broadcastInDim S1600000 ![] bcast_S_S1600000 (constant (F := F) S_ .f32 0x3F800000#32)))
        (broadcastInDim S100000 ![] bcast_S_S100000 (constant (F := F) S_ .f32 0x3F800000#32))))

/-- The mean over incoming edges: the source rows of `h` gathered, scatter-added at the destinations
    into zeros, each row scaled by the inverse in-degree. -/
def aggregate (h : FVec F S100000x128 .f32) (src dst : IVec S1600000 32) (invd : FVec F S100000x1 .f32) :
    FVec F S100000x128 .f32 :=
  mulf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0 (wrapEdge src))))
    (broadcastInDim S100000x128 ![0, 1] bcast_S100000x1_S100000x128_0_1 invd)

/-- Slice `0` of a stack of three 128 × 128 matrices. -/
def sliceW0 (W : FVec F S3x128x128 .f32) : FVec F S128x128 .f32 :=
  shapeCast S128x128 (extractStridedSlice S1x128x128 ![0, 0, 0] W slices_S3x128x128_S1x128x128_0_0_0) shapeCasts_S1x128x128_S128x128
/-- Slice `1` of a stack of three 128 × 128 matrices. -/
def sliceW1 (W : FVec F S3x128x128 .f32) : FVec F S128x128 .f32 :=
  shapeCast S128x128 (extractStridedSlice S1x128x128 ![1, 0, 0] W slices_S3x128x128_S1x128x128_1_0_0) shapeCasts_S1x128x128_S128x128
/-- Slice `2` of a stack of three 128 × 128 matrices. -/
def sliceW2 (W : FVec F S3x128x128 .f32) : FVec F S128x128 .f32 :=
  shapeCast S128x128 (extractStridedSlice S1x128x128 ![2, 0, 0] W slices_S3x128x128_S1x128x128_2_0_0) shapeCasts_S1x128x128_S128x128

/-- Row `0` of a stack of three bias vectors. -/
def sliceB0 (b : FVec F S3x128 .f32) : FVec F S128 .f32 :=
  shapeCast S128 (extractStridedSlice S1x128 ![0, 0] b slices_S3x128_S1x128_0_0) shapeCasts_S1x128_S128
/-- Row `1` of a stack of three bias vectors. -/
def sliceB1 (b : FVec F S3x128 .f32) : FVec F S128 .f32 :=
  shapeCast S128 (extractStridedSlice S1x128 ![1, 0] b slices_S3x128_S1x128_1_0) shapeCasts_S1x128_S128
/-- Row `2` of a stack of three bias vectors. -/
def sliceB2 (b : FVec F S3x128 .f32) : FVec F S128 .f32 :=
  shapeCast S128 (extractStridedSlice S1x128 ![2, 0] b slices_S3x128_S1x128_2_0) shapeCasts_S1x128_S128

/-- One hidden layer on features `h`: `lrelu ((mean h · Wl + bl) + h · Wr)`. -/
def layer (h : FVec F S100000x128 .f32) (src dst : IVec S1600000 32) (invd : FVec F S100000x1 .f32)
    (Wl : FVec F S128x128 .f32) (bl : FVec F S128 .f32) (Wr : FVec F S128x128 .f32) : FVec F S100000x128 .f32 :=
  hidden (aggregate h src dst invd) h Wl bl Wr

/-- The output layer on features `h`: the logistic function of `(mean h · Wl + bl) + h · Wr`. -/
def outOf (h : FVec F S100000x128 .f32) (src dst : IVec S1600000 32) (invd : FVec F S100000x1 .f32)
    (Wl : FVec F S128x1 .f32) (bl : FVec F S1 .f32) (Wr : FVec F S128x1 .f32) : FVec F S100000x1 .f32 :=
  outLayer (aggregate h src dst invd) h Wl bl Wr

/-- The node features the layers start from: the four embeddings of the four inputs, stacked and gathered. -/
def feat0 (a0 a1 : FVec F S25000x3 .f32) (a2 a3 : FVec F S25000x6 .f32) (a5 : IVec S100000 32)
    (a6 : FVec F S3x128 .f32) (a7 : FVec F S128 .f32) (a8 : FVec F S128x128 .f32) (a9 : FVec F S128 .f32)
    (a10 : FVec F S3x128 .f32) (a11 : FVec F S128 .f32) (a12 : FVec F S128x128 .f32) (a13 : FVec F S128 .f32)
    (a14 : FVec F S6x128 .f32) (a15 : FVec F S128 .f32) (a16 : FVec F S128x128 .f32) (a17 : FVec F S128 .f32)
    (a18 : FVec F S6x128 .f32) (a19 : FVec F S128 .f32) (a20 : FVec F S128x128 .f32) (a21 : FVec F S128 .f32) :
    FVec F S100000x128 .f32 :=
  gatherNodes (embed3 a0 a6 a7 a8 a9) (embed3 a1 a10 a11 a12 a13) (embed6 a2 a14 a15 a16 a17) (embed6 a3 a18 a19 a20 a21) a5

/-- The reference network on its 28 arguments: the embeddings, three hidden layers on the mean over
    incoming edges, the output layer. -/
def out (a0 a1 : FVec F S25000x3 .f32) (a2 a3 : FVec F S25000x6 .f32) (a4 : IVec S2x1600000 32) (a5 : IVec S100000 32)
    (a6 : FVec F S3x128 .f32) (a7 : FVec F S128 .f32) (a8 : FVec F S128x128 .f32) (a9 : FVec F S128 .f32)
    (a10 : FVec F S3x128 .f32) (a11 : FVec F S128 .f32) (a12 : FVec F S128x128 .f32) (a13 : FVec F S128 .f32)
    (a14 : FVec F S6x128 .f32) (a15 : FVec F S128 .f32) (a16 : FVec F S128x128 .f32) (a17 : FVec F S128 .f32)
    (a18 : FVec F S6x128 .f32) (a19 : FVec F S128 .f32) (a20 : FVec F S128x128 .f32) (a21 : FVec F S128 .f32)
    (a22 : FVec F S3x128x128 .f32) (a23 : FVec F S3x128 .f32) (a24 : FVec F S3x128x128 .f32)
    (a25 : FVec F S128x1 .f32) (a26 : FVec F S1 .f32) (a27 : FVec F S128x1 .f32) : FVec F S100000x1 .f32 :=
  outOf
    (layer
      (layer
        (layer (feat0 a0 a1 a2 a3 a5 a6 a7 a8 a9 a10 a11 a12 a13 a14 a15 a16 a17 a18 a19 a20 a21)
          (edgeRow0 a4) (edgeRow1 a4) (invDeg (edgeRow1 a4)) (sliceW0 a22) (sliceB0 a23) (sliceW0 a24))
        (edgeRow0 a4) (edgeRow1 a4) (invDeg (edgeRow1 a4)) (sliceW1 a22) (sliceB1 a23) (sliceW1 a24))
      (edgeRow0 a4) (edgeRow1 a4) (invDeg (edgeRow1 a4)) (sliceW2 a22) (sliceB2 a23) (sliceW2 a24))
    (edgeRow0 a4) (edgeRow1 a4) (invDeg (edgeRow1 a4)) a25 a26 a27

end Cert.ReferenceIdeal.Stage

end
-- ==== Proof.RefRunSegs.lean ====
/- What each stretch of the reference program's line of operations computes.

   For any contents `V` of the buffers before a stretch, the buffer the stretch is named for holds,
   after it, one whole-array stage function of the contents `V` gives the buffers the stretch reads:
   the operations' values composed in order are that function's definition, term for term. -/
import proofs.«136217_j57939108823477_1_alg».proof.Proof.RefRunOps
import proofs.«136217_j57939108823477_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The first stretch leaves the embedding of argument 0 in `main_v9`. -/
theorem segE0_v9 (V : Valuation τ sig (Elt F)) :
    after segE0 V (no_index (Proc.devRef .tc main_v9))
      = Stage.embed3 (V (Proc.devRef .tc main_arg0)) (V (Proc.devRef .tc main_arg6)) (V (Proc.devRef .tc main_arg7)) (V (Proc.devRef .tc main_arg8)) (V (Proc.devRef .tc main_arg9)) := by
  simp only [segE0]
  after_results_simp
  rfl

set_option maxRecDepth 8192 in
set_option maxHeartbeats 2000000 in
/-- The second stretch leaves the embedding of argument 1 in `main_v19`. -/
theorem segE1_v19 (V : Valuation τ sig (Elt F)) :
    after segE1 V (no_index (Proc.devRef .tc main_v19))
      = Stage.embed3 (V (Proc.devRef .tc main_arg1)) (V (Proc.devRef .tc main_arg10)) (V (Proc.devRef .tc main_arg11)) (V (Proc.devRef .tc main_arg12)) (V (Proc.devRef .tc main_arg13)) := by
  simp only [segE1]
  after_results_simp
  rfl

set_option maxRecDepth 8192 in
set_option maxHeartbeats 2000000 in
/-- The third stretch leaves the embedding of argument 2 in `main_v29`. -/
theorem segE2_v29 (V : Valuation τ sig (Elt F)) :
    after segE2 V (no_index (Proc.devRef .tc main_v29))
      = Stage.embed6 (V (Proc.devRef .tc main_arg2)) (V (Proc.devRef .tc main_arg14)) (V (Proc.devRef .tc main_arg15)) (V (Proc.devRef .tc main_arg16)) (V (Proc.devRef .tc main_arg17)) := by
  simp only [segE2]
  after_results_simp
  rfl

set_option maxRecDepth 8192 in
set_option maxHeartbeats 2000000 in
/-- The fourth stretch leaves the embedding of argument 3 in `main_v39`. -/
theorem segE3_v39 (V : Valuation τ sig (Elt F)) :
    after segE3 V (no_index (Proc.devRef .tc main_v39))
      = Stage.embed6 (V (Proc.devRef .tc main_arg3)) (V (Proc.devRef .tc main_arg18)) (V (Proc.devRef .tc main_arg19)) (V (Proc.devRef .tc main_arg20)) (V (Proc.devRef .tc main_arg21)) := by
  simp only [segE3]
  after_results_simp
  rfl

set_option maxRecDepth 8192 in
set_option maxHeartbeats 2000000 in
/-- The fifth stretch leaves the gathered rows of the stacked embeddings in `main_v47`. -/
theorem segG_v47 (V : Valuation τ sig (Elt F)) :
    after segG V (no_index (Proc.devRef .tc main_v47))
      = Stage.gatherNodes (V (Proc.devRef .tc main_v9)) (V (Proc.devRef .tc main_v19)) (V (Proc.devRef .tc main_v29)) (V (Proc.devRef .tc main_v39)) (V (Proc.devRef .tc main_arg5)) := by
  simp only [segG]
  after_results_simp
  rfl

set_option maxRecDepth 8192 in
set_option maxHeartbeats 2000000 in
/-- The fifth stretch leaves the source row of the edge table in `main_v49`. -/
theorem segG_v49 (V : Valuation τ sig (Elt F)) :
    after segG V (no_index (Proc.devRef .tc main_v49))
      = Stage.edgeRow0 (V (Proc.devRef .tc main_arg4)) := by
  simp only [segG]
  after_results_simp
  rfl

set_option maxRecDepth 8192 in
set_option maxHeartbeats 2000000 in
/-- The sixth stretch leaves the destination row of the edge table in `main_v51`. -/
theorem segD_v51 (V : Valuation τ sig (Elt F)) :
    after segD V (no_index (Proc.devRef .tc main_v51))
      = Stage.edgeRow1 (V (Proc.devRef .tc main_arg4)) := by
  simp only [segD]
  after_results_simp
  rfl

set_option maxRecDepth 8192 in
set_option maxHeartbeats 2000000 in
/-- The sixth stretch leaves the inverse in-degree column in `main_v60`. -/
theorem segD_v60 (V : Valuation τ sig (Elt F)) :
    after segD V (no_index (Proc.devRef .tc main_v60))
      = Stage.invDeg (Stage.edgeRow1 (V (Proc.devRef .tc main_arg4))) := by
  simp only [segD]
  after_results_simp
  rfl

set_option maxRecDepth 8192 in
set_option maxHeartbeats 2000000 in
/-- The first hidden layer's stretch leaves the layer's value on `main_v47` in `main_v85`. -/
theorem segL1_v85 (V : Valuation τ sig (Elt F)) :
    after segL1 V (no_index (Proc.devRef .tc main_v85))
      = Stage.layer (V (Proc.devRef .tc main_v47)) (V (Proc.devRef .tc main_v49)) (V (Proc.devRef .tc main_v51)) (V (Proc.devRef .tc main_v60)) (Stage.sliceW0 (V (Proc.devRef .tc main_arg22))) (Stage.sliceB0 (V (Proc.devRef .tc main_arg23))) (Stage.sliceW0 (V (Proc.devRef .tc main_arg24))) := by
  simp only [segL1]
  after_results_simp
  rfl

set_option maxRecDepth 8192 in
set_option maxHeartbeats 2000000 in
/-- The second hidden layer's two stretches leave the layer's value on `main_v85` in `main_v110`. -/
theorem segL2_v110 (V : Valuation τ sig (Elt F)) :
    after segL2b (after segL2a V) (no_index (Proc.devRef .tc main_v110))
      = Stage.layer (V (Proc.devRef .tc main_v85)) (V (Proc.devRef .tc main_v49)) (V (Proc.devRef .tc main_v51)) (V (Proc.devRef .tc main_v60)) (Stage.sliceW1 (V (Proc.devRef .tc main_arg22))) (Stage.sliceB1 (V (Proc.devRef .tc main_arg23))) (Stage.sliceW1 (V (Proc.devRef .tc main_arg24))) := by
  simp only [segL2a, segL2b]
  after_results_simp
  rfl

set_option maxRecDepth 8192 in
set_option maxHeartbeats 2000000 in
/-- The third hidden layer's stretch leaves the layer's value on `main_v110` in `main_v135`. -/
theorem segL3_v135 (V : Valuation τ sig (Elt F)) :
    after segL3 V (no_index (Proc.devRef .tc main_v135))
      = Stage.layer (V (Proc.devRef .tc main_v110)) (V (Proc.devRef .tc main_v49)) (V (Proc.devRef .tc main_v51)) (V (Proc.devRef .tc main_v60)) (Stage.sliceW2 (V (Proc.devRef .tc main_arg22))) (Stage.sliceB2 (V (Proc.devRef .tc main_arg23))) (Stage.sliceW2 (V (Proc.devRef .tc main_arg24))) := by
  simp only [segL3]
  after_results_simp
  rfl

set_option maxRecDepth 8192 in
set_option maxHeartbeats 2000000 in
/-- The output layer's two stretches leave the network's value in `main_v159`. -/
theorem segO_v159 (V : Valuation τ sig (Elt F)) :
    after segOb (after segOa V) (no_index (Proc.devRef .tc main_v159))
      = Stage.outOf (V (Proc.devRef .tc main_v135)) (V (Proc.devRef .tc main_v49)) (V (Proc.devRef .tc main_v51)) (V (Proc.devRef .tc main_v60)) (V (Proc.devRef .tc main_arg25)) (V (Proc.devRef .tc main_arg26)) (V (Proc.devRef .tc main_arg27)) := by
  simp only [segOa, segOb]
  after_results_simp
  rfl

end Cert.ReferenceIdeal.RefRun

end
-- ==== Proof.RefRunRes.lean ====
/- The reference program's result as the network's whole-array stages composed.

   The contents of the result buffer after the whole line of operations are the composition `Stage.out`
   of the stage functions, applied to the contents the 28 argument buffers had at the start: each
   stretch's value is a stage function of buffers that earlier stretches computed or kept, and a
   buffer a stretch does not write passes through it unchanged. -/
import proofs.«136217_j57939108823477_1_alg».proof.Proof.RefRun
import proofs.«136217_j57939108823477_1_alg».proof.Proof.RefRunSegs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem segE0_keep' (V : Valuation τ sig (Elt F)) (r : Ref sig .tc) (h : r ∉ segE0_W) :
    after segE0 V (no_index (Proc.devRef .tc r)) = V (Proc.devRef .tc r) := segE0_keep V r h
theorem segE1_keep' (V : Valuation τ sig (Elt F)) (r : Ref sig .tc) (h : r ∉ segE1_W) :
    after segE1 V (no_index (Proc.devRef .tc r)) = V (Proc.devRef .tc r) := segE1_keep V r h
theorem segE2_keep' (V : Valuation τ sig (Elt F)) (r : Ref sig .tc) (h : r ∉ segE2_W) :
    after segE2 V (no_index (Proc.devRef .tc r)) = V (Proc.devRef .tc r) := segE2_keep V r h
theorem segE3_keep' (V : Valuation τ sig (Elt F)) (r : Ref sig .tc) (h : r ∉ segE3_W) :
    after segE3 V (no_index (Proc.devRef .tc r)) = V (Proc.devRef .tc r) := segE3_keep V r h
theorem segG_keep' (V : Valuation τ sig (Elt F)) (r : Ref sig .tc) (h : r ∉ segG_W) :
    after segG V (no_index (Proc.devRef .tc r)) = V (Proc.devRef .tc r) := segG_keep V r h
theorem segD_keep' (V : Valuation τ sig (Elt F)) (r : Ref sig .tc) (h : r ∉ segD_W) :
    after segD V (no_index (Proc.devRef .tc r)) = V (Proc.devRef .tc r) := segD_keep V r h
theorem segL1_keep' (V : Valuation τ sig (Elt F)) (r : Ref sig .tc) (h : r ∉ segL1_W) :
    after segL1 V (no_index (Proc.devRef .tc r)) = V (Proc.devRef .tc r) := segL1_keep V r h
theorem segL2a_keep' (V : Valuation τ sig (Elt F)) (r : Ref sig .tc) (h : r ∉ segL2a_W) :
    after segL2a V (no_index (Proc.devRef .tc r)) = V (Proc.devRef .tc r) := segL2a_keep V r h
theorem segL2b_keep' (V : Valuation τ sig (Elt F)) (r : Ref sig .tc) (h : r ∉ segL2b_W) :
    after segL2b V (no_index (Proc.devRef .tc r)) = V (Proc.devRef .tc r) := segL2b_keep V r h
theorem segL3_keep' (V : Valuation τ sig (Elt F)) (r : Ref sig .tc) (h : r ∉ segL3_W) :
    after segL3 V (no_index (Proc.devRef .tc r)) = V (Proc.devRef .tc r) := segL3_keep V r h
theorem segOa_keep' (V : Valuation τ sig (Elt F)) (r : Ref sig .tc) (h : r ∉ segOa_W) :
    after segOa V (no_index (Proc.devRef .tc r)) = V (Proc.devRef .tc r) := segOa_keep V r h
theorem segOb_keep' (V : Valuation τ sig (Elt F)) (r : Ref sig .tc) (h : r ∉ segOb_W) :
    after segOb V (no_index (Proc.devRef .tc r)) = V (Proc.devRef .tc r) := segOb_keep V r h

set_option maxRecDepth 8192 in
set_option maxHeartbeats 4000000 in
/-- From any contents `V`, the whole line leaves in the result buffer the network's value on the
    contents `V` gives the 28 arguments. -/
theorem after_ops_v159 (V : Valuation τ sig (Elt F)) :
    after ops V (Proc.devRef .tc main_v159)
      = Stage.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  rw [after_ops]
  simp (disch := decide) only [segO_v159, segL3_v135, segL2_v110, segL1_v85, segD_v60, segD_v51, segG_v49, segG_v47,
    segE3_v39, segE2_v29, segE1_v19, segE0_v9,
    segE0_keep', segE1_keep', segE2_keep', segE3_keep', segG_keep', segD_keep', segL1_keep', segL2a_keep', segL2b_keep', segL3_keep', segOa_keep', segOb_keep']
  rfl

/-- The reference's result on device `c` is the network's value on that device's 28 argument arrays. -/
theorem res_eq (m : (ℓ : Loc nD τ sig) → Buf (Elt F) ℓ) (c : Dev nD) :
    res m c
      = Stage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) :=
  after_ops_v159 (launchContents m c)

end Cert.ReferenceIdeal.RefRun

end
-- ==== Proof.KIGlue.lean ====
/- What the kernel program's whole-array operations between its regions compute.

   Between two regions the kernel program runs the same data movement as the reference: it lays
   bias vectors out as rows, stacks and gathers the embeddings, reads the two rows of the edge
   table, forms the inverse in-degree, takes the mean over incoming edges of the current features
   and cuts the slices of the stacked weights. For any contents `V` of the buffers before such a
   stretch, each buffer a region then reads holds the stage function of the contents `V` gives the
   buffers the stretch reads — the operations' values composed in order are that function's
   definition, term for term (the two programs' shape and dimension records have the same fields). -/
import proofs.«136217_j57939108823477_1_alg».proof.Proof.RefRunRes
import proofs.«136217_j57939108823477_1_alg».proof.Proof.Gen.KernelIdeal.Launch
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts₀]

set_option maxRecDepth 8192 in
set_option maxHeartbeats 2000000 in
/-- Before the first region: the first bias vector of the first embedding network, laid out as one row. -/
theorem glue0_v0 (V : Valuation τ sig (Elt F)) :
    after hostOps0 V (Proc.devRef .tc main_v0)
      = shapeCast S1x128 (V (Proc.devRef .tc main_arg7)) shapeCasts_S128_S1x128 := by
  simp only [hostOps0]
  after_results_simp
  rfl

set_option maxRecDepth 8192 in
set_option maxHeartbeats 2000000 in
/-- Before the first region: the second bias vector of the first embedding network, laid out as one row. -/
theorem glue0_v1 (V : Valuation τ sig (Elt F)) :
    after hostOps0 V (Proc.devRef .tc main_v1)
      = shapeCast S1x128 (V (Proc.devRef .tc main_arg9)) shapeCasts_S128_S1x128 := by
  simp only [hostOps0]
  after_results_simp
  rfl

set_option maxRecDepth 8192 in
set_option maxHeartbeats 2000000 in
/-- Before the second region: the first bias vector of the second embedding network, as one row. -/
theorem glue1_v3 (V : Valuation τ sig (Elt F)) :
    after hostOps1 V (Proc.devRef .tc main_v3)
      = shapeCast S1x128 (V (Proc.devRef .tc main_arg11)) shapeCasts_S128_S1x128 := by
  simp only [hostOps1]
  after_results_simp
  rfl

set_option maxRecDepth 8192 in
set_option maxHeartbeats 2000000 in
/-- Before the second region: the second bias vector of the second embedding network, as one row. -/
theorem glue1_v4 (V : Valuation τ sig (Elt F)) :
    after hostOps1 V (Proc.devRef .tc main_v4)
      = shapeCast S1x128 (V (Proc.devRef .tc main_arg13)) shapeCasts_S128_S1x128 := by
  simp only [hostOps1]
  after_results_simp
  rfl

set_option maxRecDepth 8192 in
set_option maxHeartbeats 2000000 in
/-- Before the third region: the first bias vector of the third embedding network, as one row. -/
theorem glue2_v6 (V : Valuation τ sig (Elt F)) :
    after hostOps2 V (Proc.devRef .tc main_v6)
      = shapeCast S1x128 (V (Proc.devRef .tc main_arg15)) shapeCasts_S128_S1x128 := by
  simp only [hostOps2]
  after_results_simp
  rfl

set_option maxRecDepth 8192 in
set_option maxHeartbeats 2000000 in
/-- Before the third region: the second bias vector of the third embedding network, as one row. -/
theorem glue2_v7 (V : Valuation τ sig (Elt F)) :
    after hostOps2 V (Proc.devRef .tc main_v7)
      = shapeCast S1x128 (V (Proc.devRef .tc main_arg17)) shapeCasts_S128_S1x128 := by
  simp only [hostOps2]
  after_results_simp
  rfl

set_option maxRecDepth 8192 in
set_option maxHeartbeats 2000000 in
/-- Before the fourth region: the first bias vector of the fourth embedding network, as one row. -/
theorem glue3_v9 (V : Valuation τ sig (Elt F)) :
    after hostOps3 V (Proc.devRef .tc main_v9)
      = shapeCast S1x128 (V (Proc.devRef .tc main_arg19)) shapeCasts_S128_S1x128 := by
  simp only [hostOps3]
  after_results_simp
  rfl

set_option maxRecDepth 8192 in
set_option maxHeartbeats 2000000 in
/-- Before the fourth region: the second bias vector of the fourth embedding network, as one row. -/
theorem glue3_v10 (V : Valuation τ sig (Elt F)) :
    after hostOps3 V (Proc.devRef .tc main_v10)
      = shapeCast S1x128 (V (Proc.devRef .tc main_arg21)) shapeCasts_S128_S1x128 := by
  simp only [hostOps3]
  after_results_simp
  rfl

set_option maxRecDepth 8192 in
set_option maxHeartbeats 2000000 in
/-- Before the fifth region: the four embeddings stacked and their rows gathered by the wrapped index vector. -/
theorem glue4_v19 (V : Valuation τ sig (Elt F)) :
    after hostOps4 V (Proc.devRef .tc main_v19)
      = Cert.ReferenceIdeal.Stage.gatherNodes (V (Proc.devRef .tc main_v2)) (V (Proc.devRef .tc main_v5)) (V (Proc.devRef .tc main_v8)) (V (Proc.devRef .tc main_v11)) (V (Proc.devRef .tc main_arg5)) := by
  simp only [hostOps4]
  after_results_simp
  rfl

set_option maxRecDepth 8192 in
set_option maxHeartbeats 2000000 in
/-- Before the fifth region: the source row of the edge table. -/
theorem glue4_v21 (V : Valuation τ sig (Elt F)) :
    after hostOps4 V (Proc.devRef .tc main_v21)
      = Cert.ReferenceIdeal.Stage.edgeRow0 (V (Proc.devRef .tc main_arg4)) := by
  simp only [hostOps4]
  after_results_simp
  rfl

set_option maxRecDepth 8192 in
set_option maxHeartbeats 2000000 in
/-- Before the fifth region: the destination row of the edge table. -/
theorem glue4_v23 (V : Valuation τ sig (Elt F)) :
    after hostOps4 V (Proc.devRef .tc main_v23)
      = Cert.ReferenceIdeal.Stage.edgeRow1 (V (Proc.devRef .tc main_arg4)) := by
  simp only [hostOps4]
  after_results_simp
  rfl

set_option maxRecDepth 8192 in
set_option maxHeartbeats 2000000 in
/-- Before the fifth region: the inverse in-degree column. -/
theorem glue4_v32 (V : Valuation τ sig (Elt F)) :
    after hostOps4 V (Proc.devRef .tc main_v32)
      = Cert.ReferenceIdeal.Stage.invDeg (Cert.ReferenceIdeal.Stage.edgeRow1 (V (Proc.devRef .tc main_arg4))) := by
  simp only [hostOps4]
  after_results_simp
  rfl

set_option maxRecDepth 8192 in
set_option maxHeartbeats 2000000 in
/-- Before the fifth region: the mean over incoming edges of the gathered node rows. -/
theorem glue4_v44 (V : Valuation τ sig (Elt F)) :
    after hostOps4 V (Proc.devRef .tc main_v44)
      = Cert.ReferenceIdeal.Stage.aggregate (Cert.ReferenceIdeal.Stage.gatherNodes (V (Proc.devRef .tc main_v2)) (V (Proc.devRef .tc main_v5)) (V (Proc.devRef .tc main_v8)) (V (Proc.devRef .tc main_v11)) (V (Proc.devRef .tc main_arg5))) (Cert.ReferenceIdeal.Stage.edgeRow0 (V (Proc.devRef .tc main_arg4))) (Cert.ReferenceIdeal.Stage.edgeRow1 (V (Proc.devRef .tc main_arg4))) (Cert.ReferenceIdeal.Stage.invDeg (Cert.ReferenceIdeal.Stage.edgeRow1 (V (Proc.devRef .tc main_arg4)))) := by
  simp only [hostOps4]
  after_results_simp
  rfl

set_option maxRecDepth 8192 in
set_option maxHeartbeats 2000000 in
/-- Before the fifth region: slice 0 of the aggregated branch's stacked weights. -/
theorem glue4_v46 (V : Valuation τ sig (Elt F)) :
    after hostOps4 V (Proc.devRef .tc main_v46)
      = Cert.ReferenceIdeal.Stage.sliceW0 (V (Proc.devRef .tc main_arg22)) := by
  simp only [hostOps4]
  after_results_simp
  rfl

set_option maxRecDepth 8192 in
set_option maxHeartbeats 2000000 in
/-- Before the fifth region: slice 0 of the self branch's stacked weights. -/
theorem glue4_v50 (V : Valuation τ sig (Elt F)) :
    after hostOps4 V (Proc.devRef .tc main_v50)
      = Cert.ReferenceIdeal.Stage.sliceW0 (V (Proc.devRef .tc main_arg24)) := by
  simp only [hostOps4]
  after_results_simp
  rfl

set_option maxRecDepth 8192 in
set_option maxHeartbeats 2000000 in
/-- Before the fifth region: row 0 of the stacked biases, laid out as one row. -/
theorem glue4_v51 (V : Valuation τ sig (Elt F)) :
    after hostOps4 V (Proc.devRef .tc main_v51)
      = shapeCast S1x128 (Cert.ReferenceIdeal.Stage.sliceB0 (V (Proc.devRef .tc main_arg23))) shapeCasts_S128_S1x128 := by
  simp only [hostOps4]
  after_results_simp
  rfl

set_option maxRecDepth 8192 in
set_option maxHeartbeats 2000000 in
/-- Before the sixth region: the mean over incoming edges of the first hidden layer's features. -/
theorem glue5_v64 (V : Valuation τ sig (Elt F)) :
    after hostOps5 V (Proc.devRef .tc main_v64)
      = Cert.ReferenceIdeal.Stage.aggregate (V (Proc.devRef .tc main_v52)) (V (Proc.devRef .tc main_v21)) (V (Proc.devRef .tc main_v23)) (V (Proc.devRef .tc main_v32)) := by
  simp only [hostOps5]
  after_results_simp
  rfl

set_option maxRecDepth 8192 in
set_option maxHeartbeats 2000000 in
/-- Before the sixth region: slice 1 of the aggregated branch's stacked weights. -/
theorem glue5_v66 (V : Valuation τ sig (Elt F)) :
    after hostOps5 V (Proc.devRef .tc main_v66)
      = Cert.ReferenceIdeal.Stage.sliceW1 (V (Proc.devRef .tc main_arg22)) := by
  simp only [hostOps5]
  after_results_simp
  rfl

set_option maxRecDepth 8192 in
set_option maxHeartbeats 2000000 in
/-- Before the sixth region: slice 1 of the self branch's stacked weights. -/
theorem glue5_v70 (V : Valuation τ sig (Elt F)) :
    after hostOps5 V (Proc.devRef .tc main_v70)
      = Cert.ReferenceIdeal.Stage.sliceW1 (V (Proc.devRef .tc main_arg24)) := by
  simp only [hostOps5]
  after_results_simp
  rfl

set_option maxRecDepth 8192 in
set_option maxHeartbeats 2000000 in
/-- Before the sixth region: row 1 of the stacked biases, as one row. -/
theorem glue5_v71 (V : Valuation τ sig (Elt F)) :
    after hostOps5 V (Proc.devRef .tc main_v71)
      = shapeCast S1x128 (Cert.ReferenceIdeal.Stage.sliceB1 (V (Proc.devRef .tc main_arg23))) shapeCasts_S128_S1x128 := by
  simp only [hostOps5]
  after_results_simp
  rfl

set_option maxRecDepth 8192 in
set_option maxHeartbeats 2000000 in
/-- Before the seventh region: the mean over incoming edges of the second hidden layer's features. -/
theorem glue6_v84 (V : Valuation τ sig (Elt F)) :
    after hostOps6 V (Proc.devRef .tc main_v84)
      = Cert.ReferenceIdeal.Stage.aggregate (V (Proc.devRef .tc main_v72)) (V (Proc.devRef .tc main_v21)) (V (Proc.devRef .tc main_v23)) (V (Proc.devRef .tc main_v32)) := by
  simp only [hostOps6]
  after_results_simp
  rfl

set_option maxRecDepth 8192 in
set_option maxHeartbeats 2000000 in
/-- Before the seventh region: slice 2 of the aggregated branch's stacked weights. -/
theorem glue6_v86 (V : Valuation τ sig (Elt F)) :
    after hostOps6 V (Proc.devRef .tc main_v86)
      = Cert.ReferenceIdeal.Stage.sliceW2 (V (Proc.devRef .tc main_arg22)) := by
  simp only [hostOps6]
  after_results_simp
  rfl

set_option maxRecDepth 8192 in
set_option maxHeartbeats 2000000 in
/-- Before the seventh region: slice 2 of the self branch's stacked weights. -/
theorem glue6_v90 (V : Valuation τ sig (Elt F)) :
    after hostOps6 V (Proc.devRef .tc main_v90)
      = Cert.ReferenceIdeal.Stage.sliceW2 (V (Proc.devRef .tc main_arg24)) := by
  simp only [hostOps6]
  after_results_simp
  rfl

set_option maxRecDepth 8192 in
set_option maxHeartbeats 2000000 in
/-- Before the seventh region: row 2 of the stacked biases, as one row. -/
theorem glue6_v91 (V : Valuation τ sig (Elt F)) :
    after hostOps6 V (Proc.devRef .tc main_v91)
      = shapeCast S1x128 (Cert.ReferenceIdeal.Stage.sliceB2 (V (Proc.devRef .tc main_arg23))) shapeCasts_S128_S1x128 := by
  simp only [hostOps6]
  after_results_simp
  rfl

set_option maxRecDepth 8192 in
set_option maxHeartbeats 2000000 in
/-- Before the eighth region: the mean over incoming edges of the third hidden layer's features. -/
theorem glue7_v104 (V : Valuation τ sig (Elt F)) :
    after hostOps7 V (Proc.devRef .tc main_v104)
      = Cert.ReferenceIdeal.Stage.aggregate (V (Proc.devRef .tc main_v92)) (V (Proc.devRef .tc main_v21)) (V (Proc.devRef .tc main_v23)) (V (Proc.devRef .tc main_v32)) := by
  simp only [hostOps7]
  after_results_simp
  rfl

set_option maxRecDepth 8192 in
set_option maxHeartbeats 2000000 in
/-- Before the eighth region: the output bias, laid out as a 1 × 1 array. -/
theorem glue7_v105 (V : Valuation τ sig (Elt F)) :
    after hostOps7 V (Proc.devRef .tc main_v105)
      = shapeCast S1x1 (V (Proc.devRef .tc main_arg26)) shapeCasts_S1_S1x1 := by
  simp only [hostOps7]
  after_results_simp
  rfl

end Cert.KernelIdeal.Glue

end
-- ==== Proof.KIKeep.lean ====
/- Tools for reading the fold of buffer contents: a buffer that none of the items between two points of the fold
   writes holds the same contents at both, and a vector re-laid as a one-row matrix is read at an index. -/
import proofs.«136217_j57939108823477_1_alg».proof.Proof.KIFold
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx

/-- Peel the items between two points of the fold off a buffer that none of them writes: each step is one region
    (which changes only its output array) or one stretch of host operations (which writes only its own results). -/
macro "keep_steps" : tactic => `(tactic| repeat (first
    | ((with_reducible refine (X7_keep _ _ _ _ ?_).trans ?_) <;> [decide; skip])
    | ((with_reducible refine (E7_keep _ _ _ _ ?_).trans ?_) <;> [decide; skip])
    | ((with_reducible refine (X6_keep _ _ _ _ ?_).trans ?_) <;> [decide; skip])
    | ((with_reducible refine (E6_keep _ _ _ _ ?_).trans ?_) <;> [decide; skip])
    | ((with_reducible refine (X5_keep _ _ _ _ ?_).trans ?_) <;> [decide; skip])
    | ((with_reducible refine (E5_keep _ _ _ _ ?_).trans ?_) <;> [decide; skip])
    | ((with_reducible refine (X4_keep _ _ _ _ ?_).trans ?_) <;> [decide; skip])
    | ((with_reducible refine (E4_keep _ _ _ _ ?_).trans ?_) <;> [decide; skip])
    | ((with_reducible refine (X3_keep _ _ _ _ ?_).trans ?_) <;> [decide; skip])
    | ((with_reducible refine (E3_keep _ _ _ _ ?_).trans ?_) <;> [decide; skip])
    | ((with_reducible refine (X2_keep _ _ _ _ ?_).trans ?_) <;> [decide; skip])
    | ((with_reducible refine (E2_keep _ _ _ _ ?_).trans ?_) <;> [decide; skip])
    | ((with_reducible refine (X1_keep _ _ _ _ ?_).trans ?_) <;> [decide; skip])
    | ((with_reducible refine (E1_keep _ _ _ _ ?_).trans ?_) <;> [decide; skip])
    | ((with_reducible refine (X0_keep _ _ _ _ ?_).trans ?_) <;> [decide; skip])
    | ((with_reducible refine (E0_keep _ _ _ _ ?_).trans ?_) <;> [decide; skip])))

/-- A vector re-laid as a one-row matrix reads, at `(0, j)`, the vector at `j`. -/
theorem shapeCast_a_1a_apply {α : Type} {a : ℕ} (x : (⟨1, ![a]⟩ : Shape).Idx → α) (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

end Cert.KernelIdeal.Fold

end
-- ==== Proof.EmbedValue.lean ====
import proofs.«136217_j57939108823477_1_alg».proof.Proof.StageEmbed
import proofs.«136217_j57939108823477_1_alg».proof.Proof.Gen.KernelIdeal.Skeleton
import Idealize.ShloMosaic.Lib.StackMember
import Idealize.ShloMosaic.Lib.ValueLayout
import Idealize.ShloMosaic.Lib.IdealHost

/-!
# The embedding stage read at an index, on both sides

Each embedding is a two-layer perceptron applied row by row.  At the exact (extended-real) values a
row `r` and an output column `q` of it is

  `lrelu (∑ k, lrelu (∑ j, x(r,j) · W1(j,k) + b1 k) · W2(k,q) + b2 q)`.

The kernel computes a block of 5000 rows of it from the block of the input; the reference computes all
25000 rows at once.  Below both are shown equal to that closed form, and then to each other.
-/

noncomputable section

open scoped BigOperators

namespace Cert.EmbedValue

open Idealize.ShloMosaic Idealize.SL.Sem Idealize.ShloMosaic.ValueIdx

/-! ## The closed form -/

/-- The leaky rectifier on one extended real: `v` where `v ≥ 0`, else `slope · v`; the zero and the slope
    are kept as the words the two programs write, never evaluated. -/
def lreluE (v : EReal) : EReal :=
  Scalar.select (Ideal.cmp .oge v (Ideal.ofBits .f32 0x00000000#32)) v (Ideal.ofBits .f32 0x3DCCCCCD#32 * v)

/-- One output of the two-layer perceptron on one input row `xr` of width `d`. -/
def mlpE {d : Nat} (xr : Fin d → EReal) (W1 : (⟨2, ![d, 128]⟩ : Shape).Idx → EReal) (b1 : Fin 128 → EReal)
    (W2 : (⟨2, ![128, 128]⟩ : Shape).Idx → EReal) (b2 : Fin 128 → EReal) (q : Fin 128) : EReal :=
  lreluE (∑ k : Fin 128, lreluE (∑ j : Fin d, xr j * W1 (ix2 j k) + b1 k) * W2 (ix2 k q) + b2 q)

/-! ## Matrix products at an index -/

/-- A kernel's product of an `m × k` by a `k × n` matrix into a zero accumulator, the operands narrowed first
    (the identity at the exact values), read at `(a, b)`: the sum over the contracted coordinate. -/
theorem kmatmul_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (h : FTy.bits .bf16 < FTy.bits .f32)
    (a : Fin m) (b : Fin n) :
    matmul D none (truncf .bf16 A h) (truncf .bf16 B h) (constant ⟨2, ![m, n]⟩ .f32 0x00000000#32) (ix2 a b)
      = ∑ c : Fin k, A (ix2 a c) * B (ix2 c b) := by
  subst hD
  rw [matmul_zero_eq_dotGeneral, StackMember.dotGeneral_plain_apply]
  rfl

/-- The host's product of an `m × k` by a `k × n` matrix read at `(a, b)`. -/
theorem hdot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  rw [StackMember.dotGeneral_plain_apply]

/-! ## A bias row at an index -/

/-- A vector of `n` entries laid out as one row, read at `(0, t)`. -/
theorem broadcastInDim_asRow_apply {α : Type} {n : Nat} (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split
    · have := t.isLt; omega
    · rfl

/-! ## The leaky rectifier at an index -/

/-- The kernel's rectifier (a comparison with a broadcast zero, a product with a broadcast slope, a select)
    read at an index. -/
theorem klrelu_apply {s : Shape} (v : FVec Ideal s .f32) (i : s.Idx) :
    select (cmpf .oge v (broadcast s (Scalar.ofBits .f32 0x00000000#32 : Ideal .f32))) v
      (mulf (broadcast s (Scalar.ofBits .f32 0x3DCCCCCD#32 : Ideal .f32)) v) i = lreluE (v i) := rfl

section Ref
variable [Cert.ReferenceIdeal.Facts₀]
open Cert.ReferenceIdeal Cert.ReferenceIdeal.Facts₀

/-- The reference's rectifier read at an index. -/
theorem lrelu25_apply (x : FVec Ideal S25000x128 .f32) (i : S25000x128.Idx) :
    Stage.lrelu25 x i = lreluE (x i) := rfl

/-- The reference's bias (a vector as one row, the row repeated) read at `(r, q)`. -/
theorem biasRows_apply (b : FVec Ideal S128 .f32) (r : Fin 25000) (q : Fin 128) :
    broadcastInDim S25000x128 ![0, 1] bcast_S1x128_S25000x128_0_1 (broadcastInDim S1x128 ![1] bcast_S128_S1x128_1 b) (ix2 r q)
      = b (ix1 q) := by
  rw [broadcastInDim_oneRow_apply, broadcastInDim_asRow_apply]

/-- One layer of the reference at `(r, q)`: a product, a bias, a rectifier. -/
theorem refLayer_apply {k : Nat} (D : DotDims ⟨2, ![25000, k]⟩ ⟨2, ![k, 128]⟩ ⟨2, ![25000, 128]⟩)
    (hD : D = DotDims.plain 25000 k 128) (A : FVec Ideal ⟨2, ![25000, k]⟩ .f32) (B : FVec Ideal ⟨2, ![k, 128]⟩ .f32)
    (b : FVec Ideal S128 .f32) (r : Fin 25000) (q : Fin 128) :
    Stage.lrelu25 (addf (Host.dotGeneral D none A B)
        (broadcastInDim S25000x128 ![0, 1] bcast_S1x128_S25000x128_0_1 (broadcastInDim S1x128 ![1] bcast_S128_S1x128_1 b))) (ix2 r q)
      = lreluE (∑ c : Fin k, A (ix2 r c) * B (ix2 c q) + b (ix1 q)) := by
  rw [lrelu25_apply, addf_apply, hdot_apply D hD, biasRows_apply]

end Ref

/-! ## One layer of the kernel at an index -/

/-- One layer of a kernel body: the product of the (narrowed) operands into a zero accumulator, the bias row broadcast
    down the block, the rectifier.  The same operations, in the same order, as the body's statements. -/
def kLayer {m k n : Nat} (D : DotDims ⟨2, ![m, k]⟩ ⟨2, ![k, n]⟩ ⟨2, ![m, n]⟩)
    (A : FVec Ideal ⟨2, ![m, k]⟩ .f32) (B : FVec Ideal ⟨2, ![k, n]⟩ .f32) (bias : FVec Ideal ⟨2, ![1, n]⟩ .f32)
    (h : FTy.bits .bf16 < FTy.bits .f32) (hsc : (⟨2, ![1, n]⟩ : Shape).ShapeCasts ⟨2, ![1, n]⟩)
    (hbc : (⟨2, ![1, n]⟩ : Shape).Broadcasts ⟨2, ![m, n]⟩) : FVec Ideal ⟨2, ![m, n]⟩ .f32 :=
  select
    (cmpf .oge
      (addf (matmul D none (truncf .bf16 A h) (truncf .bf16 B h) (constant ⟨2, ![m, n]⟩ .f32 0x00000000#32))
        (broadcastTo ⟨2, ![m, n]⟩ (shapeCast ⟨2, ![1, n]⟩ bias hsc) hbc))
      (broadcast ⟨2, ![m, n]⟩ (Scalar.ofBits .f32 0x00000000#32 : Ideal .f32)))
    (addf (matmul D none (truncf .bf16 A h) (truncf .bf16 B h) (constant ⟨2, ![m, n]⟩ .f32 0x00000000#32))
        (broadcastTo ⟨2, ![m, n]⟩ (shapeCast ⟨2, ![1, n]⟩ bias hsc) hbc))
    (mulf (broadcast ⟨2, ![m, n]⟩ (Scalar.ofBits .f32 0x3DCCCCCD#32 : Ideal .f32))
      (addf (matmul D none (truncf .bf16 A h) (truncf .bf16 B h) (constant ⟨2, ![m, n]⟩ .f32 0x00000000#32))
        (broadcastTo ⟨2, ![m, n]⟩ (shapeCast ⟨2, ![1, n]⟩ bias hsc) hbc)))

/-- One layer of a kernel body at `(a, b)`. -/
theorem kLayer_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (bias : FVec Ideal ⟨2, ![1, n]⟩ .f32)
    (h : FTy.bits .bf16 < FTy.bits .f32) (hsc : (⟨2, ![1, n]⟩ : Shape).ShapeCasts ⟨2, ![1, n]⟩)
    (hbc : (⟨2, ![1, n]⟩ : Shape).Broadcasts ⟨2, ![m, n]⟩) (a : Fin m) (b : Fin n) :
    kLayer D A B bias h hsc hbc (ix2 a b)
      = lreluE (∑ c : Fin k, A (ix2 a c) * B (ix2 c b) + bias (ix2 (0 : Fin 1) b)) := by
  unfold kLayer
  rw [klrelu_apply, addf_apply, kmatmul_apply D hD, shapeCast_self, broadcastTo_1b_ab_apply]

/-! ## The kernel bodies' payloads at an index -/

section Kernel
open Cert.KernelIdeal Cert.KernelIdeal.Gen

/-- A body's payload over a width-`d` input block, as two layers. -/
def kTwo {d : Nat} (D1 : DotDims ⟨2, ![5000, d]⟩ ⟨2, ![d, 128]⟩ ⟨2, ![5000, 128]⟩)
    (D2 : DotDims ⟨2, ![5000, 128]⟩ ⟨2, ![128, 128]⟩ ⟨2, ![5000, 128]⟩)
    (xb : FVec Ideal ⟨2, ![5000, d]⟩ .f32) (W1 : FVec Ideal ⟨2, ![d, 128]⟩ .f32) (b1r : FVec Ideal ⟨2, ![1, 128]⟩ .f32)
    (W2 : FVec Ideal ⟨2, ![128, 128]⟩ .f32) (b2r : FVec Ideal ⟨2, ![1, 128]⟩ .f32) : FVec Ideal ⟨2, ![5000, 128]⟩ .f32 :=
  kLayer D2 (kLayer D1 xb W1 b1r bitsLt_bf16_f32 shapeCasts_S1x128_S1x128 broadcasts_S1x128_S5000x128) W2 b2r
    bitsLt_bf16_f32 shapeCasts_S1x128_S1x128 broadcasts_S1x128_S5000x128

/-- Two layers at `(p, q)`: the closed form on row `p` of the block. -/
theorem kTwo_apply {d : Nat} (D1 : DotDims ⟨2, ![5000, d]⟩ ⟨2, ![d, 128]⟩ ⟨2, ![5000, 128]⟩) (hD1 : D1 = DotDims.plain 5000 d 128)
    (D2 : DotDims ⟨2, ![5000, 128]⟩ ⟨2, ![128, 128]⟩ ⟨2, ![5000, 128]⟩) (hD2 : D2 = DotDims.plain 5000 128 128)
    (xb : FVec Ideal ⟨2, ![5000, d]⟩ .f32) (W1 : FVec Ideal ⟨2, ![d, 128]⟩ .f32) (b1r : FVec Ideal ⟨2, ![1, 128]⟩ .f32)
    (W2 : FVec Ideal ⟨2, ![128, 128]⟩ .f32) (b2r : FVec Ideal ⟨2, ![1, 128]⟩ .f32) (p : Fin 5000) (q : Fin 128) :
    kTwo D1 D2 xb W1 b1r W2 b2r (ix2 p q)
      = mlpE (fun j => xb (ix2 p j)) W1 (fun k => b1r (ix2 (0 : Fin 1) k)) W2 (fun k => b2r (ix2 (0 : Fin 1) k)) q := by
  unfold kTwo mlpE
  rw [kLayer_apply D2 hD2]
  congr 2
  refine Finset.sum_congr rfl fun c _ => ?_
  rw [kLayer_apply D1 hD1]

theorem k0_pay1_eq (v0 : Vec Ideal S5000x3 .f32) (v2 : Vec Ideal S3x128 .f32) (v5 : Vec Ideal S1x128 .f32)
    (v15 : Vec Ideal S128x128 .f32) (v18 : Vec Ideal S1x128 .f32) :
    k0_pay1 (F := Ideal) v0 v2 v5 v15 v18
      = kTwo dot_S5000x3_S3x128_S5000x128_1_0_0_1_n_n dot_S5000x128_S128x128_S5000x128_1_0_0_1_n_n v0 v2 v5 v15 v18 := rfl

end Kernel

section KernelRest
open Cert.KernelIdeal Cert.KernelIdeal.Gen

theorem k1_pay1_eq (v0 : Vec Ideal S5000x3 .f32) (v2 : Vec Ideal S3x128 .f32) (v5 : Vec Ideal S1x128 .f32)
    (v15 : Vec Ideal S128x128 .f32) (v18 : Vec Ideal S1x128 .f32) :
    k1_pay1 (F := Ideal) v0 v2 v5 v15 v18
      = kTwo dot_S5000x3_S3x128_S5000x128_1_0_0_1_n_n dot_S5000x128_S128x128_S5000x128_1_0_0_1_n_n v0 v2 v5 v15 v18 := rfl

theorem k2_pay1_eq (v0 : Vec Ideal S5000x6 .f32) (v2 : Vec Ideal S6x128 .f32) (v5 : Vec Ideal S1x128 .f32)
    (v15 : Vec Ideal S128x128 .f32) (v18 : Vec Ideal S1x128 .f32) :
    k2_pay1 (F := Ideal) v0 v2 v5 v15 v18
      = kTwo dot_S5000x6_S6x128_S5000x128_1_0_0_1_n_n dot_S5000x128_S128x128_S5000x128_1_0_0_1_n_n v0 v2 v5 v15 v18 := rfl

theorem k3_pay1_eq (v0 : Vec Ideal S5000x6 .f32) (v2 : Vec Ideal S6x128 .f32) (v5 : Vec Ideal S1x128 .f32)
    (v15 : Vec Ideal S128x128 .f32) (v18 : Vec Ideal S1x128 .f32) :
    k3_pay1 (F := Ideal) v0 v2 v5 v15 v18
      = kTwo dot_S5000x6_S6x128_S5000x128_1_0_0_1_n_n dot_S5000x128_S128x128_S5000x128_1_0_0_1_n_n v0 v2 v5 v15 v18 := rfl

/-- The payload of the first width-3 body at `(p, q)`: the closed form on row `p` of its input block. -/
theorem k0_pay1_apply (xb : Vec Ideal S5000x3 .f32) (W1 : Vec Ideal S3x128 .f32) (b1r : Vec Ideal S1x128 .f32)
    (W2 : Vec Ideal S128x128 .f32) (b2r : Vec Ideal S1x128 .f32) (p : Fin 5000) (q : Fin 128) :
    k0_pay1 (F := Ideal) xb W1 b1r W2 b2r (ix2 p q)
      = mlpE (fun j => xb (ix2 p j)) W1 (fun k => b1r (ix2 (0 : Fin 1) k)) W2 (fun k => b2r (ix2 (0 : Fin 1) k)) q := by
  rw [k0_pay1_eq, kTwo_apply dot_S5000x3_S3x128_S5000x128_1_0_0_1_n_n rfl dot_S5000x128_S128x128_S5000x128_1_0_0_1_n_n rfl]

/-- The same for the second width-3 body. -/
theorem k1_pay1_apply (xb : Vec Ideal S5000x3 .f32) (W1 : Vec Ideal S3x128 .f32) (b1r : Vec Ideal S1x128 .f32)
    (W2 : Vec Ideal S128x128 .f32) (b2r : Vec Ideal S1x128 .f32) (p : Fin 5000) (q : Fin 128) :
    k1_pay1 (F := Ideal) xb W1 b1r W2 b2r (ix2 p q)
      = mlpE (fun j => xb (ix2 p j)) W1 (fun k => b1r (ix2 (0 : Fin 1) k)) W2 (fun k => b2r (ix2 (0 : Fin 1) k)) q := by
  rw [k1_pay1_eq, kTwo_apply dot_S5000x3_S3x128_S5000x128_1_0_0_1_n_n rfl dot_S5000x128_S128x128_S5000x128_1_0_0_1_n_n rfl]

/-- The payload of the first width-6 body at `(p, q)`. -/
theorem k2_pay1_apply (xb : Vec Ideal S5000x6 .f32) (W1 : Vec Ideal S6x128 .f32) (b1r : Vec Ideal S1x128 .f32)
    (W2 : Vec Ideal S128x128 .f32) (b2r : Vec Ideal S1x128 .f32) (p : Fin 5000) (q : Fin 128) :
    k2_pay1 (F := Ideal) xb W1 b1r W2 b2r (ix2 p q)
      = mlpE (fun j => xb (ix2 p j)) W1 (fun k => b1r (ix2 (0 : Fin 1) k)) W2 (fun k => b2r (ix2 (0 : Fin 1) k)) q := by
  rw [k2_pay1_eq, kTwo_apply dot_S5000x6_S6x128_S5000x128_1_0_0_1_n_n rfl dot_S5000x128_S128x128_S5000x128_1_0_0_1_n_n rfl]

/-- The same for the second width-6 body. -/
theorem k3_pay1_apply (xb : Vec Ideal S5000x6 .f32) (W1 : Vec Ideal S6x128 .f32) (b1r : Vec Ideal S1x128 .f32)
    (W2 : Vec Ideal S128x128 .f32) (b2r : Vec Ideal S1x128 .f32) (p : Fin 5000) (q : Fin 128) :
    k3_pay1 (F := Ideal) xb W1 b1r W2 b2r (ix2 p q)
      = mlpE (fun j => xb (ix2 p j)) W1 (fun k => b1r (ix2 (0 : Fin 1) k)) W2 (fun k => b2r (ix2 (0 : Fin 1) k)) q := by
  rw [k3_pay1_eq, kTwo_apply dot_S5000x6_S6x128_S5000x128_1_0_0_1_n_n rfl dot_S5000x128_S128x128_S5000x128_1_0_0_1_n_n rfl]

end KernelRest

/-! ## The reference's stage at an index -/

section RefStage
variable [Cert.ReferenceIdeal.Facts₀]
open Cert.ReferenceIdeal

/-- The reference's width-3 embedding at `(r, q)`: the closed form on row `r` of the input. -/
theorem embed3_apply (x : FVec Ideal S25000x3 .f32) (W1 : FVec Ideal S3x128 .f32) (b1 : FVec Ideal S128 .f32)
    (W2 : FVec Ideal S128x128 .f32) (b2 : FVec Ideal S128 .f32) (r : Fin 25000) (q : Fin 128) :
    Stage.embed3 x W1 b1 W2 b2 (ix2 r q)
      = mlpE (fun j => x (ix2 r j)) W1 (fun k => b1 (ix1 k)) W2 (fun k => b2 (ix1 k)) q := by
  unfold Stage.embed3 mlpE
  rw [refLayer_apply dot_S25000x128_S128x128_S25000x128_1_0_0_1_n_n rfl]
  congr 2
  refine Finset.sum_congr rfl fun c _ => ?_
  rw [refLayer_apply dot_S25000x3_S3x128_S25000x128_1_0_0_1_n_n rfl]

/-- The reference's width-6 embedding at `(r, q)`. -/
theorem embed6_apply (x : FVec Ideal S25000x6 .f32) (W1 : FVec Ideal S6x128 .f32) (b1 : FVec Ideal S128 .f32)
    (W2 : FVec Ideal S128x128 .f32) (b2 : FVec Ideal S128 .f32) (r : Fin 25000) (q : Fin 128) :
    Stage.embed6 x W1 b1 W2 b2 (ix2 r q)
      = mlpE (fun j => x (ix2 r j)) W1 (fun k => b1 (ix1 k)) W2 (fun k => b2 (ix1 k)) q := by
  unfold Stage.embed6 mlpE
  rw [refLayer_apply dot_S25000x128_S128x128_S25000x128_1_0_0_1_n_n rfl]
  congr 2
  refine Finset.sum_congr rfl fun c _ => ?_
  rw [refLayer_apply dot_S25000x6_S6x128_S25000x128_1_0_0_1_n_n rfl]

end RefStage

/-! ## A block of the stage is the body's payload on the blocks -/

section Blocks
variable [Cert.ReferenceIdeal.Facts₀]

/-- The closed form depends only on the row read and the two bias vectors read. -/
theorem mlpE_congr {d : Nat} {xr xr' : Fin d → EReal} {b1 b1' b2 b2' : Fin 128 → EReal}
    (W1 : (⟨2, ![d, 128]⟩ : Shape).Idx → EReal) (W2 : (⟨2, ![128, 128]⟩ : Shape).Idx → EReal) (q : Fin 128)
    (hx : ∀ j, xr j = xr' j) (h1 : ∀ k, b1 k = b1' k) (h2 : ∀ k, b2 k = b2' k) :
    mlpE xr W1 b1 W2 b2 q = mlpE xr' W1 b1' W2 b2' q := by
  rw [funext hx, funext h1, funext h2]

/-- Block `t` of the width-3 embedding of the first input: the first body's payload on the input's block `t`. -/
theorem embed3_block (t : Fin 5) (x : FVec Ideal Cert.ReferenceIdeal.S25000x3 .f32) (W1 : FVec Ideal Cert.ReferenceIdeal.S3x128 .f32)
    (b1 : FVec Ideal Cert.ReferenceIdeal.S128 .f32) (W2 : FVec Ideal Cert.ReferenceIdeal.S128x128 .f32)
    (b2 : FVec Ideal Cert.ReferenceIdeal.S128 .f32)
    (xb : Vec Ideal Cert.KernelIdeal.S5000x3 .f32) (b1r b2r : Vec Ideal Cert.KernelIdeal.S1x128 .f32)
    (hx : ∀ (p : Fin 5000) (j : Fin 3), xb (ix2 p j) = x (ix2 (⟨5000 * t.val + p.val, by omega⟩ : Fin 25000) j))
    (hb1 : ∀ q : Fin 128, b1r (ix2 (0 : Fin 1) q) = b1 (ix1 q)) (hb2 : ∀ q : Fin 128, b2r (ix2 (0 : Fin 1) q) = b2 (ix1 q))
    (p : Fin 5000) (q : Fin 128) :
    Cert.KernelIdeal.Gen.k0_pay1 (F := Ideal) xb W1 b1r W2 b2r (ix2 p q)
      = Cert.ReferenceIdeal.Stage.embed3 x W1 b1 W2 b2 (ix2 (⟨5000 * t.val + p.val, by omega⟩ : Fin 25000) q) := by
  rw [k0_pay1_apply, embed3_apply]
  exact mlpE_congr _ _ q (hx p) hb1 hb2

/-- The same for the second width-3 body. -/
theorem embed3_block' (t : Fin 5) (x : FVec Ideal Cert.ReferenceIdeal.S25000x3 .f32) (W1 : FVec Ideal Cert.ReferenceIdeal.S3x128 .f32)
    (b1 : FVec Ideal Cert.ReferenceIdeal.S128 .f32) (W2 : FVec Ideal Cert.ReferenceIdeal.S128x128 .f32)
    (b2 : FVec Ideal Cert.ReferenceIdeal.S128 .f32)
    (xb : Vec Ideal Cert.KernelIdeal.S5000x3 .f32) (b1r b2r : Vec Ideal Cert.KernelIdeal.S1x128 .f32)
    (hx : ∀ (p : Fin 5000) (j : Fin 3), xb (ix2 p j) = x (ix2 (⟨5000 * t.val + p.val, by omega⟩ : Fin 25000) j))
    (hb1 : ∀ q : Fin 128, b1r (ix2 (0 : Fin 1) q) = b1 (ix1 q)) (hb2 : ∀ q : Fin 128, b2r (ix2 (0 : Fin 1) q) = b2 (ix1 q))
    (p : Fin 5000) (q : Fin 128) :
    Cert.KernelIdeal.Gen.k1_pay1 (F := Ideal) xb W1 b1r W2 b2r (ix2 p q)
      = Cert.ReferenceIdeal.Stage.embed3 x W1 b1 W2 b2 (ix2 (⟨5000 * t.val + p.val, by omega⟩ : Fin 25000) q) := by
  rw [k1_pay1_apply, embed3_apply]
  exact mlpE_congr _ _ q (hx p) hb1 hb2

/-- Block `t` of the width-6 embedding: the third body's payload on the input's block `t`. -/
theorem embed6_block (t : Fin 5) (x : FVec Ideal Cert.ReferenceIdeal.S25000x6 .f32) (W1 : FVec Ideal Cert.ReferenceIdeal.S6x128 .f32)
    (b1 : FVec Ideal Cert.ReferenceIdeal.S128 .f32) (W2 : FVec Ideal Cert.ReferenceIdeal.S128x128 .f32)
    (b2 : FVec Ideal Cert.ReferenceIdeal.S128 .f32)
    (xb : Vec Ideal Cert.KernelIdeal.S5000x6 .f32) (b1r b2r : Vec Ideal Cert.KernelIdeal.S1x128 .f32)
    (hx : ∀ (p : Fin 5000) (j : Fin 6), xb (ix2 p j) = x (ix2 (⟨5000 * t.val + p.val, by omega⟩ : Fin 25000) j))
    (hb1 : ∀ q : Fin 128, b1r (ix2 (0 : Fin 1) q) = b1 (ix1 q)) (hb2 : ∀ q : Fin 128, b2r (ix2 (0 : Fin 1) q) = b2 (ix1 q))
    (p : Fin 5000) (q : Fin 128) :
    Cert.KernelIdeal.Gen.k2_pay1 (F := Ideal) xb W1 b1r W2 b2r (ix2 p q)
      = Cert.ReferenceIdeal.Stage.embed6 x W1 b1 W2 b2 (ix2 (⟨5000 * t.val + p.val, by omega⟩ : Fin 25000) q) := by
  rw [k2_pay1_apply, embed6_apply]
  exact mlpE_congr _ _ q (hx p) hb1 hb2

/-- The same for the fourth body. -/
theorem embed6_block' (t : Fin 5) (x : FVec Ideal Cert.ReferenceIdeal.S25000x6 .f32) (W1 : FVec Ideal Cert.ReferenceIdeal.S6x128 .f32)
    (b1 : FVec Ideal Cert.ReferenceIdeal.S128 .f32) (W2 : FVec Ideal Cert.ReferenceIdeal.S128x128 .f32)
    (b2 : FVec Ideal Cert.ReferenceIdeal.S128 .f32)
    (xb : Vec Ideal Cert.KernelIdeal.S5000x6 .f32) (b1r b2r : Vec Ideal Cert.KernelIdeal.S1x128 .f32)
    (hx : ∀ (p : Fin 5000) (j : Fin 6), xb (ix2 p j) = x (ix2 (⟨5000 * t.val + p.val, by omega⟩ : Fin 25000) j))
    (hb1 : ∀ q : Fin 128, b1r (ix2 (0 : Fin 1) q) = b1 (ix1 q)) (hb2 : ∀ q : Fin 128, b2r (ix2 (0 : Fin 1) q) = b2 (ix1 q))
    (p : Fin 5000) (q : Fin 128) :
    Cert.KernelIdeal.Gen.k3_pay1 (F := Ideal) xb W1 b1r W2 b2r (ix2 p q)
      = Cert.ReferenceIdeal.Stage.embed6 x W1 b1 W2 b2 (ix2 (⟨5000 * t.val + p.val, by omega⟩ : Fin 25000) q) := by
  rw [k3_pay1_apply, embed6_apply]
  exact mlpE_congr _ _ q (hx p) hb1 hb2

end Blocks

end Cert.EmbedValue
-- ==== Proof.KIFinal0.lean ====
import proofs.«136217_j57939108823477_1_alg».proof.Proof.KIRegion0
import proofs.«136217_j57939108823477_1_alg».proof.Proof.EmbedValue
import Idealize.ShloMosaic.Lib.ValueIdx
import Idealize.ShloMosaic.Lib.Pipeline.Value

/-!
# Region 0: from the blocks to the whole array

The region walks five row blocks of 5000 rows.  At each it writes back, over the output array's block, the body's
payload on the input blocks: the input's rows of that block, the two weight matrices whole, the two bias rows whole.
Row `p` of block `t` is row `5000·t + p` of the array, and the payload on a block is that block of the two-layer
perceptron of the whole input; the five blocks tile the 25000 rows, so the array ends holding the perceptron of the
whole input.
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## The windows' block indices over the grid -/

theorem hz : (![0, 0] : Fin 2 → Nat) = fun _ => 0 := funext fun a => by fin_cases a <;> rfl

/-- The printed index maps, decided over the grid: the input's and the output's row block is the grid point, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_lt (t : Fin cfg0.N) : t.val < 5 := lt_of_lt_of_eq t.isLt N_0

/-- The output block's index `(p, q)` at point `t` is the array's index `(5000·t + p, q)`. -/
theorem emb5 (t : Fin cfg0.N) (p : Fin 5000) (q : Fin 128) :
    ((cfg0.win 5).blk t).view.emb (ix2 p q) = ix2 (⟨5000 * t.val + p.val, by have := N_lt t; omega⟩ : Fin 25000) q := by
  obtain ⟨-, -, -, -, -, -, -, -, -, -, e0, e1⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 128 + 1 * q.val = q.val; omega

/-! ## The input blocks read at an index -/

section Blocks
variable {F : FTy → Type} [FloatOps F]
variable (V : (c : Dev nD) → (b : Ref sig .tc) → Buf (Elt F) ((c : Thread nD τ).loc b))

/-- The input's block at point `t`, row `p`: the input's row `5000·t + p`. -/
theorem blk0_apply (c : Dev nD) (t : Fin cfg0.N) (p : Fin 5000) (j : Fin 3) :
    blk V c 0 t (ix2 p j) = V c main_arg0 (ix2 (⟨5000 * t.val + p.val, by have := N_lt t; omega⟩ : Fin 25000) j) := by
  obtain ⟨e0, e1, -⟩ := idx_facts t
  show V c main_arg0 (((cfg0.win 0).blk t).view.emb (ix2 p j)) = _
  congr 1
  funext a; apply Fin.ext
  match a with
  | ⟨0, _⟩ => show win0_0.index t (0 : Fin 2) * 5000 + 1 * p.val = 5000 * t.val + p.val; omega
  | ⟨1, _⟩ => show win0_0.index t (1 : Fin 2) * 3 + 1 * j.val = j.val; omega

/-- The first weight matrix's block is the matrix. -/
theorem blk1_eq (c : Dev nD) (t : Fin cfg0.N) : blk V c 1 t = V c main_arg6 := by
  obtain ⟨-, -, e0, e1, -⟩ := idx_facts t
  funext j
  show V c main_arg6 (((cfg0.win 1).blk t).view.emb j) = V c main_arg6 j
  congr 1
  funext a; apply Fin.ext
  match a with
  | ⟨0, _⟩ => show win0_1.index t (0 : Fin 2) * 3 + 1 * (j 0).val = (j 0).val; omega
  | ⟨1, _⟩ => show win0_1.index t (1 : Fin 2) * 128 + 1 * (j 1).val = (j 1).val; omega

/-- The first bias row's block is the row. -/
theorem blk2_apply (c : Dev nD) (t : Fin cfg0.N) (q : Fin 128) :
    blk V c 2 t (ix2 (0 : Fin 1) q) = V c main_v0 (ix2 (0 : Fin 1) q) := by
  obtain ⟨-, -, -, -, e0, e1, -⟩ := idx_facts t
  show V c main_v0 (((cfg0.win 2).blk t).view.emb (ix2 (0 : Fin 1) q)) = _
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- The second weight matrix's block is the matrix. -/
theorem blk3_eq (c : Dev nD) (t : Fin cfg0.N) : blk V c 3 t = V c main_arg8 := by
  obtain ⟨-, -, -, -, -, -, e0, e1, -⟩ := idx_facts t
  funext j
  show V c main_arg8 (((cfg0.win 3).blk t).view.emb j) = V c main_arg8 j
  congr 1
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The second bias row's block is the row. -/
theorem blk4_apply (c : Dev nD) (t : Fin cfg0.N) (q : Fin 128) :
    blk V c 4 t (ix2 (0 : Fin 1) q) = V c main_v1 (ix2 (0 : Fin 1) q) := by
  obtain ⟨-, -, -, -, -, -, -, -, e0, e1, -⟩ := idx_facts t
  show V c main_v1 (((cfg0.win 4).blk t).view.emb (ix2 (0 : Fin 1) q)) = _
  congr 1
  funext a; apply Fin.ext
  match a with
  | ⟨0, _⟩ => show win0_4.index t (0 : Fin 2) * 1 + 1 * 0 = 0; omega
  | ⟨1, _⟩ => show win0_4.index t (1 : Fin 2) * 128 + 1 * q.val = q.val; omega

end Blocks

/-! ## The five blocks tile the array -/

/-- An index of the array is in point `t`'s block iff each coordinate is in the block's range on its axis. -/
theorem mem_blk (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2).slice (win0_5.rect t)).set ↔ _
  rw [View.set_slice_whole, Rect.mem_set_unit]
  exact Iff.rfl

/-- Row `r` of the array is in the block of point `r / 5000`, which writes it back. -/
theorem covered (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  have hN : (i 0).val / 5000 < cfg0.N := lt_of_lt_of_eq (by omega : (i 0).val / 5000 < 5) N_0.symm
  refine ⟨⟨(i 0).val / 5000, hN⟩, flush0_5 _, ?_⟩
  rw [mem_blk]
  obtain ⟨-, -, -, -, -, -, -, -, -, -, e0, e1⟩ := idx_facts ⟨(i 0).val / 5000, hN⟩
  have e0' : win0_5.index ⟨(i 0).val / 5000, hN⟩ (0 : Fin 2) = (i 0).val / 5000 := e0
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    omega

/-! ## What each point writes back, and the array after the region -/

section Final
variable (V : (c : Dev nD) → (b : Ref sig .tc) → Buf (Elt Ideal) ((c : Thread nD τ).loc b))
variable [Cert.ReferenceIdeal.Facts₀]

/-- What point `t` writes back is block `t` of the perceptron of the whole input, the bias rows being the vectors
    `b1`, `b2` laid out as rows. -/
theorem flushed_eq (c : Dev nD) (b1 b2 : FVec Ideal S128 .f32)
    (hb1 : ∀ q : Fin 128, (V c main_v0 : S1x128.Idx → EReal) (ix2 (0 : Fin 1) q) = b1 (ix1 q))
    (hb2 : ∀ q : Fin 128, (V c main_v1 : S1x128.Idx → EReal) (ix2 (0 : Fin 1) q) = b2 (ix1 q)) (t : Fin cfg0.N) :
    (dat V c).flushed 5 t = ((cfg0.win 5).blk t).view.read (Elt Ideal)
      (Cert.ReferenceIdeal.Stage.embed3 (V c main_arg0) (V c main_arg6) b1 (V c main_arg8) b2 : FVec Ideal S25000x128 .f32) := by
  show (cfg0.win 5).cut (grid0.coords t) ((dat V c).after 5 t) = _
  rw [after_5]
  unfold out
  rw [View.canon_unit_zero hz]
  simp only [View.ld_unit_zero (S := S5000x3) hz, View.ld_unit_zero (S := S3x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k0_pay1 (F := Ideal) (blk V c 0 t) (blk V c 1 t) (blk V c 2 t) (blk V c 3 t) (blk V c 4 t) (ix2 p q)
    = Cert.ReferenceIdeal.Stage.embed3 (V c main_arg0) (V c main_arg6) b1 (V c main_arg8) b2 (((cfg0.win 5).blk t).view.emb (ix2 p q))
  rw [emb5, blk1_eq, blk3_eq]
  exact Cert.EmbedValue.embed3_block ⟨t.val, N_lt t⟩ (V c main_arg0) (V c main_arg6) b1 (V c main_arg8) b2 (blk V c 0 t) (blk V c 2 t) (blk V c 4 t)
    (fun p j => blk0_apply V c t p j) (fun q => (blk2_apply V c t q).trans (hb1 q)) (fun q => (blk4_apply V c t q).trans (hb2 q)) p q

/-- THE ARRAY after the region: the perceptron of the whole input. -/
theorem final (c : Dev nD) (b1 b2 : FVec Ideal S128 .f32)
    (hb1 : ∀ q : Fin 128, (V c main_v0 : S1x128.Idx → EReal) (ix2 (0 : Fin 1) q) = b1 (ix1 q))
    (hb2 : ∀ q : Fin 128, (V c main_v1 : S1x128.Idx → EReal) (ix2 (0 : Fin 1) q) = b2 (ix1 q)) :
    (dat V c).arrAt 5 cfg0.N
      = (Cert.ReferenceIdeal.Stage.embed3 (V c main_arg0) (V c main_arg6) b1 (V c main_arg8) b2 : FVec Ideal S25000x128 .f32) :=
  (dat V c).arrAt_eq_of_cover 5 _ (fun t _ => flushed_eq V c b1 b2 hb1 hb2 t) covered

end Final

end Cert.KernelIdeal.Region0

end
-- ==== Proof.KIFinal1.lean ====
import proofs.«136217_j57939108823477_1_alg».proof.Proof.KIRegion1
import proofs.«136217_j57939108823477_1_alg».proof.Proof.EmbedValue
import Idealize.ShloMosaic.Lib.ValueIdx
import Idealize.ShloMosaic.Lib.Pipeline.Value

/-!
# Region 1: from the blocks to the whole array

The region walks five row blocks of 5000 rows.  At each it writes back, over the output array's block, the body's
payload on the input blocks: the input's rows of that block, the two weight matrices whole, the two bias rows whole.
Row `p` of block `t` is row `5000·t + p` of the array, and the payload on a block is that block of the two-layer
perceptron of the whole input; the five blocks tile the 25000 rows, so the array ends holding the perceptron of the
whole input.
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The windows' block indices over the grid -/

theorem hz : (![0, 0] : Fin 2 → Nat) = fun _ => 0 := funext fun a => by fin_cases a <;> rfl

/-- The printed index maps, decided over the grid: the input's and the output's row block is the grid point, every
    other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N_lt (t : Fin cfg1.N) : t.val < 5 := lt_of_lt_of_eq t.isLt N_1

/-- The output block's index `(p, q)` at point `t` is the array's index `(5000·t + p, q)`. -/
theorem emb5 (t : Fin cfg1.N) (p : Fin 5000) (q : Fin 128) :
    ((cfg1.win 5).blk t).view.emb (ix2 p q) = ix2 (⟨5000 * t.val + p.val, by have := N_lt t; omega⟩ : Fin 25000) q := by
  obtain ⟨-, -, -, -, -, -, -, -, -, -, e0, e1⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

/-! ## The input blocks read at an index -/

section Blocks
variable {F : FTy → Type} [FloatOps F]
variable (V : (c : Dev nD) → (b : Ref sig .tc) → Buf (Elt F) ((c : Thread nD τ).loc b))

/-- The input's block at point `t`, row `p`: the input's row `5000·t + p`. -/
theorem blk0_apply (c : Dev nD) (t : Fin cfg1.N) (p : Fin 5000) (j : Fin 3) :
    blk V c 0 t (ix2 p j) = V c main_arg1 (ix2 (⟨5000 * t.val + p.val, by have := N_lt t; omega⟩ : Fin 25000) j) := by
  obtain ⟨e0, e1, -⟩ := idx_facts t
  show V c main_arg1 (((cfg1.win 0).blk t).view.emb (ix2 p j)) = _
  congr 1
  funext a; apply Fin.ext
  match a with
  | ⟨0, _⟩ => show win1_0.index t (0 : Fin 2) * 5000 + 1 * p.val = 5000 * t.val + p.val; omega
  | ⟨1, _⟩ => show win1_0.index t (1 : Fin 2) * 3 + 1 * j.val = j.val; omega

/-- The first weight matrix's block is the matrix. -/
theorem blk1_eq (c : Dev nD) (t : Fin cfg1.N) : blk V c 1 t = V c main_arg10 := by
  obtain ⟨-, -, e0, e1, -⟩ := idx_facts t
  funext j
  show V c main_arg10 (((cfg1.win 1).blk t).view.emb j) = V c main_arg10 j
  congr 1
  funext a; apply Fin.ext
  match a with
  | ⟨0, _⟩ => show win1_1.index t (0 : Fin 2) * 3 + 1 * (j 0).val = (j 0).val; omega
  | ⟨1, _⟩ => show win1_1.index t (1 : Fin 2) * 128 + 1 * (j 1).val = (j 1).val; omega

/-- The first bias row's block is the row. -/
theorem blk2_apply (c : Dev nD) (t : Fin cfg1.N) (q : Fin 128) :
    blk V c 2 t (ix2 (0 : Fin 1) q) = V c main_v3 (ix2 (0 : Fin 1) q) := by
  obtain ⟨-, -, -, -, e0, e1, -⟩ := idx_facts t
  show V c main_v3 (((cfg1.win 2).blk t).view.emb (ix2 (0 : Fin 1) q)) = _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- The second weight matrix's block is the matrix. -/
theorem blk3_eq (c : Dev nD) (t : Fin cfg1.N) : blk V c 3 t = V c main_arg12 := by
  obtain ⟨-, -, -, -, -, -, e0, e1, -⟩ := idx_facts t
  funext j
  show V c main_arg12 (((cfg1.win 3).blk t).view.emb j) = V c main_arg12 j
  congr 1
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- The second bias row's block is the row. -/
theorem blk4_apply (c : Dev nD) (t : Fin cfg1.N) (q : Fin 128) :
    blk V c 4 t (ix2 (0 : Fin 1) q) = V c main_v4 (ix2 (0 : Fin 1) q) := by
  obtain ⟨-, -, -, -, -, -, -, -, e0, e1, -⟩ := idx_facts t
  show V c main_v4 (((cfg1.win 4).blk t).view.emb (ix2 (0 : Fin 1) q)) = _
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega

end Blocks

/-! ## The five blocks tile the array -/

/-- An index of the array is in point `t`'s block iff each coordinate is in the block's range on its axis. -/
theorem mem_blk (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v5).slice (win1_5.rect t)).set ↔ _
  rw [View.set_slice_whole, Rect.mem_set_unit]
  exact Iff.rfl

/-- Row `r` of the array is in the block of point `r / 5000`, which writes it back. -/
theorem covered (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  have hN : (i 0).val / 5000 < cfg1.N := lt_of_lt_of_eq (by omega : (i 0).val / 5000 < 5) N_1.symm
  refine ⟨⟨(i 0).val / 5000, hN⟩, flush1_5 _, ?_⟩
  rw [mem_blk]
  obtain ⟨-, -, -, -, -, -, -, -, -, -, e0, e1⟩ := idx_facts ⟨(i 0).val / 5000, hN⟩
  have e0' : win1_5.index ⟨(i 0).val / 5000, hN⟩ (0 : Fin 2) = (i 0).val / 5000 := e0
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    omega

/-! ## What each point writes back, and the array after the region -/

section Final
variable (V : (c : Dev nD) → (b : Ref sig .tc) → Buf (Elt Ideal) ((c : Thread nD τ).loc b))
variable [Cert.ReferenceIdeal.Facts₀]

/-- What point `t` writes back is block `t` of the perceptron of the whole input, the bias rows being the vectors
    `b1`, `b2` laid out as rows. -/
theorem flushed_eq (c : Dev nD) (b1 b2 : FVec Ideal S128 .f32)
    (hb1 : ∀ q : Fin 128, (V c main_v3 : S1x128.Idx → EReal) (ix2 (0 : Fin 1) q) = b1 (ix1 q))
    (hb2 : ∀ q : Fin 128, (V c main_v4 : S1x128.Idx → EReal) (ix2 (0 : Fin 1) q) = b2 (ix1 q)) (t : Fin cfg1.N) :
    (dat V c).flushed 5 t = ((cfg1.win 5).blk t).view.read (Elt Ideal)
      (Cert.ReferenceIdeal.Stage.embed3 (V c main_arg1) (V c main_arg10) b1 (V c main_arg12) b2 : FVec Ideal S25000x128 .f32) := by
  show (cfg1.win 5).cut (grid1.coords t) ((dat V c).after 5 t) = _
  rw [after_5]
  unfold out
  rw [View.canon_unit_zero hz]
  simp only [View.ld_unit_zero (S := S5000x3) hz, View.ld_unit_zero (S := S3x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k1_pay1 (F := Ideal) (blk V c 0 t) (blk V c 1 t) (blk V c 2 t) (blk V c 3 t) (blk V c 4 t) (ix2 p q)
    = Cert.ReferenceIdeal.Stage.embed3 (V c main_arg1) (V c main_arg10) b1 (V c main_arg12) b2 (((cfg1.win 5).blk t).view.emb (ix2 p q))
  rw [emb5, blk1_eq, blk3_eq]
  exact Cert.EmbedValue.embed3_block' ⟨t.val, N_lt t⟩ (V c main_arg1) (V c main_arg10) b1 (V c main_arg12) b2 (blk V c 0 t) (blk V c 2 t) (blk V c 4 t)
    (fun p j => blk0_apply V c t p j) (fun q => (blk2_apply V c t q).trans (hb1 q)) (fun q => (blk4_apply V c t q).trans (hb2 q)) p q

/-- THE ARRAY after the region: the perceptron of the whole input. -/
theorem final (c : Dev nD) (b1 b2 : FVec Ideal S128 .f32)
    (hb1 : ∀ q : Fin 128, (V c main_v3 : S1x128.Idx → EReal) (ix2 (0 : Fin 1) q) = b1 (ix1 q))
    (hb2 : ∀ q : Fin 128, (V c main_v4 : S1x128.Idx → EReal) (ix2 (0 : Fin 1) q) = b2 (ix1 q)) :
    (dat V c).arrAt 5 cfg1.N
      = (Cert.ReferenceIdeal.Stage.embed3 (V c main_arg1) (V c main_arg10) b1 (V c main_arg12) b2 : FVec Ideal S25000x128 .f32) :=
  (dat V c).arrAt_eq_of_cover 5 _ (fun t _ => flushed_eq V c b1 b2 hb1 hb2 t) covered

end Final

end Cert.KernelIdeal.Region1

end
-- ==== Proof.KIFinal2.lean ====
import proofs.«136217_j57939108823477_1_alg».proof.Proof.KIRegion2
import proofs.«136217_j57939108823477_1_alg».proof.Proof.EmbedValue
import Idealize.ShloMosaic.Lib.ValueIdx
import Idealize.ShloMosaic.Lib.Pipeline.Value

/-!
# Region 2: from the blocks to the whole array

The region walks five row blocks of 5000 rows.  At each it writes back, over the output array's block, the body's
payload on the input blocks: the input's rows of that block, the two weight matrices whole, the two bias rows whole.
Row `p` of block `t` is row `5000·t + p` of the array, and the payload on a block is that block of the two-layer
perceptron of the whole input; the five blocks tile the 25000 rows, so the array ends holding the perceptron of the
whole input.
-/

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## The windows' block indices over the grid -/

theorem hz : (![0, 0] : Fin 2 → Nat) = fun _ => 0 := funext fun a => by fin_cases a <;> rfl

/-- The printed index maps, decided over the grid: the input's and the output's row block is the grid point, every
    other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N_lt (t : Fin cfg2.N) : t.val < 5 := lt_of_lt_of_eq t.isLt N_2

/-- The output block's index `(p, q)` at point `t` is the array's index `(5000·t + p, q)`. -/
theorem emb5 (t : Fin cfg2.N) (p : Fin 5000) (q : Fin 128) :
    ((cfg2.win 5).blk t).view.emb (ix2 p q) = ix2 (⟨5000 * t.val + p.val, by have := N_lt t; omega⟩ : Fin 25000) q := by
  obtain ⟨-, -, -, -, -, -, -, -, -, -, e0, e1⟩ := idx_facts t
  funext a; apply Fin.ext
  match a with
  | ⟨0, _⟩ => show win2_5.index t (0 : Fin 2) * 5000 + 1 * p.val = 5000 * t.val + p.val; omega
  | ⟨1, _⟩ => show win2_5.index t (1 : Fin 2) * 128 + 1 * q.val = q.val; omega

/-! ## The input blocks read at an index -/

section Blocks
variable {F : FTy → Type} [FloatOps F]
variable (V : (c : Dev nD) → (b : Ref sig .tc) → Buf (Elt F) ((c : Thread nD τ).loc b))

/-- The input's block at point `t`, row `p`: the input's row `5000·t + p`. -/
theorem blk0_apply (c : Dev nD) (t : Fin cfg2.N) (p : Fin 5000) (j : Fin 6) :
    blk V c 0 t (ix2 p j) = V c main_arg2 (ix2 (⟨5000 * t.val + p.val, by have := N_lt t; omega⟩ : Fin 25000) j) := by
  obtain ⟨e0, e1, -⟩ := idx_facts t
  show V c main_arg2 (((cfg2.win 0).blk t).view.emb (ix2 p j)) = _
  congr 1
  funext a; apply Fin.ext
  match a with
  | ⟨0, _⟩ => show win2_0.index t (0 : Fin 2) * 5000 + 1 * p.val = 5000 * t.val + p.val; omega
  | ⟨1, _⟩ => show win2_0.index t (1 : Fin 2) * 6 + 1 * j.val = j.val; omega

/-- The first weight matrix's block is the matrix. -/
theorem blk1_eq (c : Dev nD) (t : Fin cfg2.N) : blk V c 1 t = V c main_arg14 := by
  obtain ⟨-, -, e0, e1, -⟩ := idx_facts t
  funext j
  show V c main_arg14 (((cfg2.win 1).blk t).view.emb j) = V c main_arg14 j
  congr 1
  funext a; apply Fin.ext
  match a with
  | ⟨0, _⟩ => show win2_1.index t (0 : Fin 2) * 6 + 1 * (j 0).val = (j 0).val; omega
  | ⟨1, _⟩ => show win2_1.index t (1 : Fin 2) * 128 + 1 * (j 1).val = (j 1).val; omega

/-- The first bias row's block is the row. -/
theorem blk2_apply (c : Dev nD) (t : Fin cfg2.N) (q : Fin 128) :
    blk V c 2 t (ix2 (0 : Fin 1) q) = V c main_v6 (ix2 (0 : Fin 1) q) := by
  obtain ⟨-, -, -, -, e0, e1, -⟩ := idx_facts t
  show V c main_v6 (((cfg2.win 2).blk t).view.emb (ix2 (0 : Fin 1) q)) = _
  congr 1
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- The second weight matrix's block is the matrix. -/
theorem blk3_eq (c : Dev nD) (t : Fin cfg2.N) : blk V c 3 t = V c main_arg16 := by
  obtain ⟨-, -, -, -, -, -, e0, e1, -⟩ := idx_facts t
  funext j
  show V c main_arg16 (((cfg2.win 3).blk t).view.emb j) = V c main_arg16 j
  congr 1
  funext a; apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- The second bias row's block is the row. -/
theorem blk4_apply (c : Dev nD) (t : Fin cfg2.N) (q : Fin 128) :
    blk V c 4 t (ix2 (0 : Fin 1) q) = V c main_v7 (ix2 (0 : Fin 1) q) := by
  obtain ⟨-, -, -, -, -, -, -, -, e0, e1, -⟩ := idx_facts t
  show V c main_v7 (((cfg2.win 4).blk t).view.emb (ix2 (0 : Fin 1) q)) = _
  congr 1
  funext a; apply Fin.ext
  match a with
  | ⟨0, _⟩ => show win2_4.index t (0 : Fin 2) * 1 + 1 * 0 = 0; omega
  | ⟨1, _⟩ => show win2_4.index t (1 : Fin 2) * 128 + 1 * q.val = q.val; omega

end Blocks

/-! ## The five blocks tile the array -/

/-- An index of the array is in point `t`'s block iff each coordinate is in the block's range on its axis. -/
theorem mem_blk (t : Fin cfg2.N) (i : S25000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v8).slice (win2_5.rect t)).set ↔ _
  rw [View.set_slice_whole, Rect.mem_set_unit]
  exact Iff.rfl

/-- Row `r` of the array is in the block of point `r / 5000`, which writes it back. -/
theorem covered (i : S25000x128.Idx) :
    ∃ t : Fin cfg2.N, (cfg2.win 5).flush t = true ∧ i ∈ ((cfg2.win 5).blk t).view.set := by
  have hi0 : (i 0).val < 25000 := (i 0).isLt
  have hi1 : (i 1).val < 128 := (i 1).isLt
  have hN : (i 0).val / 5000 < cfg2.N := lt_of_lt_of_eq (by omega : (i 0).val / 5000 < 5) N_2.symm
  refine ⟨⟨(i 0).val / 5000, hN⟩, flush2_5 _, ?_⟩
  rw [mem_blk]
  obtain ⟨-, -, -, -, -, -, -, -, -, -, e0, e1⟩ := idx_facts ⟨(i 0).val / 5000, hN⟩
  have e0' : win2_5.index ⟨(i 0).val / 5000, hN⟩ (0 : Fin 2) = (i 0).val / 5000 := e0
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    omega
  | ⟨1, _⟩ =>
    show win2_5.index ⟨(i 0).val / 5000, hN⟩ (1 : Fin 2) * 128 ≤ (i 1).val ∧ (i 1).val < win2_5.index ⟨(i 0).val / 5000, hN⟩ (1 : Fin 2) * 128 + 128
    omega

/-! ## What each point writes back, and the array after the region -/

section Final
variable (V : (c : Dev nD) → (b : Ref sig .tc) → Buf (Elt Ideal) ((c : Thread nD τ).loc b))
variable [Cert.ReferenceIdeal.Facts₀]

/-- What point `t` writes back is block `t` of the perceptron of the whole input, the bias rows being the vectors
    `b1`, `b2` laid out as rows. -/
theorem flushed_eq (c : Dev nD) (b1 b2 : FVec Ideal S128 .f32)
    (hb1 : ∀ q : Fin 128, (V c main_v6 : S1x128.Idx → EReal) (ix2 (0 : Fin 1) q) = b1 (ix1 q))
    (hb2 : ∀ q : Fin 128, (V c main_v7 : S1x128.Idx → EReal) (ix2 (0 : Fin 1) q) = b2 (ix1 q)) (t : Fin cfg2.N) :
    (dat V c).flushed 5 t = ((cfg2.win 5).blk t).view.read (Elt Ideal)
      (Cert.ReferenceIdeal.Stage.embed6 (V c main_arg2) (V c main_arg14) b1 (V c main_arg16) b2 : FVec Ideal S25000x128 .f32) := by
  show (cfg2.win 5).cut (grid2.coords t) ((dat V c).after 5 t) = _
  rw [after_5]
  unfold out
  rw [View.canon_unit_zero hz]
  simp only [View.ld_unit_zero (S := S5000x6) hz, View.ld_unit_zero (S := S6x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k2_pay1 (F := Ideal) (blk V c 0 t) (blk V c 1 t) (blk V c 2 t) (blk V c 3 t) (blk V c 4 t) (ix2 p q)
    = Cert.ReferenceIdeal.Stage.embed6 (V c main_arg2) (V c main_arg14) b1 (V c main_arg16) b2 (((cfg2.win 5).blk t).view.emb (ix2 p q))
  rw [emb5, blk1_eq, blk3_eq]
  exact Cert.EmbedValue.embed6_block ⟨t.val, N_lt t⟩ (V c main_arg2) (V c main_arg14) b1 (V c main_arg16) b2 (blk V c 0 t) (blk V c 2 t) (blk V c 4 t)
    (fun p j => blk0_apply V c t p j) (fun q => (blk2_apply V c t q).trans (hb1 q)) (fun q => (blk4_apply V c t q).trans (hb2 q)) p q

/-- THE ARRAY after the region: the perceptron of the whole input. -/
theorem final (c : Dev nD) (b1 b2 : FVec Ideal S128 .f32)
    (hb1 : ∀ q : Fin 128, (V c main_v6 : S1x128.Idx → EReal) (ix2 (0 : Fin 1) q) = b1 (ix1 q))
    (hb2 : ∀ q : Fin 128, (V c main_v7 : S1x128.Idx → EReal) (ix2 (0 : Fin 1) q) = b2 (ix1 q)) :
    (dat V c).arrAt 5 cfg2.N
      = (Cert.ReferenceIdeal.Stage.embed6 (V c main_arg2) (V c main_arg14) b1 (V c main_arg16) b2 : FVec Ideal S25000x128 .f32) :=
  (dat V c).arrAt_eq_of_cover 5 _ (fun t _ => flushed_eq V c b1 b2 hb1 hb2 t) covered

end Final

end Cert.KernelIdeal.Region2

end
-- ==== Proof.KIFinal3.lean ====
import proofs.«136217_j57939108823477_1_alg».proof.Proof.KIRegion3
import proofs.«136217_j57939108823477_1_alg».proof.Proof.EmbedValue
import Idealize.ShloMosaic.Lib.ValueIdx
import Idealize.ShloMosaic.Lib.Pipeline.Value

/-!
# Region 3: from the blocks to the whole array

The region walks five row blocks of 5000 rows.  At each it writes back, over the output array's block, the body's
payload on the input blocks: the input's rows of that block, the two weight matrices whole, the two bias rows whole.
Row `p` of block `t` is row `5000·t + p` of the array, and the payload on a block is that block of the two-layer
perceptron of the whole input; the five blocks tile the 25000 rows, so the array ends holding the perceptron of the
whole input.
-/

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

/-! ## The windows' block indices over the grid -/

theorem hz : (![0, 0] : Fin 2 → Nat) = fun _ => 0 := funext fun a => by fin_cases a <;> rfl

/-- The printed index maps, decided over the grid: the input's and the output's row block is the grid point, every
    other block index is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem N_lt (t : Fin cfg3.N) : t.val < 5 := lt_of_lt_of_eq t.isLt N_3

/-- The output block's index `(p, q)` at point `t` is the array's index `(5000·t + p, q)`. -/
theorem emb5 (t : Fin cfg3.N) (p : Fin 5000) (q : Fin 128) :
    ((cfg3.win 5).blk t).view.emb (ix2 p q) = ix2 (⟨5000 * t.val + p.val, by have := N_lt t; omega⟩ : Fin 25000) q := by
  obtain ⟨-, -, -, -, -, -, -, -, -, -, e0, e1⟩ := idx_facts t
  funext a; apply Fin.ext
  match a with
  | ⟨0, _⟩ => show win3_5.index t (0 : Fin 2) * 5000 + 1 * p.val = 5000 * t.val + p.val; omega
  | ⟨1, _⟩ => show win3_5.index t (1 : Fin 2) * 128 + 1 * q.val = q.val; omega

/-! ## The input blocks read at an index -/

section Blocks
variable {F : FTy → Type} [FloatOps F]
variable (V : (c : Dev nD) → (b : Ref sig .tc) → Buf (Elt F) ((c : Thread nD τ).loc b))

/-- The input's block at point `t`, row `p`: the input's row `5000·t + p`. -/
theorem blk0_apply (c : Dev nD) (t : Fin cfg3.N) (p : Fin 5000) (j : Fin 6) :
    blk V c 0 t (ix2 p j) = V c main_arg3 (ix2 (⟨5000 * t.val + p.val, by have := N_lt t; omega⟩ : Fin 25000) j) := by
  obtain ⟨e0, e1, -⟩ := idx_facts t
  show V c main_arg3 (((cfg3.win 0).blk t).view.emb (ix2 p j)) = _
  congr 1
  funext a; apply Fin.ext
  match a with
  | ⟨0, _⟩ => show win3_0.index t (0 : Fin 2) * 5000 + 1 * p.val = 5000 * t.val + p.val; omega
  | ⟨1, _⟩ => show win3_0.index t (1 : Fin 2) * 6 + 1 * j.val = j.val; omega

/-- The first weight matrix's block is the matrix. -/
theorem blk1_eq (c : Dev nD) (t : Fin cfg3.N) : blk V c 1 t = V c main_arg18 := by
  obtain ⟨-, -, e0, e1, -⟩ := idx_facts t
  funext j
  show V c main_arg18 (((cfg3.win 1).blk t).view.emb j) = V c main_arg18 j
  congr 1
  funext a; apply Fin.ext
  match a with
  | ⟨0, _⟩ => show win3_1.index t (0 : Fin 2) * 6 + 1 * (j 0).val = (j 0).val; omega
  | ⟨1, _⟩ => show win3_1.index t (1 : Fin 2) * 128 + 1 * (j 1).val = (j 1).val; omega

/-- The first bias row's block is the row. -/
theorem blk2_apply (c : Dev nD) (t : Fin cfg3.N) (q : Fin 128) :
    blk V c 2 t (ix2 (0 : Fin 1) q) = V c main_v9 (ix2 (0 : Fin 1) q) := by
  obtain ⟨-, -, -, -, e0, e1, -⟩ := idx_facts t
  show V c main_v9 (((cfg3.win 2).blk t).view.emb (ix2 (0 : Fin 1) q)) = _
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- The second weight matrix's block is the matrix. -/
theorem blk3_eq (c : Dev nD) (t : Fin cfg3.N) : blk V c 3 t = V c main_arg20 := by
  obtain ⟨-, -, -, -, -, -, e0, e1, -⟩ := idx_facts t
  funext j
  show V c main_arg20 (((cfg3.win 3).blk t).view.emb j) = V c main_arg20 j
  congr 1
  funext a; apply Fin.ext
  match a with
  | ⟨0, _⟩ => show win3_3.index t (0 : Fin 2) * 128 + 1 * (j 0).val = (j 0).val; omega
  | ⟨1, _⟩ => show win3_3.index t (1 : Fin 2) * 128 + 1 * (j 1).val = (j 1).val; omega

/-- The second bias row's block is the row. -/
theorem blk4_apply (c : Dev nD) (t : Fin cfg3.N) (q : Fin 128) :
    blk V c 4 t (ix2 (0 : Fin 1) q) = V c main_v10 (ix2 (0 : Fin 1) q) := by
  obtain ⟨-, -, -, -, -, -, -, -, e0, e1, -⟩ := idx_facts t
  show V c main_v10 (((cfg3.win 4).blk t).view.emb (ix2 (0 : Fin 1) q)) = _
  congr 1
  funext a; apply Fin.ext
  match a with
  | ⟨0, _⟩ => show win3_4.index t (0 : Fin 2) * 1 + 1 * 0 = 0; omega
  | ⟨1, _⟩ => show win3_4.index t (1 : Fin 2) * 128 + 1 * q.val = q.val; omega

end Blocks

/-! ## The five blocks tile the array -/

/-- An index of the array is in point `t`'s block iff each coordinate is in the block's range on its axis. -/
theorem mem_blk (t : Fin cfg3.N) (i : S25000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v11).slice (win3_5.rect t)).set ↔ _
  rw [View.set_slice_whole, Rect.mem_set_unit]
  exact Iff.rfl

/-- Row `r` of the array is in the block of point `r / 5000`, which writes it back. -/
theorem covered (i : S25000x128.Idx) :
    ∃ t : Fin cfg3.N, (cfg3.win 5).flush t = true ∧ i ∈ ((cfg3.win 5).blk t).view.set := by
  have hi0 : (i 0).val < 25000 := (i 0).isLt
  have hi1 : (i 1).val < 128 := (i 1).isLt
  have hN : (i 0).val / 5000 < cfg3.N := lt_of_lt_of_eq (by omega : (i 0).val / 5000 < 5) N_3.symm
  refine ⟨⟨(i 0).val / 5000, hN⟩, flush3_5 _, ?_⟩
  rw [mem_blk]
  obtain ⟨-, -, -, -, -, -, -, -, -, -, e0, e1⟩ := idx_facts ⟨(i 0).val / 5000, hN⟩
  have e0' : win3_5.index ⟨(i 0).val / 5000, hN⟩ (0 : Fin 2) = (i 0).val / 5000 := e0
  intro a
  match a with
  | ⟨0, _⟩ =>
    show win3_5.index ⟨(i 0).val / 5000, hN⟩ (0 : Fin 2) * 5000 ≤ (i 0).val ∧ (i 0).val < win3_5.index ⟨(i 0).val / 5000, hN⟩ (0 : Fin 2) * 5000 + 5000
    omega
  | ⟨1, _⟩ =>
    show win3_5.index ⟨(i 0).val / 5000, hN⟩ (1 : Fin 2) * 128 ≤ (i 1).val ∧ (i 1).val < win3_5.index ⟨(i 0).val / 5000, hN⟩ (1 : Fin 2) * 128 + 128
    omega

/-! ## What each point writes back, and the array after the region -/

section Final
variable (V : (c : Dev nD) → (b : Ref sig .tc) → Buf (Elt Ideal) ((c : Thread nD τ).loc b))
variable [Cert.ReferenceIdeal.Facts₀]

/-- What point `t` writes back is block `t` of the perceptron of the whole input, the bias rows being the vectors
    `b1`, `b2` laid out as rows. -/
theorem flushed_eq (c : Dev nD) (b1 b2 : FVec Ideal S128 .f32)
    (hb1 : ∀ q : Fin 128, (V c main_v9 : S1x128.Idx → EReal) (ix2 (0 : Fin 1) q) = b1 (ix1 q))
    (hb2 : ∀ q : Fin 128, (V c main_v10 : S1x128.Idx → EReal) (ix2 (0 : Fin 1) q) = b2 (ix1 q)) (t : Fin cfg3.N) :
    (dat V c).flushed 5 t = ((cfg3.win 5).blk t).view.read (Elt Ideal)
      (Cert.ReferenceIdeal.Stage.embed6 (V c main_arg3) (V c main_arg18) b1 (V c main_arg20) b2 : FVec Ideal S25000x128 .f32) := by
  show (cfg3.win 5).cut (grid3.coords t) ((dat V c).after 5 t) = _
  rw [after_5]
  unfold out
  rw [View.canon_unit_zero hz]
  simp only [View.ld_unit_zero (S := S5000x6) hz, View.ld_unit_zero (S := S6x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k3_pay1 (F := Ideal) (blk V c 0 t) (blk V c 1 t) (blk V c 2 t) (blk V c 3 t) (blk V c 4 t) (ix2 p q)
    = Cert.ReferenceIdeal.Stage.embed6 (V c main_arg3) (V c main_arg18) b1 (V c main_arg20) b2 (((cfg3.win 5).blk t).view.emb (ix2 p q))
  rw [emb5, blk1_eq, blk3_eq]
  exact Cert.EmbedValue.embed6_block' ⟨t.val, N_lt t⟩ (V c main_arg3) (V c main_arg18) b1 (V c main_arg20) b2 (blk V c 0 t) (blk V c 2 t) (blk V c 4 t)
    (fun p j => blk0_apply V c t p j) (fun q => (blk2_apply V c t q).trans (hb1 q)) (fun q => (blk4_apply V c t q).trans (hb2 q)) p q

/-- THE ARRAY after the region: the perceptron of the whole input. -/
theorem final (c : Dev nD) (b1 b2 : FVec Ideal S128 .f32)
    (hb1 : ∀ q : Fin 128, (V c main_v9 : S1x128.Idx → EReal) (ix2 (0 : Fin 1) q) = b1 (ix1 q))
    (hb2 : ∀ q : Fin 128, (V c main_v10 : S1x128.Idx → EReal) (ix2 (0 : Fin 1) q) = b2 (ix1 q)) :
    (dat V c).arrAt 5 cfg3.N
      = (Cert.ReferenceIdeal.Stage.embed6 (V c main_arg3) (V c main_arg18) b1 (V c main_arg20) b2 : FVec Ideal S25000x128 .f32) :=
  (dat V c).arrAt_eq_of_cover 5 _ (fun t _ => flushed_eq V c b1 b2 hb1 hb2 t) covered

end Final

end Cert.KernelIdeal.Region3

end
-- ==== Proof.KIValueA.lean ====
/- The kernel's values, first part: what the four embedding regions leave in their output arrays.

   At a region's entry the weight arrays and the input rows are the arguments as launched (no earlier item writes an
   argument), and the two bias rows are the bias vectors re-laid as one row. Each output block is the row block of the
   embedding stage, and the blocks tile the rows, so each output array is the stage of the launched arguments. -/
import proofs.«136217_j57939108823477_1_alg».proof.Proof.RefRunRes
import proofs.«136217_j57939108823477_1_alg».proof.Proof.KIKeep
import proofs.«136217_j57939108823477_1_alg».proof.Proof.KIFinal0
import proofs.«136217_j57939108823477_1_alg».proof.Proof.KIFinal1
import proofs.«136217_j57939108823477_1_alg».proof.Proof.KIFinal2
import proofs.«136217_j57939108823477_1_alg».proof.Proof.KIFinal3
import proofs.«136217_j57939108823477_1_alg».proof.Proof.Gen.ReferenceIdeal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Region 0 -/

/-- The first bias row at the region's entry: the first bias vector re-laid as one row. -/
theorem E0_v0 (c : Dev nD) : (E0 m ρ c (Proc.devRef .tc main_v0) : S1x128.Idx → EReal) = shapeCast S1x128 (m ((c : Thread nD τ).loc main_arg7)) shapeCasts_S128_S1x128 := by
  show StableHlo.after hostOps0 (W0 m ρ c) (Proc.devRef .tc main_v0) = _
  after_results
  rfl
/-- The second bias row at the region's entry. -/
theorem E0_v1 (c : Dev nD) : (E0 m ρ c (Proc.devRef .tc main_v1) : S1x128.Idx → EReal) = shapeCast S1x128 (m ((c : Thread nD τ).loc main_arg9)) shapeCasts_S128_S1x128 := by
  show StableHlo.after hostOps0 (W0 m ρ c) (Proc.devRef .tc main_v1) = _
  after_results
  rfl

/-- The first embedding's array after region 0: the stage of the launched arguments. -/
theorem out0 (c : Dev nD) :
    X0 m ρ c (Proc.devRef .tc main_v2) = (Cert.ReferenceIdeal.Stage.embed3 (m ((c : Thread nD τ).loc main_arg0)) (m ((c : Thread nD τ).loc main_arg6))
      (m ((c : Thread nD τ).loc main_arg7)) (m ((c : Thread nD τ).loc main_arg8)) (m ((c : Thread nD τ).loc main_arg9)) : FVec Ideal S25000x128 .f32) := by
  have h := Region0.final (VE0 m ρ) c (m ((c : Thread nD τ).loc main_arg7)) (m ((c : Thread nD τ).loc main_arg9))
    (fun q => by show (E0 m ρ c (Proc.devRef .tc main_v0) : S1x128.Idx → EReal) (ix2 (0 : Fin 1) q) = _; rw [E0_v0]; exact shapeCast_a_1a_apply _ _ _ _)
    (fun q => by show (E0 m ρ c (Proc.devRef .tc main_v1) : S1x128.Idx → EReal) (ix2 (0 : Fin 1) q) = _; rw [E0_v1]; exact shapeCast_a_1a_apply _ _ _ _)
  have a0 : VE0 m ρ c main_arg0 = m ((c : Thread nD τ).loc main_arg0) := by show E0 m ρ c (Proc.devRef .tc main_arg0) = _; keep_steps; rfl
  have a6 : VE0 m ρ c main_arg6 = m ((c : Thread nD τ).loc main_arg6) := by show E0 m ρ c (Proc.devRef .tc main_arg6) = _; keep_steps; rfl
  have a8 : VE0 m ρ c main_arg8 = m ((c : Thread nD τ).loc main_arg8) := by show E0 m ρ c (Proc.devRef .tc main_arg8) = _; keep_steps; rfl
  rw [a0, a6, a8] at h
  exact (X0_arr m ρ c 5).trans h

/-! ## Region 1 -/

/-- The second embedding's first bias vector is still, before region 1's host operations, as launched. -/
theorem X0_arg11 (c : Dev nD) : X0 m ρ c (Proc.devRef .tc main_arg11) = m ((c : Thread nD τ).loc main_arg11) := by
  keep_steps; rfl
/-- So is its second bias vector. -/
theorem X0_arg13 (c : Dev nD) : X0 m ρ c (Proc.devRef .tc main_arg13) = m ((c : Thread nD τ).loc main_arg13) := by
  keep_steps; rfl

/-- The first bias row at the region's entry: the first bias vector re-laid as one row. -/
theorem E1_v3 (c : Dev nD) : (E1 m ρ c (Proc.devRef .tc main_v3) : S1x128.Idx → EReal) = shapeCast S1x128 (m ((c : Thread nD τ).loc main_arg11)) shapeCasts_S128_S1x128 := by
  show StableHlo.after hostOps1 (X0 m ρ c) (Proc.devRef .tc main_v3) = _
  after_results
  rw [X0_arg11]
  rfl
/-- The second bias row at the region's entry. -/
theorem E1_v4 (c : Dev nD) : (E1 m ρ c (Proc.devRef .tc main_v4) : S1x128.Idx → EReal) = shapeCast S1x128 (m ((c : Thread nD τ).loc main_arg13)) shapeCasts_S128_S1x128 := by
  show StableHlo.after hostOps1 (X0 m ρ c) (Proc.devRef .tc main_v4) = _
  after_results
  rw [X0_arg13]
  rfl

/-- The second embedding's array after region 1: the stage of the launched arguments. -/
theorem out1 (c : Dev nD) :
    X1 m ρ c (Proc.devRef .tc main_v5) = (Cert.ReferenceIdeal.Stage.embed3 (m ((c : Thread nD τ).loc main_arg1)) (m ((c : Thread nD τ).loc main_arg10))
      (m ((c : Thread nD τ).loc main_arg11)) (m ((c : Thread nD τ).loc main_arg12)) (m ((c : Thread nD τ).loc main_arg13)) : FVec Ideal S25000x128 .f32) := by
  have h := Region1.final (VE1 m ρ) c (m ((c : Thread nD τ).loc main_arg11)) (m ((c : Thread nD τ).loc main_arg13))
    (fun q => by show (E1 m ρ c (Proc.devRef .tc main_v3) : S1x128.Idx → EReal) (ix2 (0 : Fin 1) q) = _; rw [E1_v3]; exact shapeCast_a_1a_apply _ _ _ _)
    (fun q => by show (E1 m ρ c (Proc.devRef .tc main_v4) : S1x128.Idx → EReal) (ix2 (0 : Fin 1) q) = _; rw [E1_v4]; exact shapeCast_a_1a_apply _ _ _ _)
  have a0 : VE1 m ρ c main_arg1 = m ((c : Thread nD τ).loc main_arg1) := by show E1 m ρ c (Proc.devRef .tc main_arg1) = _; keep_steps; rfl
  have a1 : VE1 m ρ c main_arg10 = m ((c : Thread nD τ).loc main_arg10) := by show E1 m ρ c (Proc.devRef .tc main_arg10) = _; keep_steps; rfl
  have a3 : VE1 m ρ c main_arg12 = m ((c : Thread nD τ).loc main_arg12) := by show E1 m ρ c (Proc.devRef .tc main_arg12) = _; keep_steps; rfl
  rw [a0, a1, a3] at h
  exact (X1_arr m ρ c 5).trans h

/-! ## Region 2 -/

/-- The third embedding's first bias vector is still, before region 2's host operations, as launched. -/
theorem X1_arg15 (c : Dev nD) : X1 m ρ c (Proc.devRef .tc main_arg15) = m ((c : Thread nD τ).loc main_arg15) := by
  keep_steps; rfl
/-- So is its second bias vector. -/
theorem X1_arg17 (c : Dev nD) : X1 m ρ c (Proc.devRef .tc main_arg17) = m ((c : Thread nD τ).loc main_arg17) := by
  keep_steps; rfl

/-- The first bias row at the region's entry: the first bias vector re-laid as one row. -/
theorem E2_v6 (c : Dev nD) : (E2 m ρ c (Proc.devRef .tc main_v6) : S1x128.Idx → EReal) = shapeCast S1x128 (m ((c : Thread nD τ).loc main_arg15)) shapeCasts_S128_S1x128 := by
  show StableHlo.after hostOps2 (X1 m ρ c) (Proc.devRef .tc main_v6) = _
  after_results
  rw [X1_arg15]
  rfl
/-- The second bias row at the region's entry. -/
theorem E2_v7 (c : Dev nD) : (E2 m ρ c (Proc.devRef .tc main_v7) : S1x128.Idx → EReal) = shapeCast S1x128 (m ((c : Thread nD τ).loc main_arg17)) shapeCasts_S128_S1x128 := by
  show StableHlo.after hostOps2 (X1 m ρ c) (Proc.devRef .tc main_v7) = _
  after_results
  rw [X1_arg17]
  rfl

/-- The third embedding's array after region 2: the stage of the launched arguments. -/
theorem out2 (c : Dev nD) :
    X2 m ρ c (Proc.devRef .tc main_v8) = (Cert.ReferenceIdeal.Stage.embed6 (m ((c : Thread nD τ).loc main_arg2)) (m ((c : Thread nD τ).loc main_arg14))
      (m ((c : Thread nD τ).loc main_arg15)) (m ((c : Thread nD τ).loc main_arg16)) (m ((c : Thread nD τ).loc main_arg17)) : FVec Ideal S25000x128 .f32) := by
  have h := Region2.final (VE2 m ρ) c (m ((c : Thread nD τ).loc main_arg15)) (m ((c : Thread nD τ).loc main_arg17))
    (fun q => by show (E2 m ρ c (Proc.devRef .tc main_v6) : S1x128.Idx → EReal) (ix2 (0 : Fin 1) q) = _; rw [E2_v6]; exact shapeCast_a_1a_apply _ _ _ _)
    (fun q => by show (E2 m ρ c (Proc.devRef .tc main_v7) : S1x128.Idx → EReal) (ix2 (0 : Fin 1) q) = _; rw [E2_v7]; exact shapeCast_a_1a_apply _ _ _ _)
  have a0 : VE2 m ρ c main_arg2 = m ((c : Thread nD τ).loc main_arg2) := by show E2 m ρ c (Proc.devRef .tc main_arg2) = _; keep_steps; rfl
  have a1 : VE2 m ρ c main_arg14 = m ((c : Thread nD τ).loc main_arg14) := by show E2 m ρ c (Proc.devRef .tc main_arg14) = _; keep_steps; rfl
  have a3 : VE2 m ρ c main_arg16 = m ((c : Thread nD τ).loc main_arg16) := by show E2 m ρ c (Proc.devRef .tc main_arg16) = _; keep_steps; rfl
  rw [a0, a1, a3] at h
  exact (X2_arr m ρ c 5).trans h

/-! ## Region 3 -/

/-- The fourth embedding's first bias vector is still, before region 3's host operations, as launched. -/
theorem X2_arg19 (c : Dev nD) : X2 m ρ c (Proc.devRef .tc main_arg19) = m ((c : Thread nD τ).loc main_arg19) := by
  keep_steps; rfl
/-- So is its second bias vector. -/
theorem X2_arg21 (c : Dev nD) : X2 m ρ c (Proc.devRef .tc main_arg21) = m ((c : Thread nD τ).loc main_arg21) := by
  keep_steps; rfl

/-- The first bias row at the region's entry: the first bias vector re-laid as one row. -/
theorem E3_v9 (c : Dev nD) : (E3 m ρ c (Proc.devRef .tc main_v9) : S1x128.Idx → EReal) = shapeCast S1x128 (m ((c : Thread nD τ).loc main_arg19)) shapeCasts_S128_S1x128 := by
  show StableHlo.after hostOps3 (X2 m ρ c) (Proc.devRef .tc main_v9) = _
  after_results
  rw [X2_arg19]
  rfl
/-- The second bias row at the region's entry. -/
theorem E3_v10 (c : Dev nD) : (E3 m ρ c (Proc.devRef .tc main_v10) : S1x128.Idx → EReal) = shapeCast S1x128 (m ((c : Thread nD τ).loc main_arg21)) shapeCasts_S128_S1x128 := by
  show StableHlo.after hostOps3 (X2 m ρ c) (Proc.devRef .tc main_v10) = _
  after_results
  rw [X2_arg21]
  rfl

/-- The fourth embedding's array after region 3: the stage of the launched arguments. -/
theorem out3 (c : Dev nD) :
    X3 m ρ c (Proc.devRef .tc main_v11) = (Cert.ReferenceIdeal.Stage.embed6 (m ((c : Thread nD τ).loc main_arg3)) (m ((c : Thread nD τ).loc main_arg18))
      (m ((c : Thread nD τ).loc main_arg19)) (m ((c : Thread nD τ).loc main_arg20)) (m ((c : Thread nD τ).loc main_arg21)) : FVec Ideal S25000x128 .f32) := by
  have h := Region3.final (VE3 m ρ) c (m ((c : Thread nD τ).loc main_arg19)) (m ((c : Thread nD τ).loc main_arg21))
    (fun q => by show (E3 m ρ c (Proc.devRef .tc main_v9) : S1x128.Idx → EReal) (ix2 (0 : Fin 1) q) = _; rw [E3_v9]; exact shapeCast_a_1a_apply _ _ _ _)
    (fun q => by show (E3 m ρ c (Proc.devRef .tc main_v10) : S1x128.Idx → EReal) (ix2 (0 : Fin 1) q) = _; rw [E3_v10]; exact shapeCast_a_1a_apply _ _ _ _)
  have a0 : VE3 m ρ c main_arg3 = m ((c : Thread nD τ).loc main_arg3) := by show E3 m ρ c (Proc.devRef .tc main_arg3) = _; keep_steps; rfl
  have a1 : VE3 m ρ c main_arg18 = m ((c : Thread nD τ).loc main_arg18) := by show E3 m ρ c (Proc.devRef .tc main_arg18) = _; keep_steps; rfl
  have a3 : VE3 m ρ c main_arg20 = m ((c : Thread nD τ).loc main_arg20) := by show E3 m ρ c (Proc.devRef .tc main_arg20) = _; keep_steps; rfl
  rw [a0, a1, a3] at h
  exact (X3_arr m ρ c 5).trans h

end Cert.KernelIdeal.Fold

end
-- ==== Proof.LayerValue.lean ====
import proofs.«136217_j57939108823477_1_alg».proof.Proof.StageLayer
import proofs.«136217_j57939108823477_1_alg».proof.Proof.Gen.KernelIdeal.Skeleton
import Idealize.ShloMosaic.Lib.KernelVsHost
import Idealize.ShloMosaic.Lib.StackMember
import Idealize.ShloMosaic.Lib.IdealHost

/-!
# A layer stage read at one entry, on both sides

A hidden layer maps the node features `h` and the neighbour means `agg` to
`lrelu ((agg · Wl + bl) + h · Wr)`; the output layer replaces the leaky ReLU by
the logistic function and has width one.  The kernel computes a layer on row
blocks of 5000 nodes; the reference computes it on all 100000 rows at once.

Both are read here at one entry `(row, q)`.  Each matrix product at an entry is
the sum over the 128 contracted coordinates of the products of the entries; a
bias broadcast over rows reads the bias at the column; a change of float
format is the identity on extended reals; a product accumulated into a zero
array is the product.  So both sides are `act (lin a h Wl Wr b q)` with
`lin a h Wl Wr b q = (∑ k, a k * Wl (k, q) + b) + ∑ k, h k * Wr (k, q)`, `a` and
`h` the rows of `agg` and of the features, and `act` the leaky ReLU (or the
logistic function).  Row `p` of block `t` is row `5000 * t + p` of the array, so
the two sides agree as soon as the blocks are the arrays' rows.  No law of
arithmetic beyond this reading is used, so nothing is asked of the values
(infinities included).
-/

noncomputable section

open scoped BigOperators

namespace Cert.LayerValue

open Idealize.ShloMosaic Idealize.ShloMosaic.ValueIdx
open Cert.KernelIdeal (S5000x128 S5000x1 S1x128 S1x1)
open Cert.ReferenceIdeal (S100000x128 S100000x1 S128x128 S128x1 S128 S1)

/-- The leaky ReLU of one value. -/
def act (v : Ideal .f32) : Ideal .f32 :=
  Scalar.select (FloatOps.cmpf .oge v (Scalar.ofBits (F := Ideal) .f32 0x00000000#32)) v
    (FloatOps.mulf (Scalar.ofBits (F := Ideal) .f32 0x3DCCCCCD#32) v)

/-- The pre-activation of one entry. -/
def lin {n : Nat} (a h : Fin 128 → Ideal .f32) (Wl Wr : FVec Ideal ⟨2, ![128, n]⟩ .f32) (b : Ideal .f32)
    (q : Fin n) : Ideal .f32 :=
  ((∑ k : Fin 128, a k * Wl (ix2 k q)) + b) + ∑ k : Fin 128, h k * Wr (ix2 k q)

/-- The kernel's select-compare-multiply spelling of the leaky ReLU, read at an index. -/
theorem lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3DCCCCCD#32)) v) i = act (v i) := rfl

/-- A product of an `m × k` by a `k × n` matrix accumulated into the zero array, the operands first narrowed to
    sixteen bits (the identity on extended reals), read at `(a, b)`: the sum over the contracted coordinate. -/
theorem matmul_plain_apply {m k n : Nat} (D : DotDims ⟨2, ![m, k]⟩ ⟨2, ![k, n]⟩ ⟨2, ![m, n]⟩)
    (hD : D = DotDims.plain m k n) (x : FVec Ideal ⟨2, ![m, k]⟩ .f32) (w : FVec Ideal ⟨2, ![k, n]⟩ .f32)
    (hb : FTy.bits .bf16 < FTy.bits .f32) (a : Fin m) (b : Fin n) :
    matmul D none (truncf .bf16 x hb) (truncf .bf16 w hb) (constant (F := Ideal) ⟨2, ![m, n]⟩ .f32 0x00000000#32) (ix2 a b)
      = ∑ c : Fin k, x (ix2 a c) * w (ix2 c b) := by
  subst hD
  rw [matmul_zero_eq_dotGeneral, StackMember.dotGeneral_plain_apply]
  rfl

/-- The host's product of an `m × k` by a `k × n` matrix read at `(a, b)`: the same sum. -/
theorem dot_plain_apply {m k n : Nat} (D : DotDims ⟨2, ![m, k]⟩ ⟨2, ![k, n]⟩ ⟨2, ![m, n]⟩)
    (hD : D = DotDims.plain m k n) (x : FVec Ideal ⟨2, ![m, k]⟩ .f32) (w : FVec Ideal ⟨2, ![k, n]⟩ .f32)
    (a : Fin m) (b : Fin n) :
    Host.dotGeneral (F := Ideal) D none x w (ix2 a b) = ∑ c : Fin k, x (ix2 a c) * w (ix2 c b) := by
  subst hD
  exact StackMember.dotGeneral_plain_apply none x w a b

/-- The hidden-layer body on a block, at entry `(p, q)`: the leaky ReLU of the pre-activation built from row
    `p` of the two blocks and the bias row's entry `q`. -/
theorem k4_apply (v0 v11 : Vec Ideal S5000x128 .f32) (v3 v14 : Vec Ideal Cert.KernelIdeal.S128x128 .f32)
    (v7 : Vec Ideal S1x128 .f32) (p : Fin 5000) (q : Fin 128) :
    Cert.KernelIdeal.Gen.k4_pay1 (F := Ideal) v0 v3 v7 v11 v14 (ix2 p q)
      = act (lin (fun k => v0 (ix2 p k)) (fun k => v11 (ix2 p k)) v3 v14 (v7 (ix2 0 q)) q) := by
  unfold Cert.KernelIdeal.Gen.k4_pay1
  refine (lrelu_apply _ _).trans (congrArg act ?_)
  simp only [shapeCast_self]
  rw [addf_apply, addf_apply, matmul_plain_apply Cert.KernelIdeal.dot_S5000x128_S128x128_S5000x128_1_0_0_1_n_n rfl v0 v3 _ p q,
    matmul_plain_apply Cert.KernelIdeal.dot_S5000x128_S128x128_S5000x128_1_0_0_1_n_n rfl v11 v14 _ p q,
    broadcastTo_apply v7 _ (ix2 p q) (ix2 (0 : Fin 1) q) (by
      intro a
      match a with
      | ⟨0, _⟩ => rfl
      | ⟨1, _⟩ => rfl)]
  rfl

/-- The output-layer body on a block, at entry `(p, 0)`: the logistic function of the pre-activation. -/
theorem k7_apply (v0 v10 : Vec Ideal S5000x128 .f32) (v3 v13 : Vec Ideal Cert.KernelIdeal.S128x1 .f32)
    (v6 : Vec Ideal S1x1 .f32) (p : Fin 5000) :
    Cert.KernelIdeal.Gen.k7_pay1 (F := Ideal) v0 v3 v6 v10 v13 (ix2 p (0 : Fin 1))
      = FloatOps.logistic (F := Ideal) (lin (fun k => v0 (ix2 p k)) (fun k => v10 (ix2 p k)) v3 v13 (v6 (ix2 0 0)) 0) := by
  unfold Cert.KernelIdeal.Gen.k7_pay1
  show FloatOps.logistic (F := Ideal) _ = _
  refine congrArg _ ?_
  simp only [shapeCast_self]
  rw [addf_apply, addf_apply, matmul_plain_apply Cert.KernelIdeal.dot_S5000x128_S128x1_S5000x1_1_0_0_1_n_n rfl v0 v3 _ p 0,
    matmul_plain_apply Cert.KernelIdeal.dot_S5000x128_S128x1_S5000x1_1_0_0_1_n_n rfl v10 v13 _ p 0,
    broadcastTo_apply v6 _ (ix2 p (0 : Fin 1)) (ix2 (0 : Fin 1) (0 : Fin 1)) (by
      intro a
      match a with
      | ⟨0, _⟩ => rfl
      | ⟨1, _⟩ => rfl)]
  rfl

section Reference
variable [Cert.ReferenceIdeal.Facts₀]
open Cert.ReferenceIdeal.Facts₀

/-- The reference's leaky ReLU read at an index. -/
theorem lrelu100_apply (x : FVec Ideal S100000x128 .f32) (i : S100000x128.Idx) :
    Cert.ReferenceIdeal.Stage.lrelu100 x i = act (x i) := rfl

/-- A bias vector made a one-row matrix and broadcast down the rows reads the bias at the column. -/
theorem bias128_apply (bl : FVec Ideal S128 .f32) (r : Fin 100000) (q : Fin 128) :
    broadcastInDim S100000x128 ![0, 1] bcast_S1x128_S100000x128_0_1
      (broadcastInDim Cert.ReferenceIdeal.S1x128 ![1] bcast_S128_S1x128_1 bl) (ix2 r q) = bl (ix1 q) := by
  rw [broadcastInDim_oneRow_apply]
  exact broadcastInDim_apply ![1] _ bl (ix2 (0 : Fin 1) q) (ix1 q) (by
    intro a
    match a with
    | ⟨0, _⟩ => rfl)

/-- The same for the one-entry bias of the output layer. -/
theorem bias1_apply (bl : FVec Ideal S1 .f32) (r : Fin 100000) :
    broadcastInDim S100000x1 ![0, 1] bcast_S1x1_S100000x1_0_1
      (broadcastInDim Cert.ReferenceIdeal.S1x1 ![1] bcast_S1_S1x1_1 bl) (ix2 r (0 : Fin 1)) = bl (ix1 0) := by
  rw [broadcastInDim_oneRow_apply]
  exact broadcastInDim_apply ![1] _ bl (ix2 (0 : Fin 1) (0 : Fin 1)) (ix1 0) (by
    intro a
    match a with
    | ⟨0, _⟩ => rfl)

/-- The reference's hidden pre-activation at `(r, q)`. -/
theorem hiddenPre_apply (agg h : FVec Ideal S100000x128 .f32) (Wl Wr : FVec Ideal S128x128 .f32)
    (bl : FVec Ideal S128 .f32) (r : Fin 100000) (q : Fin 128) :
    Cert.ReferenceIdeal.Stage.hiddenPre agg h Wl bl Wr (ix2 r q)
      = lin (fun k => agg (ix2 r k)) (fun k => h (ix2 r k)) Wl Wr (bl (ix1 q)) q := by
  unfold Cert.ReferenceIdeal.Stage.hiddenPre
  rw [addf_apply, addf_apply,
    dot_plain_apply Cert.ReferenceIdeal.dot_S100000x128_S128x128_S100000x128_1_0_0_1_n_n rfl agg Wl r q,
    dot_plain_apply Cert.ReferenceIdeal.dot_S100000x128_S128x128_S100000x128_1_0_0_1_n_n rfl h Wr r q,
    bias128_apply]
  rfl

/-- The reference's output pre-activation at `(r, 0)`. -/
theorem outPre_apply (agg h : FVec Ideal S100000x128 .f32) (Wl Wr : FVec Ideal S128x1 .f32)
    (bl : FVec Ideal S1 .f32) (r : Fin 100000) :
    Cert.ReferenceIdeal.Stage.outPre agg h Wl bl Wr (ix2 r (0 : Fin 1))
      = lin (fun k => agg (ix2 r k)) (fun k => h (ix2 r k)) Wl Wr (bl (ix1 0)) 0 := by
  unfold Cert.ReferenceIdeal.Stage.outPre
  rw [addf_apply, addf_apply,
    dot_plain_apply Cert.ReferenceIdeal.dot_S100000x128_S128x1_S100000x1_1_0_0_1_n_n rfl agg Wl r 0,
    dot_plain_apply Cert.ReferenceIdeal.dot_S100000x128_S128x1_S100000x1_1_0_0_1_n_n rfl h Wr r 0,
    bias1_apply]
  rfl

/-- The reference's `1 / (1 + exp (-z))` is the logistic function of `z`: the word `0x3F800000` is one. -/
theorem outLayer_apply (agg h : FVec Ideal S100000x128 .f32) (Wl Wr : FVec Ideal S128x1 .f32)
    (bl : FVec Ideal S1 .f32) (i : S100000x1.Idx) :
    Cert.ReferenceIdeal.Stage.outLayer agg h Wl bl Wr i
      = FloatOps.logistic (F := Ideal) (Cert.ReferenceIdeal.Stage.outPre agg h Wl bl Wr i) := by
  show FloatOps.hostDivf (F := Ideal) (Ideal.ofBits .f32 0x3F800000#32)
      (FloatOps.addf (Ideal.ofBits .f32 0x3F800000#32)
        (FloatOps.hostUnary .exp (FloatOps.hostNegf (Cert.ReferenceIdeal.Stage.outPre agg h Wl bl Wr i)))) = _
  rw [Ideal.ofBits_one_f32]
  rfl

/-- One entry of a hidden layer: the kernel body's value on a row block is the reference's hidden layer at
    the row the block's row comes from. -/
theorem hidden_point (agg h : FVec Ideal S100000x128 .f32) (Wl Wr : FVec Ideal S128x128 .f32)
    (bl : FVec Ideal S128 .f32) (aggb hb : Vec Ideal S5000x128 .f32) (blr : Vec Ideal S1x128 .f32)
    (p : Fin 5000) (r : Fin 100000) (q : Fin 128)
    (hagg : ∀ k : Fin 128, aggb (ix2 p k) = agg (ix2 r k)) (hh : ∀ k : Fin 128, hb (ix2 p k) = h (ix2 r k))
    (hbl : blr (ix2 0 q) = bl (ix1 q)) :
    Cert.KernelIdeal.Gen.k4_pay1 (F := Ideal) aggb Wl blr hb Wr (ix2 p q)
      = Cert.ReferenceIdeal.Stage.hidden agg h Wl bl Wr (ix2 r q) := by
  rw [k4_apply]
  unfold Cert.ReferenceIdeal.Stage.hidden
  rw [lrelu100_apply, hiddenPre_apply, hbl, funext hagg, funext hh]

/-- The three hidden layers' bodies are one text. -/
theorem k5_eq_k4 : @Cert.KernelIdeal.Gen.k5_pay1 Ideal _ = @Cert.KernelIdeal.Gen.k4_pay1 Ideal _ := rfl
theorem k6_eq_k4 : @Cert.KernelIdeal.Gen.k6_pay1 Ideal _ = @Cert.KernelIdeal.Gen.k4_pay1 Ideal _ := rfl

/-- A hidden layer on block `t`: when the two blocks are rows `5000 t … 5000 t + 4999` of `agg` and `h` and the
    bias row is `bl`, the body's value at `(p, q)` is the reference's layer at `(5000 t + p, q)`. -/
theorem hidden_block (t : Fin 20) (agg h : FVec Ideal S100000x128 .f32) (Wl : FVec Ideal S128x128 .f32)
    (bl : FVec Ideal S128 .f32) (Wr : FVec Ideal S128x128 .f32)
    (aggb hb : Vec Ideal S5000x128 .f32) (blr : Vec Ideal S1x128 .f32)
    (hagg : ∀ (p : Fin 5000) (k : Fin 128), aggb (ix2 p k) = agg (ix2 ⟨5000 * t.val + p.val, by omega⟩ k))
    (hh : ∀ (p : Fin 5000) (k : Fin 128), hb (ix2 p k) = h (ix2 ⟨5000 * t.val + p.val, by omega⟩ k))
    (hbl : ∀ q : Fin 128, blr (ix2 0 q) = bl (ix1 q)) (p : Fin 5000) (q : Fin 128) :
    Cert.KernelIdeal.Gen.k4_pay1 (F := Ideal) aggb Wl blr hb Wr (ix2 p q)
      = Cert.ReferenceIdeal.Stage.hidden agg h Wl bl Wr (ix2 ⟨5000 * t.val + p.val, by omega⟩ q) :=
  hidden_point agg h Wl Wr bl aggb hb blr p _ q (hagg p) (hh p) (hbl q)

/-- The same for the second hidden layer's body. -/
theorem hidden_block' (t : Fin 20) (agg h : FVec Ideal S100000x128 .f32) (Wl : FVec Ideal S128x128 .f32)
    (bl : FVec Ideal S128 .f32) (Wr : FVec Ideal S128x128 .f32)
    (aggb hb : Vec Ideal S5000x128 .f32) (blr : Vec Ideal S1x128 .f32)
    (hagg : ∀ (p : Fin 5000) (k : Fin 128), aggb (ix2 p k) = agg (ix2 ⟨5000 * t.val + p.val, by omega⟩ k))
    (hh : ∀ (p : Fin 5000) (k : Fin 128), hb (ix2 p k) = h (ix2 ⟨5000 * t.val + p.val, by omega⟩ k))
    (hbl : ∀ q : Fin 128, blr (ix2 0 q) = bl (ix1 q)) (p : Fin 5000) (q : Fin 128) :
    Cert.KernelIdeal.Gen.k5_pay1 (F := Ideal) aggb Wl blr hb Wr (ix2 p q)
      = Cert.ReferenceIdeal.Stage.hidden agg h Wl bl Wr (ix2 ⟨5000 * t.val + p.val, by omega⟩ q) := by
  rw [k5_eq_k4]
  exact hidden_block t agg h Wl bl Wr aggb hb blr hagg hh hbl p q

/-- The same for the third hidden layer's body. -/
theorem hidden_block'' (t : Fin 20) (agg h : FVec Ideal S100000x128 .f32) (Wl : FVec Ideal S128x128 .f32)
    (bl : FVec Ideal S128 .f32) (Wr : FVec Ideal S128x128 .f32)
    (aggb hb : Vec Ideal S5000x128 .f32) (blr : Vec Ideal S1x128 .f32)
    (hagg : ∀ (p : Fin 5000) (k : Fin 128), aggb (ix2 p k) = agg (ix2 ⟨5000 * t.val + p.val, by omega⟩ k))
    (hh : ∀ (p : Fin 5000) (k : Fin 128), hb (ix2 p k) = h (ix2 ⟨5000 * t.val + p.val, by omega⟩ k))
    (hbl : ∀ q : Fin 128, blr (ix2 0 q) = bl (ix1 q)) (p : Fin 5000) (q : Fin 128) :
    Cert.KernelIdeal.Gen.k6_pay1 (F := Ideal) aggb Wl blr hb Wr (ix2 p q)
      = Cert.ReferenceIdeal.Stage.hidden agg h Wl bl Wr (ix2 ⟨5000 * t.val + p.val, by omega⟩ q) := by
  rw [k6_eq_k4]
  exact hidden_block t agg h Wl bl Wr aggb hb blr hagg hh hbl p q

/-- One entry of the output layer. -/
theorem out_point (agg h : FVec Ideal S100000x128 .f32) (Wl Wr : FVec Ideal S128x1 .f32)
    (bl : FVec Ideal S1 .f32) (aggb hb : Vec Ideal S5000x128 .f32) (blr : Vec Ideal S1x1 .f32)
    (p : Fin 5000) (r : Fin 100000)
    (hagg : ∀ k : Fin 128, aggb (ix2 p k) = agg (ix2 r k)) (hh : ∀ k : Fin 128, hb (ix2 p k) = h (ix2 r k))
    (hbl : blr (ix2 0 0) = bl (ix1 0)) :
    Cert.KernelIdeal.Gen.k7_pay1 (F := Ideal) aggb Wl blr hb Wr (ix2 p (0 : Fin 1))
      = Cert.ReferenceIdeal.Stage.outLayer agg h Wl bl Wr (ix2 r (0 : Fin 1)) := by
  rw [k7_apply, outLayer_apply, outPre_apply, hbl, funext hagg, funext hh]

/-- The output layer on block `t`, in the same form. -/
theorem out_block (t : Fin 20) (agg h : FVec Ideal S100000x128 .f32) (Wl : FVec Ideal S128x1 .f32)
    (bl : FVec Ideal S1 .f32) (Wr : FVec Ideal S128x1 .f32)
    (aggb hb : Vec Ideal S5000x128 .f32) (blr : Vec Ideal S1x1 .f32)
    (hagg : ∀ (p : Fin 5000) (k : Fin 128), aggb (ix2 p k) = agg (ix2 ⟨5000 * t.val + p.val, by omega⟩ k))
    (hh : ∀ (p : Fin 5000) (k : Fin 128), hb (ix2 p k) = h (ix2 ⟨5000 * t.val + p.val, by omega⟩ k))
    (hbl : blr (ix2 0 0) = bl (ix1 0)) (p : Fin 5000) :
    Cert.KernelIdeal.Gen.k7_pay1 (F := Ideal) aggb Wl blr hb Wr (ix2 p (0 : Fin 1))
      = Cert.ReferenceIdeal.Stage.outLayer agg h Wl bl Wr (ix2 ⟨5000 * t.val + p.val, by omega⟩ (0 : Fin 1)) :=
  out_point agg h Wl Wr bl aggb hb blr p _ (hagg p) (hh p) hbl

end Reference

end Cert.LayerValue

end
-- ==== Proof.KIFinal4.lean ====
import proofs.«136217_j57939108823477_1_alg».proof.Proof.KIRegion4
import proofs.«136217_j57939108823477_1_alg».proof.Proof.LayerValue
import Idealize.ShloMosaic.Lib.ValueIdx
import Idealize.ShloMosaic.Lib.Pipeline.Value

/-!
# Hidden layer, region 4: from the row blocks to the whole array

The region walks twenty row blocks of 5000 rows.  Point `t` reads rows
`5000 t … 5000 t + 4999` of the two feature arrays, the two weight matrices and
the bias row whole, and writes rows `5000 t … 5000 t + 4999` of the result.  Each
written entry is the reference's hidden layer at that entry (the block theorem
of the layer stages), and the twenty blocks tile the 100000 rows (row `r` lies
in block `r / 5000`), so after the region the result array is the reference's
hidden layer of the arrays the region found.
-/

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed block-index maps over the grid: the two feature windows and the result window sit at row block `t`,
    the weights and the bias at block `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem N_lt (t : Fin cfg4.N) : t.val < 20 := lt_of_lt_of_eq t.isLt N_4

/-- Entry `(p, q)` of the result window's block `t` is entry `(5000 t + p, q)` of the array. -/
theorem emb5 (t : Fin cfg4.N) (p : Fin 5000) (q : Fin 128) :
    ((cfg4.win 5).blk t).view.emb (ix2 p q) = ix2 (⟨5000 * t.val + p.val, by have := N_lt t; omega⟩ : Fin 100000) q := by
  obtain ⟨-, -, -, -, -, -, -, -, -, -, e0, e1⟩ := idx_facts t
  funext a; apply Fin.ext
  match a with
  | ⟨0, _⟩ => show win4_5.index t (0 : Fin 2) * 5000 + 1 * p.val = 5000 * t.val + p.val; omega
  | ⟨1, _⟩ => show win4_5.index t (1 : Fin 2) * 128 + 1 * q.val = q.val; omega

variable (V : (c : Dev nD) → (b : Ref sig .tc) → Buf (Elt Ideal) ((c : Thread nD τ).loc b))

/-- The first feature window's block `t` is rows `5000 t …` of its array. -/
theorem blk0_apply (c : Dev nD) (t : Fin cfg4.N) (p : Fin 5000) (k : Fin 128) :
    blk V c 0 t (ix2 p k) = V c main_v44 (ix2 (⟨5000 * t.val + p.val, by have := N_lt t; omega⟩ : Fin 100000) k) := by
  obtain ⟨e0, e1, -⟩ := idx_facts t
  show V c main_v44 (((cfg4.win 0).blk t).view.emb (ix2 p k)) = _
  congr 1
  funext a; apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega

/-- The second feature window's block `t` likewise. -/
theorem blk1_apply (c : Dev nD) (t : Fin cfg4.N) (p : Fin 5000) (k : Fin 128) :
    blk V c 1 t (ix2 p k) = V c main_v19 (ix2 (⟨5000 * t.val + p.val, by have := N_lt t; omega⟩ : Fin 100000) k) := by
  obtain ⟨-, -, e0, e1, -⟩ := idx_facts t
  show V c main_v19 (((cfg4.win 1).blk t).view.emb (ix2 p k)) = _
  congr 1
  funext a; apply Fin.ext
  match a with
  | ⟨0, _⟩ => show win4_1.index t (0 : Fin 2) * 5000 + 1 * p.val = 5000 * t.val + p.val; omega
  | ⟨1, _⟩ => show win4_1.index t (1 : Fin 2) * 128 + 1 * k.val = k.val; omega

/-- The first weight window's one block is its array. -/
theorem blk2_eq (c : Dev nD) (t : Fin cfg4.N) :
    (blk V c 2 t : Vec Ideal S128x128 .f32) = V c main_v46 := by
  obtain ⟨-, -, -, -, e0, e1, -⟩ := idx_facts t
  funext j
  obtain ⟨a, b, rfl⟩ : ∃ (a : Fin 128) (b : Fin 128), j = ix2 a b := ⟨j 0, j 1, eq_ix2 j⟩
  show V c main_v46 (((cfg4.win 2).blk t).view.emb (ix2 a b)) = _
  congr 1
  funext x; apply Fin.ext
  match x with
  | ⟨0, _⟩ => show win4_2.index t (0 : Fin 2) * 128 + 1 * a.val = a.val; omega
  | ⟨1, _⟩ => show win4_2.index t (1 : Fin 2) * 128 + 1 * b.val = b.val; omega

/-- The bias window's one block is its one-row array. -/
theorem blk3_apply (c : Dev nD) (t : Fin cfg4.N) (q : Fin 128) :
    blk V c 3 t (ix2 (0 : Fin 1) q) = V c main_v51 (ix2 (0 : Fin 1) q) := by
  obtain ⟨-, -, -, -, -, -, e0, e1, -⟩ := idx_facts t
  show V c main_v51 (((cfg4.win 3).blk t).view.emb (ix2 (0 : Fin 1) q)) = _
  congr 1
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- The second weight window's one block is its array. -/
theorem blk4_eq (c : Dev nD) (t : Fin cfg4.N) :
    (blk V c 4 t : Vec Ideal S128x128 .f32) = V c main_v50 := by
  obtain ⟨-, -, -, -, -, -, -, -, e0, e1, -⟩ := idx_facts t
  funext j
  obtain ⟨a, b, rfl⟩ : ∃ (a : Fin 128) (b : Fin 128), j = ix2 a b := ⟨j 0, j 1, eq_ix2 j⟩
  show V c main_v50 (((cfg4.win 4).blk t).view.emb (ix2 a b)) = _
  congr 1
  funext x; apply Fin.ext
  match x with
  | ⟨0, _⟩ => show win4_4.index t (0 : Fin 2) * 128 + 1 * a.val = a.val; omega
  | ⟨1, _⟩ => show win4_4.index t (1 : Fin 2) * 128 + 1 * b.val = b.val; omega

section
variable [Cert.ReferenceIdeal.Facts₀]

/-- What point `t` writes back is block `t` of the reference's hidden layer of the arrays the region found. -/
theorem flushed_eq (c : Dev nD) (bl : FVec Ideal Cert.ReferenceIdeal.S128 .f32)
    (hbl : ∀ q : Fin 128, (V c main_v51 : S1x128.Idx → EReal) (ix2 (0 : Fin 1) q) = bl (ix1 q)) (t : Fin cfg4.N) :
    (dat V c).flushed 5 t = ((cfg4.win 5).blk t).view.read (Elt Ideal)
      (Cert.ReferenceIdeal.Stage.hidden (V c main_v44) (V c main_v19) (V c main_v46) bl (V c main_v50)) := by
  show (cfg4.win 5).cut (grid4.coords t) ((dat V c).after 5 t) = _
  rw [after_5]
  unfold out
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k4_pay1 (F := Ideal) (blk V c 0 t) (blk V c 2 t) (blk V c 3 t) (blk V c 1 t) (blk V c 4 t) (ix2 p q)
    = Cert.ReferenceIdeal.Stage.hidden (V c main_v44) (V c main_v19) (V c main_v46) bl (V c main_v50)
        (((cfg4.win 5).blk t).view.emb (ix2 p q))
  rw [emb5 t p q, blk2_eq V c t, blk4_eq V c t]
  exact Cert.LayerValue.hidden_block ⟨t.val, N_lt t⟩ (V c main_v44) (V c main_v19) (V c main_v46) bl (V c main_v50)
    (blk V c 0 t) (blk V c 1 t) (blk V c 3 t) (fun p k => blk0_apply V c t p k) (fun p k => blk1_apply V c t p k)
    (fun q => (blk3_apply V c t q).trans (hbl q)) p q

/-- An index of the result array is in point `t`'s block iff each coordinate is in the block's range on its axis. -/
theorem mem_blk (t : Fin cfg4.N) (i : S100000x128.Idx) :
    i ∈ ((cfg4.win 5).blk t).view.set
      ↔ ∀ a : Fin 2, win4_5.index t a * S5000x128.size a ≤ (i a).val ∧ (i a).val < win4_5.index t a * S5000x128.size a + S5000x128.size a := by
  show i ∈ ((View.whole main_v52).slice (win4_5.rect t)).set ↔ _
  rw [View.set_slice_whole, Rect.mem_set_unit]
  exact Iff.rfl

/-- Every entry of the result array lies in the block of the point `row / 5000`. -/
theorem covered (i : S100000x128.Idx) :
    ∃ t : Fin cfg4.N, (cfg4.win 5).flush t = true ∧ i ∈ ((cfg4.win 5).blk t).view.set := by
  have h0 : (i 0 : Nat) < 100000 := (i 0).isLt
  have h1 : (i 1 : Nat) < 128 := (i 1).isLt
  have hN : cfg4.N = 20 := N_4
  obtain ⟨t, ht⟩ : ∃ t : Fin cfg4.N, t.val = (i 0 : Nat) / 5000 := ⟨⟨(i 0 : Nat) / 5000, by rw [hN]; omega⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 5000 ≤ (i 0 : Nat) ∧ (i 0 : Nat) < win4_5.index t (0 : Fin 2) * 5000 + 5000
    omega
  | ⟨1, _⟩ =>
    show win4_5.index t (1 : Fin 2) * 128 ≤ (i 1 : Nat) ∧ (i 1 : Nat) < win4_5.index t (1 : Fin 2) * 128 + 128
    omega

/-- After the region the result array is the reference's hidden layer of the arrays the region found. -/
theorem final (c : Dev nD) (bl : FVec Ideal Cert.ReferenceIdeal.S128 .f32)
    (hbl : ∀ q : Fin 128, (V c main_v51 : S1x128.Idx → EReal) (ix2 (0 : Fin 1) q) = bl (ix1 q)) :
    (dat V c).arrAt 5 cfg4.N
      = Cert.ReferenceIdeal.Stage.hidden (V c main_v44) (V c main_v19) (V c main_v46) bl (V c main_v50) :=
  (dat V c).arrAt_eq_of_cover 5 _ (fun t _ => flushed_eq V c bl hbl t) (fun i => covered i)

end

end Cert.KernelIdeal.Region4

end
-- ==== Proof.KIFinal5.lean ====
import proofs.«136217_j57939108823477_1_alg».proof.Proof.KIRegion5
import proofs.«136217_j57939108823477_1_alg».proof.Proof.LayerValue
import Idealize.ShloMosaic.Lib.ValueIdx
import Idealize.ShloMosaic.Lib.Pipeline.Value

/-!
# Hidden layer, region 5: from the row blocks to the whole array

The region walks twenty row blocks of 5000 rows.  Point `t` reads rows
`5000 t … 5000 t + 4999` of the two feature arrays, the two weight matrices and
the bias row whole, and writes rows `5000 t … 5000 t + 4999` of the result.  Each
written entry is the reference's hidden layer at that entry (the block theorem
of the layer stages), and the twenty blocks tile the 100000 rows (row `r` lies
in block `r / 5000`), so after the region the result array is the reference's
hidden layer of the arrays the region found.
-/

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed block-index maps over the grid: the two feature windows and the result window sit at row block `t`,
    the weights and the bias at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem N_lt (t : Fin cfg5.N) : t.val < 20 := lt_of_lt_of_eq t.isLt N_5

/-- Entry `(p, q)` of the result window's block `t` is entry `(5000 t + p, q)` of the array. -/
theorem emb5 (t : Fin cfg5.N) (p : Fin 5000) (q : Fin 128) :
    ((cfg5.win 5).blk t).view.emb (ix2 p q) = ix2 (⟨5000 * t.val + p.val, by have := N_lt t; omega⟩ : Fin 100000) q := by
  obtain ⟨-, -, -, -, -, -, -, -, -, -, e0, e1⟩ := idx_facts t
  funext a; apply Fin.ext
  match a with
  | ⟨0, _⟩ => show win5_5.index t (0 : Fin 2) * 5000 + 1 * p.val = 5000 * t.val + p.val; omega
  | ⟨1, _⟩ => show win5_5.index t (1 : Fin 2) * 128 + 1 * q.val = q.val; omega

variable (V : (c : Dev nD) → (b : Ref sig .tc) → Buf (Elt Ideal) ((c : Thread nD τ).loc b))

/-- The first feature window's block `t` is rows `5000 t …` of its array. -/
theorem blk0_apply (c : Dev nD) (t : Fin cfg5.N) (p : Fin 5000) (k : Fin 128) :
    blk V c 0 t (ix2 p k) = V c main_v64 (ix2 (⟨5000 * t.val + p.val, by have := N_lt t; omega⟩ : Fin 100000) k) := by
  obtain ⟨e0, e1, -⟩ := idx_facts t
  show V c main_v64 (((cfg5.win 0).blk t).view.emb (ix2 p k)) = _
  congr 1
  funext a; apply Fin.ext
  match a with
  | ⟨0, _⟩ => show win5_0.index t (0 : Fin 2) * 5000 + 1 * p.val = 5000 * t.val + p.val; omega
  | ⟨1, _⟩ => show win5_0.index t (1 : Fin 2) * 128 + 1 * k.val = k.val; omega

/-- The second feature window's block `t` likewise. -/
theorem blk1_apply (c : Dev nD) (t : Fin cfg5.N) (p : Fin 5000) (k : Fin 128) :
    blk V c 1 t (ix2 p k) = V c main_v52 (ix2 (⟨5000 * t.val + p.val, by have := N_lt t; omega⟩ : Fin 100000) k) := by
  obtain ⟨-, -, e0, e1, -⟩ := idx_facts t
  show V c main_v52 (((cfg5.win 1).blk t).view.emb (ix2 p k)) = _
  congr 1
  funext a; apply Fin.ext
  match a with
  | ⟨0, _⟩ => show win5_1.index t (0 : Fin 2) * 5000 + 1 * p.val = 5000 * t.val + p.val; omega
  | ⟨1, _⟩ => show win5_1.index t (1 : Fin 2) * 128 + 1 * k.val = k.val; omega

/-- The first weight window's one block is its array. -/
theorem blk2_eq (c : Dev nD) (t : Fin cfg5.N) :
    (blk V c 2 t : Vec Ideal S128x128 .f32) = V c main_v66 := by
  obtain ⟨-, -, -, -, e0, e1, -⟩ := idx_facts t
  funext j
  obtain ⟨a, b, rfl⟩ : ∃ (a : Fin 128) (b : Fin 128), j = ix2 a b := ⟨j 0, j 1, eq_ix2 j⟩
  show V c main_v66 (((cfg5.win 2).blk t).view.emb (ix2 a b)) = _
  congr 1
  funext x; apply Fin.ext
  match x with
  | ⟨0, _⟩ => show win5_2.index t (0 : Fin 2) * 128 + 1 * a.val = a.val; omega
  | ⟨1, _⟩ => show win5_2.index t (1 : Fin 2) * 128 + 1 * b.val = b.val; omega

/-- The bias window's one block is its one-row array. -/
theorem blk3_apply (c : Dev nD) (t : Fin cfg5.N) (q : Fin 128) :
    blk V c 3 t (ix2 (0 : Fin 1) q) = V c main_v71 (ix2 (0 : Fin 1) q) := by
  obtain ⟨-, -, -, -, -, -, e0, e1, -⟩ := idx_facts t
  show V c main_v71 (((cfg5.win 3).blk t).view.emb (ix2 (0 : Fin 1) q)) = _
  congr 1
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- The second weight window's one block is its array. -/
theorem blk4_eq (c : Dev nD) (t : Fin cfg5.N) :
    (blk V c 4 t : Vec Ideal S128x128 .f32) = V c main_v70 := by
  obtain ⟨-, -, -, -, -, -, -, -, e0, e1, -⟩ := idx_facts t
  funext j
  obtain ⟨a, b, rfl⟩ : ∃ (a : Fin 128) (b : Fin 128), j = ix2 a b := ⟨j 0, j 1, eq_ix2 j⟩
  show V c main_v70 (((cfg5.win 4).blk t).view.emb (ix2 a b)) = _
  congr 1
  funext x; apply Fin.ext
  match x with
  | ⟨0, _⟩ => show win5_4.index t (0 : Fin 2) * 128 + 1 * a.val = a.val; omega
  | ⟨1, _⟩ => show win5_4.index t (1 : Fin 2) * 128 + 1 * b.val = b.val; omega

section
variable [Cert.ReferenceIdeal.Facts₀]

/-- What point `t` writes back is block `t` of the reference's hidden layer of the arrays the region found. -/
theorem flushed_eq (c : Dev nD) (bl : FVec Ideal Cert.ReferenceIdeal.S128 .f32)
    (hbl : ∀ q : Fin 128, (V c main_v71 : S1x128.Idx → EReal) (ix2 (0 : Fin 1) q) = bl (ix1 q)) (t : Fin cfg5.N) :
    (dat V c).flushed 5 t = ((cfg5.win 5).blk t).view.read (Elt Ideal)
      (Cert.ReferenceIdeal.Stage.hidden (V c main_v64) (V c main_v52) (V c main_v66) bl (V c main_v70)) := by
  show (cfg5.win 5).cut (grid5.coords t) ((dat V c).after 5 t) = _
  rw [after_5]
  unfold out
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k5_pay1 (F := Ideal) (blk V c 0 t) (blk V c 2 t) (blk V c 3 t) (blk V c 1 t) (blk V c 4 t) (ix2 p q)
    = Cert.ReferenceIdeal.Stage.hidden (V c main_v64) (V c main_v52) (V c main_v66) bl (V c main_v70)
        (((cfg5.win 5).blk t).view.emb (ix2 p q))
  rw [emb5 t p q, blk2_eq V c t, blk4_eq V c t]
  exact Cert.LayerValue.hidden_block' ⟨t.val, N_lt t⟩ (V c main_v64) (V c main_v52) (V c main_v66) bl (V c main_v70)
    (blk V c 0 t) (blk V c 1 t) (blk V c 3 t) (fun p k => blk0_apply V c t p k) (fun p k => blk1_apply V c t p k)
    (fun q => (blk3_apply V c t q).trans (hbl q)) p q

/-- An index of the result array is in point `t`'s block iff each coordinate is in the block's range on its axis. -/
theorem mem_blk (t : Fin cfg5.N) (i : S100000x128.Idx) :
    i ∈ ((cfg5.win 5).blk t).view.set
      ↔ ∀ a : Fin 2, win5_5.index t a * S5000x128.size a ≤ (i a).val ∧ (i a).val < win5_5.index t a * S5000x128.size a + S5000x128.size a := by
  show i ∈ ((View.whole main_v72).slice (win5_5.rect t)).set ↔ _
  rw [View.set_slice_whole, Rect.mem_set_unit]
  exact Iff.rfl

/-- Every entry of the result array lies in the block of the point `row / 5000`. -/
theorem covered (i : S100000x128.Idx) :
    ∃ t : Fin cfg5.N, (cfg5.win 5).flush t = true ∧ i ∈ ((cfg5.win 5).blk t).view.set := by
  have h0 : (i 0 : Nat) < 100000 := (i 0).isLt
  have h1 : (i 1 : Nat) < 128 := (i 1).isLt
  have hN : cfg5.N = 20 := N_5
  obtain ⟨t, ht⟩ : ∃ t : Fin cfg5.N, t.val = (i 0 : Nat) / 5000 := ⟨⟨(i 0 : Nat) / 5000, by rw [hN]; omega⟩, rfl⟩
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 5000 ≤ (i 0 : Nat) ∧ (i 0 : Nat) < win5_5.index t (0 : Fin 2) * 5000 + 5000
    omega
  | ⟨1, _⟩ =>
    show win5_5.index t (1 : Fin 2) * 128 ≤ (i 1 : Nat) ∧ (i 1 : Nat) < win5_5.index t (1 : Fin 2) * 128 + 128
    omega

/-- After the region the result array is the reference's hidden layer of the arrays the region found. -/
theorem final (c : Dev nD) (bl : FVec Ideal Cert.ReferenceIdeal.S128 .f32)
    (hbl : ∀ q : Fin 128, (V c main_v71 : S1x128.Idx → EReal) (ix2 (0 : Fin 1) q) = bl (ix1 q)) :
    (dat V c).arrAt 5 cfg5.N
      = Cert.ReferenceIdeal.Stage.hidden (V c main_v64) (V c main_v52) (V c main_v66) bl (V c main_v70) :=
  (dat V c).arrAt_eq_of_cover 5 _ (fun t _ => flushed_eq V c bl hbl t) (fun i => covered i)

end

end Cert.KernelIdeal.Region5

end
-- ==== Proof.KIFinal6.lean ====
import proofs.«136217_j57939108823477_1_alg».proof.Proof.KIRegion6
import proofs.«136217_j57939108823477_1_alg».proof.Proof.LayerValue
import Idealize.ShloMosaic.Lib.ValueIdx
import Idealize.ShloMosaic.Lib.Pipeline.Value

/-!
# Hidden layer, region 6: from the row blocks to the whole array

The region walks twenty row blocks of 5000 rows.  Point `t` reads rows
`5000 t … 5000 t + 4999` of the two feature arrays, the two weight matrices and
the bias row whole, and writes rows `5000 t … 5000 t + 4999` of the result.  Each
written entry is the reference's hidden layer at that entry (the block theorem
of the layer stages), and the twenty blocks tile the 100000 rows (row `r` lies
in block `r / 5000`), so after the region the result array is the reference's
hidden layer of the arrays the region found.
-/

set_option maxRecDepth 16384

noncomputable section

namespace Cert.KernelIdeal.Region6

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed block-index maps over the grid: the two feature windows and the result window sit at row block `t`,
    the weights and the bias at block `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem N_lt (t : Fin cfg6.N) : t.val < 20 := lt_of_lt_of_eq t.isLt N_6

/-- Entry `(p, q)` of the result window's block `t` is entry `(5000 t + p, q)` of the array. -/
theorem emb5 (t : Fin cfg6.N) (p : Fin 5000) (q : Fin 128) :
    ((cfg6.win 5).blk t).view.emb (ix2 p q) = ix2 (⟨5000 * t.val + p.val, by have := N_lt t; omega⟩ : Fin 100000) q := by
  obtain ⟨-, -, -, -, -, -, -, -, -, -, e0, e1⟩ := idx_facts t
  funext a; apply Fin.ext
  match a with
  | ⟨0, _⟩ => show win6_5.index t (0 : Fin 2) * 5000 + 1 * p.val = 5000 * t.val + p.val; omega
  | ⟨1, _⟩ => show win6_5.index t (1 : Fin 2) * 128 + 1 * q.val = q.val; omega

variable (V : (c : Dev nD) → (b : Ref sig .tc) → Buf (Elt Ideal) ((c : Thread nD τ).loc b))

/-- The first feature window's block `t` is rows `5000 t …` of its array. -/
theorem blk0_apply (c : Dev nD) (t : Fin cfg6.N) (p : Fin 5000) (k : Fin 128) :
    blk V c 0 t (ix2 p k) = V c main_v84 (ix2 (⟨5000 * t.val + p.val, by have := N_lt t; omega⟩ : Fin 100000) k) := by
  obtain ⟨e0, e1, -⟩ := idx_facts t
  show V c main_v84 (((cfg6.win 0).blk t).view.emb (ix2 p k)) = _
  congr 1
  funext a; apply Fin.ext
  match a with
  | ⟨0, _⟩ => show win6_0.index t (0 : Fin 2) * 5000 + 1 * p.val = 5000 * t.val + p.val; omega
  | ⟨1, _⟩ => show win6_0.index t (1 : Fin 2) * 128 + 1 * k.val = k.val; omega

/-- The second feature window's block `t` likewise. -/
theorem blk1_apply (c : Dev nD) (t : Fin cfg6.N) (p : Fin 5000) (k : Fin 128) :
    blk V c 1 t (ix2 p k) = V c main_v72 (ix2 (⟨5000 * t.val + p.val, by have := N_lt t; omega⟩ : Fin 100000) k) := by
  obtain ⟨-, -, e0, e1, -⟩ := idx_facts t
  show V c main_v72 (((cfg6.win 1).blk t).view.emb (ix2 p k)) = _
  congr 1
  funext a; apply Fin.ext
  match a with
  | ⟨0, _⟩ => show win6_1.index t (0 : Fin 2) * 5000 + 1 * p.val = 5000 * t.val + p.val; omega
  | ⟨1, _⟩ => show win6_1.index t (1 : Fin 2) * 128 + 1 * k.val = k.val; omega

/-- The first weight window's one block is its array. -/
theorem blk2_eq (c : Dev nD) (t : Fin cfg6.N) :
    (blk V c 2 t : Vec Ideal S128x128 .f32) = V c main_v86 := by
  obtain ⟨-, -, -, -, e0, e1, -⟩ := idx_facts t
  funext j
  obtain ⟨a, b, rfl⟩ : ∃ (a : Fin 128) (b : Fin 128), j = ix2 a b := ⟨j 0, j 1, eq_ix2 j⟩
  show V c main_v86 (((cfg6.win 2).blk t).view.emb (ix2 a b)) = _
  congr 1
  funext x; apply Fin.ext
  match x with
  | ⟨0, _⟩ => show win6_2.index t (0 : Fin 2) * 128 + 1 * a.val = a.val; omega
  | ⟨1, _⟩ => show win6_2.index t (1 : Fin 2) * 128 + 1 * b.val = b.val; omega

/-- The bias window's one block is its one-row array. -/
theorem blk3_apply (c : Dev nD) (t : Fin cfg6.N) (q : Fin 128) :
    blk V c 3 t (ix2 (0 : Fin 1) q) = V c main_v91 (ix2 (0 : Fin 1) q) := by
  obtain ⟨-, -, -, -, -, -, e0, e1, -⟩ := idx_facts t
  show V c main_v91 (((cfg6.win 3).blk t).view.emb (ix2 (0 : Fin 1) q)) = _
  congr 1
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-- The second weight window's one block is its array. -/
theorem blk4_eq (c : Dev nD) (t : Fin cfg6.N) :
    (blk V c 4 t : Vec Ideal S128x128 .f32) = V c main_v90 := by
  obtain ⟨-, -, -, -, -, -, -, -, e0, e1, -⟩ := idx_facts t
  funext j
  obtain ⟨a, b, rfl⟩ : ∃ (a : Fin 128) (b : Fin 128), j = ix2 a b := ⟨j 0, j 1, eq_ix2 j⟩
  show V c main_v90 (((cfg6.win 4).blk t).view.emb (ix2 a b)) = _
  congr 1
  funext x; apply Fin.ext
  match x with
  | ⟨0, _⟩ => show win6_4.index t (0 : Fin 2) * 128 + 1 * a.val = a.val; omega
  | ⟨1, _⟩ => show win6_4.index t (1 : Fin 2) * 128 + 1 * b.val = b.val; omega

section
variable [Cert.ReferenceIdeal.Facts₀]

/-- What point `t` writes back is block `t` of the reference's hidden layer of the arrays the region found. -/
theorem flushed_eq (c : Dev nD) (bl : FVec Ideal Cert.ReferenceIdeal.S128 .f32)
    (hbl : ∀ q : Fin 128, (V c main_v91 : S1x128.Idx → EReal) (ix2 (0 : Fin 1) q) = bl (ix1 q)) (t : Fin cfg6.N) :
    (dat V c).flushed 5 t = ((cfg6.win 5).blk t).view.read (Elt Ideal)
      (Cert.ReferenceIdeal.Stage.hidden (V c main_v84) (V c main_v72) (V c main_v86) bl (V c main_v90)) := by
  show (cfg6.win 5).cut (grid6.coords t) ((dat V c).after 5 t) = _
  rw [after_5]
  unfold out
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k6_pay1 (F := Ideal) (blk V c 0 t) (blk V c 2 t) (blk V c 3 t) (blk V c 1 t) (blk V c 4 t) (ix2 p q)
    = Cert.ReferenceIdeal.Stage.hidden (V c main_v84) (V c main_v72) (V c main_v86) bl (V c main_v90)
        (((cfg6.win 5).blk t).view.emb (ix2 p q))
  rw [emb5 t p q, blk2_eq V c t, blk4_eq V c t]
  exact Cert.LayerValue.hidden_block'' ⟨t.val, N_lt t⟩ (V c main_v84) (V c main_v72) (V c main_v86) bl (V c main_v90)
    (blk V c 0 t) (blk V c 1 t) (blk V c 3 t) (fun p k => blk0_apply V c t p k) (fun p k => blk1_apply V c t p k)
    (fun q => (blk3_apply V c t q).trans (hbl q)) p q

/-- An index of the result array is in point `t`'s block iff each coordinate is in the block's range on its axis. -/
theorem mem_blk (t : Fin cfg6.N) (i : S100000x128.Idx) :
    i ∈ ((cfg6.win 5).blk t).view.set
      ↔ ∀ a : Fin 2, win6_5.index t a * S5000x128.size a ≤ (i a).val ∧ (i a).val < win6_5.index t a * S5000x128.size a + S5000x128.size a := by
  show i ∈ ((View.whole main_v92).slice (win6_5.rect t)).set ↔ _
  rw [View.set_slice_whole, Rect.mem_set_unit]
  exact Iff.rfl

/-- Every entry of the result array lies in the block of the point `row / 5000`. -/
theorem covered (i : S100000x128.Idx) :
    ∃ t : Fin cfg6.N, (cfg6.win 5).flush t = true ∧ i ∈ ((cfg6.win 5).blk t).view.set := by
  have h0 : (i 0 : Nat) < 100000 := (i 0).isLt
  have h1 : (i 1 : Nat) < 128 := (i 1).isLt
  have hN : cfg6.N = 20 := N_6
  obtain ⟨t, ht⟩ : ∃ t : Fin cfg6.N, t.val = (i 0 : Nat) / 5000 := ⟨⟨(i 0 : Nat) / 5000, by rw [hN]; omega⟩, rfl⟩
  obtain ⟨-, -, -, -, -, -, -, -, -, -, e0, e1⟩ := idx_facts t
  refine ⟨t, flush6_5 t, ?_⟩
  rw [mem_blk]
  intro a
  match a with
  | ⟨0, _⟩ =>
    show win6_5.index t (0 : Fin 2) * 5000 ≤ (i 0 : Nat) ∧ (i 0 : Nat) < win6_5.index t (0 : Fin 2) * 5000 + 5000
    omega
  | ⟨1, _⟩ =>
    show win6_5.index t (1 : Fin 2) * 128 ≤ (i 1 : Nat) ∧ (i 1 : Nat) < win6_5.index t (1 : Fin 2) * 128 + 128
    omega

/-- After the region the result array is the reference's hidden layer of the arrays the region found. -/
theorem final (c : Dev nD) (bl : FVec Ideal Cert.ReferenceIdeal.S128 .f32)
    (hbl : ∀ q : Fin 128, (V c main_v91 : S1x128.Idx → EReal) (ix2 (0 : Fin 1) q) = bl (ix1 q)) :
    (dat V c).arrAt 5 cfg6.N
      = Cert.ReferenceIdeal.Stage.hidden (V c main_v84) (V c main_v72) (V c main_v86) bl (V c main_v90) :=
  (dat V c).arrAt_eq_of_cover 5 _ (fun t _ => flushed_eq V c bl hbl t) (fun i => covered i)

end

end Cert.KernelIdeal.Region6

end
-- ==== Proof.KIFinal7.lean ====
import proofs.«136217_j57939108823477_1_alg».proof.Proof.KIRegion7
import proofs.«136217_j57939108823477_1_alg».proof.Proof.LayerValue
import Idealize.ShloMosaic.Lib.ValueIdx
import Idealize.ShloMosaic.Lib.Pipeline.Value

/-!
# Output layer, region 7: from the row blocks to the whole array

The region walks twenty row blocks of 5000 rows.  Point `t` reads rows
`5000 t … 5000 t + 4999` of the two feature arrays, the two weight columns and
the one-entry bias whole, and writes rows `5000 t … 5000 t + 4999` of the
one-column result.  Each written entry is the reference's output layer at that
entry (the block theorem of the layer stages), and the twenty blocks tile the
100000 rows (row `r` lies in block `r / 5000`), so after the region the result
array is the reference's output layer of the arrays the region found.
-/

set_option maxRecDepth 16384

noncomputable section

namespace Cert.KernelIdeal.Region7

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed block-index maps over the grid: the two feature windows and the result window sit at row block `t`,
    the weights and the bias at block `(0, 0)`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem N_lt (t : Fin cfg7.N) : t.val < 20 := lt_of_lt_of_eq t.isLt N_7

/-- Entry `(p, 0)` of the result window's block `t` is entry `(5000 t + p, 0)` of the array. -/
theorem emb5 (t : Fin cfg7.N) (p : Fin 5000) :
    ((cfg7.win 5).blk t).view.emb (ix2 p (0 : Fin 1))
      = ix2 (⟨5000 * t.val + p.val, by have := N_lt t; omega⟩ : Fin 100000) (0 : Fin 1) := by
  obtain ⟨-, -, -, -, -, -, -, -, -, -, e0, e1⟩ := idx_facts t
  funext a; apply Fin.ext
  match a with
  | ⟨0, _⟩ => show win7_5.index t (0 : Fin 2) * 5000 + 1 * p.val = 5000 * t.val + p.val; omega
  | ⟨1, _⟩ => show win7_5.index t (1 : Fin 2) * 1 + 1 * 0 = 0; omega

variable (V : (c : Dev nD) → (b : Ref sig .tc) → Buf (Elt Ideal) ((c : Thread nD τ).loc b))

/-- The first feature window's block `t` is rows `5000 t …` of its array. -/
theorem blk0_apply (c : Dev nD) (t : Fin cfg7.N) (p : Fin 5000) (k : Fin 128) :
    blk V c 0 t (ix2 p k) = V c main_v104 (ix2 (⟨5000 * t.val + p.val, by have := N_lt t; omega⟩ : Fin 100000) k) := by
  obtain ⟨e0, e1, -⟩ := idx_facts t
  show V c main_v104 (((cfg7.win 0).blk t).view.emb (ix2 p k)) = _
  congr 1
  funext a; apply Fin.ext
  match a with
  | ⟨0, _⟩ => show win7_0.index t (0 : Fin 2) * 5000 + 1 * p.val = 5000 * t.val + p.val; omega
  | ⟨1, _⟩ => show win7_0.index t (1 : Fin 2) * 128 + 1 * k.val = k.val; omega

/-- The second feature window's block `t` likewise. -/
theorem blk1_apply (c : Dev nD) (t : Fin cfg7.N) (p : Fin 5000) (k : Fin 128) :
    blk V c 1 t (ix2 p k) = V c main_v92 (ix2 (⟨5000 * t.val + p.val, by have := N_lt t; omega⟩ : Fin 100000) k) := by
  obtain ⟨-, -, e0, e1, -⟩ := idx_facts t
  show V c main_v92 (((cfg7.win 1).blk t).view.emb (ix2 p k)) = _
  congr 1
  funext a; apply Fin.ext
  match a with
  | ⟨0, _⟩ => show win7_1.index t (0 : Fin 2) * 5000 + 1 * p.val = 5000 * t.val + p.val; omega
  | ⟨1, _⟩ => show win7_1.index t (1 : Fin 2) * 128 + 1 * k.val = k.val; omega

/-- The first weight window's one block is its array. -/
theorem blk2_eq (c : Dev nD) (t : Fin cfg7.N) :
    (blk V c 2 t : Vec Ideal S128x1 .f32) = V c main_arg25 := by
  obtain ⟨-, -, -, -, e0, e1, -⟩ := idx_facts t
  funext j
  obtain ⟨a, b, rfl⟩ : ∃ (a : Fin 128) (b : Fin 1), j = ix2 a b := ⟨j 0, j 1, eq_ix2 j⟩
  show V c main_arg25 (((cfg7.win 2).blk t).view.emb (ix2 a b)) = _
  congr 1
  funext x; apply Fin.ext
  match x with
  | ⟨0, _⟩ => show win7_2.index t (0 : Fin 2) * 128 + 1 * a.val = a.val; omega
  | ⟨1, _⟩ => show win7_2.index t (1 : Fin 2) * 1 + 1 * b.val = b.val; omega

/-- The bias window's one block is its one-entry array. -/
theorem blk3_apply (c : Dev nD) (t : Fin cfg7.N) :
    blk V c 3 t (ix2 (0 : Fin 1) (0 : Fin 1)) = V c main_v105 (ix2 (0 : Fin 1) (0 : Fin 1)) := by
  obtain ⟨-, -, -, -, -, -, e0, e1, -⟩ := idx_facts t
  show V c main_v105 (((cfg7.win 3).blk t).view.emb (ix2 (0 : Fin 1) (0 : Fin 1))) = _
  congr 1
  funext a; apply Fin.ext
  match a with
  | ⟨0, _⟩ => show win7_3.index t (0 : Fin 2) * 1 + 1 * 0 = 0; omega
  | ⟨1, _⟩ => show win7_3.index t (1 : Fin 2) * 1 + 1 * 0 = 0; omega

/-- The second weight window's one block is its array. -/
theorem blk4_eq (c : Dev nD) (t : Fin cfg7.N) :
    (blk V c 4 t : Vec Ideal S128x1 .f32) = V c main_arg27 := by
  obtain ⟨-, -, -, -, -, -, -, -, e0, e1, -⟩ := idx_facts t
  funext j
  obtain ⟨a, b, rfl⟩ : ∃ (a : Fin 128) (b : Fin 1), j = ix2 a b := ⟨j 0, j 1, eq_ix2 j⟩
  show V c main_arg27 (((cfg7.win 4).blk t).view.emb (ix2 a b)) = _
  congr 1
  funext x; apply Fin.ext
  match x with
  | ⟨0, _⟩ => show win7_4.index t (0 : Fin 2) * 128 + 1 * a.val = a.val; omega
  | ⟨1, _⟩ => show win7_4.index t (1 : Fin 2) * 1 + 1 * b.val = b.val; omega

section
variable [Cert.ReferenceIdeal.Facts₀]

/-- What point `t` writes back is block `t` of the reference's output layer of the arrays the region found. -/
theorem flushed_eq (c : Dev nD) (bl : FVec Ideal Cert.ReferenceIdeal.S1 .f32)
    (hbl : (V c main_v105 : S1x1.Idx → EReal) (ix2 (0 : Fin 1) (0 : Fin 1)) = bl (ix1 0)) (t : Fin cfg7.N) :
    (dat V c).flushed 5 t = ((cfg7.win 5).blk t).view.read (Elt Ideal)
      (Cert.ReferenceIdeal.Stage.outLayer (V c main_v104) (V c main_v92) (V c main_arg25) bl (V c main_arg27)) := by
  show (cfg7.win 5).cut (grid7.coords t) ((dat V c).after 5 t) = _
  rw [after_5]
  unfold out
  rw [View.canon_unit_zero hz]
  simp only [View.ld_unit_zero (S := S5000x128) hz, View.ld_unit_zero (S := S128x1) hz, View.ld_unit_zero (S := S1x1) hz]
  funext j
  obtain ⟨p, q, rfl⟩ : ∃ (p : Fin 5000) (q : Fin 1), j = ix2 p q := ⟨j 0, j 1, eq_ix2 j⟩
  obtain rfl : q = 0 := Subsingleton.elim _ _
  show k7_pay1 (F := Ideal) (blk V c 0 t) (blk V c 2 t) (blk V c 3 t) (blk V c 1 t) (blk V c 4 t) (ix2 p (0 : Fin 1))
    = Cert.ReferenceIdeal.Stage.outLayer (V c main_v104) (V c main_v92) (V c main_arg25) bl (V c main_arg27)
        (((cfg7.win 5).blk t).view.emb (ix2 p (0 : Fin 1)))
  rw [emb5 t p, blk2_eq V c t, blk4_eq V c t]
  exact Cert.LayerValue.out_block ⟨t.val, N_lt t⟩ (V c main_v104) (V c main_v92) (V c main_arg25) bl (V c main_arg27)
    (blk V c 0 t) (blk V c 1 t) (blk V c 3 t) (fun p k => blk0_apply V c t p k) (fun p k => blk1_apply V c t p k)
    ((blk3_apply V c t).trans hbl) p

/-- An index of the result array is in point `t`'s block iff each coordinate is in the block's range on its axis. -/
theorem mem_blk (t : Fin cfg7.N) (i : S100000x1.Idx) :
    i ∈ ((cfg7.win 5).blk t).view.set
      ↔ ∀ a : Fin 2, win7_5.index t a * S5000x1.size a ≤ (i a).val ∧ (i a).val < win7_5.index t a * S5000x1.size a + S5000x1.size a := by
  show i ∈ ((View.whole main_v106).slice (win7_5.rect t)).set ↔ _
  rw [View.set_slice_whole, Rect.mem_set_unit]
  exact Iff.rfl

/-- Every entry of the result array lies in the block of the point `row / 5000`. -/
theorem covered (i : S100000x1.Idx) :
    ∃ t : Fin cfg7.N, (cfg7.win 5).flush t = true ∧ i ∈ ((cfg7.win 5).blk t).view.set := by
  have h0 : (i 0 : Nat) < 100000 := (i 0).isLt
  have h1 : (i 1 : Nat) < 1 := (i 1).isLt
  have hN : cfg7.N = 20 := N_7
  obtain ⟨t, ht⟩ : ∃ t : Fin cfg7.N, t.val = (i 0 : Nat) / 5000 := ⟨⟨(i 0 : Nat) / 5000, by rw [hN]; omega⟩, rfl⟩
  obtain ⟨-, -, -, -, -, -, -, -, -, -, e0, e1⟩ := idx_facts t
  refine ⟨t, flush7_5 t, ?_⟩
  rw [mem_blk]
  intro a
  match a with
  | ⟨0, _⟩ =>
    show win7_5.index t (0 : Fin 2) * 5000 ≤ (i 0 : Nat) ∧ (i 0 : Nat) < win7_5.index t (0 : Fin 2) * 5000 + 5000
    omega
  | ⟨1, _⟩ =>
    show win7_5.index t (1 : Fin 2) * 1 ≤ (i 1 : Nat) ∧ (i 1 : Nat) < win7_5.index t (1 : Fin 2) * 1 + 1
    omega

/-- After the region the result array is the reference's output layer of the arrays the region found. -/
theorem final (c : Dev nD) (bl : FVec Ideal Cert.ReferenceIdeal.S1 .f32)
    (hbl : (V c main_v105 : S1x1.Idx → EReal) (ix2 (0 : Fin 1) (0 : Fin 1)) = bl (ix1 0)) :
    (dat V c).arrAt 5 cfg7.N
      = Cert.ReferenceIdeal.Stage.outLayer (V c main_v104) (V c main_v92) (V c main_arg25) bl (V c main_arg27) :=
  (dat V c).arrAt_eq_of_cover 5 _ (fun t _ => flushed_eq V c bl hbl t) (fun i => covered i)

end

end Cert.KernelIdeal.Region7

end
-- ==== Proof.KIValueB.lean ====
import proofs.«136217_j57939108823477_1_alg».proof.Proof.KIGlue
import proofs.«136217_j57939108823477_1_alg».proof.Proof.KIValueA
import proofs.«136217_j57939108823477_1_alg».proof.Proof.KIKeep
import proofs.«136217_j57939108823477_1_alg».proof.Proof.KIFinal4
import proofs.«136217_j57939108823477_1_alg».proof.Proof.KIFinal5
import proofs.«136217_j57939108823477_1_alg».proof.Proof.KIFinal6
import proofs.«136217_j57939108823477_1_alg».proof.Proof.KIFinal7
import proofs.«136217_j57939108823477_1_alg».proof.Proof.RefStages
import proofs.«136217_j57939108823477_1_alg».proof.Proof.Gen.ReferenceIdeal
import Idealize.ShloMosaic.Lib.ValueIdx
import Idealize.ShloMosaic.Lib.Pipeline.Value

/-!
# The kernel's values, second part: the three hidden layers and the output layer

When a layer's region is entered, the host operations before it have formed the mean over incoming
edges of the current features, cut the layer's weight slices and re-laid its bias as one row; the
edge rows and the inverse in-degree were formed once, before the first layer, and no later item
writes them.  The region leaves in its result array the reference's layer of the arrays it found
(the blocks-to-array theorem of the region).  Walking every buffer the layer reads back through the
items that do not write it, to the item that wrote it, the result array after layer `k` is the
reference's features after layer `k` of the launched arguments, and after the last region it is
the reference network of the 28 arguments.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx
open Cert.ReferenceIdeal (Stage.feat0 Stage.edgeRow0 Stage.edgeRow1 Stage.invDeg Stage.layer Stage.outOf Stage.aggregate
  Stage.gatherNodes Stage.hidden Stage.outLayer Stage.sliceW0 Stage.sliceW1 Stage.sliceW2 Stage.sliceB0 Stage.sliceB1 Stage.sliceB2)

variable (m : (ℓ : Loc nD τ sig) → Buf (Elt Ideal) ℓ) (ρ : Dev nD → PrngReg) (c : Dev nD)

/-! ## The reference's intermediate values, of the launched arguments -/

/-- The node features the layers start from. -/
abbrev h0 : FVec Ideal Cert.ReferenceIdeal.S100000x128 .f32 := Stage.feat0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
/-- The source node of each edge. -/
abbrev src : IVec Cert.ReferenceIdeal.S1600000 32 := Stage.edgeRow0 (m ((c : Thread nD τ).loc main_arg4))
/-- The destination node of each edge. -/
abbrev dst : IVec Cert.ReferenceIdeal.S1600000 32 := Stage.edgeRow1 (m ((c : Thread nD τ).loc main_arg4))
/-- The inverse in-degree column. -/
abbrev invd : FVec Ideal Cert.ReferenceIdeal.S100000x1 .f32 := Stage.invDeg (F := Ideal) (dst m c)
/-- The features after the first hidden layer, -/
abbrev h1 : FVec Ideal Cert.ReferenceIdeal.S100000x128 .f32 :=
  Stage.layer (h0 m c) (src m c) (dst m c) (invd m c) (Stage.sliceW0 (m ((c : Thread nD τ).loc main_arg22))) (Stage.sliceB0 (m ((c : Thread nD τ).loc main_arg23))) (Stage.sliceW0 (m ((c : Thread nD τ).loc main_arg24)))
/-- after the second, -/
abbrev h2 : FVec Ideal Cert.ReferenceIdeal.S100000x128 .f32 :=
  Stage.layer (h1 m c) (src m c) (dst m c) (invd m c) (Stage.sliceW1 (m ((c : Thread nD τ).loc main_arg22))) (Stage.sliceB1 (m ((c : Thread nD τ).loc main_arg23))) (Stage.sliceW1 (m ((c : Thread nD τ).loc main_arg24)))
/-- and after the third. -/
abbrev h3 : FVec Ideal Cert.ReferenceIdeal.S100000x128 .f32 :=
  Stage.layer (h2 m c) (src m c) (dst m c) (invd m c) (Stage.sliceW2 (m ((c : Thread nD τ).loc main_arg22))) (Stage.sliceB2 (m ((c : Thread nD τ).loc main_arg23))) (Stage.sliceW2 (m ((c : Thread nD τ).loc main_arg24)))

/-! ## Buffers no item has written yet: the arguments -/

theorem x3_arg4 : X3 m ρ c (Proc.devRef .tc main_arg4) = (m ((c : Thread nD τ).loc main_arg4)) := by
  keep_steps
  rfl
theorem x3_arg5 : X3 m ρ c (Proc.devRef .tc main_arg5) = (m ((c : Thread nD τ).loc main_arg5)) := by
  keep_steps
  rfl
theorem x3_arg22 : X3 m ρ c (Proc.devRef .tc main_arg22) = (m ((c : Thread nD τ).loc main_arg22)) := by
  keep_steps
  rfl
theorem x3_arg23 : X3 m ρ c (Proc.devRef .tc main_arg23) = (m ((c : Thread nD τ).loc main_arg23)) := by
  keep_steps
  rfl
theorem x3_arg24 : X3 m ρ c (Proc.devRef .tc main_arg24) = (m ((c : Thread nD τ).loc main_arg24)) := by
  keep_steps
  rfl

theorem x4_arg22 : X4 m ρ c (Proc.devRef .tc main_arg22) = (m ((c : Thread nD τ).loc main_arg22)) := by
  keep_steps
  rfl
theorem x4_arg23 : X4 m ρ c (Proc.devRef .tc main_arg23) = (m ((c : Thread nD τ).loc main_arg23)) := by
  keep_steps
  rfl
theorem x4_arg24 : X4 m ρ c (Proc.devRef .tc main_arg24) = (m ((c : Thread nD τ).loc main_arg24)) := by
  keep_steps
  rfl

theorem x5_arg22 : X5 m ρ c (Proc.devRef .tc main_arg22) = (m ((c : Thread nD τ).loc main_arg22)) := by
  keep_steps
  rfl
theorem x5_arg23 : X5 m ρ c (Proc.devRef .tc main_arg23) = (m ((c : Thread nD τ).loc main_arg23)) := by
  keep_steps
  rfl
theorem x5_arg24 : X5 m ρ c (Proc.devRef .tc main_arg24) = (m ((c : Thread nD τ).loc main_arg24)) := by
  keep_steps
  rfl

theorem x6_arg26 : X6 m ρ c (Proc.devRef .tc main_arg26) = (m ((c : Thread nD τ).loc main_arg26)) := by
  keep_steps
  rfl

theorem e7_arg25 : E7 m ρ c (Proc.devRef .tc main_arg25) = (m ((c : Thread nD τ).loc main_arg25)) := by
  keep_steps
  rfl
theorem e7_arg27 : E7 m ρ c (Proc.devRef .tc main_arg27) = (m ((c : Thread nD τ).loc main_arg27)) := by
  keep_steps
  rfl

/-! ## The four embeddings, when the first layer's host operations start -/

theorem x3_v2 : X3 m ρ c (Proc.devRef .tc main_v2) = (Cert.ReferenceIdeal.Stage.embed3 (m ((c : Thread nD τ).loc main_arg0)) (m ((c : Thread nD τ).loc main_arg6)) (m ((c : Thread nD τ).loc main_arg7)) (m ((c : Thread nD τ).loc main_arg8)) (m ((c : Thread nD τ).loc main_arg9)) : FVec Ideal S25000x128 .f32) := by
  keep_steps
  exact out0 m ρ c
theorem x3_v5 : X3 m ρ c (Proc.devRef .tc main_v5) = (Cert.ReferenceIdeal.Stage.embed3 (m ((c : Thread nD τ).loc main_arg1)) (m ((c : Thread nD τ).loc main_arg10)) (m ((c : Thread nD τ).loc main_arg11)) (m ((c : Thread nD τ).loc main_arg12)) (m ((c : Thread nD τ).loc main_arg13)) : FVec Ideal S25000x128 .f32) := by
  keep_steps
  exact out1 m ρ c
theorem x3_v8 : X3 m ρ c (Proc.devRef .tc main_v8) = (Cert.ReferenceIdeal.Stage.embed6 (m ((c : Thread nD τ).loc main_arg2)) (m ((c : Thread nD τ).loc main_arg14)) (m ((c : Thread nD τ).loc main_arg15)) (m ((c : Thread nD τ).loc main_arg16)) (m ((c : Thread nD τ).loc main_arg17)) : FVec Ideal S25000x128 .f32) := by
  keep_steps
  exact out2 m ρ c
theorem x3_v11 : X3 m ρ c (Proc.devRef .tc main_v11) = (Cert.ReferenceIdeal.Stage.embed6 (m ((c : Thread nD τ).loc main_arg3)) (m ((c : Thread nD τ).loc main_arg18)) (m ((c : Thread nD τ).loc main_arg19)) (m ((c : Thread nD τ).loc main_arg20)) (m ((c : Thread nD τ).loc main_arg21)) : FVec Ideal S25000x128 .f32) := by
  keep_steps
  exact out3 m ρ c

/-! ## What the host operations before the first layer form -/

/-- The gathered node features. -/
theorem e4_v19 : E4 m ρ c (Proc.devRef .tc main_v19) = (h0 m c : FVec Ideal S100000x128 .f32) := by
  show StableHlo.after hostOps4 (X3 m ρ c) (Proc.devRef .tc main_v19) = _
  rw [Glue.glue4_v19 (X3 m ρ c), x3_v2, x3_v5, x3_v8, x3_v11, x3_arg5]
  rfl
/-- The edges' sources, -/
theorem e4_v21 : E4 m ρ c (Proc.devRef .tc main_v21) = (src m c : IVec S1600000 32) := by
  show StableHlo.after hostOps4 (X3 m ρ c) (Proc.devRef .tc main_v21) = _
  rw [Glue.glue4_v21 (X3 m ρ c), x3_arg4]
/-- their destinations, -/
theorem e4_v23 : E4 m ρ c (Proc.devRef .tc main_v23) = (dst m c : IVec S1600000 32) := by
  show StableHlo.after hostOps4 (X3 m ρ c) (Proc.devRef .tc main_v23) = _
  rw [Glue.glue4_v23 (X3 m ρ c), x3_arg4]
/-- and the inverse in-degree. -/
theorem e4_v32 : E4 m ρ c (Proc.devRef .tc main_v32) = (invd m c : FVec Ideal S100000x1 .f32) := by
  show StableHlo.after hostOps4 (X3 m ρ c) (Proc.devRef .tc main_v32) = _
  rw [Glue.glue4_v32 (X3 m ρ c), x3_arg4]

/-- The three stay as they are through every later item. -/
theorem x4_v21 : X4 m ρ c (Proc.devRef .tc main_v21) = (src m c : IVec S1600000 32) := by
  keep_steps
  exact e4_v21 m ρ c
theorem x4_v23 : X4 m ρ c (Proc.devRef .tc main_v23) = (dst m c : IVec S1600000 32) := by
  keep_steps
  exact e4_v23 m ρ c
theorem x4_v32 : X4 m ρ c (Proc.devRef .tc main_v32) = (invd m c : FVec Ideal S100000x1 .f32) := by
  keep_steps
  exact e4_v32 m ρ c
theorem x5_v21 : X5 m ρ c (Proc.devRef .tc main_v21) = (src m c : IVec S1600000 32) := by
  keep_steps
  exact e4_v21 m ρ c
theorem x5_v23 : X5 m ρ c (Proc.devRef .tc main_v23) = (dst m c : IVec S1600000 32) := by
  keep_steps
  exact e4_v23 m ρ c
theorem x5_v32 : X5 m ρ c (Proc.devRef .tc main_v32) = (invd m c : FVec Ideal S100000x1 .f32) := by
  keep_steps
  exact e4_v32 m ρ c
theorem x6_v21 : X6 m ρ c (Proc.devRef .tc main_v21) = (src m c : IVec S1600000 32) := by
  keep_steps
  exact e4_v21 m ρ c
theorem x6_v23 : X6 m ρ c (Proc.devRef .tc main_v23) = (dst m c : IVec S1600000 32) := by
  keep_steps
  exact e4_v23 m ρ c
theorem x6_v32 : X6 m ρ c (Proc.devRef .tc main_v32) = (invd m c : FVec Ideal S100000x1 .f32) := by
  keep_steps
  exact e4_v32 m ρ c

/-! ## The first hidden layer -/

theorem out4 : X4 m ρ c (Proc.devRef .tc main_v52) = (h1 m c : FVec Ideal S100000x128 .f32) := by
  have hb : ∀ q : Fin 128, (VE4 m ρ c main_v51 : S1x128.Idx → EReal) (ix2 (0 : Fin 1) q) = (Stage.sliceB0 (m ((c : Thread nD τ).loc main_arg23)) : FVec Ideal Cert.ReferenceIdeal.S128 .f32) (ix1 q) := by
    intro q
    show (StableHlo.after hostOps4 (X3 m ρ c) (Proc.devRef .tc main_v51) : S1x128.Idx → EReal) (ix2 (0 : Fin 1) q) = _
    rw [Glue.glue4_v51 (X3 m ρ c), x3_arg23]
    exact shapeCast_a_1a_apply _ _ _ _
  refine (X4_arr m ρ c 5).trans ((Region4.final (VE4 m ρ) c _ hb).trans ?_)
  have e44 : VE4 m ρ c main_v44 = (Stage.aggregate (h0 m c) (src m c) (dst m c) (invd m c) : FVec Ideal S100000x128 .f32) := by
    show StableHlo.after hostOps4 (X3 m ρ c) (Proc.devRef .tc main_v44) = _
    rw [Glue.glue4_v44 (X3 m ρ c), x3_v2, x3_v5, x3_v8, x3_v11, x3_arg5, x3_arg4]
    rfl
  have e46 : VE4 m ρ c main_v46 = (Stage.sliceW0 (m ((c : Thread nD τ).loc main_arg22)) : FVec Ideal S128x128 .f32) := by
    show StableHlo.after hostOps4 (X3 m ρ c) (Proc.devRef .tc main_v46) = _
    rw [Glue.glue4_v46 (X3 m ρ c), x3_arg22]
  have e50 : VE4 m ρ c main_v50 = (Stage.sliceW0 (m ((c : Thread nD τ).loc main_arg24)) : FVec Ideal S128x128 .f32) := by
    show StableHlo.after hostOps4 (X3 m ρ c) (Proc.devRef .tc main_v50) = _
    rw [Glue.glue4_v50 (X3 m ρ c), x3_arg24]
  rw [e44, show VE4 m ρ c main_v19 = _ from e4_v19 m ρ c, e46, e50]
  rfl

/-! ## The second hidden layer -/

theorem out5 : X5 m ρ c (Proc.devRef .tc main_v72) = (h2 m c : FVec Ideal S100000x128 .f32) := by
  have hb : ∀ q : Fin 128, (VE5 m ρ c main_v71 : S1x128.Idx → EReal) (ix2 (0 : Fin 1) q) = (Stage.sliceB1 (m ((c : Thread nD τ).loc main_arg23)) : FVec Ideal Cert.ReferenceIdeal.S128 .f32) (ix1 q) := by
    intro q
    show (StableHlo.after hostOps5 (X4 m ρ c) (Proc.devRef .tc main_v71) : S1x128.Idx → EReal) (ix2 (0 : Fin 1) q) = _
    rw [Glue.glue5_v71 (X4 m ρ c), x4_arg23]
    exact shapeCast_a_1a_apply _ _ _ _
  refine (X5_arr m ρ c 5).trans ((Region5.final (VE5 m ρ) c _ hb).trans ?_)
  have eagg : VE5 m ρ c main_v64 = (Stage.aggregate (h1 m c) (src m c) (dst m c) (invd m c) : FVec Ideal S100000x128 .f32) := by
    show StableHlo.after hostOps5 (X4 m ρ c) (Proc.devRef .tc main_v64) = _
    rw [Glue.glue5_v64 (X4 m ρ c), out4, x4_v21, x4_v23, x4_v32]
  have eh : VE5 m ρ c main_v52 = (h1 m c : FVec Ideal S100000x128 .f32) := by
    show E5 m ρ c (Proc.devRef .tc main_v52) = _
    keep_steps
    exact out4 m ρ c
  have ewl : VE5 m ρ c main_v66 = (Stage.sliceW1 (m ((c : Thread nD τ).loc main_arg22)) : FVec Ideal S128x128 .f32) := by
    show StableHlo.after hostOps5 (X4 m ρ c) (Proc.devRef .tc main_v66) = _
    rw [Glue.glue5_v66 (X4 m ρ c), x4_arg22]
  have ewr : VE5 m ρ c main_v70 = (Stage.sliceW1 (m ((c : Thread nD τ).loc main_arg24)) : FVec Ideal S128x128 .f32) := by
    show StableHlo.after hostOps5 (X4 m ρ c) (Proc.devRef .tc main_v70) = _
    rw [Glue.glue5_v70 (X4 m ρ c), x4_arg24]
  rw [eagg, eh, ewl, ewr]
  rfl

/-! ## The third hidden layer -/

theorem out6 : X6 m ρ c (Proc.devRef .tc main_v92) = (h3 m c : FVec Ideal S100000x128 .f32) := by
  have hb : ∀ q : Fin 128, (VE6 m ρ c main_v91 : S1x128.Idx → EReal) (ix2 (0 : Fin 1) q) = (Stage.sliceB2 (m ((c : Thread nD τ).loc main_arg23)) : FVec Ideal Cert.ReferenceIdeal.S128 .f32) (ix1 q) := by
    intro q
    show (StableHlo.after hostOps6 (X5 m ρ c) (Proc.devRef .tc main_v91) : S1x128.Idx → EReal) (ix2 (0 : Fin 1) q) = _
    rw [Glue.glue6_v91 (X5 m ρ c), x5_arg23]
    exact shapeCast_a_1a_apply _ _ _ _
  refine (X6_arr m ρ c 5).trans ((Region6.final (VE6 m ρ) c _ hb).trans ?_)
  have eagg : VE6 m ρ c main_v84 = (Stage.aggregate (h2 m c) (src m c) (dst m c) (invd m c) : FVec Ideal S100000x128 .f32) := by
    show StableHlo.after hostOps6 (X5 m ρ c) (Proc.devRef .tc main_v84) = _
    rw [Glue.glue6_v84 (X5 m ρ c), out5, x5_v21, x5_v23, x5_v32]
  have eh : VE6 m ρ c main_v72 = (h2 m c : FVec Ideal S100000x128 .f32) := by
    show E6 m ρ c (Proc.devRef .tc main_v72) = _
    keep_steps
    exact out5 m ρ c
  have ewl : VE6 m ρ c main_v86 = (Stage.sliceW2 (m ((c : Thread nD τ).loc main_arg22)) : FVec Ideal S128x128 .f32) := by
    show StableHlo.after hostOps6 (X5 m ρ c) (Proc.devRef .tc main_v86) = _
    rw [Glue.glue6_v86 (X5 m ρ c), x5_arg22]
  have ewr : VE6 m ρ c main_v90 = (Stage.sliceW2 (m ((c : Thread nD τ).loc main_arg24)) : FVec Ideal S128x128 .f32) := by
    show StableHlo.after hostOps6 (X5 m ρ c) (Proc.devRef .tc main_v90) = _
    rw [Glue.glue6_v90 (X5 m ρ c), x5_arg24]
  rw [eagg, eh, ewl, ewr]
  rfl

/-! ## The output layer -/

/-- After the last region the result array is the reference network of the 28 launched arguments. -/
theorem out7 : X7 m ρ c (Proc.devRef .tc main_v106) = (Cert.ReferenceIdeal.Stage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) : FVec Ideal S100000x1 .f32) := by
  have hb : (VE7 m ρ c main_v105 : S1x1.Idx → EReal) (ix2 (0 : Fin 1) (0 : Fin 1)) = ((m ((c : Thread nD τ).loc main_arg26)) : FVec Ideal Cert.ReferenceIdeal.S1 .f32) (ix1 0) := by
    show (StableHlo.after hostOps7 (X6 m ρ c) (Proc.devRef .tc main_v105) : S1x1.Idx → EReal) (ix2 (0 : Fin 1) (0 : Fin 1)) = _
    rw [Glue.glue7_v105 (X6 m ρ c), x6_arg26]
    exact shapeCast_a_1a_apply _ _ _ _
  refine (X7_arr m ρ c 5).trans ((Region7.final (VE7 m ρ) c _ hb).trans ?_)
  have eagg : VE7 m ρ c main_v104 = (Stage.aggregate (h3 m c) (src m c) (dst m c) (invd m c) : FVec Ideal S100000x128 .f32) := by
    show StableHlo.after hostOps7 (X6 m ρ c) (Proc.devRef .tc main_v104) = _
    rw [Glue.glue7_v104 (X6 m ρ c), out6, x6_v21, x6_v23, x6_v32]
  have eh : VE7 m ρ c main_v92 = (h3 m c : FVec Ideal S100000x128 .f32) := by
    show E7 m ρ c (Proc.devRef .tc main_v92) = _
    keep_steps
    exact out6 m ρ c
  rw [eagg, eh, show VE7 m ρ c main_arg25 = _ from e7_arg25 m ρ c, show VE7 m ρ c main_arg27 = _ from e7_arg27 m ρ c]
  rfl

end Cert.KernelIdeal.Fold

end
-- ==== Proof.lean ====
/- The certificate's five claims.

   Frames. Each kernel program's entry function is sixteen items: a stretch of host operations before each of eight
   regions. A region walks row blocks of 5000 rows; its body reads five input blocks whole, computes one pure function
   of them and overwrites the output block whole, so a region changes only its own output array, and the host
   operations write only fresh buffers. Hence every execution terminates without a fault and every argument array
   ends as launched — for the word-level kernel and for its idealization alike, the argument being the same at any
   float instance. The reference is a line of host operations and ends the same way.

   The idealization rewrote no operation, so it is the program's own text read over the extended reals.

   Values. Over the extended reals a truncation to a shorter format is the identity and a matrix product into a zero
   accumulator is the plain sum of products, so each embedding region's output block is that row block of
   lrelu (lrelu (x·W1 + b1)·W2 + b2), each hidden region's of lrelu ((a·Wl + bl) + h·Wr), and the output region's of
   1 / (1 + exp (-((a·Wl + bl) + h·Wr))); the blocks tile the rows, so each output array is the whole-array stage.
   The host operations between the regions are the reference's own (stack and gather, in-degree, mean over incoming
   edges, slices of the stacked weights), applied to equal arrays. So both programs end with the same result. -/
import proofs.«136217_j57939108823477_1_alg».proof.Defs
import proofs.«136217_j57939108823477_1_alg».proof.Proof.Gen.Kernel
import proofs.«136217_j57939108823477_1_alg».proof.Proof.Gen.KernelIdeal
import proofs.«136217_j57939108823477_1_alg».proof.Proof.Gen.ReferenceIdeal
import proofs.«136217_j57939108823477_1_alg».proof.Proof.Gen.Pre_finite_inputs
import proofs.«136217_j57939108823477_1_alg».proof.Proof.KBRun
import proofs.«136217_j57939108823477_1_alg».proof.Proof.KIRun
import proofs.«136217_j57939108823477_1_alg».proof.Proof.RefRunRes
import proofs.«136217_j57939108823477_1_alg».proof.Proof.KIValueB
import Idealize.ShloMosaic.Adequacy
import Idealize.ShloMosaic.Init

noncomputable section

namespace Cert.Proof

open Idealize.ShloMosaic Idealize.SL.Sem

theorem frame_kernel : Cert.frame_Kernel := fun m ρ _ =>
  (θ_run (Cert.Kernel.defs (F := Bits)) _ _).mono (fun _ h c => (h c).2) (Cert.Kernel.Fold.run (F := Bits) m ρ)

theorem frame_kernelIdeal : Cert.frame_KernelIdeal := fun m ρ _ =>
  (θ_run (Cert.KernelIdeal.defs (F := Ideal)) _ _).mono (fun _ h c => (h c).2) (Cert.KernelIdeal.Fold.run (F := Ideal) m ρ)

theorem frame_referenceIdeal : Cert.frame_ReferenceIdeal := fun m ρ _ =>
  (θ_run (Cert.ReferenceIdeal.defs (F := Ideal)) _ _).mono (fun _ h c => (h c).2) (Cert.ReferenceIdeal.RefRun.run (F := Ideal) m ρ)

theorem preserves : Cert.preserves_Kernel_KernelIdeal := trivial

/-- Both idealized programs end with the whole network of the launched arguments in their result array: the kernel's
    last region leaves it there (the fold's last contents, read stage by stage), the reference's operations compose to
    it, and the two memories agree on the arguments. -/
theorem algebraic : Cert.algebraic_KernelIdeal_ReferenceIdeal := by
  intro m ρ m' ρ' _ hagree
  refine ⟨_, (θ_run (Cert.KernelIdeal.defs (F := Ideal)) _ _).mono (fun _ h c => ⟨(h c).1.trans (Cert.KernelIdeal.Fold.out7 m ρ c), (h c).2⟩)
    (Cert.KernelIdeal.Fold.run (F := Ideal) m ρ), ?_⟩
  refine (θ_run (Cert.ReferenceIdeal.defs (F := Ideal)) _ _).mono (fun _ h c => ⟨(h c).1.trans ?_, (h c).2⟩)
    (Cert.ReferenceIdeal.RefRun.run (F := Ideal) m' ρ')
  rw [Cert.ReferenceIdeal.RefRun.res_eq]
  obtain ⟨e0, e1, e2, e3, e4, e5, e6, e7, e8, e9, e10, e11, e12, e13, e14, e15, e16, e17, e18, e19, e20, e21, e22, e23, e24, e25, e26, e27⟩ := hagree c
  rw [e0, e1, e2, e3, e4, e5, e6, e7, e8, e9, e10, e11, e12, e13, e14, e15, e16, e17, e18, e19, e20, e21, e22, e23, e24, e25, e26, e27]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
